-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v814)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v814) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S4096 : Shape := ⟨1, ![4096]⟩
abbrev S8388608 : Shape := ⟨1, ![8388608]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_
  bcast_S_S8388608 : S_.BroadcastsInDim S8388608 (![] : Fin 0 → Fin S8388608.rank)
  reducesTo_S8388608_S_d0 : S8388608.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S8388608 .f32) (main_arg5 : FVec F S8388608 .f32) (main_arg6 : FVec F S4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S8388608 .f32 := Host.absf main_arg4
  let main_cst_6 : FVec F S_ .f32 := constant S_ .f32 0x7F800000#32
  let main_v20 : FVec F S8388608 .f32 := broadcastInDim S8388608 ![] bcast_S_S8388608 main_cst_6
  let main_v21 : IVec S8388608 1 := cmpf .olt main_v19 main_v20
  let main_c_7 : IVec S_ 1 := constantI S_ 1 1#1
  let main_v22 : IVec S_ 1 := (fun x v => Host.reduce IntOp.andi x v reducesTo_S8388608_S_d0 h_S_) main_v21 main_c_7
  let main_v23 : IVec S_ 1 := andi main_v18 main_v22
  let main_v24 : FVec F S8388608 .f32 := Host.absf main_arg5
  let main_cst_8 : FVec F S_ .f32 := constant S_ .f32 0x7F800000#32
  let main_v25 : FVec F S8388608 .f32 := broadcastInDim S8388608 ![] bcast_S_S8388608 main_cst_8
  let main_v26 : IVec S8388608 1 := cmpf .olt main_v24 main_v25
  let main_c_9 : IVec S_ 1 := constantI S_ 1 1#1
  let main_v27 : IVec S_ 1 := (fun x v => Host.reduce IntOp.andi x v reducesTo_S8388608_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S2048 .f32) (main_arg2 : FVec F S4096x2048 .f32) (main_arg3 : FVec F S4096 .f32) (main_arg4 : FVec F S8388608 .f32) (main_arg5 : FVec F S8388608 .f32) (main_arg6 : FVec F S4096 .f32) (main_arg7 : FVec F S4096 .f32) (main_arg8 : IVec S8388608 32) (main_arg9 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4096x2048 : Shape := ⟨2, ![4096, 2048]⟩
abbrev S2048 : Shape := ⟨1, ![2048]⟩
abbrev S4096 : Shape := ⟨1, ![4096]⟩
abbrev S8388608 : Shape := ⟨1, ![8388608]⟩
abbrev S_ : Shape := ⟨0, ![]⟩
abbrev S1 : Shape := ⟨1, ![1]⟩
abbrev S1x2x4194304 : Shape := ⟨3, ![1, 2, 4194304]⟩
abbrev S1x1x4194304 : Shape := ⟨3, ![1, 1, 4194304]⟩
abbrev S1x4194304 : Shape := ⟨2, ![1, 4194304]⟩
abbrev S2x2x2097152 : Shape := ⟨3, ![2, 2, 2097152]⟩
abbrev S2x1x2097152 : Shape := ⟨3, ![2, 1, 2097152]⟩
abbrev S2x2097152 : Shape := ⟨2, ![2, 2097152]⟩
abbrev S4x2x1048576 : Shape := ⟨3, ![4, 2, 1048576]⟩
abbrev S4x1x1048576 : Shape := ⟨3, ![4, 1, 1048576]⟩
abbrev S4x1048576 : Shape := ⟨2, ![4, 1048576]⟩
abbrev S8x2x524288 : Shape := ⟨3, ![8, 2, 524288]⟩
abbrev S8x1x524288 : Shape := ⟨3, ![8, 1, 524288]⟩
abbrev S8x524288 : Shape := ⟨2, ![8, 524288]⟩
abbrev S16x2x262144 : Shape := ⟨3, ![16, 2, 262144]⟩
abbrev S16x1x262144 : Shape := ⟨3, ![16, 1, 262144]⟩
abbrev S16x262144 : Shape := ⟨2, ![16, 262144]⟩
abbrev S32x2x131072 : Shape := ⟨3, ![32, 2, 131072]⟩
abbrev S32x1x131072 : Shape := ⟨3, ![32, 1, 131072]⟩
abbrev S32x131072 : Shape := ⟨2, ![32, 131072]⟩
abbrev S64x2x65536 : Shape := ⟨3, ![64, 2, 65536]⟩
abbrev S64x1x65536 : Shape := ⟨3, ![64, 1, 65536]⟩
abbrev S64x65536 : Shape := ⟨2, ![64, 65536]⟩
abbrev S128x2x32768 : Shape := ⟨3, ![128, 2, 32768]⟩
abbrev S128x1x32768 : Shape := ⟨3, ![128, 1, 32768]⟩
abbrev S128x32768 : Shape := ⟨2, ![128, 32768]⟩
abbrev S256x2x16384 : Shape := ⟨3, ![256, 2, 16384]⟩
abbrev S256x1x16384 : Shape := ⟨3, ![256, 1, 16384]⟩
abbrev S256x16384 : Shape := ⟨2, ![256, 16384]⟩
abbrev S512x2x8192 : Shape := ⟨3, ![512, 2, 8192]⟩
abbrev S512x1x8192 : Shape := ⟨3, ![512, 1, 8192]⟩
abbrev S512x8192 : Shape := ⟨2, ![512, 8192]⟩
abbrev S1024x2x4096 : Shape := ⟨3, ![1024, 2, 4096]⟩
abbrev S1024x1x4096 : Shape := ⟨3, ![1024, 1, 4096]⟩
abbrev S1024x4096 : Shape := ⟨2, ![1024, 4096]⟩
abbrev S2048x2x2048 : Shape := ⟨3, ![2048, 2, 2048]⟩
abbrev S2048x1x2048 : Shape := ⟨3, ![2048, 1, 2048]⟩
abbrev S2048x2048 : Shape := ⟨2, ![2048, 2048]⟩
abbrev S4096x2x1024 : Shape := ⟨3, ![4096, 2, 1024]⟩
abbrev S4096x1x1024 : Shape := ⟨3, ![4096, 1, 1024]⟩
abbrev S4096x1024 : Shape := ⟨2, ![4096, 1024]⟩
abbrev S8192x2x512 : Shape := ⟨3, ![8192, 2, 512]⟩
abbrev S8192x1x512 : Shape := ⟨3, ![8192, 1, 512]⟩
abbrev S8192x512 : Shape := ⟨2, ![8192, 512]⟩
abbrev S16384x2x256 : Shape := ⟨3, ![16384, 2, 256]⟩
abbrev S16384x1x256 : Shape := ⟨3, ![16384, 1, 256]⟩
abbrev S16384x256 : Shape := ⟨2, ![16384, 256]⟩
abbrev S32768x2x128 : Shape := ⟨3, ![32768, 2, 128]⟩
abbrev S32768x1x128 : Shape := ⟨3, ![32768, 1, 128]⟩
abbrev S32768x128 : Shape := ⟨2, ![32768, 128]⟩
abbrev S65536x2x64 : Shape := ⟨3, ![65536, 2, 64]⟩
abbrev S65536x1x64 : Shape := ⟨3, ![65536, 1, 64]⟩
abbrev S65536x64 : Shape := ⟨2, ![65536, 64]⟩
abbrev S131072x2x32 : Shape := ⟨3, ![131072, 2, 32]⟩
abbrev S131072x1x32 : Shape := ⟨3, ![131072, 1, 32]⟩
abbrev S131072x32 : Shape := ⟨2, ![131072, 32]⟩
abbrev S262144x2x16 : Shape := ⟨3, ![262144, 2, 16]⟩
abbrev S262144x1x16 : Shape := ⟨3, ![262144, 1, 16]⟩
abbrev S262144x16 : Shape := ⟨2, ![262144, 16]⟩
abbrev S524288x2x8 : Shape := ⟨3, ![524288, 2, 8]⟩
abbrev S524288x1x8 : Shape := ⟨3, ![524288, 1, 8]⟩
abbrev S524288x8 : Shape := ⟨2, ![524288, 8]⟩
abbrev S1048576x2x4 : Shape := ⟨3, ![1048576, 2, 4]⟩
abbrev S1048576x1x4 : Shape := ⟨3, ![1048576, 1, 4]⟩
abbrev S1048576x4 : Shape := ⟨2, ![1048576, 4]⟩
abbrev S2097152x2x2 : Shape := ⟨3, ![2097152, 2, 2]⟩
abbrev S2097152x1x2 : Shape := ⟨3, ![2097152, 1, 2]⟩
abbrev S2097152x2 : Shape := ⟨2, ![2097152, 2]⟩
abbrev S4194304x2x1 : Shape := ⟨3, ![4194304, 2, 1]⟩
abbrev S4194304x1x1 : Shape := ⟨3, ![4194304, 1, 1]⟩
abbrev S4194304x1 : Shape := ⟨2, ![4194304, 1]⟩
abbrev S8388608x1 : Shape := ⟨2, ![8388608, 1]⟩
abbrev S1x2x2048 : Shape := ⟨3, ![1, 2, 2048]⟩
abbrev S1x1x2048 : Shape := ⟨3, ![1, 1, 2048]⟩
abbrev S1x2048 : Shape := ⟨2, ![1, 2048]⟩
abbrev S2x2x1024 : Shape := ⟨3, ![2, 2, 1024]⟩
abbrev S2x1x1024 : Shape := ⟨3, ![2, 1, 1024]⟩
abbrev S2x1024 : Shape := ⟨2, ![2, 1024]⟩
abbrev S4x2x512 : Shape := ⟨3, ![4, 2, 512]⟩
abbrev S4x1x512 : Shape := ⟨3, ![4, 1, 512]⟩
abbrev S4x512 : Shape := ⟨2, ![4, 512]⟩
abbrev S8x2x256 : Shape := ⟨3, ![8, 2, 256]⟩
abbrev S8x1x256 : Shape := ⟨3, ![8, 1, 256]⟩
abbrev S8x256 : Shape := ⟨2, ![8, 256]⟩
abbrev S16x2x128 : Shape := ⟨3, ![16, 2, 128]⟩
abbrev S16x1x128 : Shape := ⟨3, ![16, 1, 128]⟩
abbrev S16x128 : Shape := ⟨2, ![16, 128]⟩
abbrev S32x2x64 : Shape := ⟨3, ![32, 2, 64]⟩
abbrev S32x1x64 : Shape := ⟨3, ![32, 1, 64]⟩
abbrev S32x64 : Shape := ⟨2, ![32, 64]⟩
abbrev S64x2x32 : Shape := ⟨3, ![64, 2, 32]⟩
abbrev S64x1x32 : Shape := ⟨3, ![64, 1, 32]⟩
abbrev S64x32 : Shape := ⟨2, ![64, 32]⟩
abbrev S128x2x16 : Shape := ⟨3, ![128, 2, 16]⟩
abbrev S128x1x16 : Shape := ⟨3, ![128, 1, 16]⟩
abbrev S128x16 : Shape := ⟨2, ![128, 16]⟩
abbrev S256x2x8 : Shape := ⟨3, ![256, 2, 8]⟩
abbrev S256x1x8 : Shape := ⟨3, ![256, 1, 8]⟩
abbrev S256x8 : Shape := ⟨2, ![256, 8]⟩
abbrev S512x2x4 : Shape := ⟨3, ![512, 2, 4]⟩
abbrev S512x1x4 : Shape := ⟨3, ![512, 1, 4]⟩
abbrev S512x4 : Shape := ⟨2, ![512, 4]⟩
abbrev S1024x2x2 : Shape := ⟨3, ![1024, 2, 2]⟩
abbrev S1024x1x2 : Shape := ⟨3, ![1024, 1, 2]⟩
abbrev S1024x2 : Shape := ⟨2, ![1024, 2]⟩
abbrev S2048x2x1 : Shape := ⟨3, ![2048, 2, 1]⟩
abbrev S2048x1x1 : Shape := ⟨3, ![2048, 1, 1]⟩
abbrev S2048x1 : Shape := ⟨2, ![2048, 1]⟩
abbrev S4096x1 : Shape := ⟨2, ![4096, 1]⟩
abbrev S1x4096 : Shape := ⟨2, ![1, 4096]⟩
abbrev S4096x4096 : Shape := ⟨2, ![4096, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 839
  | .vmem => 8
  | .smem => 0
  | _ => 0

abbrev hbmTy0_0 (i : Nat) : BufTy := match i % 128 with
  | 0 => ⟨S4096x2048, .f32⟩
  | 1 => ⟨S2048, .f32⟩
  | 2 => ⟨S4096x2048, .f32⟩
  | 3 => ⟨S4096, .f32⟩
  | 4 => ⟨S8388608, .f32⟩
  | 5 => ⟨S8388608, .f32⟩
  | 6 => ⟨S4096, .f32⟩
  | 7 => ⟨S4096, .f32⟩
  | 8 => ⟨S8388608, .i32⟩
  | 9 => ⟨S4096, .i32⟩
  | 10 => ⟨S_, .f32⟩
  | 11 => ⟨S8388608, .f32⟩
  | 12 => ⟨S_, .i32⟩
  | 13 => ⟨S1, .i32⟩
  | 14 => ⟨S8388608, .f32⟩
  | 15 => ⟨S8388608, .f32⟩
  | 16 => ⟨S1x2x4194304, .f32⟩
  | 17 => ⟨S1x1x4194304, .f32⟩
  | 18 => ⟨S1x4194304, .f32⟩
  | 19 => ⟨S1x1x4194304, .f32⟩
  | 20 => ⟨S1x4194304, .f32⟩
  | 21 => ⟨S1x4194304, .f32⟩
  | 22 => ⟨S1x1x4194304, .f32⟩
  | 23 => ⟨S1x4194304, .f32⟩
  | 24 => ⟨S1x1x4194304, .f32⟩
  | 25 => ⟨S1x2x4194304, .f32⟩
  | 26 => ⟨S8388608, .f32⟩
  | 27 => ⟨S2x2x2097152, .f32⟩
  | 28 => ⟨S2x1x2097152, .f32⟩
  | 29 => ⟨S2x2097152, .f32⟩
  | 30 => ⟨S2x1x2097152, .f32⟩
  | 31 => ⟨S2x2097152, .f32⟩
  | 32 => ⟨S2x2097152, .f32⟩
  | 33 => ⟨S2x1x2097152, .f32⟩
  | 34 => ⟨S2x2097152, .f32⟩
  | 35 => ⟨S2x1x2097152, .f32⟩
  | 36 => ⟨S2x2x2097152, .f32⟩
  | 37 => ⟨S8388608, .f32⟩
  | 38 => ⟨S4x2x1048576, .f32⟩
  | 39 => ⟨S4x1x1048576, .f32⟩
  | 40 => ⟨S4x1048576, .f32⟩
  | 41 => ⟨S4x1x1048576, .f32⟩
  | 42 => ⟨S4x1048576, .f32⟩
  | 43 => ⟨S4x1048576, .f32⟩
  | 44 => ⟨S4x1x1048576, .f32⟩
  | 45 => ⟨S4x1048576, .f32⟩
  | 46 => ⟨S4x1x1048576, .f32⟩
  | 47 => ⟨S4x2x1048576, .f32⟩
  | 48 => ⟨S8388608, .f32⟩
  | 49 => ⟨S8x2x524288, .f32⟩
  | 50 => ⟨S8x1x524288, .f32⟩
  | 51 => ⟨S8x524288, .f32⟩
  | 52 => ⟨S8x1x524288, .f32⟩
  | 53 => ⟨S8x524288, .f32⟩
  | 54 => ⟨S8x524288, .f32⟩
  | 55 => ⟨S8x1x524288, .f32⟩
  | 56 => ⟨S8x524288, .f32⟩
  | 57 => ⟨S8x1x524288, .f32⟩
  | 58 => ⟨S8x2x524288, .f32⟩
  | 59 => ⟨S8388608, .f32⟩
  | 60 => ⟨S16x2x262144, .f32⟩
  | 61 => ⟨S16x1x262144, .f32⟩
  | 62 => ⟨S16x262144, .f32⟩
  | 63 => ⟨S16x1x262144, .f32⟩
  | 64 => ⟨S16x262144, .f32⟩
  | 65 => ⟨S16x262144, .f32⟩
  | 66 => ⟨S16x1x262144, .f32⟩
  | 67 => ⟨S16x262144, .f32⟩
  | 68 => ⟨S16x1x262144, .f32⟩
  | 69 => ⟨S16x2x262144, .f32⟩
  | 70 => ⟨S8388608, .f32⟩
  | 71 => ⟨S32x2x131072, .f32⟩
  | 72 => ⟨S32x1x131072, .f32⟩
  | 73 => ⟨S32x131072, .f32⟩
  | 74 => ⟨S32x1x131072, .f32⟩
  | 75 => ⟨S32x131072, .f32⟩
  | 76 => ⟨S32x131072, .f32⟩
  | 77 => ⟨S32x1x131072, .f32⟩
  | 78 => ⟨S32x131072, .f32⟩
  | 79 => ⟨S32x1x131072, .f32⟩
  | 80 => ⟨S32x2x131072, .f32⟩
  | 81 => ⟨S8388608, .f32⟩
  | 82 => ⟨S64x2x65536, .f32⟩
  | 83 => ⟨S64x1x65536, .f32⟩
  | 84 => ⟨S64x65536, .f32⟩
  | 85 => ⟨S64x1x65536, .f32⟩
  | 86 => ⟨S64x65536, .f32⟩
  | 87 => ⟨S64x65536, .f32⟩
  | 88 => ⟨S64x1x65536, .f32⟩
  | 89 => ⟨S64x65536, .f32⟩
  | 90 => ⟨S64x1x65536, .f32⟩
  | 91 => ⟨S64x2x65536, .f32⟩
  | 92 => ⟨S8388608, .f32⟩
  | 93 => ⟨S128x2x32768, .f32⟩
  | 94 => ⟨S128x1x32768, .f32⟩
  | 95 => ⟨S128x32768, .f32⟩
  | 96 => ⟨S128x1x32768, .f32⟩
  | 97 => ⟨S128x32768, .f32⟩
  | 98 => ⟨S128x32768, .f32⟩
  | 99 => ⟨S128x1x32768, .f32⟩
  | 100 => ⟨S128x32768, .f32⟩
  | 101 => ⟨S128x1x32768, .f32⟩
  | 102 => ⟨S128x2x32768, .f32⟩
  | 103 => ⟨S8388608, .f32⟩
  | 104 => ⟨S256x2x16384, .f32⟩
  | 105 => ⟨S256x1x16384, .f32⟩
  | 106 => ⟨S256x16384, .f32⟩
  | 107 => ⟨S256x1x16384, .f32⟩
  | 108 => ⟨S256x16384, .f32⟩
  | 109 => ⟨S256x16384, .f32⟩
  | 110 => ⟨S256x1x16384, .f32⟩
  | 111 => ⟨S256x16384, .f32⟩
  | 112 => ⟨S256x1x16384, .f32⟩
  | 113 => ⟨S256x2x16384, .f32⟩
  | 114 => ⟨S8388608, .f32⟩
  | 115 => ⟨S512x2x8192, .f32⟩
  | 116 => ⟨S512x1x8192, .f32⟩
  | 117 => ⟨S512x8192, .f32⟩
  | 118 => ⟨S512x1x8192, .f32⟩
  | 119 => ⟨S512x8192, .f32⟩
  | 120 => ⟨S512x8192, .f32⟩
  | 121 => ⟨S512x1x8192, .f32⟩
  | 122 => ⟨S512x8192, .f32⟩
  | 123 => ⟨S512x1x8192, .f32⟩
  | 124 => ⟨S512x2x8192, .f32⟩
  | 125 => ⟨S8388608, .f32⟩
  | 126 => ⟨S1024x2x4096, .f32⟩
  | 127 => ⟨S1024x1x4096, .f32⟩
  | _ => ⟨S4096x2048, .f32⟩

abbrev hbmTy0_1 (i : Nat) : BufTy := match i % 128 with
  | 0 => ⟨S1024x4096, .f32⟩
  | 1 => ⟨S1024x1x4096, .f32⟩
  | 2 => ⟨S1024x4096, .f32⟩
  | 3 => ⟨S1024x4096, .f32⟩
  | 4 => ⟨S1024x1x4096, .f32⟩
  | 5 => ⟨S1024x4096, .f32⟩
  | 6 => ⟨S1024x1x4096, .f32⟩
  | 7 => ⟨S1024x2x4096, .f32⟩
  | 8 => ⟨S8388608, .f32⟩
  | 9 => ⟨S2048x2x2048, .f32⟩
  | 10 => ⟨S2048x1x2048, .f32⟩
  | 11 => ⟨S2048x2048, .f32⟩
  | 12 => ⟨S2048x1x2048, .f32⟩
  | 13 => ⟨S2048x2048, .f32⟩
  | 14 => ⟨S2048x2048, .f32⟩
  | 15 => ⟨S2048x1x2048, .f32⟩
  | 16 => ⟨S2048x2048, .f32⟩
  | 17 => ⟨S2048x1x2048, .f32⟩
  | 18 => ⟨S2048x2x2048, .f32⟩
  | 19 => ⟨S8388608, .f32⟩
  | 20 => ⟨S4096x2x1024, .f32⟩
  | 21 => ⟨S4096x1x1024, .f32⟩
  | 22 => ⟨S4096x1024, .f32⟩
  | 23 => ⟨S4096x1x1024, .f32⟩
  | 24 => ⟨S4096x1024, .f32⟩
  | 25 => ⟨S4096x1024, .f32⟩
  | 26 => ⟨S4096x1x1024, .f32⟩
  | 27 => ⟨S4096x1024, .f32⟩
  | 28 => ⟨S4096x1x1024, .f32⟩
  | 29 => ⟨S4096x2x1024, .f32⟩
  | 30 => ⟨S8388608, .f32⟩
  | 31 => ⟨S8192x2x512, .f32⟩
  | 32 => ⟨S8192x1x512, .f32⟩
  | 33 => ⟨S8192x512, .f32⟩
  | 34 => ⟨S8192x1x512, .f32⟩
  | 35 => ⟨S8192x512, .f32⟩
  | 36 => ⟨S8192x512, .f32⟩
  | 37 => ⟨S8192x1x512, .f32⟩
  | 38 => ⟨S8192x512, .f32⟩
  | 39 => ⟨S8192x1x512, .f32⟩
  | 40 => ⟨S8192x2x512, .f32⟩
  | 41 => ⟨S8388608, .f32⟩
  | 42 => ⟨S16384x2x256, .f32⟩
  | 43 => ⟨S16384x1x256, .f32⟩
  | 44 => ⟨S16384x256, .f32⟩
  | 45 => ⟨S16384x1x256, .f32⟩
  | 46 => ⟨S16384x256, .f32⟩
  | 47 => ⟨S16384x256, .f32⟩
  | 48 => ⟨S16384x1x256, .f32⟩
  | 49 => ⟨S16384x256, .f32⟩
  | 50 => ⟨S16384x1x256, .f32⟩
  | 51 => ⟨S16384x2x256, .f32⟩
  | 52 => ⟨S8388608, .f32⟩
  | 53 => ⟨S32768x2x128, .f32⟩
  | 54 => ⟨S32768x1x128, .f32⟩
  | 55 => ⟨S32768x128, .f32⟩
  | 56 => ⟨S32768x1x128, .f32⟩
  | 57 => ⟨S32768x128, .f32⟩
  | 58 => ⟨S32768x128, .f32⟩
  | 59 => ⟨S32768x1x128, .f32⟩
  | 60 => ⟨S32768x128, .f32⟩
  | 61 => ⟨S32768x1x128, .f32⟩
  | 62 => ⟨S32768x2x128, .f32⟩
  | 63 => ⟨S8388608, .f32⟩
  | 64 => ⟨S65536x2x64, .f32⟩
  | 65 => ⟨S65536x1x64, .f32⟩
  | 66 => ⟨S65536x64, .f32⟩
  | 67 => ⟨S65536x1x64, .f32⟩
  | 68 => ⟨S65536x64, .f32⟩
  | 69 => ⟨S65536x64, .f32⟩
  | 70 => ⟨S65536x1x64, .f32⟩
  | 71 => ⟨S65536x64, .f32⟩
  | 72 => ⟨S65536x1x64, .f32⟩
  | 73 => ⟨S65536x2x64, .f32⟩
  | 74 => ⟨S8388608, .f32⟩
  | 75 => ⟨S131072x2x32, .f32⟩
  | 76 => ⟨S131072x1x32, .f32⟩
  | 77 => ⟨S131072x32, .f32⟩
  | 78 => ⟨S131072x1x32, .f32⟩
  | 79 => ⟨S131072x32, .f32⟩
  | 80 => ⟨S131072x32, .f32⟩
  | 81 => ⟨S131072x1x32, .f32⟩
  | 82 => ⟨S131072x32, .f32⟩
  | 83 => ⟨S131072x1x32, .f32⟩
  | 84 => ⟨S131072x2x32, .f32⟩
  | 85 => ⟨S8388608, .f32⟩
  | 86 => ⟨S262144x2x16, .f32⟩
  | 87 => ⟨S262144x1x16, .f32⟩
  | 88 => ⟨S262144x16, .f32⟩
  | 89 => ⟨S262144x1x16, .f32⟩
  | 90 => ⟨S262144x16, .f32⟩
  | 91 => ⟨S262144x16, .f32⟩
  | 92 => ⟨S262144x1x16, .f32⟩
  | 93 => ⟨S262144x16, .f32⟩
  | 94 => ⟨S262144x1x16, .f32⟩
  | 95 => ⟨S262144x2x16, .f32⟩
  | 96 => ⟨S8388608, .f32⟩
  | 97 => ⟨S524288x2x8, .f32⟩
  | 98 => ⟨S524288x1x8, .f32⟩
  | 99 => ⟨S524288x8, .f32⟩
  | 100 => ⟨S524288x1x8, .f32⟩
  | 101 => ⟨S524288x8, .f32⟩
  | 102 => ⟨S524288x8, .f32⟩
  | 103 => ⟨S524288x1x8, .f32⟩
  | 104 => ⟨S524288x8, .f32⟩
  | 105 => ⟨S524288x1x8, .f32⟩
  | 106 => ⟨S524288x2x8, .f32⟩
  | 107 => ⟨S8388608, .f32⟩
  | 108 => ⟨S1048576x2x4, .f32⟩
  | 109 => ⟨S1048576x1x4, .f32⟩
  | 110 => ⟨S1048576x4, .f32⟩
  | 111 => ⟨S1048576x1x4, .f32⟩
  | 112 => ⟨S1048576x4, .f32⟩
  | 113 => ⟨S1048576x4, .f32⟩
  | 114 => ⟨S1048576x1x4, .f32⟩
  | 115 => ⟨S1048576x4, .f32⟩
  | 116 => ⟨S1048576x1x4, .f32⟩
  | 117 => ⟨S1048576x2x4, .f32⟩
  | 118 => ⟨S8388608, .f32⟩
  | 119 => ⟨S2097152x2x2, .f32⟩
  | 120 => ⟨S2097152x1x2, .f32⟩
  | 121 => ⟨S2097152x2, .f32⟩
  | 122 => ⟨S2097152x1x2, .f32⟩
  | 123 => ⟨S2097152x2, .f32⟩
  | 124 => ⟨S2097152x2, .f32⟩
  | 125 => ⟨S2097152x1x2, .f32⟩
  | 126 => ⟨S2097152x2, .f32⟩
  | 127 => ⟨S2097152x1x2, .f32⟩
  | _ => ⟨S4096x2048, .f32⟩

abbrev hbmTy0_2 (i : Nat) : BufTy := match i % 128 with
  | 0 => ⟨S2097152x2x2, .f32⟩
  | 1 => ⟨S8388608, .f32⟩
  | 2 => ⟨S4194304x2x1, .f32⟩
  | 3 => ⟨S4194304x1x1, .f32⟩
  | 4 => ⟨S4194304x1, .f32⟩
  | 5 => ⟨S4194304x1x1, .f32⟩
  | 6 => ⟨S4194304x1, .f32⟩
  | 7 => ⟨S4194304x1, .f32⟩
  | 8 => ⟨S4194304x1x1, .f32⟩
  | 9 => ⟨S4194304x1, .f32⟩
  | 10 => ⟨S4194304x1x1, .f32⟩
  | 11 => ⟨S4194304x2x1, .f32⟩
  | 12 => ⟨S8388608, .f32⟩
  | 13 => ⟨S_, .i32⟩
  | 14 => ⟨S8388608, .i32⟩
  | 15 => ⟨S8388608, .i1⟩
  | 16 => ⟨S_, .i32⟩
  | 17 => ⟨S8388608, .i32⟩
  | 18 => ⟨S8388608, .i32⟩
  | 19 => ⟨S8388608, .i32⟩
  | 20 => ⟨S8388608x1, .i32⟩
  | 21 => ⟨S8388608, .f32⟩
  | 22 => ⟨S8388608, .f32⟩
  | 23 => ⟨S1x2x4194304, .f32⟩
  | 24 => ⟨S1x1x4194304, .f32⟩
  | 25 => ⟨S1x4194304, .f32⟩
  | 26 => ⟨S1x1x4194304, .f32⟩
  | 27 => ⟨S1x4194304, .f32⟩
  | 28 => ⟨S1x4194304, .f32⟩
  | 29 => ⟨S1x1x4194304, .f32⟩
  | 30 => ⟨S1x4194304, .f32⟩
  | 31 => ⟨S1x1x4194304, .f32⟩
  | 32 => ⟨S1x2x4194304, .f32⟩
  | 33 => ⟨S8388608, .f32⟩
  | 34 => ⟨S2x2x2097152, .f32⟩
  | 35 => ⟨S2x1x2097152, .f32⟩
  | 36 => ⟨S2x2097152, .f32⟩
  | 37 => ⟨S2x1x2097152, .f32⟩
  | 38 => ⟨S2x2097152, .f32⟩
  | 39 => ⟨S2x2097152, .f32⟩
  | 40 => ⟨S2x1x2097152, .f32⟩
  | 41 => ⟨S2x2097152, .f32⟩
  | 42 => ⟨S2x1x2097152, .f32⟩
  | 43 => ⟨S2x2x2097152, .f32⟩
  | 44 => ⟨S8388608, .f32⟩
  | 45 => ⟨S4x2x1048576, .f32⟩
  | 46 => ⟨S4x1x1048576, .f32⟩
  | 47 => ⟨S4x1048576, .f32⟩
  | 48 => ⟨S4x1x1048576, .f32⟩
  | 49 => ⟨S4x1048576, .f32⟩
  | 50 => ⟨S4x1048576, .f32⟩
  | 51 => ⟨S4x1x1048576, .f32⟩
  | 52 => ⟨S4x1048576, .f32⟩
  | 53 => ⟨S4x1x1048576, .f32⟩
  | 54 => ⟨S4x2x1048576, .f32⟩
  | 55 => ⟨S8388608, .f32⟩
  | 56 => ⟨S8x2x524288, .f32⟩
  | 57 => ⟨S8x1x524288, .f32⟩
  | 58 => ⟨S8x524288, .f32⟩
  | 59 => ⟨S8x1x524288, .f32⟩
  | 60 => ⟨S8x524288, .f32⟩
  | 61 => ⟨S8x524288, .f32⟩
  | 62 => ⟨S8x1x524288, .f32⟩
  | 63 => ⟨S8x524288, .f32⟩
  | 64 => ⟨S8x1x524288, .f32⟩
  | 65 => ⟨S8x2x524288, .f32⟩
  | 66 => ⟨S8388608, .f32⟩
  | 67 => ⟨S16x2x262144, .f32⟩
  | 68 => ⟨S16x1x262144, .f32⟩
  | 69 => ⟨S16x262144, .f32⟩
  | 70 => ⟨S16x1x262144, .f32⟩
  | 71 => ⟨S16x262144, .f32⟩
  | 72 => ⟨S16x262144, .f32⟩
  | 73 => ⟨S16x1x262144, .f32⟩
  | 74 => ⟨S16x262144, .f32⟩
  | 75 => ⟨S16x1x262144, .f32⟩
  | 76 => ⟨S16x2x262144, .f32⟩
  | 77 => ⟨S8388608, .f32⟩
  | 78 => ⟨S32x2x131072, .f32⟩
  | 79 => ⟨S32x1x131072, .f32⟩
  | 80 => ⟨S32x131072, .f32⟩
  | 81 => ⟨S32x1x131072, .f32⟩
  | 82 => ⟨S32x131072, .f32⟩
  | 83 => ⟨S32x131072, .f32⟩
  | 84 => ⟨S32x1x131072, .f32⟩
  | 85 => ⟨S32x131072, .f32⟩
  | 86 => ⟨S32x1x131072, .f32⟩
  | 87 => ⟨S32x2x131072, .f32⟩
  | 88 => ⟨S8388608, .f32⟩
  | 89 => ⟨S64x2x65536, .f32⟩
  | 90 => ⟨S64x1x65536, .f32⟩
  | 91 => ⟨S64x65536, .f32⟩
  | 92 => ⟨S64x1x65536, .f32⟩
  | 93 => ⟨S64x65536, .f32⟩
  | 94 => ⟨S64x65536, .f32⟩
  | 95 => ⟨S64x1x65536, .f32⟩
  | 96 => ⟨S64x65536, .f32⟩
  | 97 => ⟨S64x1x65536, .f32⟩
  | 98 => ⟨S64x2x65536, .f32⟩
  | 99 => ⟨S8388608, .f32⟩
  | 100 => ⟨S128x2x32768, .f32⟩
  | 101 => ⟨S128x1x32768, .f32⟩
  | 102 => ⟨S128x32768, .f32⟩
  | 103 => ⟨S128x1x32768, .f32⟩
  | 104 => ⟨S128x32768, .f32⟩
  | 105 => ⟨S128x32768, .f32⟩
  | 106 => ⟨S128x1x32768, .f32⟩
  | 107 => ⟨S128x32768, .f32⟩
  | 108 => ⟨S128x1x32768, .f32⟩
  | 109 => ⟨S128x2x32768, .f32⟩
  | 110 => ⟨S8388608, .f32⟩
  | 111 => ⟨S256x2x16384, .f32⟩
  | 112 => ⟨S256x1x16384, .f32⟩
  | 113 => ⟨S256x16384, .f32⟩
  | 114 => ⟨S256x1x16384, .f32⟩
  | 115 => ⟨S256x16384, .f32⟩
  | 116 => ⟨S256x16384, .f32⟩
  | 117 => ⟨S256x1x16384, .f32⟩
  | 118 => ⟨S256x16384, .f32⟩
  | 119 => ⟨S256x1x16384, .f32⟩
  | 120 => ⟨S256x2x16384, .f32⟩
  | 121 => ⟨S8388608, .f32⟩
  | 122 => ⟨S512x2x8192, .f32⟩
  | 123 => ⟨S512x1x8192, .f32⟩
  | 124 => ⟨S512x8192, .f32⟩
  | 125 => ⟨S512x1x8192, .f32⟩
  | 126 => ⟨S512x8192, .f32⟩
  | 127 => ⟨S512x8192, .f32⟩
  | _ => ⟨S4096x2048, .f32⟩

abbrev hbmTy0_3 (i : Nat) : BufTy := match i % 128 with
  | 0 => ⟨S512x1x8192, .f32⟩
  | 1 => ⟨S512x8192, .f32⟩
  | 2 => ⟨S512x1x8192, .f32⟩
  | 3 => ⟨S512x2x8192, .f32⟩
  | 4 => ⟨S8388608, .f32⟩
  | 5 => ⟨S1024x2x4096, .f32⟩
  | 6 => ⟨S1024x1x4096, .f32⟩
  | 7 => ⟨S1024x4096, .f32⟩
  | 8 => ⟨S1024x1x4096, .f32⟩
  | 9 => ⟨S1024x4096, .f32⟩
  | 10 => ⟨S1024x4096, .f32⟩
  | 11 => ⟨S1024x1x4096, .f32⟩
  | 12 => ⟨S1024x4096, .f32⟩
  | 13 => ⟨S1024x1x4096, .f32⟩
  | 14 => ⟨S1024x2x4096, .f32⟩
  | 15 => ⟨S8388608, .f32⟩
  | 16 => ⟨S2048x2x2048, .f32⟩
  | 17 => ⟨S2048x1x2048, .f32⟩
  | 18 => ⟨S2048x2048, .f32⟩
  | 19 => ⟨S2048x1x2048, .f32⟩
  | 20 => ⟨S2048x2048, .f32⟩
  | 21 => ⟨S2048x2048, .f32⟩
  | 22 => ⟨S2048x1x2048, .f32⟩
  | 23 => ⟨S2048x2048, .f32⟩
  | 24 => ⟨S2048x1x2048, .f32⟩
  | 25 => ⟨S2048x2x2048, .f32⟩
  | 26 => ⟨S8388608, .f32⟩
  | 27 => ⟨S4096x2x1024, .f32⟩
  | 28 => ⟨S4096x1x1024, .f32⟩
  | 29 => ⟨S4096x1024, .f32⟩
  | 30 => ⟨S4096x1x1024, .f32⟩
  | 31 => ⟨S4096x1024, .f32⟩
  | 32 => ⟨S4096x1024, .f32⟩
  | 33 => ⟨S4096x1x1024, .f32⟩
  | 34 => ⟨S4096x1024, .f32⟩
  | 35 => ⟨S4096x1x1024, .f32⟩
  | 36 => ⟨S4096x2x1024, .f32⟩
  | 37 => ⟨S8388608, .f32⟩
  | 38 => ⟨S8192x2x512, .f32⟩
  | 39 => ⟨S8192x1x512, .f32⟩
  | 40 => ⟨S8192x512, .f32⟩
  | 41 => ⟨S8192x1x512, .f32⟩
  | 42 => ⟨S8192x512, .f32⟩
  | 43 => ⟨S8192x512, .f32⟩
  | 44 => ⟨S8192x1x512, .f32⟩
  | 45 => ⟨S8192x512, .f32⟩
  | 46 => ⟨S8192x1x512, .f32⟩
  | 47 => ⟨S8192x2x512, .f32⟩
  | 48 => ⟨S8388608, .f32⟩
  | 49 => ⟨S16384x2x256, .f32⟩
  | 50 => ⟨S16384x1x256, .f32⟩
  | 51 => ⟨S16384x256, .f32⟩
  | 52 => ⟨S16384x1x256, .f32⟩
  | 53 => ⟨S16384x256, .f32⟩
  | 54 => ⟨S16384x256, .f32⟩
  | 55 => ⟨S16384x1x256, .f32⟩
  | 56 => ⟨S16384x256, .f32⟩
  | 57 => ⟨S16384x1x256, .f32⟩
  | 58 => ⟨S16384x2x256, .f32⟩
  | 59 => ⟨S8388608, .f32⟩
  | 60 => ⟨S32768x2x128, .f32⟩
  | 61 => ⟨S32768x1x128, .f32⟩
  | 62 => ⟨S32768x128, .f32⟩
  | 63 => ⟨S32768x1x128, .f32⟩
  | 64 => ⟨S32768x128, .f32⟩
  | 65 => ⟨S32768x128, .f32⟩
  | 66 => ⟨S32768x1x128, .f32⟩
  | 67 => ⟨S32768x128, .f32⟩
  | 68 => ⟨S32768x1x128, .f32⟩
  | 69 => ⟨S32768x2x128, .f32⟩
  | 70 => ⟨S8388608, .f32⟩
  | 71 => ⟨S65536x2x64, .f32⟩
  | 72 => ⟨S65536x1x64, .f32⟩
  | 73 => ⟨S65536x64, .f32⟩
  | 74 => ⟨S65536x1x64, .f32⟩
  | 75 => ⟨S65536x64, .f32⟩
  | 76 => ⟨S65536x64, .f32⟩
  | 77 => ⟨S65536x1x64, .f32⟩
  | 78 => ⟨S65536x64, .f32⟩
  | 79 => ⟨S65536x1x64, .f32⟩
  | 80 => ⟨S65536x2x64, .f32⟩
  | 81 => ⟨S8388608, .f32⟩
  | 82 => ⟨S131072x2x32, .f32⟩
  | 83 => ⟨S131072x1x32, .f32⟩
  | 84 => ⟨S131072x32, .f32⟩
  | 85 => ⟨S131072x1x32, .f32⟩
  | 86 => ⟨S131072x32, .f32⟩
  | 87 => ⟨S131072x32, .f32⟩
  | 88 => ⟨S131072x1x32, .f32⟩
  | 89 => ⟨S131072x32, .f32⟩
  | 90 => ⟨S131072x1x32, .f32⟩
  | 91 => ⟨S131072x2x32, .f32⟩
  | 92 => ⟨S8388608, .f32⟩
  | 93 => ⟨S262144x2x16, .f32⟩
  | 94 => ⟨S262144x1x16, .f32⟩
  | 95 => ⟨S262144x16, .f32⟩
  | 96 => ⟨S262144x1x16, .f32⟩
  | 97 => ⟨S262144x16, .f32⟩
  | 98 => ⟨S262144x16, .f32⟩
  | 99 => ⟨S262144x1x16, .f32⟩
  | 100 => ⟨S262144x16, .f32⟩
  | 101 => ⟨S262144x1x16, .f32⟩
  | 102 => ⟨S262144x2x16, .f32⟩
  | 103 => ⟨S8388608, .f32⟩
  | 104 => ⟨S524288x2x8, .f32⟩
  | 105 => ⟨S524288x1x8, .f32⟩
  | 106 => ⟨S524288x8, .f32⟩
  | 107 => ⟨S524288x1x8, .f32⟩
  | 108 => ⟨S524288x8, .f32⟩
  | 109 => ⟨S524288x8, .f32⟩
  | 110 => ⟨S524288x1x8, .f32⟩
  | 111 => ⟨S524288x8, .f32⟩
  | 112 => ⟨S524288x1x8, .f32⟩
  | 113 => ⟨S524288x2x8, .f32⟩
  | 114 => ⟨S8388608, .f32⟩
  | 115 => ⟨S1048576x2x4, .f32⟩
  | 116 => ⟨S1048576x1x4, .f32⟩
  | 117 => ⟨S1048576x4, .f32⟩
  | 118 => ⟨S1048576x1x4, .f32⟩
  | 119 => ⟨S1048576x4, .f32⟩
  | 120 => ⟨S1048576x4, .f32⟩
  | 121 => ⟨S1048576x1x4, .f32⟩
  | 122 => ⟨S1048576x4, .f32⟩
  | 123 => ⟨S1048576x1x4, .f32⟩
  | 124 => ⟨S1048576x2x4, .f32⟩
  | 125 => ⟨S8388608, .f32⟩
  | 126 => ⟨S2097152x2x2, .f32⟩
  | 127 => ⟨S2097152x1x2, .f32⟩
  | _ => ⟨S4096x2048, .f32⟩

abbrev hbmTy0_4 (i : Nat) : BufTy := match i % 128 with
  | 0 => ⟨S2097152x2, .f32⟩
  | 1 => ⟨S2097152x1x2, .f32⟩
  | 2 => ⟨S2097152x2, .f32⟩
  | 3 => ⟨S2097152x2, .f32⟩
  | 4 => ⟨S2097152x1x2, .f32⟩
  | 5 => ⟨S2097152x2, .f32⟩
  | 6 => ⟨S2097152x1x2, .f32⟩
  | 7 => ⟨S2097152x2x2, .f32⟩
  | 8 => ⟨S8388608, .f32⟩
  | 9 => ⟨S4194304x2x1, .f32⟩
  | 10 => ⟨S4194304x1x1, .f32⟩
  | 11 => ⟨S4194304x1, .f32⟩
  | 12 => ⟨S4194304x1x1, .f32⟩
  | 13 => ⟨S4194304x1, .f32⟩
  | 14 => ⟨S4194304x1, .f32⟩
  | 15 => ⟨S4194304x1x1, .f32⟩
  | 16 => ⟨S4194304x1, .f32⟩
  | 17 => ⟨S4194304x1x1, .f32⟩
  | 18 => ⟨S4194304x2x1, .f32⟩
  | 19 => ⟨S8388608, .f32⟩
  | 20 => ⟨S8388608, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8388608, .f32⟩
  | 29 => ⟨S8388608, .f32⟩
  | 30 => ⟨S4096x2048, .f32⟩
  | 31 => ⟨S_, .f32⟩
  | 32 => ⟨S4096, .f32⟩
  | 33 => ⟨S_, .i32⟩
  | 34 => ⟨S1, .i32⟩
  | 35 => ⟨S4096, .f32⟩
  | 36 => ⟨S4096, .f32⟩
  | 37 => ⟨S1x2x2048, .f32⟩
  | 38 => ⟨S1x1x2048, .f32⟩
  | 39 => ⟨S1x2048, .f32⟩
  | 40 => ⟨S1x1x2048, .f32⟩
  | 41 => ⟨S1x2048, .f32⟩
  | 42 => ⟨S1x2048, .f32⟩
  | 43 => ⟨S1x1x2048, .f32⟩
  | 44 => ⟨S1x2048, .f32⟩
  | 45 => ⟨S1x1x2048, .f32⟩
  | 46 => ⟨S1x2x2048, .f32⟩
  | 47 => ⟨S4096, .f32⟩
  | 48 => ⟨S2x2x1024, .f32⟩
  | 49 => ⟨S2x1x1024, .f32⟩
  | 50 => ⟨S2x1024, .f32⟩
  | 51 => ⟨S2x1x1024, .f32⟩
  | 52 => ⟨S2x1024, .f32⟩
  | 53 => ⟨S2x1024, .f32⟩
  | 54 => ⟨S2x1x1024, .f32⟩
  | 55 => ⟨S2x1024, .f32⟩
  | 56 => ⟨S2x1x1024, .f32⟩
  | 57 => ⟨S2x2x1024, .f32⟩
  | 58 => ⟨S4096, .f32⟩
  | 59 => ⟨S4x2x512, .f32⟩
  | 60 => ⟨S4x1x512, .f32⟩
  | 61 => ⟨S4x512, .f32⟩
  | 62 => ⟨S4x1x512, .f32⟩
  | 63 => ⟨S4x512, .f32⟩
  | 64 => ⟨S4x512, .f32⟩
  | 65 => ⟨S4x1x512, .f32⟩
  | 66 => ⟨S4x512, .f32⟩
  | 67 => ⟨S4x1x512, .f32⟩
  | 68 => ⟨S4x2x512, .f32⟩
  | 69 => ⟨S4096, .f32⟩
  | 70 => ⟨S8x2x256, .f32⟩
  | 71 => ⟨S8x1x256, .f32⟩
  | 72 => ⟨S8x256, .f32⟩
  | 73 => ⟨S8x1x256, .f32⟩
  | 74 => ⟨S8x256, .f32⟩
  | 75 => ⟨S8x256, .f32⟩
  | 76 => ⟨S8x1x256, .f32⟩
  | 77 => ⟨S8x256, .f32⟩
  | 78 => ⟨S8x1x256, .f32⟩
  | 79 => ⟨S8x2x256, .f32⟩
  | 80 => ⟨S4096, .f32⟩
  | 81 => ⟨S16x2x128, .f32⟩
  | 82 => ⟨S16x1x128, .f32⟩
  | 83 => ⟨S16x128, .f32⟩
  | 84 => ⟨S16x1x128, .f32⟩
  | 85 => ⟨S16x128, .f32⟩
  | 86 => ⟨S16x128, .f32⟩
  | 87 => ⟨S16x1x128, .f32⟩
  | 88 => ⟨S16x128, .f32⟩
  | 89 => ⟨S16x1x128, .f32⟩
  | 90 => ⟨S16x2x128, .f32⟩
  | 91 => ⟨S4096, .f32⟩
  | 92 => ⟨S32x2x64, .f32⟩
  | 93 => ⟨S32x1x64, .f32⟩
  | 94 => ⟨S32x64, .f32⟩
  | 95 => ⟨S32x1x64, .f32⟩
  | 96 => ⟨S32x64, .f32⟩
  | 97 => ⟨S32x64, .f32⟩
  | 98 => ⟨S32x1x64, .f32⟩
  | 99 => ⟨S32x64, .f32⟩
  | 100 => ⟨S32x1x64, .f32⟩
  | 101 => ⟨S32x2x64, .f32⟩
  | 102 => ⟨S4096, .f32⟩
  | 103 => ⟨S64x2x32, .f32⟩
  | 104 => ⟨S64x1x32, .f32⟩
  | 105 => ⟨S64x32, .f32⟩
  | 106 => ⟨S64x1x32, .f32⟩
  | 107 => ⟨S64x32, .f32⟩
  | 108 => ⟨S64x32, .f32⟩
  | 109 => ⟨S64x1x32, .f32⟩
  | 110 => ⟨S64x32, .f32⟩
  | 111 => ⟨S64x1x32, .f32⟩
  | 112 => ⟨S64x2x32, .f32⟩
  | 113 => ⟨S4096, .f32⟩
  | 114 => ⟨S128x2x16, .f32⟩
  | 115 => ⟨S128x1x16, .f32⟩
  | 116 => ⟨S128x16, .f32⟩
  | 117 => ⟨S128x1x16, .f32⟩
  | 118 => ⟨S128x16, .f32⟩
  | 119 => ⟨S128x16, .f32⟩
  | 120 => ⟨S128x1x16, .f32⟩
  | 121 => ⟨S128x16, .f32⟩
  | 122 => ⟨S128x1x16, .f32⟩
  | 123 => ⟨S128x2x16, .f32⟩
  | 124 => ⟨S4096, .f32⟩
  | 125 => ⟨S256x2x8, .f32⟩
  | 126 => ⟨S256x1x8, .f32⟩
  | 127 => ⟨S256x8, .f32⟩
  | _ => ⟨S4096x2048, .f32⟩

abbrev hbmTy0_5 (i : Nat) : BufTy := match i % 128 with
  | 0 => ⟨S256x1x8, .f32⟩
  | 1 => ⟨S256x8, .f32⟩
  | 2 => ⟨S256x8, .f32⟩
  | 3 => ⟨S256x1x8, .f32⟩
  | 4 => ⟨S256x8, .f32⟩
  | 5 => ⟨S256x1x8, .f32⟩
  | 6 => ⟨S256x2x8, .f32⟩
  | 7 => ⟨S4096, .f32⟩
  | 8 => ⟨S512x2x4, .f32⟩
  | 9 => ⟨S512x1x4, .f32⟩
  | 10 => ⟨S512x4, .f32⟩
  | 11 => ⟨S512x1x4, .f32⟩
  | 12 => ⟨S512x4, .f32⟩
  | 13 => ⟨S512x4, .f32⟩
  | 14 => ⟨S512x1x4, .f32⟩
  | 15 => ⟨S512x4, .f32⟩
  | 16 => ⟨S512x1x4, .f32⟩
  | 17 => ⟨S512x2x4, .f32⟩
  | 18 => ⟨S4096, .f32⟩
  | 19 => ⟨S1024x2x2, .f32⟩
  | 20 => ⟨S1024x1x2, .f32⟩
  | 21 => ⟨S1024x2, .f32⟩
  | 22 => ⟨S1024x1x2, .f32⟩
  | 23 => ⟨S1024x2, .f32⟩
  | 24 => ⟨S1024x2, .f32⟩
  | 25 => ⟨S1024x1x2, .f32⟩
  | 26 => ⟨S1024x2, .f32⟩
  | 27 => ⟨S1024x1x2, .f32⟩
  | 28 => ⟨S1024x2x2, .f32⟩
  | 29 => ⟨S4096, .f32⟩
  | 30 => ⟨S2048x2x1, .f32⟩
  | 31 => ⟨S2048x1x1, .f32⟩
  | 32 => ⟨S2048x1, .f32⟩
  | 33 => ⟨S2048x1x1, .f32⟩
  | 34 => ⟨S2048x1, .f32⟩
  | 35 => ⟨S2048x1, .f32⟩
  | 36 => ⟨S2048x1x1, .f32⟩
  | 37 => ⟨S2048x1, .f32⟩
  | 38 => ⟨S2048x1x1, .f32⟩
  | 39 => ⟨S2048x2x1, .f32⟩
  | 40 => ⟨S4096, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096, .f32⟩
  | 50 => ⟨S4096, .f32⟩
  | 51 => ⟨S1x2x2048, .f32⟩
  | 52 => ⟨S1x1x2048, .f32⟩
  | 53 => ⟨S1x2048, .f32⟩
  | 54 => ⟨S1x1x2048, .f32⟩
  | 55 => ⟨S1x2048, .f32⟩
  | 56 => ⟨S1x2048, .f32⟩
  | 57 => ⟨S1x1x2048, .f32⟩
  | 58 => ⟨S1x2048, .f32⟩
  | 59 => ⟨S1x1x2048, .f32⟩
  | 60 => ⟨S1x2x2048, .f32⟩
  | 61 => ⟨S4096, .f32⟩
  | 62 => ⟨S2x2x1024, .f32⟩
  | 63 => ⟨S2x1x1024, .f32⟩
  | 64 => ⟨S2x1024, .f32⟩
  | 65 => ⟨S2x1x1024, .f32⟩
  | 66 => ⟨S2x1024, .f32⟩
  | 67 => ⟨S2x1024, .f32⟩
  | 68 => ⟨S2x1x1024, .f32⟩
  | 69 => ⟨S2x1024, .f32⟩
  | 70 => ⟨S2x1x1024, .f32⟩
  | 71 => ⟨S2x2x1024, .f32⟩
  | 72 => ⟨S4096, .f32⟩
  | 73 => ⟨S4x2x512, .f32⟩
  | 74 => ⟨S4x1x512, .f32⟩
  | 75 => ⟨S4x512, .f32⟩
  | 76 => ⟨S4x1x512, .f32⟩
  | 77 => ⟨S4x512, .f32⟩
  | 78 => ⟨S4x512, .f32⟩
  | 79 => ⟨S4x1x512, .f32⟩
  | 80 => ⟨S4x512, .f32⟩
  | 81 => ⟨S4x1x512, .f32⟩
  | 82 => ⟨S4x2x512, .f32⟩
  | 83 => ⟨S4096, .f32⟩
  | 84 => ⟨S8x2x256, .f32⟩
  | 85 => ⟨S8x1x256, .f32⟩
  | 86 => ⟨S8x256, .f32⟩
  | 87 => ⟨S8x1x256, .f32⟩
  | 88 => ⟨S8x256, .f32⟩
  | 89 => ⟨S8x256, .f32⟩
  | 90 => ⟨S8x1x256, .f32⟩
  | 91 => ⟨S8x256, .f32⟩
  | 92 => ⟨S8x1x256, .f32⟩
  | 93 => ⟨S8x2x256, .f32⟩
  | 94 => ⟨S4096, .f32⟩
  | 95 => ⟨S16x2x128, .f32⟩
  | 96 => ⟨S16x1x128, .f32⟩
  | 97 => ⟨S16x128, .f32⟩
  | 98 => ⟨S16x1x128, .f32⟩
  | 99 => ⟨S16x128, .f32⟩
  | 100 => ⟨S16x128, .f32⟩
  | 101 => ⟨S16x1x128, .f32⟩
  | 102 => ⟨S16x128, .f32⟩
  | 103 => ⟨S16x1x128, .f32⟩
  | 104 => ⟨S16x2x128, .f32⟩
  | 105 => ⟨S4096, .f32⟩
  | 106 => ⟨S32x2x64, .f32⟩
  | 107 => ⟨S32x1x64, .f32⟩
  | 108 => ⟨S32x64, .f32⟩
  | 109 => ⟨S32x1x64, .f32⟩
  | 110 => ⟨S32x64, .f32⟩
  | 111 => ⟨S32x64, .f32⟩
  | 112 => ⟨S32x1x64, .f32⟩
  | 113 => ⟨S32x64, .f32⟩
  | 114 => ⟨S32x1x64, .f32⟩
  | 115 => ⟨S32x2x64, .f32⟩
  | 116 => ⟨S4096, .f32⟩
  | 117 => ⟨S64x2x32, .f32⟩
  | 118 => ⟨S64x1x32, .f32⟩
  | 119 => ⟨S64x32, .f32⟩
  | 120 => ⟨S64x1x32, .f32⟩
  | 121 => ⟨S64x32, .f32⟩
  | 122 => ⟨S64x32, .f32⟩
  | 123 => ⟨S64x1x32, .f32⟩
  | 124 => ⟨S64x32, .f32⟩
  | 125 => ⟨S64x1x32, .f32⟩
  | 126 => ⟨S64x2x32, .f32⟩
  | 127 => ⟨S4096, .f32⟩
  | _ => ⟨S4096x2048, .f32⟩

abbrev hbmTy0_6 (i : Nat) : BufTy := match i % 128 with
  | 0 => ⟨S128x2x16, .f32⟩
  | 1 => ⟨S128x1x16, .f32⟩
  | 2 => ⟨S128x16, .f32⟩
  | 3 => ⟨S128x1x16, .f32⟩
  | 4 => ⟨S128x16, .f32⟩
  | 5 => ⟨S128x16, .f32⟩
  | 6 => ⟨S128x1x16, .f32⟩
  | 7 => ⟨S128x16, .f32⟩
  | 8 => ⟨S128x1x16, .f32⟩
  | 9 => ⟨S128x2x16, .f32⟩
  | 10 => ⟨S4096, .f32⟩
  | 11 => ⟨S256x2x8, .f32⟩
  | 12 => ⟨S256x1x8, .f32⟩
  | 13 => ⟨S256x8, .f32⟩
  | 14 => ⟨S256x1x8, .f32⟩
  | 15 => ⟨S256x8, .f32⟩
  | 16 => ⟨S256x8, .f32⟩
  | 17 => ⟨S256x1x8, .f32⟩
  | 18 => ⟨S256x8, .f32⟩
  | 19 => ⟨S256x1x8, .f32⟩
  | 20 => ⟨S256x2x8, .f32⟩
  | 21 => ⟨S4096, .f32⟩
  | 22 => ⟨S512x2x4, .f32⟩
  | 23 => ⟨S512x1x4, .f32⟩
  | 24 => ⟨S512x4, .f32⟩
  | 25 => ⟨S512x1x4, .f32⟩
  | 26 => ⟨S512x4, .f32⟩
  | 27 => ⟨S512x4, .f32⟩
  | 28 => ⟨S512x1x4, .f32⟩
  | 29 => ⟨S512x4, .f32⟩
  | 30 => ⟨S512x1x4, .f32⟩
  | 31 => ⟨S512x2x4, .f32⟩
  | 32 => ⟨S4096, .f32⟩
  | 33 => ⟨S1024x2x2, .f32⟩
  | 34 => ⟨S1024x1x2, .f32⟩
  | 35 => ⟨S1024x2, .f32⟩
  | 36 => ⟨S1024x1x2, .f32⟩
  | 37 => ⟨S1024x2, .f32⟩
  | 38 => ⟨S1024x2, .f32⟩
  | 39 => ⟨S1024x1x2, .f32⟩
  | 40 => ⟨S1024x2, .f32⟩
  | 41 => ⟨S1024x1x2, .f32⟩
  | 42 => ⟨S1024x2x2, .f32⟩
  | 43 => ⟨S4096, .f32⟩
  | 44 => ⟨S2048x2x1, .f32⟩
  | 45 => ⟨S2048x1x1, .f32⟩
  | 46 => ⟨S2048x1, .f32⟩
  | 47 => ⟨S2048x1x1, .f32⟩
  | 48 => ⟨S2048x1, .f32⟩
  | 49 => ⟨S2048x1, .f32⟩
  | 50 => ⟨S2048x1x1, .f32⟩
  | 51 => ⟨S2048x1, .f32⟩
  | 52 => ⟨S2048x1x1, .f32⟩
  | 53 => ⟨S2048x2x1, .f32⟩
  | 54 => ⟨S4096, .f32⟩
  | 55 => ⟨S4096, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4096, .f32⟩
  | 64 => ⟨S4096, .f32⟩
  | 65 => ⟨S4096x2048, .f32⟩
  | 66 => ⟨S4096, .f32⟩
  | 67 => ⟨S4096x2048, .bf16⟩
  | 68 => ⟨S4096x2048, .bf16⟩
  | 69 => ⟨S1x4096, .f32⟩
  | 70 => ⟨S4096x4096, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x2048, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_c_0 : Ref sig .tc := ⟨.hbm, 269, rfl⟩
abbrev main_v257 : Ref sig .tc := ⟨.hbm, 270, rfl⟩
abbrev main_v258 : Ref sig .tc := ⟨.hbm, 271, rfl⟩
abbrev main_c_1 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_v451 : Ref sig .tc := ⟨.hbm, 465, rfl⟩
abbrev main_v452 : Ref sig .tc := ⟨.hbm, 466, rfl⟩
abbrev main_v453 : Ref sig .tc := ⟨.hbm, 467, rfl⟩
abbrev main_v454 : Ref sig .tc := ⟨.hbm, 468, rfl⟩
abbrev main_v455 : Ref sig .tc := ⟨.hbm, 469, rfl⟩
abbrev main_v456 : Ref sig .tc := ⟨.hbm, 470, rfl⟩
abbrev main_v457 : Ref sig .tc := ⟨.hbm, 471, rfl⟩
abbrev main_v458 : Ref sig .tc := ⟨.hbm, 472, rfl⟩
abbrev main_v459 : Ref sig .tc := ⟨.hbm, 473, rfl⟩
abbrev main_v460 : Ref sig .tc := ⟨.hbm, 474, rfl⟩
abbrev main_v461 : Ref sig .tc := ⟨.hbm, 475, rfl⟩
abbrev main_v462 : Ref sig .tc := ⟨.hbm, 476, rfl⟩
abbrev main_v463 : Ref sig .tc := ⟨.hbm, 477, rfl⟩
abbrev main_v464 : Ref sig .tc := ⟨.hbm, 478, rfl⟩
abbrev main_v465 : Ref sig .tc := ⟨.hbm, 479, rfl⟩
abbrev main_v466 : Ref sig .tc := ⟨.hbm, 480, rfl⟩
abbrev main_v467 : Ref sig .tc := ⟨.hbm, 481, rfl⟩
abbrev main_v468 : Ref sig .tc := ⟨.hbm, 482, rfl⟩
abbrev main_v469 : Ref sig .tc := ⟨.hbm, 483, rfl⟩
abbrev main_v470 : Ref sig .tc := ⟨.hbm, 484, rfl⟩
abbrev main_v471 : Ref sig .tc := ⟨.hbm, 485, rfl⟩
abbrev main_v472 : Ref sig .tc := ⟨.hbm, 486, rfl⟩
abbrev main_v473 : Ref sig .tc := ⟨.hbm, 487, rfl⟩
abbrev main_v474 : Ref sig .tc := ⟨.hbm, 488, rfl⟩
abbrev main_v475 : Ref sig .tc := ⟨.hbm, 489, rfl⟩
abbrev main_v476 : Ref sig .tc := ⟨.hbm, 490, rfl⟩
abbrev main_v477 : Ref sig .tc := ⟨.hbm, 491, rfl⟩
abbrev main_v478 : Ref sig .tc := ⟨.hbm, 492, rfl⟩
abbrev main_v479 : Ref sig .tc := ⟨.hbm, 493, rfl⟩
abbrev main_v480 : Ref sig .tc := ⟨.hbm, 494, rfl⟩
abbrev main_v481 : Ref sig .tc := ⟨.hbm, 495, rfl⟩
abbrev main_v482 : Ref sig .tc := ⟨.hbm, 496, rfl⟩
abbrev main_v483 : Ref sig .tc := ⟨.hbm, 497, rfl⟩
abbrev main_v484 : Ref sig .tc := ⟨.hbm, 498, rfl⟩
abbrev main_v485 : Ref sig .tc := ⟨.hbm, 499, rfl⟩
abbrev main_v486 : Ref sig .tc := ⟨.hbm, 500, rfl⟩
abbrev main_v487 : Ref sig .tc := ⟨.hbm, 501, rfl⟩
abbrev main_v488 : Ref sig .tc := ⟨.hbm, 502, rfl⟩
abbrev main_v489 : Ref sig .tc := ⟨.hbm, 503, rfl⟩
abbrev main_v490 : Ref sig .tc := ⟨.hbm, 504, rfl⟩
abbrev main_v491 : Ref sig .tc := ⟨.hbm, 505, rfl⟩
abbrev main_v492 : Ref sig .tc := ⟨.hbm, 506, rfl⟩
abbrev main_v493 : Ref sig .tc := ⟨.hbm, 507, rfl⟩
abbrev main_v494 : Ref sig .tc := ⟨.hbm, 508, rfl⟩
abbrev main_v495 : Ref sig .tc := ⟨.hbm, 509, rfl⟩
abbrev main_v496 : Ref sig .tc := ⟨.hbm, 510, rfl⟩
abbrev main_v497 : Ref sig .tc := ⟨.hbm, 511, rfl⟩
abbrev main_v498 : Ref sig .tc := ⟨.hbm, 512, rfl⟩
abbrev main_v499 : Ref sig .tc := ⟨.hbm, 513, rfl⟩
abbrev main_v500 : Ref sig .tc := ⟨.hbm, 514, rfl⟩
abbrev main_v501 : Ref sig .tc := ⟨.hbm, 515, rfl⟩
abbrev main_v502 : Ref sig .tc := ⟨.hbm, 516, rfl⟩
abbrev main_v503 : Ref sig .tc := ⟨.hbm, 517, rfl⟩
abbrev main_v504 : Ref sig .tc := ⟨.hbm, 518, rfl⟩
abbrev main_v505 : Ref sig .tc := ⟨.hbm, 519, rfl⟩
abbrev main_v506 : Ref sig .tc := ⟨.hbm, 520, rfl⟩
abbrev main_v507 : Ref sig .tc := ⟨.hbm, 521, rfl⟩
abbrev main_v508 : Ref sig .tc := ⟨.hbm, 522, rfl⟩
abbrev main_v509 : Ref sig .tc := ⟨.hbm, 523, rfl⟩
abbrev main_v510 : Ref sig .tc := ⟨.hbm, 524, rfl⟩
abbrev main_v511 : Ref sig .tc := ⟨.hbm, 525, rfl⟩
abbrev main_v512 : Ref sig .tc := ⟨.hbm, 526, rfl⟩
abbrev main_v513 : Ref sig .tc := ⟨.hbm, 527, rfl⟩
abbrev main_v514 : Ref sig .tc := ⟨.hbm, 528, rfl⟩
abbrev main_v515 : Ref sig .tc := ⟨.hbm, 529, rfl⟩
abbrev main_v516 : Ref sig .tc := ⟨.hbm, 530, rfl⟩
abbrev main_v517 : Ref sig .tc := ⟨.hbm, 531, rfl⟩
abbrev main_v518 : Ref sig .tc := ⟨.hbm, 532, rfl⟩
abbrev main_cst_2 : Ref sig .tc := ⟨.hbm, 533, rfl⟩
abbrev main_v519 : Ref sig .tc := ⟨.hbm, 534, rfl⟩
abbrev main_cst_3 : Ref sig .tc := ⟨.hbm, 535, rfl⟩
abbrev main_v520 : Ref sig .tc := ⟨.hbm, 536, rfl⟩
abbrev main_v521 : Ref sig .tc := ⟨.hbm, 537, rfl⟩
abbrev main_cst_4 : Ref sig .tc := ⟨.hbm, 538, rfl⟩
abbrev main_v522 : Ref sig .tc := ⟨.hbm, 539, rfl⟩
abbrev main_v523 : Ref sig .tc := ⟨.hbm, 540, rfl⟩
abbrev main_v524 : Ref sig .tc := ⟨.hbm, 541, rfl⟩
abbrev main_v525 : Ref sig .tc := ⟨.hbm, 542, rfl⟩
abbrev main_cst_5 : Ref sig .tc := ⟨.hbm, 543, rfl⟩
abbrev main_v526 : Ref sig .tc := ⟨.hbm, 544, rfl⟩
abbrev main_c_6 : Ref sig .tc := ⟨.hbm, 545, rfl⟩
abbrev main_v527 : Ref sig .tc := ⟨.hbm, 546, rfl⟩
abbrev main_v528 : Ref sig .tc := ⟨.hbm, 547, rfl⟩
abbrev main_v529 : Ref sig .tc := ⟨.hbm, 548, rfl⟩
abbrev main_v530 : Ref sig .tc := ⟨.hbm, 549, rfl⟩
abbrev main_v531 : Ref sig .tc := ⟨.hbm, 550, rfl⟩
abbrev main_v532 : Ref sig .tc := ⟨.hbm, 551, rfl⟩
abbrev main_v533 : Ref sig .tc := ⟨.hbm, 552, rfl⟩
abbrev main_v534 : Ref sig .tc := ⟨.hbm, 553, rfl⟩
abbrev main_v535 : Ref sig .tc := ⟨.hbm, 554, rfl⟩
abbrev main_v536 : Ref sig .tc := ⟨.hbm, 555, rfl⟩
abbrev main_v537 : Ref sig .tc := ⟨.hbm, 556, rfl⟩
abbrev main_v538 : Ref sig .tc := ⟨.hbm, 557, rfl⟩
abbrev main_v539 : Ref sig .tc := ⟨.hbm, 558, rfl⟩
abbrev main_v540 : Ref sig .tc := ⟨.hbm, 559, rfl⟩
abbrev main_v541 : Ref sig .tc := ⟨.hbm, 560, rfl⟩
abbrev main_v542 : Ref sig .tc := ⟨.hbm, 561, rfl⟩
abbrev main_v543 : Ref sig .tc := ⟨.hbm, 562, rfl⟩
abbrev main_v544 : Ref sig .tc := ⟨.hbm, 563, rfl⟩
abbrev main_v545 : Ref sig .tc := ⟨.hbm, 564, rfl⟩
abbrev main_v546 : Ref sig .tc := ⟨.hbm, 565, rfl⟩
abbrev main_v547 : Ref sig .tc := ⟨.hbm, 566, rfl⟩
abbrev main_v548 : Ref sig .tc := ⟨.hbm, 567, rfl⟩
abbrev main_v549 : Ref sig .tc := ⟨.hbm, 568, rfl⟩
abbrev main_v550 : Ref sig .tc := ⟨.hbm, 569, rfl⟩
abbrev main_v551 : Ref sig .tc := ⟨.hbm, 570, rfl⟩
abbrev main_v552 : Ref sig .tc := ⟨.hbm, 571, rfl⟩
abbrev main_v553 : Ref sig .tc := ⟨.hbm, 572, rfl⟩
abbrev main_v554 : Ref sig .tc := ⟨.hbm, 573, rfl⟩
abbrev main_v555 : Ref sig .tc := ⟨.hbm, 574, rfl⟩
abbrev main_v556 : Ref sig .tc := ⟨.hbm, 575, rfl⟩
abbrev main_v557 : Ref sig .tc := ⟨.hbm, 576, rfl⟩
abbrev main_v558 : Ref sig .tc := ⟨.hbm, 577, rfl⟩
abbrev main_v559 : Ref sig .tc := ⟨.hbm, 578, rfl⟩
abbrev main_v560 : Ref sig .tc := ⟨.hbm, 579, rfl⟩
abbrev main_v561 : Ref sig .tc := ⟨.hbm, 580, rfl⟩
abbrev main_v562 : Ref sig .tc := ⟨.hbm, 581, rfl⟩
abbrev main_v563 : Ref sig .tc := ⟨.hbm, 582, rfl⟩
abbrev main_v564 : Ref sig .tc := ⟨.hbm, 583, rfl⟩
abbrev main_v565 : Ref sig .tc := ⟨.hbm, 584, rfl⟩
abbrev main_v566 : Ref sig .tc := ⟨.hbm, 585, rfl⟩
abbrev main_v567 : Ref sig .tc := ⟨.hbm, 586, rfl⟩
abbrev main_v568 : Ref sig .tc := ⟨.hbm, 587, rfl⟩
abbrev main_v569 : Ref sig .tc := ⟨.hbm, 588, rfl⟩
abbrev main_v570 : Ref sig .tc := ⟨.hbm, 589, rfl⟩
abbrev main_v571 : Ref sig .tc := ⟨.hbm, 590, rfl⟩
abbrev main_v572 : Ref sig .tc := ⟨.hbm, 591, rfl⟩
abbrev main_v573 : Ref sig .tc := ⟨.hbm, 592, rfl⟩
abbrev main_v574 : Ref sig .tc := ⟨.hbm, 593, rfl⟩
abbrev main_v575 : Ref sig .tc := ⟨.hbm, 594, rfl⟩
abbrev main_v576 : Ref sig .tc := ⟨.hbm, 595, rfl⟩
abbrev main_v577 : Ref sig .tc := ⟨.hbm, 596, rfl⟩
abbrev main_v578 : Ref sig .tc := ⟨.hbm, 597, rfl⟩
abbrev main_v579 : Ref sig .tc := ⟨.hbm, 598, rfl⟩
abbrev main_v580 : Ref sig .tc := ⟨.hbm, 599, rfl⟩
abbrev main_v581 : Ref sig .tc := ⟨.hbm, 600, rfl⟩
abbrev main_v582 : Ref sig .tc := ⟨.hbm, 601, rfl⟩
abbrev main_v583 : Ref sig .tc := ⟨.hbm, 602, rfl⟩
abbrev main_v584 : Ref sig .tc := ⟨.hbm, 603, rfl⟩
abbrev main_v585 : Ref sig .tc := ⟨.hbm, 604, rfl⟩
abbrev main_v586 : Ref sig .tc := ⟨.hbm, 605, rfl⟩
abbrev main_v587 : Ref sig .tc := ⟨.hbm, 606, rfl⟩
abbrev main_v588 : Ref sig .tc := ⟨.hbm, 607, rfl⟩
abbrev main_v589 : Ref sig .tc := ⟨.hbm, 608, rfl⟩
abbrev main_v590 : Ref sig .tc := ⟨.hbm, 609, rfl⟩
abbrev main_v591 : Ref sig .tc := ⟨.hbm, 610, rfl⟩
abbrev main_v592 : Ref sig .tc := ⟨.hbm, 611, rfl⟩
abbrev main_v593 : Ref sig .tc := ⟨.hbm, 612, rfl⟩
abbrev main_v594 : Ref sig .tc := ⟨.hbm, 613, rfl⟩
abbrev main_v595 : Ref sig .tc := ⟨.hbm, 614, rfl⟩
abbrev main_v596 : Ref sig .tc := ⟨.hbm, 615, rfl⟩
abbrev main_v597 : Ref sig .tc := ⟨.hbm, 616, rfl⟩
abbrev main_v598 : Ref sig .tc := ⟨.hbm, 617, rfl⟩
abbrev main_v599 : Ref sig .tc := ⟨.hbm, 618, rfl⟩
abbrev main_v600 : Ref sig .tc := ⟨.hbm, 619, rfl⟩
abbrev main_v601 : Ref sig .tc := ⟨.hbm, 620, rfl⟩
abbrev main_v602 : Ref sig .tc := ⟨.hbm, 621, rfl⟩
abbrev main_v603 : Ref sig .tc := ⟨.hbm, 622, rfl⟩
abbrev main_v604 : Ref sig .tc := ⟨.hbm, 623, rfl⟩
abbrev main_v605 : Ref sig .tc := ⟨.hbm, 624, rfl⟩
abbrev main_v606 : Ref sig .tc := ⟨.hbm, 625, rfl⟩
abbrev main_v607 : Ref sig .tc := ⟨.hbm, 626, rfl⟩
abbrev main_v608 : Ref sig .tc := ⟨.hbm, 627, rfl⟩
abbrev main_v609 : Ref sig .tc := ⟨.hbm, 628, rfl⟩
abbrev main_v610 : Ref sig .tc := ⟨.hbm, 629, rfl⟩
abbrev main_v611 : Ref sig .tc := ⟨.hbm, 630, rfl⟩
abbrev main_v612 : Ref sig .tc := ⟨.hbm, 631, rfl⟩
abbrev main_v613 : Ref sig .tc := ⟨.hbm, 632, rfl⟩
abbrev main_v614 : Ref sig .tc := ⟨.hbm, 633, rfl⟩
abbrev main_v615 : Ref sig .tc := ⟨.hbm, 634, rfl⟩
abbrev main_v616 : Ref sig .tc := ⟨.hbm, 635, rfl⟩
abbrev main_v617 : Ref sig .tc := ⟨.hbm, 636, rfl⟩
abbrev main_v618 : Ref sig .tc := ⟨.hbm, 637, rfl⟩
abbrev main_v619 : Ref sig .tc := ⟨.hbm, 638, rfl⟩
abbrev main_v620 : Ref sig .tc := ⟨.hbm, 639, rfl⟩
abbrev main_v621 : Ref sig .tc := ⟨.hbm, 640, rfl⟩
abbrev main_v622 : Ref sig .tc := ⟨.hbm, 641, rfl⟩
abbrev main_v623 : Ref sig .tc := ⟨.hbm, 642, rfl⟩
abbrev main_v624 : Ref sig .tc := ⟨.hbm, 643, rfl⟩
abbrev main_v625 : Ref sig .tc := ⟨.hbm, 644, rfl⟩
abbrev main_v626 : Ref sig .tc := ⟨.hbm, 645, rfl⟩
abbrev main_v627 : Ref sig .tc := ⟨.hbm, 646, rfl⟩
abbrev main_v628 : Ref sig .tc := ⟨.hbm, 647, rfl⟩
abbrev main_v629 : Ref sig .tc := ⟨.hbm, 648, rfl⟩
abbrev main_v630 : Ref sig .tc := ⟨.hbm, 649, rfl⟩
abbrev main_v631 : Ref sig .tc := ⟨.hbm, 650, rfl⟩
abbrev main_v632 : Ref sig .tc := ⟨.hbm, 651, rfl⟩
abbrev main_v633 : Ref sig .tc := ⟨.hbm, 652, rfl⟩
abbrev main_v634 : Ref sig .tc := ⟨.hbm, 653, rfl⟩
abbrev main_v635 : Ref sig .tc := ⟨.hbm, 654, rfl⟩
abbrev main_v636 : Ref sig .tc := ⟨.hbm, 655, rfl⟩
abbrev main_v637 : Ref sig .tc := ⟨.hbm, 656, rfl⟩
abbrev main_v638 : Ref sig .tc := ⟨.hbm, 657, rfl⟩
abbrev main_v639 : Ref sig .tc := ⟨.hbm, 658, rfl⟩
abbrev main_v640 : Ref sig .tc := ⟨.hbm, 659, rfl⟩
abbrev main_v641 : Ref sig .tc := ⟨.hbm, 660, rfl⟩
abbrev main_v642 : Ref sig .tc := ⟨.hbm, 661, rfl⟩
abbrev main_v643 : Ref sig .tc := ⟨.hbm, 662, rfl⟩
abbrev main_v644 : Ref sig .tc := ⟨.hbm, 663, rfl⟩
abbrev main_v645 : Ref sig .tc := ⟨.hbm, 664, rfl⟩
abbrev main_v646 : Ref sig .tc := ⟨.hbm, 665, rfl⟩
abbrev main_v647 : Ref sig .tc := ⟨.hbm, 666, rfl⟩
abbrev main_v648 : Ref sig .tc := ⟨.hbm, 667, rfl⟩
abbrev main_v649 : Ref sig .tc := ⟨.hbm, 668, rfl⟩
abbrev main_v650 : Ref sig .tc := ⟨.hbm, 669, rfl⟩
abbrev main_v651 : Ref sig .tc := ⟨.hbm, 670, rfl⟩
abbrev main_v652 : Ref sig .tc := ⟨.hbm, 671, rfl⟩
abbrev main_v653 : Ref sig .tc := ⟨.hbm, 672, rfl⟩
abbrev main_v654 : Ref sig .tc := ⟨.hbm, 673, rfl⟩
abbrev main_v655 : Ref sig .tc := ⟨.hbm, 674, rfl⟩
abbrev main_v656 : Ref sig .tc := ⟨.hbm, 675, rfl⟩
abbrev main_v657 : Ref sig .tc := ⟨.hbm, 676, rfl⟩
abbrev main_v658 : Ref sig .tc := ⟨.hbm, 677, rfl⟩
abbrev main_v659 : Ref sig .tc := ⟨.hbm, 678, rfl⟩
abbrev main_v660 : Ref sig .tc := ⟨.hbm, 679, rfl⟩
abbrev main_v661 : Ref sig .tc := ⟨.hbm, 680, rfl⟩
abbrev main_c_7 : Ref sig .tc := ⟨.hbm, 681, rfl⟩
abbrev main_v662 : Ref sig .tc := ⟨.hbm, 682, rfl⟩
abbrev main_v663 : Ref sig .tc := ⟨.hbm, 683, rfl⟩
abbrev main_c_8 : Ref sig .tc := ⟨.hbm, 684, rfl⟩
abbrev main_v664 : Ref sig .tc := ⟨.hbm, 685, rfl⟩
abbrev main_v665 : Ref sig .tc := ⟨.hbm, 686, rfl⟩
abbrev main_v666 : Ref sig .tc := ⟨.hbm, 687, rfl⟩
abbrev main_v667 : Ref sig .tc := ⟨.hbm, 688, rfl⟩
abbrev main_v668 : Ref sig .tc := ⟨.hbm, 689, rfl⟩
abbrev main_v669 : Ref sig .tc := ⟨.hbm, 690, rfl⟩
abbrev main_v670 : Ref sig .tc := ⟨.hbm, 691, rfl⟩
abbrev main_v671 : Ref sig .tc := ⟨.hbm, 692, rfl⟩
abbrev main_v672 : Ref sig .tc := ⟨.hbm, 693, rfl⟩
abbrev main_v673 : Ref sig .tc := ⟨.hbm, 694, rfl⟩
abbrev main_v674 : Ref sig .tc := ⟨.hbm, 695, rfl⟩
abbrev main_v675 : Ref sig .tc := ⟨.hbm, 696, rfl⟩
abbrev main_v676 : Ref sig .tc := ⟨.hbm, 697, rfl⟩
abbrev main_v677 : Ref sig .tc := ⟨.hbm, 698, rfl⟩
abbrev main_v678 : Ref sig .tc := ⟨.hbm, 699, rfl⟩
abbrev main_v679 : Ref sig .tc := ⟨.hbm, 700, rfl⟩
abbrev main_v680 : Ref sig .tc := ⟨.hbm, 701, rfl⟩
abbrev main_v681 : Ref sig .tc := ⟨.hbm, 702, rfl⟩
abbrev main_v682 : Ref sig .tc := ⟨.hbm, 703, rfl⟩
abbrev main_v683 : Ref sig .tc := ⟨.hbm, 704, rfl⟩
abbrev main_v684 : Ref sig .tc := ⟨.hbm, 705, rfl⟩
abbrev main_v685 : Ref sig .tc := ⟨.hbm, 706, rfl⟩
abbrev main_v686 : Ref sig .tc := ⟨.hbm, 707, rfl⟩
abbrev main_v687 : Ref sig .tc := ⟨.hbm, 708, rfl⟩
abbrev main_v688 : Ref sig .tc := ⟨.hbm, 709, rfl⟩
abbrev main_v689 : Ref sig .tc := ⟨.hbm, 710, rfl⟩
abbrev main_v690 : Ref sig .tc := ⟨.hbm, 711, rfl⟩
abbrev main_v691 : Ref sig .tc := ⟨.hbm, 712, rfl⟩
abbrev main_v692 : Ref sig .tc := ⟨.hbm, 713, rfl⟩
abbrev main_v693 : Ref sig .tc := ⟨.hbm, 714, rfl⟩
abbrev main_v694 : Ref sig .tc := ⟨.hbm, 715, rfl⟩
abbrev main_v695 : Ref sig .tc := ⟨.hbm, 716, rfl⟩
abbrev main_v696 : Ref sig .tc := ⟨.hbm, 717, rfl⟩
abbrev main_v697 : Ref sig .tc := ⟨.hbm, 718, rfl⟩
abbrev main_v698 : Ref sig .tc := ⟨.hbm, 719, rfl⟩
abbrev main_v699 : Ref sig .tc := ⟨.hbm, 720, rfl⟩
abbrev main_v700 : Ref sig .tc := ⟨.hbm, 721, rfl⟩
abbrev main_v701 : Ref sig .tc := ⟨.hbm, 722, rfl⟩
abbrev main_v702 : Ref sig .tc := ⟨.hbm, 723, rfl⟩
abbrev main_v703 : Ref sig .tc := ⟨.hbm, 724, rfl⟩
abbrev main_v704 : Ref sig .tc := ⟨.hbm, 725, rfl⟩
abbrev main_v705 : Ref sig .tc := ⟨.hbm, 726, rfl⟩
abbrev main_v706 : Ref sig .tc := ⟨.hbm, 727, rfl⟩
abbrev main_v707 : Ref sig .tc := ⟨.hbm, 728, rfl⟩
abbrev main_v708 : Ref sig .tc := ⟨.hbm, 729, rfl⟩
abbrev main_v709 : Ref sig .tc := ⟨.hbm, 730, rfl⟩
abbrev main_v710 : Ref sig .tc := ⟨.hbm, 731, rfl⟩
abbrev main_v711 : Ref sig .tc := ⟨.hbm, 732, rfl⟩
abbrev main_v712 : Ref sig .tc := ⟨.hbm, 733, rfl⟩
abbrev main_v713 : Ref sig .tc := ⟨.hbm, 734, rfl⟩
abbrev main_v714 : Ref sig .tc := ⟨.hbm, 735, rfl⟩
abbrev main_v715 : Ref sig .tc := ⟨.hbm, 736, rfl⟩
abbrev main_v716 : Ref sig .tc := ⟨.hbm, 737, rfl⟩
abbrev main_v717 : Ref sig .tc := ⟨.hbm, 738, rfl⟩
abbrev main_v718 : Ref sig .tc := ⟨.hbm, 739, rfl⟩
abbrev main_v719 : Ref sig .tc := ⟨.hbm, 740, rfl⟩
abbrev main_v720 : Ref sig .tc := ⟨.hbm, 741, rfl⟩
abbrev main_v721 : Ref sig .tc := ⟨.hbm, 742, rfl⟩
abbrev main_v722 : Ref sig .tc := ⟨.hbm, 743, rfl⟩
abbrev main_v723 : Ref sig .tc := ⟨.hbm, 744, rfl⟩
abbrev main_v724 : Ref sig .tc := ⟨.hbm, 745, rfl⟩
abbrev main_v725 : Ref sig .tc := ⟨.hbm, 746, rfl⟩
abbrev main_v726 : Ref sig .tc := ⟨.hbm, 747, rfl⟩
abbrev main_v727 : Ref sig .tc := ⟨.hbm, 748, rfl⟩
abbrev main_v728 : Ref sig .tc := ⟨.hbm, 749, rfl⟩
abbrev main_v729 : Ref sig .tc := ⟨.hbm, 750, rfl⟩
abbrev main_v730 : Ref sig .tc := ⟨.hbm, 751, rfl⟩
abbrev main_v731 : Ref sig .tc := ⟨.hbm, 752, rfl⟩
abbrev main_v732 : Ref sig .tc := ⟨.hbm, 753, rfl⟩
abbrev main_v733 : Ref sig .tc := ⟨.hbm, 754, rfl⟩
abbrev main_v734 : Ref sig .tc := ⟨.hbm, 755, rfl⟩
abbrev main_v735 : Ref sig .tc := ⟨.hbm, 756, rfl⟩
abbrev main_v736 : Ref sig .tc := ⟨.hbm, 757, rfl⟩
abbrev main_v737 : Ref sig .tc := ⟨.hbm, 758, rfl⟩
abbrev main_v738 : Ref sig .tc := ⟨.hbm, 759, rfl⟩
abbrev main_v739 : Ref sig .tc := ⟨.hbm, 760, rfl⟩
abbrev main_v740 : Ref sig .tc := ⟨.hbm, 761, rfl⟩
abbrev main_v741 : Ref sig .tc := ⟨.hbm, 762, rfl⟩
abbrev main_v742 : Ref sig .tc := ⟨.hbm, 763, rfl⟩
abbrev main_v743 : Ref sig .tc := ⟨.hbm, 764, rfl⟩
abbrev main_v744 : Ref sig .tc := ⟨.hbm, 765, rfl⟩
abbrev main_v745 : Ref sig .tc := ⟨.hbm, 766, rfl⟩
abbrev main_v746 : Ref sig .tc := ⟨.hbm, 767, rfl⟩
abbrev main_v747 : Ref sig .tc := ⟨.hbm, 768, rfl⟩
abbrev main_v748 : Ref sig .tc := ⟨.hbm, 769, rfl⟩
abbrev main_v749 : Ref sig .tc := ⟨.hbm, 770, rfl⟩
abbrev main_v750 : Ref sig .tc := ⟨.hbm, 771, rfl⟩
abbrev main_v751 : Ref sig .tc := ⟨.hbm, 772, rfl⟩
abbrev main_v752 : Ref sig .tc := ⟨.hbm, 773, rfl⟩
abbrev main_v753 : Ref sig .tc := ⟨.hbm, 774, rfl⟩
abbrev main_v754 : Ref sig .tc := ⟨.hbm, 775, rfl⟩
abbrev main_v755 : Ref sig .tc := ⟨.hbm, 776, rfl⟩
abbrev main_v756 : Ref sig .tc := ⟨.hbm, 777, rfl⟩
abbrev main_v757 : Ref sig .tc := ⟨.hbm, 778, rfl⟩
abbrev main_v758 : Ref sig .tc := ⟨.hbm, 779, rfl⟩
abbrev main_v759 : Ref sig .tc := ⟨.hbm, 780, rfl⟩
abbrev main_v760 : Ref sig .tc := ⟨.hbm, 781, rfl⟩
abbrev main_v761 : Ref sig .tc := ⟨.hbm, 782, rfl⟩
abbrev main_v762 : Ref sig .tc := ⟨.hbm, 783, rfl⟩
abbrev main_v763 : Ref sig .tc := ⟨.hbm, 784, rfl⟩
abbrev main_v764 : Ref sig .tc := ⟨.hbm, 785, rfl⟩
abbrev main_v765 : Ref sig .tc := ⟨.hbm, 786, rfl⟩
abbrev main_v766 : Ref sig .tc := ⟨.hbm, 787, rfl⟩
abbrev main_v767 : Ref sig .tc := ⟨.hbm, 788, rfl⟩
abbrev main_v768 : Ref sig .tc := ⟨.hbm, 789, rfl⟩
abbrev main_v769 : Ref sig .tc := ⟨.hbm, 790, rfl⟩
abbrev main_v770 : Ref sig .tc := ⟨.hbm, 791, rfl⟩
abbrev main_v771 : Ref sig .tc := ⟨.hbm, 792, rfl⟩
abbrev main_v772 : Ref sig .tc := ⟨.hbm, 793, rfl⟩
abbrev main_v773 : Ref sig .tc := ⟨.hbm, 794, rfl⟩
abbrev main_v774 : Ref sig .tc := ⟨.hbm, 795, rfl⟩
abbrev main_v775 : Ref sig .tc := ⟨.hbm, 796, rfl⟩
abbrev main_v776 : Ref sig .tc := ⟨.hbm, 797, rfl⟩
abbrev main_v777 : Ref sig .tc := ⟨.hbm, 798, rfl⟩
abbrev main_v778 : Ref sig .tc := ⟨.hbm, 799, rfl⟩
abbrev main_v779 : Ref sig .tc := ⟨.hbm, 800, rfl⟩
abbrev main_v780 : Ref sig .tc := ⟨.hbm, 801, rfl⟩
abbrev main_v781 : Ref sig .tc := ⟨.hbm, 802, rfl⟩
abbrev main_v782 : Ref sig .tc := ⟨.hbm, 803, rfl⟩
abbrev main_v783 : Ref sig .tc := ⟨.hbm, 804, rfl⟩
abbrev main_v784 : Ref sig .tc := ⟨.hbm, 805, rfl⟩
abbrev main_v785 : Ref sig .tc := ⟨.hbm, 806, rfl⟩
abbrev main_v786 : Ref sig .tc := ⟨.hbm, 807, rfl⟩
abbrev main_v787 : Ref sig .tc := ⟨.hbm, 808, rfl⟩
abbrev main_v788 : Ref sig .tc := ⟨.hbm, 809, rfl⟩
abbrev main_v789 : Ref sig .tc := ⟨.hbm, 810, rfl⟩
abbrev main_v790 : Ref sig .tc := ⟨.hbm, 811, rfl⟩
abbrev main_v791 : Ref sig .tc := ⟨.hbm, 812, rfl⟩
abbrev main_v792 : Ref sig .tc := ⟨.hbm, 813, rfl⟩
abbrev main_v793 : Ref sig .tc := ⟨.hbm, 814, rfl⟩
abbrev main_v794 : Ref sig .tc := ⟨.hbm, 815, rfl⟩
abbrev main_v795 : Ref sig .tc := ⟨.hbm, 816, rfl⟩
abbrev main_v796 : Ref sig .tc := ⟨.hbm, 817, rfl⟩
abbrev main_v797 : Ref sig .tc := ⟨.hbm, 818, rfl⟩
abbrev main_v798 : Ref sig .tc := ⟨.hbm, 819, rfl⟩
abbrev main_v799 : Ref sig .tc := ⟨.hbm, 820, rfl⟩
abbrev main_v800 : Ref sig .tc := ⟨.hbm, 821, rfl⟩
abbrev main_v801 : Ref sig .tc := ⟨.hbm, 822, rfl⟩
abbrev main_v802 : Ref sig .tc := ⟨.hbm, 823, rfl⟩
abbrev main_cst_9 : Ref sig .tc := ⟨.hbm, 824, rfl⟩
abbrev main_v803 : Ref sig .tc := ⟨.hbm, 825, rfl⟩
abbrev main_cst_10 : Ref sig .tc := ⟨.hbm, 826, rfl⟩
abbrev main_v804 : Ref sig .tc := ⟨.hbm, 827, rfl⟩
abbrev main_v805 : Ref sig .tc := ⟨.hbm, 828, rfl⟩
abbrev main_cst_11 : Ref sig .tc := ⟨.hbm, 829, rfl⟩
abbrev main_v806 : Ref sig .tc := ⟨.hbm, 830, rfl⟩
abbrev main_v807 : Ref sig .tc := ⟨.hbm, 831, rfl⟩
abbrev main_v808 : Ref sig .tc := ⟨.hbm, 832, rfl⟩
abbrev main_v809 : Ref sig .tc := ⟨.hbm, 833, rfl⟩
abbrev main_v810 : Ref sig .tc := ⟨.hbm, 834, rfl⟩
abbrev main_v811 : Ref sig .tc := ⟨.hbm, 835, rfl⟩
abbrev main_v812 : Ref sig .tc := ⟨.hbm, 836, rfl⟩
abbrev main_v813 : Ref sig .tc := ⟨.hbm, 837, rfl⟩
abbrev main_v814 : Ref sig .tc := ⟨.hbm, 838, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8388608 : S_.BroadcastsInDim S8388608 (![] : Fin 0 → Fin S8388608.rank)
  bcast_S_S1 : S_.BroadcastsInDim S1 (![] : Fin 0 → Fin S1.rank)
  shapeCasts_S8388608_S1x2x4194304 : S8388608.ShapeCasts S1x2x4194304
  slices_S1x2x4194304_S1x1x4194304_0_0_0 : S1x2x4194304.Slices ![0, 0, 0] S1x1x4194304
  shapeCasts_S1x1x4194304_S1x4194304 : S1x1x4194304.ShapeCasts S1x4194304
  slices_S1x2x4194304_S1x1x4194304_0_1_0 : S1x2x4194304.Slices ![0, 1, 0] S1x1x4194304
  bcast_S1x4194304_S1x1x4194304_0_2 : S1x4194304.BroadcastsInDim S1x1x4194304 (![0, 2] : Fin 2 → Fin S1x1x4194304.rank)
  concatenates_S1x1x4194304_S1x1x4194304_S1x2x4194304_d1 : Shape.Concatenates [S1x1x4194304, S1x1x4194304] S1x2x4194304 1
  shapeCasts_S1x2x4194304_S8388608 : S1x2x4194304.ShapeCasts S8388608
  shapeCasts_S8388608_S2x2x2097152 : S8388608.ShapeCasts S2x2x2097152
  slices_S2x2x2097152_S2x1x2097152_0_0_0 : S2x2x2097152.Slices ![0, 0, 0] S2x1x2097152
  shapeCasts_S2x1x2097152_S2x2097152 : S2x1x2097152.ShapeCasts S2x2097152
  slices_S2x2x2097152_S2x1x2097152_0_1_0 : S2x2x2097152.Slices ![0, 1, 0] S2x1x2097152
  bcast_S2x2097152_S2x1x2097152_0_2 : S2x2097152.BroadcastsInDim S2x1x2097152 (![0, 2] : Fin 2 → Fin S2x1x2097152.rank)
  concatenates_S2x1x2097152_S2x1x2097152_S2x2x2097152_d1 : Shape.Concatenates [S2x1x2097152, S2x1x2097152] S2x2x2097152 1
  shapeCasts_S2x2x2097152_S8388608 : S2x2x2097152.ShapeCasts S8388608
  shapeCasts_S8388608_S4x2x1048576 : S8388608.ShapeCasts S4x2x1048576
  slices_S4x2x1048576_S4x1x1048576_0_0_0 : S4x2x1048576.Slices ![0, 0, 0] S4x1x1048576
  shapeCasts_S4x1x1048576_S4x1048576 : S4x1x1048576.ShapeCasts S4x1048576
  slices_S4x2x1048576_S4x1x1048576_0_1_0 : S4x2x1048576.Slices ![0, 1, 0] S4x1x1048576
  bcast_S4x1048576_S4x1x1048576_0_2 : S4x1048576.BroadcastsInDim S4x1x1048576 (![0, 2] : Fin 2 → Fin S4x1x1048576.rank)
  concatenates_S4x1x1048576_S4x1x1048576_S4x2x1048576_d1 : Shape.Concatenates [S4x1x1048576, S4x1x1048576] S4x2x1048576 1
  shapeCasts_S4x2x1048576_S8388608 : S4x2x1048576.ShapeCasts S8388608
  shapeCasts_S8388608_S8x2x524288 : S8388608.ShapeCasts S8x2x524288
  slices_S8x2x524288_S8x1x524288_0_0_0 : S8x2x524288.Slices ![0, 0, 0] S8x1x524288
  shapeCasts_S8x1x524288_S8x524288 : S8x1x524288.ShapeCasts S8x524288
  slices_S8x2x524288_S8x1x524288_0_1_0 : S8x2x524288.Slices ![0, 1, 0] S8x1x524288
  bcast_S8x524288_S8x1x524288_0_2 : S8x524288.BroadcastsInDim S8x1x524288 (![0, 2] : Fin 2 → Fin S8x1x524288.rank)
  concatenates_S8x1x524288_S8x1x524288_S8x2x524288_d1 : Shape.Concatenates [S8x1x524288, S8x1x524288] S8x2x524288 1
  shapeCasts_S8x2x524288_S8388608 : S8x2x524288.ShapeCasts S8388608
  shapeCasts_S8388608_S16x2x262144 : S8388608.ShapeCasts S16x2x262144
  slices_S16x2x262144_S16x1x262144_0_0_0 : S16x2x262144.Slices ![0, 0, 0] S16x1x262144
  shapeCasts_S16x1x262144_S16x262144 : S16x1x262144.ShapeCasts S16x262144
  slices_S16x2x262144_S16x1x262144_0_1_0 : S16x2x262144.Slices ![0, 1, 0] S16x1x262144
  bcast_S16x262144_S16x1x262144_0_2 : S16x262144.BroadcastsInDim S16x1x262144 (![0, 2] : Fin 2 → Fin S16x1x262144.rank)
  concatenates_S16x1x262144_S16x1x262144_S16x2x262144_d1 : Shape.Concatenates [S16x1x262144, S16x1x262144] S16x2x262144 1
  shapeCasts_S16x2x262144_S8388608 : S16x2x262144.ShapeCasts S8388608
  shapeCasts_S8388608_S32x2x131072 : S8388608.ShapeCasts S32x2x131072
  slices_S32x2x131072_S32x1x131072_0_0_0 : S32x2x131072.Slices ![0, 0, 0] S32x1x131072
  shapeCasts_S32x1x131072_S32x131072 : S32x1x131072.ShapeCasts S32x131072
  slices_S32x2x131072_S32x1x131072_0_1_0 : S32x2x131072.Slices ![0, 1, 0] S32x1x131072
  bcast_S32x131072_S32x1x131072_0_2 : S32x131072.BroadcastsInDim S32x1x131072 (![0, 2] : Fin 2 → Fin S32x1x131072.rank)
  concatenates_S32x1x131072_S32x1x131072_S32x2x131072_d1 : Shape.Concatenates [S32x1x131072, S32x1x131072] S32x2x131072 1
  shapeCasts_S32x2x131072_S8388608 : S32x2x131072.ShapeCasts S8388608
  shapeCasts_S8388608_S64x2x65536 : S8388608.ShapeCasts S64x2x65536
  slices_S64x2x65536_S64x1x65536_0_0_0 : S64x2x65536.Slices ![0, 0, 0] S64x1x65536
  shapeCasts_S64x1x65536_S64x65536 : S64x1x65536.ShapeCasts S64x65536
  slices_S64x2x65536_S64x1x65536_0_1_0 : S64x2x65536.Slices ![0, 1, 0] S64x1x65536
  bcast_S64x65536_S64x1x65536_0_2 : S64x65536.BroadcastsInDim S64x1x65536 (![0, 2] : Fin 2 → Fin S64x1x65536.rank)
  concatenates_S64x1x65536_S64x1x65536_S64x2x65536_d1 : Shape.Concatenates [S64x1x65536, S64x1x65536] S64x2x65536 1
  shapeCasts_S64x2x65536_S8388608 : S64x2x65536.ShapeCasts S8388608
  shapeCasts_S8388608_S128x2x32768 : S8388608.ShapeCasts S128x2x32768
  slices_S128x2x32768_S128x1x32768_0_0_0 : S128x2x32768.Slices ![0, 0, 0] S128x1x32768
  shapeCasts_S128x1x32768_S128x32768 : S128x1x32768.ShapeCasts S128x32768
  slices_S128x2x32768_S128x1x32768_0_1_0 : S128x2x32768.Slices ![0, 1, 0] S128x1x32768
  bcast_S128x32768_S128x1x32768_0_2 : S128x32768.BroadcastsInDim S128x1x32768 (![0, 2] : Fin 2 → Fin S128x1x32768.rank)
  concatenates_S128x1x32768_S128x1x32768_S128x2x32768_d1 : Shape.Concatenates [S128x1x32768, S128x1x32768] S128x2x32768 1
  shapeCasts_S128x2x32768_S8388608 : S128x2x32768.ShapeCasts S8388608
  shapeCasts_S8388608_S256x2x16384 : S8388608.ShapeCasts S256x2x16384
  slices_S256x2x16384_S256x1x16384_0_0_0 : S256x2x16384.Slices ![0, 0, 0] S256x1x16384
  shapeCasts_S256x1x16384_S256x16384 : S256x1x16384.ShapeCasts S256x16384
  slices_S256x2x16384_S256x1x16384_0_1_0 : S256x2x16384.Slices ![0, 1, 0] S256x1x16384
  bcast_S256x16384_S256x1x16384_0_2 : S256x16384.BroadcastsInDim S256x1x16384 (![0, 2] : Fin 2 → Fin S256x1x16384.rank)
  concatenates_S256x1x16384_S256x1x16384_S256x2x16384_d1 : Shape.Concatenates [S256x1x16384, S256x1x16384] S256x2x16384 1
  shapeCasts_S256x2x16384_S8388608 : S256x2x16384.ShapeCasts S8388608
  shapeCasts_S8388608_S512x2x8192 : S8388608.ShapeCasts S512x2x8192
  slices_S512x2x8192_S512x1x8192_0_0_0 : S512x2x8192.Slices ![0, 0, 0] S512x1x8192
  shapeCasts_S512x1x8192_S512x8192 : S512x1x8192.ShapeCasts S512x8192
  slices_S512x2x8192_S512x1x8192_0_1_0 : S512x2x8192.Slices ![0, 1, 0] S512x1x8192
  bcast_S512x8192_S512x1x8192_0_2 : S512x8192.BroadcastsInDim S512x1x8192 (![0, 2] : Fin 2 → Fin S512x1x8192.rank)
  concatenates_S512x1x8192_S512x1x8192_S512x2x8192_d1 : Shape.Concatenates [S512x1x8192, S512x1x8192] S512x2x8192 1
  shapeCasts_S512x2x8192_S8388608 : S512x2x8192.ShapeCasts S8388608
  shapeCasts_S8388608_S1024x2x4096 : S8388608.ShapeCasts S1024x2x4096
  slices_S1024x2x4096_S1024x1x4096_0_0_0 : S1024x2x4096.Slices ![0, 0, 0] S1024x1x4096
  shapeCasts_S1024x1x4096_S1024x4096 : S1024x1x4096.ShapeCasts S1024x4096
  slices_S1024x2x4096_S1024x1x4096_0_1_0 : S1024x2x4096.Slices ![0, 1, 0] S1024x1x4096
  bcast_S1024x4096_S1024x1x4096_0_2 : S1024x4096.BroadcastsInDim S1024x1x4096 (![0, 2] : Fin 2 → Fin S1024x1x4096.rank)
  concatenates_S1024x1x4096_S1024x1x4096_S1024x2x4096_d1 : Shape.Concatenates [S1024x1x4096, S1024x1x4096] S1024x2x4096 1
  shapeCasts_S1024x2x4096_S8388608 : S1024x2x4096.ShapeCasts S8388608
  shapeCasts_S8388608_S2048x2x2048 : S8388608.ShapeCasts S2048x2x2048
  slices_S2048x2x2048_S2048x1x2048_0_0_0 : S2048x2x2048.Slices ![0, 0, 0] S2048x1x2048
  shapeCasts_S2048x1x2048_S2048x2048 : S2048x1x2048.ShapeCasts S2048x2048
  slices_S2048x2x2048_S2048x1x2048_0_1_0 : S2048x2x2048.Slices ![0, 1, 0] S2048x1x2048
  bcast_S2048x2048_S2048x1x2048_0_2 : S2048x2048.BroadcastsInDim S2048x1x2048 (![0, 2] : Fin 2 → Fin S2048x1x2048.rank)
  concatenates_S2048x1x2048_S2048x1x2048_S2048x2x2048_d1 : Shape.Concatenates [S2048x1x2048, S2048x1x2048] S2048x2x2048 1
  shapeCasts_S2048x2x2048_S8388608 : S2048x2x2048.ShapeCasts S8388608
  shapeCasts_S8388608_S4096x2x1024 : S8388608.ShapeCasts S4096x2x1024
  slices_S4096x2x1024_S4096x1x1024_0_0_0 : S4096x2x1024.Slices ![0, 0, 0] S4096x1x1024
  shapeCasts_S4096x1x1024_S4096x1024 : S4096x1x1024.ShapeCasts S4096x1024
  slices_S4096x2x1024_S4096x1x1024_0_1_0 : S4096x2x1024.Slices ![0, 1, 0] S4096x1x1024
  bcast_S4096x1024_S4096x1x1024_0_2 : S4096x1024.BroadcastsInDim S4096x1x1024 (![0, 2] : Fin 2 → Fin S4096x1x1024.rank)
  concatenates_S4096x1x1024_S4096x1x1024_S4096x2x1024_d1 : Shape.Concatenates [S4096x1x1024, S4096x1x1024] S4096x2x1024 1
  shapeCasts_S4096x2x1024_S8388608 : S4096x2x1024.ShapeCasts S8388608
  shapeCasts_S8388608_S8192x2x512 : S8388608.ShapeCasts S8192x2x512
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  bcast_S8192x512_S8192x1x512_0_2 : S8192x512.BroadcastsInDim S8192x1x512 (![0, 2] : Fin 2 → Fin S8192x1x512.rank)
  concatenates_S8192x1x512_S8192x1x512_S8192x2x512_d1 : Shape.Concatenates [S8192x1x512, S8192x1x512] S8192x2x512 1
  shapeCasts_S8192x2x512_S8388608 : S8192x2x512.ShapeCasts S8388608
  shapeCasts_S8388608_S16384x2x256 : S8388608.ShapeCasts S16384x2x256
  slices_S16384x2x256_S16384x1x256_0_0_0 : S16384x2x256.Slices ![0, 0, 0] S16384x1x256
  shapeCasts_S16384x1x256_S16384x256 : S16384x1x256.ShapeCasts S16384x256
  slices_S16384x2x256_S16384x1x256_0_1_0 : S16384x2x256.Slices ![0, 1, 0] S16384x1x256
  bcast_S16384x256_S16384x1x256_0_2 : S16384x256.BroadcastsInDim S16384x1x256 (![0, 2] : Fin 2 → Fin S16384x1x256.rank)
  concatenates_S16384x1x256_S16384x1x256_S16384x2x256_d1 : Shape.Concatenates [S16384x1x256, S16384x1x256] S16384x2x256 1
  shapeCasts_S16384x2x256_S8388608 : S16384x2x256.ShapeCasts S8388608
  shapeCasts_S8388608_S32768x2x128 : S8388608.ShapeCasts S32768x2x128
  slices_S32768x2x128_S32768x1x128_0_0_0 : S32768x2x128.Slices ![0, 0, 0] S32768x1x128
  shapeCasts_S32768x1x128_S32768x128 : S32768x1x128.ShapeCasts S32768x128
  slices_S32768x2x128_S32768x1x128_0_1_0 : S32768x2x128.Slices ![0, 1, 0] S32768x1x128
  bcast_S32768x128_S32768x1x128_0_2 : S32768x128.BroadcastsInDim S32768x1x128 (![0, 2] : Fin 2 → Fin S32768x1x128.rank)
  concatenates_S32768x1x128_S32768x1x128_S32768x2x128_d1 : Shape.Concatenates [S32768x1x128, S32768x1x128] S32768x2x128 1
  shapeCasts_S32768x2x128_S8388608 : S32768x2x128.ShapeCasts S8388608
  shapeCasts_S8388608_S65536x2x64 : S8388608.ShapeCasts S65536x2x64
  slices_S65536x2x64_S65536x1x64_0_0_0 : S65536x2x64.Slices ![0, 0, 0] S65536x1x64
  shapeCasts_S65536x1x64_S65536x64 : S65536x1x64.ShapeCasts S65536x64
  slices_S65536x2x64_S65536x1x64_0_1_0 : S65536x2x64.Slices ![0, 1, 0] S65536x1x64
  bcast_S65536x64_S65536x1x64_0_2 : S65536x64.BroadcastsInDim S65536x1x64 (![0, 2] : Fin 2 → Fin S65536x1x64.rank)
  concatenates_S65536x1x64_S65536x1x64_S65536x2x64_d1 : Shape.Concatenates [S65536x1x64, S65536x1x64] S65536x2x64 1
  shapeCasts_S65536x2x64_S8388608 : S65536x2x64.ShapeCasts S8388608
  shapeCasts_S8388608_S131072x2x32 : S8388608.ShapeCasts S131072x2x32
  slices_S131072x2x32_S131072x1x32_0_0_0 : S131072x2x32.Slices ![0, 0, 0] S131072x1x32
  shapeCasts_S131072x1x32_S131072x32 : S131072x1x32.ShapeCasts S131072x32
  slices_S131072x2x32_S131072x1x32_0_1_0 : S131072x2x32.Slices ![0, 1, 0] S131072x1x32
  bcast_S131072x32_S131072x1x32_0_2 : S131072x32.BroadcastsInDim S131072x1x32 (![0, 2] : Fin 2 → Fin S131072x1x32.rank)
  concatenates_S131072x1x32_S131072x1x32_S131072x2x32_d1 : Shape.Concatenates [S131072x1x32, S131072x1x32] S131072x2x32 1
  shapeCasts_S131072x2x32_S8388608 : S131072x2x32.ShapeCasts S8388608
  shapeCasts_S8388608_S262144x2x16 : S8388608.ShapeCasts S262144x2x16
  slices_S262144x2x16_S262144x1x16_0_0_0 : S262144x2x16.Slices ![0, 0, 0] S262144x1x16
  shapeCasts_S262144x1x16_S262144x16 : S262144x1x16.ShapeCasts S262144x16
  slices_S262144x2x16_S262144x1x16_0_1_0 : S262144x2x16.Slices ![0, 1, 0] S262144x1x16
  bcast_S262144x16_S262144x1x16_0_2 : S262144x16.BroadcastsInDim S262144x1x16 (![0, 2] : Fin 2 → Fin S262144x1x16.rank)
  concatenates_S262144x1x16_S262144x1x16_S262144x2x16_d1 : Shape.Concatenates [S262144x1x16, S262144x1x16] S262144x2x16 1
  shapeCasts_S262144x2x16_S8388608 : S262144x2x16.ShapeCasts S8388608
  shapeCasts_S8388608_S524288x2x8 : S8388608.ShapeCasts S524288x2x8
  slices_S524288x2x8_S524288x1x8_0_0_0 : S524288x2x8.Slices ![0, 0, 0] S524288x1x8
  shapeCasts_S524288x1x8_S524288x8 : S524288x1x8.ShapeCasts S524288x8
  slices_S524288x2x8_S524288x1x8_0_1_0 : S524288x2x8.Slices ![0, 1, 0] S524288x1x8
  bcast_S524288x8_S524288x1x8_0_2 : S524288x8.BroadcastsInDim S524288x1x8 (![0, 2] : Fin 2 → Fin S524288x1x8.rank)
  concatenates_S524288x1x8_S524288x1x8_S524288x2x8_d1 : Shape.Concatenates [S524288x1x8, S524288x1x8] S524288x2x8 1
  shapeCasts_S524288x2x8_S8388608 : S524288x2x8.ShapeCasts S8388608
  shapeCasts_S8388608_S1048576x2x4 : S8388608.ShapeCasts S1048576x2x4
  slices_S1048576x2x4_S1048576x1x4_0_0_0 : S1048576x2x4.Slices ![0, 0, 0] S1048576x1x4
  shapeCasts_S1048576x1x4_S1048576x4 : S1048576x1x4.ShapeCasts S1048576x4
  slices_S1048576x2x4_S1048576x1x4_0_1_0 : S1048576x2x4.Slices ![0, 1, 0] S1048576x1x4
  bcast_S1048576x4_S1048576x1x4_0_2 : S1048576x4.BroadcastsInDim S1048576x1x4 (![0, 2] : Fin 2 → Fin S1048576x1x4.rank)
  concatenates_S1048576x1x4_S1048576x1x4_S1048576x2x4_d1 : Shape.Concatenates [S1048576x1x4, S1048576x1x4] S1048576x2x4 1
  shapeCasts_S1048576x2x4_S8388608 : S1048576x2x4.ShapeCasts S8388608
  shapeCasts_S8388608_S2097152x2x2 : S8388608.ShapeCasts S2097152x2x2
  slices_S2097152x2x2_S2097152x1x2_0_0_0 : S2097152x2x2.Slices ![0, 0, 0] S2097152x1x2
  shapeCasts_S2097152x1x2_S2097152x2 : S2097152x1x2.ShapeCasts S2097152x2
  slices_S2097152x2x2_S2097152x1x2_0_1_0 : S2097152x2x2.Slices ![0, 1, 0] S2097152x1x2
  bcast_S2097152x2_S2097152x1x2_0_2 : S2097152x2.BroadcastsInDim S2097152x1x2 (![0, 2] : Fin 2 → Fin S2097152x1x2.rank)
  concatenates_S2097152x1x2_S2097152x1x2_S2097152x2x2_d1 : Shape.Concatenates [S2097152x1x2, S2097152x1x2] S2097152x2x2 1
  shapeCasts_S2097152x2x2_S8388608 : S2097152x2x2.ShapeCasts S8388608
  shapeCasts_S8388608_S4194304x2x1 : S8388608.ShapeCasts S4194304x2x1
  slices_S4194304x2x1_S4194304x1x1_0_0_0 : S4194304x2x1.Slices ![0, 0, 0] S4194304x1x1
  shapeCasts_S4194304x1x1_S4194304x1 : S4194304x1x1.ShapeCasts S4194304x1
  slices_S4194304x2x1_S4194304x1x1_0_1_0 : S4194304x2x1.Slices ![0, 1, 0] S4194304x1x1
  bcast_S4194304x1_S4194304x1x1_0_2 : S4194304x1.BroadcastsInDim S4194304x1x1 (![0, 2] : Fin 2 → Fin S4194304x1x1.rank)
  concatenates_S4194304x1x1_S4194304x1x1_S4194304x2x1_d1 : Shape.Concatenates [S4194304x1x1, S4194304x1x1] S4194304x2x1 1
  shapeCasts_S4194304x2x1_S8388608 : S4194304x2x1.ShapeCasts S8388608
  bcast_S8388608_S8388608x1_0 : S8388608.BroadcastsInDim S8388608x1 (![0] : Fin 1 → Fin S8388608x1.rank)
  reducesTo_S8388608_S_d0 : S8388608.ReducesTo [0] S_
  h_S_ : 0 < S_.numel
  shapeCasts_S8388608_S4096x2048 : S8388608.ShapeCasts S4096x2048
  bcast_S_S4096 : S_.BroadcastsInDim S4096 (![] : Fin 0 → Fin S4096.rank)
  shapeCasts_S4096_S1x2x2048 : S4096.ShapeCasts S1x2x2048
  slices_S1x2x2048_S1x1x2048_0_0_0 : S1x2x2048.Slices ![0, 0, 0] S1x1x2048
  shapeCasts_S1x1x2048_S1x2048 : S1x1x2048.ShapeCasts S1x2048
  slices_S1x2x2048_S1x1x2048_0_1_0 : S1x2x2048.Slices ![0, 1, 0] S1x1x2048
  bcast_S1x2048_S1x1x2048_0_2 : S1x2048.BroadcastsInDim S1x1x2048 (![0, 2] : Fin 2 → Fin S1x1x2048.rank)
  concatenates_S1x1x2048_S1x1x2048_S1x2x2048_d1 : Shape.Concatenates [S1x1x2048, S1x1x2048] S1x2x2048 1
  shapeCasts_S1x2x2048_S4096 : S1x2x2048.ShapeCasts S4096
  shapeCasts_S4096_S2x2x1024 : S4096.ShapeCasts S2x2x1024
  slices_S2x2x1024_S2x1x1024_0_0_0 : S2x2x1024.Slices ![0, 0, 0] S2x1x1024
  shapeCasts_S2x1x1024_S2x1024 : S2x1x1024.ShapeCasts S2x1024
  slices_S2x2x1024_S2x1x1024_0_1_0 : S2x2x1024.Slices ![0, 1, 0] S2x1x1024
  bcast_S2x1024_S2x1x1024_0_2 : S2x1024.BroadcastsInDim S2x1x1024 (![0, 2] : Fin 2 → Fin S2x1x1024.rank)
  concatenates_S2x1x1024_S2x1x1024_S2x2x1024_d1 : Shape.Concatenates [S2x1x1024, S2x1x1024] S2x2x1024 1
  shapeCasts_S2x2x1024_S4096 : S2x2x1024.ShapeCasts S4096
  shapeCasts_S4096_S4x2x512 : S4096.ShapeCasts S4x2x512
  slices_S4x2x512_S4x1x512_0_0_0 : S4x2x512.Slices ![0, 0, 0] S4x1x512
  shapeCasts_S4x1x512_S4x512 : S4x1x512.ShapeCasts S4x512
  slices_S4x2x512_S4x1x512_0_1_0 : S4x2x512.Slices ![0, 1, 0] S4x1x512
  bcast_S4x512_S4x1x512_0_2 : S4x512.BroadcastsInDim S4x1x512 (![0, 2] : Fin 2 → Fin S4x1x512.rank)
  concatenates_S4x1x512_S4x1x512_S4x2x512_d1 : Shape.Concatenates [S4x1x512, S4x1x512] S4x2x512 1
  shapeCasts_S4x2x512_S4096 : S4x2x512.ShapeCasts S4096
  shapeCasts_S4096_S8x2x256 : S4096.ShapeCasts S8x2x256
  slices_S8x2x256_S8x1x256_0_0_0 : S8x2x256.Slices ![0, 0, 0] S8x1x256
  shapeCasts_S8x1x256_S8x256 : S8x1x256.ShapeCasts S8x256
  slices_S8x2x256_S8x1x256_0_1_0 : S8x2x256.Slices ![0, 1, 0] S8x1x256
  bcast_S8x256_S8x1x256_0_2 : S8x256.BroadcastsInDim S8x1x256 (![0, 2] : Fin 2 → Fin S8x1x256.rank)
  concatenates_S8x1x256_S8x1x256_S8x2x256_d1 : Shape.Concatenates [S8x1x256, S8x1x256] S8x2x256 1
  shapeCasts_S8x2x256_S4096 : S8x2x256.ShapeCasts S4096
  shapeCasts_S4096_S16x2x128 : S4096.ShapeCasts S16x2x128
  slices_S16x2x128_S16x1x128_0_0_0 : S16x2x128.Slices ![0, 0, 0] S16x1x128
  shapeCasts_S16x1x128_S16x128 : S16x1x128.ShapeCasts S16x128
  slices_S16x2x128_S16x1x128_0_1_0 : S16x2x128.Slices ![0, 1, 0] S16x1x128
  bcast_S16x128_S16x1x128_0_2 : S16x128.BroadcastsInDim S16x1x128 (![0, 2] : Fin 2 → Fin S16x1x128.rank)
  concatenates_S16x1x128_S16x1x128_S16x2x128_d1 : Shape.Concatenates [S16x1x128, S16x1x128] S16x2x128 1
  shapeCasts_S16x2x128_S4096 : S16x2x128.ShapeCasts S4096
  shapeCasts_S4096_S32x2x64 : S4096.ShapeCasts S32x2x64
  slices_S32x2x64_S32x1x64_0_0_0 : S32x2x64.Slices ![0, 0, 0] S32x1x64
  shapeCasts_S32x1x64_S32x64 : S32x1x64.ShapeCasts S32x64
  slices_S32x2x64_S32x1x64_0_1_0 : S32x2x64.Slices ![0, 1, 0] S32x1x64
  bcast_S32x64_S32x1x64_0_2 : S32x64.BroadcastsInDim S32x1x64 (![0, 2] : Fin 2 → Fin S32x1x64.rank)
  concatenates_S32x1x64_S32x1x64_S32x2x64_d1 : Shape.Concatenates [S32x1x64, S32x1x64] S32x2x64 1
  shapeCasts_S32x2x64_S4096 : S32x2x64.ShapeCasts S4096
  shapeCasts_S4096_S64x2x32 : S4096.ShapeCasts S64x2x32
  slices_S64x2x32_S64x1x32_0_0_0 : S64x2x32.Slices ![0, 0, 0] S64x1x32
  shapeCasts_S64x1x32_S64x32 : S64x1x32.ShapeCasts S64x32
  slices_S64x2x32_S64x1x32_0_1_0 : S64x2x32.Slices ![0, 1, 0] S64x1x32
  bcast_S64x32_S64x1x32_0_2 : S64x32.BroadcastsInDim S64x1x32 (![0, 2] : Fin 2 → Fin S64x1x32.rank)
  concatenates_S64x1x32_S64x1x32_S64x2x32_d1 : Shape.Concatenates [S64x1x32, S64x1x32] S64x2x32 1
  shapeCasts_S64x2x32_S4096 : S64x2x32.ShapeCasts S4096
  shapeCasts_S4096_S128x2x16 : S4096.ShapeCasts S128x2x16
  slices_S128x2x16_S128x1x16_0_0_0 : S128x2x16.Slices ![0, 0, 0] S128x1x16
  shapeCasts_S128x1x16_S128x16 : S128x1x16.ShapeCasts S128x16
  slices_S128x2x16_S128x1x16_0_1_0 : S128x2x16.Slices ![0, 1, 0] S128x1x16
  bcast_S128x16_S128x1x16_0_2 : S128x16.BroadcastsInDim S128x1x16 (![0, 2] : Fin 2 → Fin S128x1x16.rank)
  concatenates_S128x1x16_S128x1x16_S128x2x16_d1 : Shape.Concatenates [S128x1x16, S128x1x16] S128x2x16 1
  shapeCasts_S128x2x16_S4096 : S128x2x16.ShapeCasts S4096
  shapeCasts_S4096_S256x2x8 : S4096.ShapeCasts S256x2x8
  slices_S256x2x8_S256x1x8_0_0_0 : S256x2x8.Slices ![0, 0, 0] S256x1x8
  shapeCasts_S256x1x8_S256x8 : S256x1x8.ShapeCasts S256x8
  slices_S256x2x8_S256x1x8_0_1_0 : S256x2x8.Slices ![0, 1, 0] S256x1x8
  bcast_S256x8_S256x1x8_0_2 : S256x8.BroadcastsInDim S256x1x8 (![0, 2] : Fin 2 → Fin S256x1x8.rank)
  concatenates_S256x1x8_S256x1x8_S256x2x8_d1 : Shape.Concatenates [S256x1x8, S256x1x8] S256x2x8 1
  shapeCasts_S256x2x8_S4096 : S256x2x8.ShapeCasts S4096
  shapeCasts_S4096_S512x2x4 : S4096.ShapeCasts S512x2x4
  slices_S512x2x4_S512x1x4_0_0_0 : S512x2x4.Slices ![0, 0, 0] S512x1x4
  shapeCasts_S512x1x4_S512x4 : S512x1x4.ShapeCasts S512x4
  slices_S512x2x4_S512x1x4_0_1_0 : S512x2x4.Slices ![0, 1, 0] S512x1x4
  bcast_S512x4_S512x1x4_0_2 : S512x4.BroadcastsInDim S512x1x4 (![0, 2] : Fin 2 → Fin S512x1x4.rank)
  concatenates_S512x1x4_S512x1x4_S512x2x4_d1 : Shape.Concatenates [S512x1x4, S512x1x4] S512x2x4 1
  shapeCasts_S512x2x4_S4096 : S512x2x4.ShapeCasts S4096
  shapeCasts_S4096_S1024x2x2 : S4096.ShapeCasts S1024x2x2
  slices_S1024x2x2_S1024x1x2_0_0_0 : S1024x2x2.Slices ![0, 0, 0] S1024x1x2
  shapeCasts_S1024x1x2_S1024x2 : S1024x1x2.ShapeCasts S1024x2
  slices_S1024x2x2_S1024x1x2_0_1_0 : S1024x2x2.Slices ![0, 1, 0] S1024x1x2
  bcast_S1024x2_S1024x1x2_0_2 : S1024x2.BroadcastsInDim S1024x1x2 (![0, 2] : Fin 2 → Fin S1024x1x2.rank)
  concatenates_S1024x1x2_S1024x1x2_S1024x2x2_d1 : Shape.Concatenates [S1024x1x2, S1024x1x2] S1024x2x2 1
  shapeCasts_S1024x2x2_S4096 : S1024x2x2.ShapeCasts S4096
  shapeCasts_S4096_S2048x2x1 : S4096.ShapeCasts S2048x2x1
  slices_S2048x2x1_S2048x1x1_0_0_0 : S2048x2x1.Slices ![0, 0, 0] S2048x1x1
  shapeCasts_S2048x1x1_S2048x1 : S2048x1x1.ShapeCasts S2048x1
  slices_S2048x2x1_S2048x1x1_0_1_0 : S2048x2x1.Slices ![0, 1, 0] S2048x1x1
  bcast_S2048x1_S2048x1x1_0_2 : S2048x1.BroadcastsInDim S2048x1x1 (![0, 2] : Fin 2 → Fin S2048x1x1.rank)
  concatenates_S2048x1x1_S2048x1x1_S2048x2x1_d1 : Shape.Concatenates [S2048x1x1, S2048x1x1] S2048x2x1 1
  shapeCasts_S2048x2x1_S4096 : S2048x2x1.ShapeCasts S4096
  bcast_S4096_S4096x1_0 : S4096.BroadcastsInDim S4096x1 (![0] : Fin 1 → Fin S4096x1.rank)
  reducesTo_S4096_S_d0 : S4096.ReducesTo [0] S_
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  scatter_S8388608_S1_S2048_0_n_0_0_wf : ScatterDims.WF S8388608 S1 S2048 [0] [] [0] 0
  gather_S8388608_S8388608x1_S8388608_n_0_n_n_0_1_1_wf : GatherDims.WF S8388608 S8388608x1 S8388608 [] [0] [] [0] [] 1 ![1]
  scatter_S4096_S1_S2048_0_n_0_0_wf : ScatterDims.WF S4096 S1 S2048 [0] [] [0] 0
  gather_S4096_S4096x1_S4096_n_0_n_n_0_1_1_wf : GatherDims.WF S4096 S4096x1 S4096 [] [0] [] [0] [] 1 ![1]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S8388608_S1_S2048_0_n_0_0 : ScatterDims S8388608 S1 S2048 where
  updateWindowDims := [0]
  insertedWindowDims := []
  scatterDimsToOperandDims := [0]
  indexVectorDim := 0
  wf := scatter_S8388608_S1_S2048_0_n_0_0_wf
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf
def scatter_S4096_S1_S2048_0_n_0_0 : ScatterDims S4096 S1 S2048 where
  updateWindowDims := [0]
  insertedWindowDims := []
  scatterDimsToOperandDims := [0]
  indexVectorDim := 0
  wf := scatter_S4096_S1_S2048_0_n_0_0_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v811) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v812) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v813) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v814) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048 : Shape := ⟨1, ![2048]⟩
abbrev S4096 : Shape := ⟨1, ![4096]⟩
abbrev S8388608 : Shape := ⟨1, ![8388608]⟩
abbrev S_ : Shape := ⟨0, ![]⟩
abbrev S1 : Shape := ⟨1, ![1]⟩
abbrev S2x2x2x2x2x2x2x2x2x2x2x2x2x2x2x2x2x2x2x2x2x2x2 : Shape := ⟨23, ![2, 2, 2, 2, 2, 2, 2, 2, 2, 2, 2, 2, 2, 2, 2, 2, 2, 2, 2, 2, 2, 2, 2]⟩
abbrev S1x2x2x2x2x2x2x2x2x2x2x2x2x2x2x2x2x2x2x2x2x2x2 : Shape := ⟨23, ![1, 2, 2, 2, 2, 2, 2, 2, 2, 2, 2, 2, 2, 2, 2, 2, 2, 2, 2, 2, 2, 2, 2]⟩
abbrev S2x1x2x2x2x2x2x2x2x2x2x2x2x2x2x2x2x2x2x2x2x2x2 : Shape := ⟨23, ![2, 1, 2, 2, 2, 2, 2, 2, 2, 2, 2, 2, 2, 2, 2, 2, 2, 2, 2, 2, 2, 2, 2]⟩
abbrev S2x2x1x2x2x2x2x2x2x2x2x2x2x2x2x2x2x2x2x2x2x2x2 : Shape := ⟨23, ![2, 2, 1, 2, 2, 2, 2, 2, 2, 2, 2, 2, 2, 2, 2, 2, 2, 2, 2, 2, 2, 2, 2]⟩
abbrev S2x2x2x1x2x2x2x2x2x2x2x2x2x2x2x2x2x2x2x2x2x2x2 : Shape := ⟨23, ![2, 2, 2, 1, 2, 2, 2, 2, 2, 2, 2, 2, 2, 2, 2, 2, 2, 2, 2, 2, 2, 2, 2]⟩
abbrev S2x2x2x2x1x2x2x2x2x2x2x2x2x2x2x2x2x2x2x2x2x2x2 : Shape := ⟨23, ![2, 2, 2, 2, 1, 2, 2, 2, 2, 2, 2, 2, 2, 2, 2, 2, 2, 2, 2, 2, 2, 2, 2]⟩
abbrev S2x2x2x2x2x1x2x2x2x2x2x2x2x2x2x2x2x2x2x2x2x2x2 : Shape := ⟨23, ![2, 2, 2, 2, 2, 1, 2, 2, 2, 2, 2, 2, 2, 2, 2, 2, 2, 2, 2, 2, 2, 2, 2]⟩
abbrev S2x2x2x2x2x2x1x2x2x2x2x2x2x2x2x2x2x2x2x2x2x2x2 : Shape := ⟨23, ![2, 2, 2, 2, 2, 2, 1, 2, 2, 2, 2, 2, 2, 2, 2, 2, 2, 2, 2, 2, 2, 2, 2]⟩
abbrev S2x2x2x2x2x2x2x1x2x2x2x2x2x2x2x2x2x2x2x2x2x2x2 : Shape := ⟨23, ![2, 2, 2, 2, 2, 2, 2, 1, 2, 2, 2, 2, 2, 2, 2, 2, 2, 2, 2, 2, 2, 2, 2]⟩
abbrev S2x2x2x2x2x2x2x2x1x2x2x2x2x2x2x2x2x2x2x2x2x2x2 : Shape := ⟨23, ![2, 2, 2, 2, 2, 2, 2, 2, 1, 2, 2, 2, 2, 2, 2, 2, 2, 2, 2, 2, 2, 2, 2]⟩
abbrev S2x2x2x2x2x2x2x2x2x1x2x2x2x2x2x2x2x2x2x2x2x2x2 : Shape := ⟨23, ![2, 2, 2, 2, 2, 2, 2, 2, 2, 1, 2, 2, 2, 2, 2, 2, 2, 2, 2, 2, 2, 2, 2]⟩
abbrev S2x2x2x2x2x2x2x2x2x2x1x2x2x2x2x2x2x2x2x2x2x2x2 : Shape := ⟨23, ![2, 2, 2, 2, 2, 2, 2, 2, 2, 2, 1, 2, 2, 2, 2, 2, 2, 2, 2, 2, 2, 2, 2]⟩
abbrev S2x2x2x2x2x2x2x2x2x2x2x1x2x2x2x2x2x2x2x2x2x2x2 : Shape := ⟨23, ![2, 2, 2, 2, 2, 2, 2, 2, 2, 2, 2, 1, 2, 2, 2, 2, 2, 2, 2, 2, 2, 2, 2]⟩
abbrev S2x2x2x2x2x2x2x2x2x2x2x2x1x2x2x2x2x2x2x2x2x2x2 : Shape := ⟨23, ![2, 2, 2, 2, 2, 2, 2, 2, 2, 2, 2, 2, 1, 2, 2, 2, 2, 2, 2, 2, 2, 2, 2]⟩
abbrev S2x2x2x2x2x2x2x2x2x2x2x2x2x1x2x2x2x2x2x2x2x2x2 : Shape := ⟨23, ![2, 2, 2, 2, 2, 2, 2, 2, 2, 2, 2, 2, 2, 1, 2, 2, 2, 2, 2, 2, 2, 2, 2]⟩
abbrev S2x2x2x2x2x2x2x2x2x2x2x2x2x2x1x2x2x2x2x2x2x2x2 : Shape := ⟨23, ![2, 2, 2, 2, 2, 2, 2, 2, 2, 2, 2, 2, 2, 2, 1, 2, 2, 2, 2, 2, 2, 2, 2]⟩
abbrev S2x2x2x2x2x2x2x2x2x2x2x2x2x2x2x1x2x2x2x2x2x2x2 : Shape := ⟨23, ![2, 2, 2, 2, 2, 2, 2, 2, 2, 2, 2, 2, 2, 2, 2, 1, 2, 2, 2, 2, 2, 2, 2]⟩
abbrev S2x2x2x2x2x2x2x2x2x2x2x2x2x2x2x2x1x2x2x2x2x2x2 : Shape := ⟨23, ![2, 2, 2, 2, 2, 2, 2, 2, 2, 2, 2, 2, 2, 2, 2, 2, 1, 2, 2, 2, 2, 2, 2]⟩
abbrev S2x2x2x2x2x2x2x2x2x2x2x2x2x2x2x2x2x1x2x2x2x2x2 : Shape := ⟨23, ![2, 2, 2, 2, 2, 2, 2, 2, 2, 2, 2, 2, 2, 2, 2, 2, 2, 1, 2, 2, 2, 2, 2]⟩
abbrev S2x2x2x2x2x2x2x2x2x2x2x2x2x2x2x2x2x2x1x2x2x2x2 : Shape := ⟨23, ![2, 2, 2, 2, 2, 2, 2, 2, 2, 2, 2, 2, 2, 2, 2, 2, 2, 2, 1, 2, 2, 2, 2]⟩
abbrev S2x2x2x2x2x2x2x2x2x2x2x2x2x2x2x2x2x2x2x1x2x2x2 : Shape := ⟨23, ![2, 2, 2, 2, 2, 2, 2, 2, 2, 2, 2, 2, 2, 2, 2, 2, 2, 2, 2, 1, 2, 2, 2]⟩
abbrev S2x2x2x2x2x2x2x2x2x2x2x2x2x2x2x2x2x2x2x2x1x2x2 : Shape := ⟨23, ![2, 2, 2, 2, 2, 2, 2, 2, 2, 2, 2, 2, 2, 2, 2, 2, 2, 2, 2, 2, 1, 2, 2]⟩
abbrev S2x2x2x2x2x2x2x2x2x2x2x2x2x2x2x2x2x2x2x2x2x1x2 : Shape := ⟨23, ![2, 2, 2, 2, 2, 2, 2, 2, 2, 2, 2, 2, 2, 2, 2, 2, 2, 2, 2, 2, 2, 1, 2]⟩
abbrev S2x2x2x2x2x2x2x2x2x2x2x2x2x2x2x2x2x2x2x2x2x2x1 : Shape := ⟨23, ![2, 2, 2, 2, 2, 2, 2, 2, 2, 2, 2, 2, 2, 2, 2, 2, 2, 2, 2, 2, 2, 2, 1]⟩
abbrev S8388608x1 : Shape := ⟨2, ![8388608, 1]⟩
abbrev S2x2x2x2x2x2x2x2x2x2x2x2 : Shape := ⟨12, ![2, 2, 2, 2, 2, 2, 2, 2, 2, 2, 2, 2]⟩
abbrev S1x2x2x2x2x2x2x2x2x2x2x2 : Shape := ⟨12, ![1, 2, 2, 2, 2, 2, 2, 2, 2, 2, 2, 2]⟩
abbrev S2x1x2x2x2x2x2x2x2x2x2x2 : Shape := ⟨12, ![2, 1, 2, 2, 2, 2, 2, 2, 2, 2, 2, 2]⟩
abbrev S2x2x1x2x2x2x2x2x2x2x2x2 : Shape := ⟨12, ![2, 2, 1, 2, 2, 2, 2, 2, 2, 2, 2, 2]⟩
abbrev S2x2x2x1x2x2x2x2x2x2x2x2 : Shape := ⟨12, ![2, 2, 2, 1, 2, 2, 2, 2, 2, 2, 2, 2]⟩
abbrev S2x2x2x2x1x2x2x2x2x2x2x2 : Shape := ⟨12, ![2, 2, 2, 2, 1, 2, 2, 2, 2, 2, 2, 2]⟩
abbrev S2x2x2x2x2x1x2x2x2x2x2x2 : Shape := ⟨12, ![2, 2, 2, 2, 2, 1, 2, 2, 2, 2, 2, 2]⟩
abbrev S2x2x2x2x2x2x1x2x2x2x2x2 : Shape := ⟨12, ![2, 2, 2, 2, 2, 2, 1, 2, 2, 2, 2, 2]⟩
abbrev S2x2x2x2x2x2x2x1x2x2x2x2 : Shape := ⟨12, ![2, 2, 2, 2, 2, 2, 2, 1, 2, 2, 2, 2]⟩
abbrev S2x2x2x2x2x2x2x2x1x2x2x2 : Shape := ⟨12, ![2, 2, 2, 2, 2, 2, 2, 2, 1, 2, 2, 2]⟩
abbrev S2x2x2x2x2x2x2x2x2x1x2x2 : Shape := ⟨12, ![2, 2, 2, 2, 2, 2, 2, 2, 2, 1, 2, 2]⟩
abbrev S2x2x2x2x2x2x2x2x2x2x1x2 : Shape := ⟨12, ![2, 2, 2, 2, 2, 2, 2, 2, 2, 2, 1, 2]⟩
abbrev S2x2x2x2x2x2x2x2x2x2x2x1 : Shape := ⟨12, ![2, 2, 2, 2, 2, 2, 2, 2, 2, 2, 2, 1]⟩
abbrev S4096x1 : Shape := ⟨2, ![4096, 1]⟩
abbrev S2048x4096 : Shape := ⟨2, ![2048, 4096]⟩
abbrev S4096x4096 : Shape := ⟨2, ![4096, 4096]⟩
abbrev S1x4096 : Shape := ⟨2, ![1, 4096]⟩

abbrev nBuf : Space → Nat
  | .hbm => 428
  | .vmem => 0
  | .smem => 0
  | _ => 0

abbrev hbmTy0_0 (i : Nat) : BufTy := match i % 128 with
  | 0 => ⟨S4096x2048, .f32⟩
  | 1 => ⟨S2048, .f32⟩
  | 2 => ⟨S4096x2048, .f32⟩
  | 3 => ⟨S4096, .f32⟩
  | 4 => ⟨S8388608, .f32⟩
  | 5 => ⟨S8388608, .f32⟩
  | 6 => ⟨S4096, .f32⟩
  | 7 => ⟨S4096, .f32⟩
  | 8 => ⟨S8388608, .i32⟩
  | 9 => ⟨S4096, .i32⟩
  | 10 => ⟨S_, .f32⟩
  | 11 => ⟨S8388608, .f32⟩
  | 12 => ⟨S_, .i32⟩
  | 13 => ⟨S1, .i32⟩
  | 14 => ⟨S8388608, .f32⟩
  | 15 => ⟨S8388608, .f32⟩
  | 16 => ⟨S2x2x2x2x2x2x2x2x2x2x2x2x2x2x2x2x2x2x2x2x2x2x2, .f32⟩
  | 17 => ⟨S1x2x2x2x2x2x2x2x2x2x2x2x2x2x2x2x2x2x2x2x2x2x2, .f32⟩
  | 18 => ⟨S1x2x2x2x2x2x2x2x2x2x2x2x2x2x2x2x2x2x2x2x2x2x2, .f32⟩
  | 19 => ⟨S1x2x2x2x2x2x2x2x2x2x2x2x2x2x2x2x2x2x2x2x2x2x2, .f32⟩
  | 20 => ⟨S1x2x2x2x2x2x2x2x2x2x2x2x2x2x2x2x2x2x2x2x2x2x2, .f32⟩
  | 21 => ⟨S2x2x2x2x2x2x2x2x2x2x2x2x2x2x2x2x2x2x2x2x2x2x2, .f32⟩
  | 22 => ⟨S2x1x2x2x2x2x2x2x2x2x2x2x2x2x2x2x2x2x2x2x2x2x2, .f32⟩
  | 23 => ⟨S2x1x2x2x2x2x2x2x2x2x2x2x2x2x2x2x2x2x2x2x2x2x2, .f32⟩
  | 24 => ⟨S2x1x2x2x2x2x2x2x2x2x2x2x2x2x2x2x2x2x2x2x2x2x2, .f32⟩
  | 25 => ⟨S2x1x2x2x2x2x2x2x2x2x2x2x2x2x2x2x2x2x2x2x2x2x2, .f32⟩
  | 26 => ⟨S2x2x2x2x2x2x2x2x2x2x2x2x2x2x2x2x2x2x2x2x2x2x2, .f32⟩
  | 27 => ⟨S2x2x1x2x2x2x2x2x2x2x2x2x2x2x2x2x2x2x2x2x2x2x2, .f32⟩
  | 28 => ⟨S2x2x1x2x2x2x2x2x2x2x2x2x2x2x2x2x2x2x2x2x2x2x2, .f32⟩
  | 29 => ⟨S2x2x1x2x2x2x2x2x2x2x2x2x2x2x2x2x2x2x2x2x2x2x2, .f32⟩
  | 30 => ⟨S2x2x1x2x2x2x2x2x2x2x2x2x2x2x2x2x2x2x2x2x2x2x2, .f32⟩
  | 31 => ⟨S2x2x2x2x2x2x2x2x2x2x2x2x2x2x2x2x2x2x2x2x2x2x2, .f32⟩
  | 32 => ⟨S2x2x2x1x2x2x2x2x2x2x2x2x2x2x2x2x2x2x2x2x2x2x2, .f32⟩
  | 33 => ⟨S2x2x2x1x2x2x2x2x2x2x2x2x2x2x2x2x2x2x2x2x2x2x2, .f32⟩
  | 34 => ⟨S2x2x2x1x2x2x2x2x2x2x2x2x2x2x2x2x2x2x2x2x2x2x2, .f32⟩
  | 35 => ⟨S2x2x2x1x2x2x2x2x2x2x2x2x2x2x2x2x2x2x2x2x2x2x2, .f32⟩
  | 36 => ⟨S2x2x2x2x2x2x2x2x2x2x2x2x2x2x2x2x2x2x2x2x2x2x2, .f32⟩
  | 37 => ⟨S2x2x2x2x1x2x2x2x2x2x2x2x2x2x2x2x2x2x2x2x2x2x2, .f32⟩
  | 38 => ⟨S2x2x2x2x1x2x2x2x2x2x2x2x2x2x2x2x2x2x2x2x2x2x2, .f32⟩
  | 39 => ⟨S2x2x2x2x1x2x2x2x2x2x2x2x2x2x2x2x2x2x2x2x2x2x2, .f32⟩
  | 40 => ⟨S2x2x2x2x1x2x2x2x2x2x2x2x2x2x2x2x2x2x2x2x2x2x2, .f32⟩
  | 41 => ⟨S2x2x2x2x2x2x2x2x2x2x2x2x2x2x2x2x2x2x2x2x2x2x2, .f32⟩
  | 42 => ⟨S2x2x2x2x2x1x2x2x2x2x2x2x2x2x2x2x2x2x2x2x2x2x2, .f32⟩
  | 43 => ⟨S2x2x2x2x2x1x2x2x2x2x2x2x2x2x2x2x2x2x2x2x2x2x2, .f32⟩
  | 44 => ⟨S2x2x2x2x2x1x2x2x2x2x2x2x2x2x2x2x2x2x2x2x2x2x2, .f32⟩
  | 45 => ⟨S2x2x2x2x2x1x2x2x2x2x2x2x2x2x2x2x2x2x2x2x2x2x2, .f32⟩
  | 46 => ⟨S2x2x2x2x2x2x2x2x2x2x2x2x2x2x2x2x2x2x2x2x2x2x2, .f32⟩
  | 47 => ⟨S2x2x2x2x2x2x1x2x2x2x2x2x2x2x2x2x2x2x2x2x2x2x2, .f32⟩
  | 48 => ⟨S2x2x2x2x2x2x1x2x2x2x2x2x2x2x2x2x2x2x2x2x2x2x2, .f32⟩
  | 49 => ⟨S2x2x2x2x2x2x1x2x2x2x2x2x2x2x2x2x2x2x2x2x2x2x2, .f32⟩
  | 50 => ⟨S2x2x2x2x2x2x1x2x2x2x2x2x2x2x2x2x2x2x2x2x2x2x2, .f32⟩
  | 51 => ⟨S2x2x2x2x2x2x2x2x2x2x2x2x2x2x2x2x2x2x2x2x2x2x2, .f32⟩
  | 52 => ⟨S2x2x2x2x2x2x2x1x2x2x2x2x2x2x2x2x2x2x2x2x2x2x2, .f32⟩
  | 53 => ⟨S2x2x2x2x2x2x2x1x2x2x2x2x2x2x2x2x2x2x2x2x2x2x2, .f32⟩
  | 54 => ⟨S2x2x2x2x2x2x2x1x2x2x2x2x2x2x2x2x2x2x2x2x2x2x2, .f32⟩
  | 55 => ⟨S2x2x2x2x2x2x2x1x2x2x2x2x2x2x2x2x2x2x2x2x2x2x2, .f32⟩
  | 56 => ⟨S2x2x2x2x2x2x2x2x2x2x2x2x2x2x2x2x2x2x2x2x2x2x2, .f32⟩
  | 57 => ⟨S2x2x2x2x2x2x2x2x1x2x2x2x2x2x2x2x2x2x2x2x2x2x2, .f32⟩
  | 58 => ⟨S2x2x2x2x2x2x2x2x1x2x2x2x2x2x2x2x2x2x2x2x2x2x2, .f32⟩
  | 59 => ⟨S2x2x2x2x2x2x2x2x1x2x2x2x2x2x2x2x2x2x2x2x2x2x2, .f32⟩
  | 60 => ⟨S2x2x2x2x2x2x2x2x1x2x2x2x2x2x2x2x2x2x2x2x2x2x2, .f32⟩
  | 61 => ⟨S2x2x2x2x2x2x2x2x2x2x2x2x2x2x2x2x2x2x2x2x2x2x2, .f32⟩
  | 62 => ⟨S2x2x2x2x2x2x2x2x2x1x2x2x2x2x2x2x2x2x2x2x2x2x2, .f32⟩
  | 63 => ⟨S2x2x2x2x2x2x2x2x2x1x2x2x2x2x2x2x2x2x2x2x2x2x2, .f32⟩
  | 64 => ⟨S2x2x2x2x2x2x2x2x2x1x2x2x2x2x2x2x2x2x2x2x2x2x2, .f32⟩
  | 65 => ⟨S2x2x2x2x2x2x2x2x2x1x2x2x2x2x2x2x2x2x2x2x2x2x2, .f32⟩
  | 66 => ⟨S2x2x2x2x2x2x2x2x2x2x2x2x2x2x2x2x2x2x2x2x2x2x2, .f32⟩
  | 67 => ⟨S2x2x2x2x2x2x2x2x2x2x1x2x2x2x2x2x2x2x2x2x2x2x2, .f32⟩
  | 68 => ⟨S2x2x2x2x2x2x2x2x2x2x1x2x2x2x2x2x2x2x2x2x2x2x2, .f32⟩
  | 69 => ⟨S2x2x2x2x2x2x2x2x2x2x1x2x2x2x2x2x2x2x2x2x2x2x2, .f32⟩
  | 70 => ⟨S2x2x2x2x2x2x2x2x2x2x1x2x2x2x2x2x2x2x2x2x2x2x2, .f32⟩
  | 71 => ⟨S2x2x2x2x2x2x2x2x2x2x2x2x2x2x2x2x2x2x2x2x2x2x2, .f32⟩
  | 72 => ⟨S2x2x2x2x2x2x2x2x2x2x2x1x2x2x2x2x2x2x2x2x2x2x2, .f32⟩
  | 73 => ⟨S2x2x2x2x2x2x2x2x2x2x2x1x2x2x2x2x2x2x2x2x2x2x2, .f32⟩
  | 74 => ⟨S2x2x2x2x2x2x2x2x2x2x2x1x2x2x2x2x2x2x2x2x2x2x2, .f32⟩
  | 75 => ⟨S2x2x2x2x2x2x2x2x2x2x2x1x2x2x2x2x2x2x2x2x2x2x2, .f32⟩
  | 76 => ⟨S2x2x2x2x2x2x2x2x2x2x2x2x2x2x2x2x2x2x2x2x2x2x2, .f32⟩
  | 77 => ⟨S2x2x2x2x2x2x2x2x2x2x2x2x1x2x2x2x2x2x2x2x2x2x2, .f32⟩
  | 78 => ⟨S2x2x2x2x2x2x2x2x2x2x2x2x1x2x2x2x2x2x2x2x2x2x2, .f32⟩
  | 79 => ⟨S2x2x2x2x2x2x2x2x2x2x2x2x1x2x2x2x2x2x2x2x2x2x2, .f32⟩
  | 80 => ⟨S2x2x2x2x2x2x2x2x2x2x2x2x1x2x2x2x2x2x2x2x2x2x2, .f32⟩
  | 81 => ⟨S2x2x2x2x2x2x2x2x2x2x2x2x2x2x2x2x2x2x2x2x2x2x2, .f32⟩
  | 82 => ⟨S2x2x2x2x2x2x2x2x2x2x2x2x2x1x2x2x2x2x2x2x2x2x2, .f32⟩
  | 83 => ⟨S2x2x2x2x2x2x2x2x2x2x2x2x2x1x2x2x2x2x2x2x2x2x2, .f32⟩
  | 84 => ⟨S2x2x2x2x2x2x2x2x2x2x2x2x2x1x2x2x2x2x2x2x2x2x2, .f32⟩
  | 85 => ⟨S2x2x2x2x2x2x2x2x2x2x2x2x2x1x2x2x2x2x2x2x2x2x2, .f32⟩
  | 86 => ⟨S2x2x2x2x2x2x2x2x2x2x2x2x2x2x2x2x2x2x2x2x2x2x2, .f32⟩
  | 87 => ⟨S2x2x2x2x2x2x2x2x2x2x2x2x2x2x1x2x2x2x2x2x2x2x2, .f32⟩
  | 88 => ⟨S2x2x2x2x2x2x2x2x2x2x2x2x2x2x1x2x2x2x2x2x2x2x2, .f32⟩
  | 89 => ⟨S2x2x2x2x2x2x2x2x2x2x2x2x2x2x1x2x2x2x2x2x2x2x2, .f32⟩
  | 90 => ⟨S2x2x2x2x2x2x2x2x2x2x2x2x2x2x1x2x2x2x2x2x2x2x2, .f32⟩
  | 91 => ⟨S2x2x2x2x2x2x2x2x2x2x2x2x2x2x2x2x2x2x2x2x2x2x2, .f32⟩
  | 92 => ⟨S2x2x2x2x2x2x2x2x2x2x2x2x2x2x2x1x2x2x2x2x2x2x2, .f32⟩
  | 93 => ⟨S2x2x2x2x2x2x2x2x2x2x2x2x2x2x2x1x2x2x2x2x2x2x2, .f32⟩
  | 94 => ⟨S2x2x2x2x2x2x2x2x2x2x2x2x2x2x2x1x2x2x2x2x2x2x2, .f32⟩
  | 95 => ⟨S2x2x2x2x2x2x2x2x2x2x2x2x2x2x2x1x2x2x2x2x2x2x2, .f32⟩
  | 96 => ⟨S2x2x2x2x2x2x2x2x2x2x2x2x2x2x2x2x2x2x2x2x2x2x2, .f32⟩
  | 97 => ⟨S2x2x2x2x2x2x2x2x2x2x2x2x2x2x2x2x1x2x2x2x2x2x2, .f32⟩
  | 98 => ⟨S2x2x2x2x2x2x2x2x2x2x2x2x2x2x2x2x1x2x2x2x2x2x2, .f32⟩
  | 99 => ⟨S2x2x2x2x2x2x2x2x2x2x2x2x2x2x2x2x1x2x2x2x2x2x2, .f32⟩
  | 100 => ⟨S2x2x2x2x2x2x2x2x2x2x2x2x2x2x2x2x1x2x2x2x2x2x2, .f32⟩
  | 101 => ⟨S2x2x2x2x2x2x2x2x2x2x2x2x2x2x2x2x2x2x2x2x2x2x2, .f32⟩
  | 102 => ⟨S2x2x2x2x2x2x2x2x2x2x2x2x2x2x2x2x2x1x2x2x2x2x2, .f32⟩
  | 103 => ⟨S2x2x2x2x2x2x2x2x2x2x2x2x2x2x2x2x2x1x2x2x2x2x2, .f32⟩
  | 104 => ⟨S2x2x2x2x2x2x2x2x2x2x2x2x2x2x2x2x2x1x2x2x2x2x2, .f32⟩
  | 105 => ⟨S2x2x2x2x2x2x2x2x2x2x2x2x2x2x2x2x2x1x2x2x2x2x2, .f32⟩
  | 106 => ⟨S2x2x2x2x2x2x2x2x2x2x2x2x2x2x2x2x2x2x2x2x2x2x2, .f32⟩
  | 107 => ⟨S2x2x2x2x2x2x2x2x2x2x2x2x2x2x2x2x2x2x1x2x2x2x2, .f32⟩
  | 108 => ⟨S2x2x2x2x2x2x2x2x2x2x2x2x2x2x2x2x2x2x1x2x2x2x2, .f32⟩
  | 109 => ⟨S2x2x2x2x2x2x2x2x2x2x2x2x2x2x2x2x2x2x1x2x2x2x2, .f32⟩
  | 110 => ⟨S2x2x2x2x2x2x2x2x2x2x2x2x2x2x2x2x2x2x1x2x2x2x2, .f32⟩
  | 111 => ⟨S2x2x2x2x2x2x2x2x2x2x2x2x2x2x2x2x2x2x2x2x2x2x2, .f32⟩
  | 112 => ⟨S2x2x2x2x2x2x2x2x2x2x2x2x2x2x2x2x2x2x2x1x2x2x2, .f32⟩
  | 113 => ⟨S2x2x2x2x2x2x2x2x2x2x2x2x2x2x2x2x2x2x2x1x2x2x2, .f32⟩
  | 114 => ⟨S2x2x2x2x2x2x2x2x2x2x2x2x2x2x2x2x2x2x2x1x2x2x2, .f32⟩
  | 115 => ⟨S2x2x2x2x2x2x2x2x2x2x2x2x2x2x2x2x2x2x2x1x2x2x2, .f32⟩
  | 116 => ⟨S2x2x2x2x2x2x2x2x2x2x2x2x2x2x2x2x2x2x2x2x2x2x2, .f32⟩
  | 117 => ⟨S2x2x2x2x2x2x2x2x2x2x2x2x2x2x2x2x2x2x2x2x1x2x2, .f32⟩
  | 118 => ⟨S2x2x2x2x2x2x2x2x2x2x2x2x2x2x2x2x2x2x2x2x1x2x2, .f32⟩
  | 119 => ⟨S2x2x2x2x2x2x2x2x2x2x2x2x2x2x2x2x2x2x2x2x1x2x2, .f32⟩
  | 120 => ⟨S2x2x2x2x2x2x2x2x2x2x2x2x2x2x2x2x2x2x2x2x1x2x2, .f32⟩
  | 121 => ⟨S2x2x2x2x2x2x2x2x2x2x2x2x2x2x2x2x2x2x2x2x2x2x2, .f32⟩
  | 122 => ⟨S2x2x2x2x2x2x2x2x2x2x2x2x2x2x2x2x2x2x2x2x2x1x2, .f32⟩
  | 123 => ⟨S2x2x2x2x2x2x2x2x2x2x2x2x2x2x2x2x2x2x2x2x2x1x2, .f32⟩
  | 124 => ⟨S2x2x2x2x2x2x2x2x2x2x2x2x2x2x2x2x2x2x2x2x2x1x2, .f32⟩
  | 125 => ⟨S2x2x2x2x2x2x2x2x2x2x2x2x2x2x2x2x2x2x2x2x2x1x2, .f32⟩
  | 126 => ⟨S2x2x2x2x2x2x2x2x2x2x2x2x2x2x2x2x2x2x2x2x2x2x2, .f32⟩
  | 127 => ⟨S2x2x2x2x2x2x2x2x2x2x2x2x2x2x2x2x2x2x2x2x2x2x1, .f32⟩
  | _ => ⟨S4096x2048, .f32⟩

abbrev hbmTy0_1 (i : Nat) : BufTy := match i % 128 with
  | 0 => ⟨S2x2x2x2x2x2x2x2x2x2x2x2x2x2x2x2x2x2x2x2x2x2x1, .f32⟩
  | 1 => ⟨S2x2x2x2x2x2x2x2x2x2x2x2x2x2x2x2x2x2x2x2x2x2x1, .f32⟩
  | 2 => ⟨S2x2x2x2x2x2x2x2x2x2x2x2x2x2x2x2x2x2x2x2x2x2x1, .f32⟩
  | 3 => ⟨S2x2x2x2x2x2x2x2x2x2x2x2x2x2x2x2x2x2x2x2x2x2x2, .f32⟩
  | 4 => ⟨S8388608, .f32⟩
  | 5 => ⟨S_, .i32⟩
  | 6 => ⟨S8388608, .i32⟩
  | 7 => ⟨S8388608, .i1⟩
  | 8 => ⟨S_, .i32⟩
  | 9 => ⟨S8388608, .i32⟩
  | 10 => ⟨S8388608, .i32⟩
  | 11 => ⟨S8388608, .i32⟩
  | 12 => ⟨S8388608x1, .i32⟩
  | 13 => ⟨S8388608, .f32⟩
  | 14 => ⟨S8388608, .f32⟩
  | 15 => ⟨S2x2x2x2x2x2x2x2x2x2x2x2x2x2x2x2x2x2x2x2x2x2x2, .f32⟩
  | 16 => ⟨S1x2x2x2x2x2x2x2x2x2x2x2x2x2x2x2x2x2x2x2x2x2x2, .f32⟩
  | 17 => ⟨S1x2x2x2x2x2x2x2x2x2x2x2x2x2x2x2x2x2x2x2x2x2x2, .f32⟩
  | 18 => ⟨S1x2x2x2x2x2x2x2x2x2x2x2x2x2x2x2x2x2x2x2x2x2x2, .f32⟩
  | 19 => ⟨S1x2x2x2x2x2x2x2x2x2x2x2x2x2x2x2x2x2x2x2x2x2x2, .f32⟩
  | 20 => ⟨S2x2x2x2x2x2x2x2x2x2x2x2x2x2x2x2x2x2x2x2x2x2x2, .f32⟩
  | 21 => ⟨S2x1x2x2x2x2x2x2x2x2x2x2x2x2x2x2x2x2x2x2x2x2x2, .f32⟩
  | 22 => ⟨S2x1x2x2x2x2x2x2x2x2x2x2x2x2x2x2x2x2x2x2x2x2x2, .f32⟩
  | 23 => ⟨S2x1x2x2x2x2x2x2x2x2x2x2x2x2x2x2x2x2x2x2x2x2x2, .f32⟩
  | 24 => ⟨S2x1x2x2x2x2x2x2x2x2x2x2x2x2x2x2x2x2x2x2x2x2x2, .f32⟩
  | 25 => ⟨S2x2x2x2x2x2x2x2x2x2x2x2x2x2x2x2x2x2x2x2x2x2x2, .f32⟩
  | 26 => ⟨S2x2x1x2x2x2x2x2x2x2x2x2x2x2x2x2x2x2x2x2x2x2x2, .f32⟩
  | 27 => ⟨S2x2x1x2x2x2x2x2x2x2x2x2x2x2x2x2x2x2x2x2x2x2x2, .f32⟩
  | 28 => ⟨S2x2x1x2x2x2x2x2x2x2x2x2x2x2x2x2x2x2x2x2x2x2x2, .f32⟩
  | 29 => ⟨S2x2x1x2x2x2x2x2x2x2x2x2x2x2x2x2x2x2x2x2x2x2x2, .f32⟩
  | 30 => ⟨S2x2x2x2x2x2x2x2x2x2x2x2x2x2x2x2x2x2x2x2x2x2x2, .f32⟩
  | 31 => ⟨S2x2x2x1x2x2x2x2x2x2x2x2x2x2x2x2x2x2x2x2x2x2x2, .f32⟩
  | 32 => ⟨S2x2x2x1x2x2x2x2x2x2x2x2x2x2x2x2x2x2x2x2x2x2x2, .f32⟩
  | 33 => ⟨S2x2x2x1x2x2x2x2x2x2x2x2x2x2x2x2x2x2x2x2x2x2x2, .f32⟩
  | 34 => ⟨S2x2x2x1x2x2x2x2x2x2x2x2x2x2x2x2x2x2x2x2x2x2x2, .f32⟩
  | 35 => ⟨S2x2x2x2x2x2x2x2x2x2x2x2x2x2x2x2x2x2x2x2x2x2x2, .f32⟩
  | 36 => ⟨S2x2x2x2x1x2x2x2x2x2x2x2x2x2x2x2x2x2x2x2x2x2x2, .f32⟩
  | 37 => ⟨S2x2x2x2x1x2x2x2x2x2x2x2x2x2x2x2x2x2x2x2x2x2x2, .f32⟩
  | 38 => ⟨S2x2x2x2x1x2x2x2x2x2x2x2x2x2x2x2x2x2x2x2x2x2x2, .f32⟩
  | 39 => ⟨S2x2x2x2x1x2x2x2x2x2x2x2x2x2x2x2x2x2x2x2x2x2x2, .f32⟩
  | 40 => ⟨S2x2x2x2x2x2x2x2x2x2x2x2x2x2x2x2x2x2x2x2x2x2x2, .f32⟩
  | 41 => ⟨S2x2x2x2x2x1x2x2x2x2x2x2x2x2x2x2x2x2x2x2x2x2x2, .f32⟩
  | 42 => ⟨S2x2x2x2x2x1x2x2x2x2x2x2x2x2x2x2x2x2x2x2x2x2x2, .f32⟩
  | 43 => ⟨S2x2x2x2x2x1x2x2x2x2x2x2x2x2x2x2x2x2x2x2x2x2x2, .f32⟩
  | 44 => ⟨S2x2x2x2x2x1x2x2x2x2x2x2x2x2x2x2x2x2x2x2x2x2x2, .f32⟩
  | 45 => ⟨S2x2x2x2x2x2x2x2x2x2x2x2x2x2x2x2x2x2x2x2x2x2x2, .f32⟩
  | 46 => ⟨S2x2x2x2x2x2x1x2x2x2x2x2x2x2x2x2x2x2x2x2x2x2x2, .f32⟩
  | 47 => ⟨S2x2x2x2x2x2x1x2x2x2x2x2x2x2x2x2x2x2x2x2x2x2x2, .f32⟩
  | 48 => ⟨S2x2x2x2x2x2x1x2x2x2x2x2x2x2x2x2x2x2x2x2x2x2x2, .f32⟩
  | 49 => ⟨S2x2x2x2x2x2x1x2x2x2x2x2x2x2x2x2x2x2x2x2x2x2x2, .f32⟩
  | 50 => ⟨S2x2x2x2x2x2x2x2x2x2x2x2x2x2x2x2x2x2x2x2x2x2x2, .f32⟩
  | 51 => ⟨S2x2x2x2x2x2x2x1x2x2x2x2x2x2x2x2x2x2x2x2x2x2x2, .f32⟩
  | 52 => ⟨S2x2x2x2x2x2x2x1x2x2x2x2x2x2x2x2x2x2x2x2x2x2x2, .f32⟩
  | 53 => ⟨S2x2x2x2x2x2x2x1x2x2x2x2x2x2x2x2x2x2x2x2x2x2x2, .f32⟩
  | 54 => ⟨S2x2x2x2x2x2x2x1x2x2x2x2x2x2x2x2x2x2x2x2x2x2x2, .f32⟩
  | 55 => ⟨S2x2x2x2x2x2x2x2x2x2x2x2x2x2x2x2x2x2x2x2x2x2x2, .f32⟩
  | 56 => ⟨S2x2x2x2x2x2x2x2x1x2x2x2x2x2x2x2x2x2x2x2x2x2x2, .f32⟩
  | 57 => ⟨S2x2x2x2x2x2x2x2x1x2x2x2x2x2x2x2x2x2x2x2x2x2x2, .f32⟩
  | 58 => ⟨S2x2x2x2x2x2x2x2x1x2x2x2x2x2x2x2x2x2x2x2x2x2x2, .f32⟩
  | 59 => ⟨S2x2x2x2x2x2x2x2x1x2x2x2x2x2x2x2x2x2x2x2x2x2x2, .f32⟩
  | 60 => ⟨S2x2x2x2x2x2x2x2x2x2x2x2x2x2x2x2x2x2x2x2x2x2x2, .f32⟩
  | 61 => ⟨S2x2x2x2x2x2x2x2x2x1x2x2x2x2x2x2x2x2x2x2x2x2x2, .f32⟩
  | 62 => ⟨S2x2x2x2x2x2x2x2x2x1x2x2x2x2x2x2x2x2x2x2x2x2x2, .f32⟩
  | 63 => ⟨S2x2x2x2x2x2x2x2x2x1x2x2x2x2x2x2x2x2x2x2x2x2x2, .f32⟩
  | 64 => ⟨S2x2x2x2x2x2x2x2x2x1x2x2x2x2x2x2x2x2x2x2x2x2x2, .f32⟩
  | 65 => ⟨S2x2x2x2x2x2x2x2x2x2x2x2x2x2x2x2x2x2x2x2x2x2x2, .f32⟩
  | 66 => ⟨S2x2x2x2x2x2x2x2x2x2x1x2x2x2x2x2x2x2x2x2x2x2x2, .f32⟩
  | 67 => ⟨S2x2x2x2x2x2x2x2x2x2x1x2x2x2x2x2x2x2x2x2x2x2x2, .f32⟩
  | 68 => ⟨S2x2x2x2x2x2x2x2x2x2x1x2x2x2x2x2x2x2x2x2x2x2x2, .f32⟩
  | 69 => ⟨S2x2x2x2x2x2x2x2x2x2x1x2x2x2x2x2x2x2x2x2x2x2x2, .f32⟩
  | 70 => ⟨S2x2x2x2x2x2x2x2x2x2x2x2x2x2x2x2x2x2x2x2x2x2x2, .f32⟩
  | 71 => ⟨S2x2x2x2x2x2x2x2x2x2x2x1x2x2x2x2x2x2x2x2x2x2x2, .f32⟩
  | 72 => ⟨S2x2x2x2x2x2x2x2x2x2x2x1x2x2x2x2x2x2x2x2x2x2x2, .f32⟩
  | 73 => ⟨S2x2x2x2x2x2x2x2x2x2x2x1x2x2x2x2x2x2x2x2x2x2x2, .f32⟩
  | 74 => ⟨S2x2x2x2x2x2x2x2x2x2x2x1x2x2x2x2x2x2x2x2x2x2x2, .f32⟩
  | 75 => ⟨S2x2x2x2x2x2x2x2x2x2x2x2x2x2x2x2x2x2x2x2x2x2x2, .f32⟩
  | 76 => ⟨S2x2x2x2x2x2x2x2x2x2x2x2x1x2x2x2x2x2x2x2x2x2x2, .f32⟩
  | 77 => ⟨S2x2x2x2x2x2x2x2x2x2x2x2x1x2x2x2x2x2x2x2x2x2x2, .f32⟩
  | 78 => ⟨S2x2x2x2x2x2x2x2x2x2x2x2x1x2x2x2x2x2x2x2x2x2x2, .f32⟩
  | 79 => ⟨S2x2x2x2x2x2x2x2x2x2x2x2x1x2x2x2x2x2x2x2x2x2x2, .f32⟩
  | 80 => ⟨S2x2x2x2x2x2x2x2x2x2x2x2x2x2x2x2x2x2x2x2x2x2x2, .f32⟩
  | 81 => ⟨S2x2x2x2x2x2x2x2x2x2x2x2x2x1x2x2x2x2x2x2x2x2x2, .f32⟩
  | 82 => ⟨S2x2x2x2x2x2x2x2x2x2x2x2x2x1x2x2x2x2x2x2x2x2x2, .f32⟩
  | 83 => ⟨S2x2x2x2x2x2x2x2x2x2x2x2x2x1x2x2x2x2x2x2x2x2x2, .f32⟩
  | 84 => ⟨S2x2x2x2x2x2x2x2x2x2x2x2x2x1x2x2x2x2x2x2x2x2x2, .f32⟩
  | 85 => ⟨S2x2x2x2x2x2x2x2x2x2x2x2x2x2x2x2x2x2x2x2x2x2x2, .f32⟩
  | 86 => ⟨S2x2x2x2x2x2x2x2x2x2x2x2x2x2x1x2x2x2x2x2x2x2x2, .f32⟩
  | 87 => ⟨S2x2x2x2x2x2x2x2x2x2x2x2x2x2x1x2x2x2x2x2x2x2x2, .f32⟩
  | 88 => ⟨S2x2x2x2x2x2x2x2x2x2x2x2x2x2x1x2x2x2x2x2x2x2x2, .f32⟩
  | 89 => ⟨S2x2x2x2x2x2x2x2x2x2x2x2x2x2x1x2x2x2x2x2x2x2x2, .f32⟩
  | 90 => ⟨S2x2x2x2x2x2x2x2x2x2x2x2x2x2x2x2x2x2x2x2x2x2x2, .f32⟩
  | 91 => ⟨S2x2x2x2x2x2x2x2x2x2x2x2x2x2x2x1x2x2x2x2x2x2x2, .f32⟩
  | 92 => ⟨S2x2x2x2x2x2x2x2x2x2x2x2x2x2x2x1x2x2x2x2x2x2x2, .f32⟩
  | 93 => ⟨S2x2x2x2x2x2x2x2x2x2x2x2x2x2x2x1x2x2x2x2x2x2x2, .f32⟩
  | 94 => ⟨S2x2x2x2x2x2x2x2x2x2x2x2x2x2x2x1x2x2x2x2x2x2x2, .f32⟩
  | 95 => ⟨S2x2x2x2x2x2x2x2x2x2x2x2x2x2x2x2x2x2x2x2x2x2x2, .f32⟩
  | 96 => ⟨S2x2x2x2x2x2x2x2x2x2x2x2x2x2x2x2x1x2x2x2x2x2x2, .f32⟩
  | 97 => ⟨S2x2x2x2x2x2x2x2x2x2x2x2x2x2x2x2x1x2x2x2x2x2x2, .f32⟩
  | 98 => ⟨S2x2x2x2x2x2x2x2x2x2x2x2x2x2x2x2x1x2x2x2x2x2x2, .f32⟩
  | 99 => ⟨S2x2x2x2x2x2x2x2x2x2x2x2x2x2x2x2x1x2x2x2x2x2x2, .f32⟩
  | 100 => ⟨S2x2x2x2x2x2x2x2x2x2x2x2x2x2x2x2x2x2x2x2x2x2x2, .f32⟩
  | 101 => ⟨S2x2x2x2x2x2x2x2x2x2x2x2x2x2x2x2x2x1x2x2x2x2x2, .f32⟩
  | 102 => ⟨S2x2x2x2x2x2x2x2x2x2x2x2x2x2x2x2x2x1x2x2x2x2x2, .f32⟩
  | 103 => ⟨S2x2x2x2x2x2x2x2x2x2x2x2x2x2x2x2x2x1x2x2x2x2x2, .f32⟩
  | 104 => ⟨S2x2x2x2x2x2x2x2x2x2x2x2x2x2x2x2x2x1x2x2x2x2x2, .f32⟩
  | 105 => ⟨S2x2x2x2x2x2x2x2x2x2x2x2x2x2x2x2x2x2x2x2x2x2x2, .f32⟩
  | 106 => ⟨S2x2x2x2x2x2x2x2x2x2x2x2x2x2x2x2x2x2x1x2x2x2x2, .f32⟩
  | 107 => ⟨S2x2x2x2x2x2x2x2x2x2x2x2x2x2x2x2x2x2x1x2x2x2x2, .f32⟩
  | 108 => ⟨S2x2x2x2x2x2x2x2x2x2x2x2x2x2x2x2x2x2x1x2x2x2x2, .f32⟩
  | 109 => ⟨S2x2x2x2x2x2x2x2x2x2x2x2x2x2x2x2x2x2x1x2x2x2x2, .f32⟩
  | 110 => ⟨S2x2x2x2x2x2x2x2x2x2x2x2x2x2x2x2x2x2x2x2x2x2x2, .f32⟩
  | 111 => ⟨S2x2x2x2x2x2x2x2x2x2x2x2x2x2x2x2x2x2x2x1x2x2x2, .f32⟩
  | 112 => ⟨S2x2x2x2x2x2x2x2x2x2x2x2x2x2x2x2x2x2x2x1x2x2x2, .f32⟩
  | 113 => ⟨S2x2x2x2x2x2x2x2x2x2x2x2x2x2x2x2x2x2x2x1x2x2x2, .f32⟩
  | 114 => ⟨S2x2x2x2x2x2x2x2x2x2x2x2x2x2x2x2x2x2x2x1x2x2x2, .f32⟩
  | 115 => ⟨S2x2x2x2x2x2x2x2x2x2x2x2x2x2x2x2x2x2x2x2x2x2x2, .f32⟩
  | 116 => ⟨S2x2x2x2x2x2x2x2x2x2x2x2x2x2x2x2x2x2x2x2x1x2x2, .f32⟩
  | 117 => ⟨S2x2x2x2x2x2x2x2x2x2x2x2x2x2x2x2x2x2x2x2x1x2x2, .f32⟩
  | 118 => ⟨S2x2x2x2x2x2x2x2x2x2x2x2x2x2x2x2x2x2x2x2x1x2x2, .f32⟩
  | 119 => ⟨S2x2x2x2x2x2x2x2x2x2x2x2x2x2x2x2x2x2x2x2x1x2x2, .f32⟩
  | 120 => ⟨S2x2x2x2x2x2x2x2x2x2x2x2x2x2x2x2x2x2x2x2x2x2x2, .f32⟩
  | 121 => ⟨S2x2x2x2x2x2x2x2x2x2x2x2x2x2x2x2x2x2x2x2x2x1x2, .f32⟩
  | 122 => ⟨S2x2x2x2x2x2x2x2x2x2x2x2x2x2x2x2x2x2x2x2x2x1x2, .f32⟩
  | 123 => ⟨S2x2x2x2x2x2x2x2x2x2x2x2x2x2x2x2x2x2x2x2x2x1x2, .f32⟩
  | 124 => ⟨S2x2x2x2x2x2x2x2x2x2x2x2x2x2x2x2x2x2x2x2x2x1x2, .f32⟩
  | 125 => ⟨S2x2x2x2x2x2x2x2x2x2x2x2x2x2x2x2x2x2x2x2x2x2x2, .f32⟩
  | 126 => ⟨S2x2x2x2x2x2x2x2x2x2x2x2x2x2x2x2x2x2x2x2x2x2x1, .f32⟩
  | 127 => ⟨S2x2x2x2x2x2x2x2x2x2x2x2x2x2x2x2x2x2x2x2x2x2x1, .f32⟩
  | _ => ⟨S4096x2048, .f32⟩

abbrev hbmTy0_2 (i : Nat) : BufTy := match i % 128 with
  | 0 => ⟨S2x2x2x2x2x2x2x2x2x2x2x2x2x2x2x2x2x2x2x2x2x2x1, .f32⟩
  | 1 => ⟨S2x2x2x2x2x2x2x2x2x2x2x2x2x2x2x2x2x2x2x2x2x2x1, .f32⟩
  | 2 => ⟨S2x2x2x2x2x2x2x2x2x2x2x2x2x2x2x2x2x2x2x2x2x2x2, .f32⟩
  | 3 => ⟨S8388608, .f32⟩
  | 4 => ⟨S8388608, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S8388608, .f32⟩
  | 13 => ⟨S8388608, .f32⟩
  | 14 => ⟨S4096x2048, .f32⟩
  | 15 => ⟨S_, .f32⟩
  | 16 => ⟨S4096, .f32⟩
  | 17 => ⟨S_, .i32⟩
  | 18 => ⟨S1, .i32⟩
  | 19 => ⟨S4096, .f32⟩
  | 20 => ⟨S4096, .f32⟩
  | 21 => ⟨S2x2x2x2x2x2x2x2x2x2x2x2, .f32⟩
  | 22 => ⟨S1x2x2x2x2x2x2x2x2x2x2x2, .f32⟩
  | 23 => ⟨S1x2x2x2x2x2x2x2x2x2x2x2, .f32⟩
  | 24 => ⟨S1x2x2x2x2x2x2x2x2x2x2x2, .f32⟩
  | 25 => ⟨S1x2x2x2x2x2x2x2x2x2x2x2, .f32⟩
  | 26 => ⟨S2x2x2x2x2x2x2x2x2x2x2x2, .f32⟩
  | 27 => ⟨S2x1x2x2x2x2x2x2x2x2x2x2, .f32⟩
  | 28 => ⟨S2x1x2x2x2x2x2x2x2x2x2x2, .f32⟩
  | 29 => ⟨S2x1x2x2x2x2x2x2x2x2x2x2, .f32⟩
  | 30 => ⟨S2x1x2x2x2x2x2x2x2x2x2x2, .f32⟩
  | 31 => ⟨S2x2x2x2x2x2x2x2x2x2x2x2, .f32⟩
  | 32 => ⟨S2x2x1x2x2x2x2x2x2x2x2x2, .f32⟩
  | 33 => ⟨S2x2x1x2x2x2x2x2x2x2x2x2, .f32⟩
  | 34 => ⟨S2x2x1x2x2x2x2x2x2x2x2x2, .f32⟩
  | 35 => ⟨S2x2x1x2x2x2x2x2x2x2x2x2, .f32⟩
  | 36 => ⟨S2x2x2x2x2x2x2x2x2x2x2x2, .f32⟩
  | 37 => ⟨S2x2x2x1x2x2x2x2x2x2x2x2, .f32⟩
  | 38 => ⟨S2x2x2x1x2x2x2x2x2x2x2x2, .f32⟩
  | 39 => ⟨S2x2x2x1x2x2x2x2x2x2x2x2, .f32⟩
  | 40 => ⟨S2x2x2x1x2x2x2x2x2x2x2x2, .f32⟩
  | 41 => ⟨S2x2x2x2x2x2x2x2x2x2x2x2, .f32⟩
  | 42 => ⟨S2x2x2x2x1x2x2x2x2x2x2x2, .f32⟩
  | 43 => ⟨S2x2x2x2x1x2x2x2x2x2x2x2, .f32⟩
  | 44 => ⟨S2x2x2x2x1x2x2x2x2x2x2x2, .f32⟩
  | 45 => ⟨S2x2x2x2x1x2x2x2x2x2x2x2, .f32⟩
  | 46 => ⟨S2x2x2x2x2x2x2x2x2x2x2x2, .f32⟩
  | 47 => ⟨S2x2x2x2x2x1x2x2x2x2x2x2, .f32⟩
  | 48 => ⟨S2x2x2x2x2x1x2x2x2x2x2x2, .f32⟩
  | 49 => ⟨S2x2x2x2x2x1x2x2x2x2x2x2, .f32⟩
  | 50 => ⟨S2x2x2x2x2x1x2x2x2x2x2x2, .f32⟩
  | 51 => ⟨S2x2x2x2x2x2x2x2x2x2x2x2, .f32⟩
  | 52 => ⟨S2x2x2x2x2x2x1x2x2x2x2x2, .f32⟩
  | 53 => ⟨S2x2x2x2x2x2x1x2x2x2x2x2, .f32⟩
  | 54 => ⟨S2x2x2x2x2x2x1x2x2x2x2x2, .f32⟩
  | 55 => ⟨S2x2x2x2x2x2x1x2x2x2x2x2, .f32⟩
  | 56 => ⟨S2x2x2x2x2x2x2x2x2x2x2x2, .f32⟩
  | 57 => ⟨S2x2x2x2x2x2x2x1x2x2x2x2, .f32⟩
  | 58 => ⟨S2x2x2x2x2x2x2x1x2x2x2x2, .f32⟩
  | 59 => ⟨S2x2x2x2x2x2x2x1x2x2x2x2, .f32⟩
  | 60 => ⟨S2x2x2x2x2x2x2x1x2x2x2x2, .f32⟩
  | 61 => ⟨S2x2x2x2x2x2x2x2x2x2x2x2, .f32⟩
  | 62 => ⟨S2x2x2x2x2x2x2x2x1x2x2x2, .f32⟩
  | 63 => ⟨S2x2x2x2x2x2x2x2x1x2x2x2, .f32⟩
  | 64 => ⟨S2x2x2x2x2x2x2x2x1x2x2x2, .f32⟩
  | 65 => ⟨S2x2x2x2x2x2x2x2x1x2x2x2, .f32⟩
  | 66 => ⟨S2x2x2x2x2x2x2x2x2x2x2x2, .f32⟩
  | 67 => ⟨S2x2x2x2x2x2x2x2x2x1x2x2, .f32⟩
  | 68 => ⟨S2x2x2x2x2x2x2x2x2x1x2x2, .f32⟩
  | 69 => ⟨S2x2x2x2x2x2x2x2x2x1x2x2, .f32⟩
  | 70 => ⟨S2x2x2x2x2x2x2x2x2x1x2x2, .f32⟩
  | 71 => ⟨S2x2x2x2x2x2x2x2x2x2x2x2, .f32⟩
  | 72 => ⟨S2x2x2x2x2x2x2x2x2x2x1x2, .f32⟩
  | 73 => ⟨S2x2x2x2x2x2x2x2x2x2x1x2, .f32⟩
  | 74 => ⟨S2x2x2x2x2x2x2x2x2x2x1x2, .f32⟩
  | 75 => ⟨S2x2x2x2x2x2x2x2x2x2x1x2, .f32⟩
  | 76 => ⟨S2x2x2x2x2x2x2x2x2x2x2x2, .f32⟩
  | 77 => ⟨S2x2x2x2x2x2x2x2x2x2x2x1, .f32⟩
  | 78 => ⟨S2x2x2x2x2x2x2x2x2x2x2x1, .f32⟩
  | 79 => ⟨S2x2x2x2x2x2x2x2x2x2x2x1, .f32⟩
  | 80 => ⟨S2x2x2x2x2x2x2x2x2x2x2x1, .f32⟩
  | 81 => ⟨S2x2x2x2x2x2x2x2x2x2x2x2, .f32⟩
  | 82 => ⟨S4096, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096, .f32⟩
  | 92 => ⟨S4096, .f32⟩
  | 93 => ⟨S2x2x2x2x2x2x2x2x2x2x2x2, .f32⟩
  | 94 => ⟨S1x2x2x2x2x2x2x2x2x2x2x2, .f32⟩
  | 95 => ⟨S1x2x2x2x2x2x2x2x2x2x2x2, .f32⟩
  | 96 => ⟨S1x2x2x2x2x2x2x2x2x2x2x2, .f32⟩
  | 97 => ⟨S1x2x2x2x2x2x2x2x2x2x2x2, .f32⟩
  | 98 => ⟨S2x2x2x2x2x2x2x2x2x2x2x2, .f32⟩
  | 99 => ⟨S2x1x2x2x2x2x2x2x2x2x2x2, .f32⟩
  | 100 => ⟨S2x1x2x2x2x2x2x2x2x2x2x2, .f32⟩
  | 101 => ⟨S2x1x2x2x2x2x2x2x2x2x2x2, .f32⟩
  | 102 => ⟨S2x1x2x2x2x2x2x2x2x2x2x2, .f32⟩
  | 103 => ⟨S2x2x2x2x2x2x2x2x2x2x2x2, .f32⟩
  | 104 => ⟨S2x2x1x2x2x2x2x2x2x2x2x2, .f32⟩
  | 105 => ⟨S2x2x1x2x2x2x2x2x2x2x2x2, .f32⟩
  | 106 => ⟨S2x2x1x2x2x2x2x2x2x2x2x2, .f32⟩
  | 107 => ⟨S2x2x1x2x2x2x2x2x2x2x2x2, .f32⟩
  | 108 => ⟨S2x2x2x2x2x2x2x2x2x2x2x2, .f32⟩
  | 109 => ⟨S2x2x2x1x2x2x2x2x2x2x2x2, .f32⟩
  | 110 => ⟨S2x2x2x1x2x2x2x2x2x2x2x2, .f32⟩
  | 111 => ⟨S2x2x2x1x2x2x2x2x2x2x2x2, .f32⟩
  | 112 => ⟨S2x2x2x1x2x2x2x2x2x2x2x2, .f32⟩
  | 113 => ⟨S2x2x2x2x2x2x2x2x2x2x2x2, .f32⟩
  | 114 => ⟨S2x2x2x2x1x2x2x2x2x2x2x2, .f32⟩
  | 115 => ⟨S2x2x2x2x1x2x2x2x2x2x2x2, .f32⟩
  | 116 => ⟨S2x2x2x2x1x2x2x2x2x2x2x2, .f32⟩
  | 117 => ⟨S2x2x2x2x1x2x2x2x2x2x2x2, .f32⟩
  | 118 => ⟨S2x2x2x2x2x2x2x2x2x2x2x2, .f32⟩
  | 119 => ⟨S2x2x2x2x2x1x2x2x2x2x2x2, .f32⟩
  | 120 => ⟨S2x2x2x2x2x1x2x2x2x2x2x2, .f32⟩
  | 121 => ⟨S2x2x2x2x2x1x2x2x2x2x2x2, .f32⟩
  | 122 => ⟨S2x2x2x2x2x1x2x2x2x2x2x2, .f32⟩
  | 123 => ⟨S2x2x2x2x2x2x2x2x2x2x2x2, .f32⟩
  | 124 => ⟨S2x2x2x2x2x2x1x2x2x2x2x2, .f32⟩
  | 125 => ⟨S2x2x2x2x2x2x1x2x2x2x2x2, .f32⟩
  | 126 => ⟨S2x2x2x2x2x2x1x2x2x2x2x2, .f32⟩
  | 127 => ⟨S2x2x2x2x2x2x1x2x2x2x2x2, .f32⟩
  | _ => ⟨S4096x2048, .f32⟩

abbrev hbmTy0_3 (i : Nat) : BufTy := match i % 128 with
  | 0 => ⟨S2x2x2x2x2x2x2x2x2x2x2x2, .f32⟩
  | 1 => ⟨S2x2x2x2x2x2x2x1x2x2x2x2, .f32⟩
  | 2 => ⟨S2x2x2x2x2x2x2x1x2x2x2x2, .f32⟩
  | 3 => ⟨S2x2x2x2x2x2x2x1x2x2x2x2, .f32⟩
  | 4 => ⟨S2x2x2x2x2x2x2x1x2x2x2x2, .f32⟩
  | 5 => ⟨S2x2x2x2x2x2x2x2x2x2x2x2, .f32⟩
  | 6 => ⟨S2x2x2x2x2x2x2x2x1x2x2x2, .f32⟩
  | 7 => ⟨S2x2x2x2x2x2x2x2x1x2x2x2, .f32⟩
  | 8 => ⟨S2x2x2x2x2x2x2x2x1x2x2x2, .f32⟩
  | 9 => ⟨S2x2x2x2x2x2x2x2x1x2x2x2, .f32⟩
  | 10 => ⟨S2x2x2x2x2x2x2x2x2x2x2x2, .f32⟩
  | 11 => ⟨S2x2x2x2x2x2x2x2x2x1x2x2, .f32⟩
  | 12 => ⟨S2x2x2x2x2x2x2x2x2x1x2x2, .f32⟩
  | 13 => ⟨S2x2x2x2x2x2x2x2x2x1x2x2, .f32⟩
  | 14 => ⟨S2x2x2x2x2x2x2x2x2x1x2x2, .f32⟩
  | 15 => ⟨S2x2x2x2x2x2x2x2x2x2x2x2, .f32⟩
  | 16 => ⟨S2x2x2x2x2x2x2x2x2x2x1x2, .f32⟩
  | 17 => ⟨S2x2x2x2x2x2x2x2x2x2x1x2, .f32⟩
  | 18 => ⟨S2x2x2x2x2x2x2x2x2x2x1x2, .f32⟩
  | 19 => ⟨S2x2x2x2x2x2x2x2x2x2x1x2, .f32⟩
  | 20 => ⟨S2x2x2x2x2x2x2x2x2x2x2x2, .f32⟩
  | 21 => ⟨S2x2x2x2x2x2x2x2x2x2x2x1, .f32⟩
  | 22 => ⟨S2x2x2x2x2x2x2x2x2x2x2x1, .f32⟩
  | 23 => ⟨S2x2x2x2x2x2x2x2x2x2x2x1, .f32⟩
  | 24 => ⟨S2x2x2x2x2x2x2x2x2x2x2x1, .f32⟩
  | 25 => ⟨S2x2x2x2x2x2x2x2x2x2x2x2, .f32⟩
  | 26 => ⟨S4096, .f32⟩
  | 27 => ⟨S4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096, .f32⟩
  | 36 => ⟨S4096, .f32⟩
  | 37 => ⟨S4096x2048, .f32⟩
  | 38 => ⟨S4096, .f32⟩
  | 39 => ⟨S2048x4096, .f32⟩
  | 40 => ⟨S4096x4096, .f32⟩
  | 41 => ⟨S1x4096, .f32⟩
  | 42 => ⟨S4096x4096, .f32⟩
  | 43 => ⟨S4096x4096, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_c_0 : Ref sig .tc := ⟨.hbm, 133, rfl⟩
abbrev main_v121 : Ref sig .tc := ⟨.hbm, 134, rfl⟩
abbrev main_v122 : Ref sig .tc := ⟨.hbm, 135, rfl⟩
abbrev main_c_1 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_2 : Ref sig .tc := ⟨.hbm, 261, rfl⟩
abbrev main_v247 : Ref sig .tc := ⟨.hbm, 262, rfl⟩
abbrev main_cst_3 : Ref sig .tc := ⟨.hbm, 263, rfl⟩
abbrev main_v248 : Ref sig .tc := ⟨.hbm, 264, rfl⟩
abbrev main_v249 : Ref sig .tc := ⟨.hbm, 265, rfl⟩
abbrev main_cst_4 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_cst_5 : Ref sig .tc := ⟨.hbm, 271, rfl⟩
abbrev main_v254 : Ref sig .tc := ⟨.hbm, 272, rfl⟩
abbrev main_c_6 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_c_7 : Ref sig .tc := ⟨.hbm, 339, rfl⟩
abbrev main_v320 : Ref sig .tc := ⟨.hbm, 340, rfl⟩
abbrev main_v321 : Ref sig .tc := ⟨.hbm, 341, rfl⟩
abbrev main_c_8 : Ref sig .tc := ⟨.hbm, 342, rfl⟩
abbrev main_v322 : Ref sig .tc := ⟨.hbm, 343, rfl⟩
abbrev main_v323 : Ref sig .tc := ⟨.hbm, 344, rfl⟩
abbrev main_v324 : Ref sig .tc := ⟨.hbm, 345, rfl⟩
abbrev main_v325 : Ref sig .tc := ⟨.hbm, 346, rfl⟩
abbrev main_v326 : Ref sig .tc := ⟨.hbm, 347, rfl⟩
abbrev main_v327 : Ref sig .tc := ⟨.hbm, 348, rfl⟩
abbrev main_v328 : Ref sig .tc := ⟨.hbm, 349, rfl⟩
abbrev main_v329 : Ref sig .tc := ⟨.hbm, 350, rfl⟩
abbrev main_v330 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_v347 : Ref sig .tc := ⟨.hbm, 368, rfl⟩
abbrev main_v348 : Ref sig .tc := ⟨.hbm, 369, rfl⟩
abbrev main_v349 : Ref sig .tc := ⟨.hbm, 370, rfl⟩
abbrev main_v350 : Ref sig .tc := ⟨.hbm, 371, rfl⟩
abbrev main_v351 : Ref sig .tc := ⟨.hbm, 372, rfl⟩
abbrev main_v352 : Ref sig .tc := ⟨.hbm, 373, rfl⟩
abbrev main_v353 : Ref sig .tc := ⟨.hbm, 374, rfl⟩
abbrev main_v354 : Ref sig .tc := ⟨.hbm, 375, rfl⟩
abbrev main_v355 : Ref sig .tc := ⟨.hbm, 376, rfl⟩
abbrev main_v356 : Ref sig .tc := ⟨.hbm, 377, rfl⟩
abbrev main_v357 : Ref sig .tc := ⟨.hbm, 378, rfl⟩
abbrev main_v358 : Ref sig .tc := ⟨.hbm, 379, rfl⟩
abbrev main_v359 : Ref sig .tc := ⟨.hbm, 380, rfl⟩
abbrev main_v360 : Ref sig .tc := ⟨.hbm, 381, rfl⟩
abbrev main_v361 : Ref sig .tc := ⟨.hbm, 382, rfl⟩
abbrev main_v362 : Ref sig .tc := ⟨.hbm, 383, rfl⟩
abbrev main_v363 : Ref sig .tc := ⟨.hbm, 384, rfl⟩
abbrev main_v364 : Ref sig .tc := ⟨.hbm, 385, rfl⟩
abbrev main_v365 : Ref sig .tc := ⟨.hbm, 386, rfl⟩
abbrev main_v366 : Ref sig .tc := ⟨.hbm, 387, rfl⟩
abbrev main_v367 : Ref sig .tc := ⟨.hbm, 388, rfl⟩
abbrev main_v368 : Ref sig .tc := ⟨.hbm, 389, rfl⟩
abbrev main_v369 : Ref sig .tc := ⟨.hbm, 390, rfl⟩
abbrev main_v370 : Ref sig .tc := ⟨.hbm, 391, rfl⟩
abbrev main_v371 : Ref sig .tc := ⟨.hbm, 392, rfl⟩
abbrev main_v372 : Ref sig .tc := ⟨.hbm, 393, rfl⟩
abbrev main_v373 : Ref sig .tc := ⟨.hbm, 394, rfl⟩
abbrev main_v374 : Ref sig .tc := ⟨.hbm, 395, rfl⟩
abbrev main_v375 : Ref sig .tc := ⟨.hbm, 396, rfl⟩
abbrev main_v376 : Ref sig .tc := ⟨.hbm, 397, rfl⟩
abbrev main_v377 : Ref sig .tc := ⟨.hbm, 398, rfl⟩
abbrev main_v378 : Ref sig .tc := ⟨.hbm, 399, rfl⟩
abbrev main_v379 : Ref sig .tc := ⟨.hbm, 400, rfl⟩
abbrev main_v380 : Ref sig .tc := ⟨.hbm, 401, rfl⟩
abbrev main_v381 : Ref sig .tc := ⟨.hbm, 402, rfl⟩
abbrev main_v382 : Ref sig .tc := ⟨.hbm, 403, rfl⟩
abbrev main_v383 : Ref sig .tc := ⟨.hbm, 404, rfl⟩
abbrev main_v384 : Ref sig .tc := ⟨.hbm, 405, rfl⟩
abbrev main_v385 : Ref sig .tc := ⟨.hbm, 406, rfl⟩
abbrev main_v386 : Ref sig .tc := ⟨.hbm, 407, rfl⟩
abbrev main_v387 : Ref sig .tc := ⟨.hbm, 408, rfl⟩
abbrev main_v388 : Ref sig .tc := ⟨.hbm, 409, rfl⟩
abbrev main_v389 : Ref sig .tc := ⟨.hbm, 410, rfl⟩
abbrev main_v390 : Ref sig .tc := ⟨.hbm, 411, rfl⟩
abbrev main_cst_9 : Ref sig .tc := ⟨.hbm, 412, rfl⟩
abbrev main_v391 : Ref sig .tc := ⟨.hbm, 413, rfl⟩
abbrev main_cst_10 : Ref sig .tc := ⟨.hbm, 414, rfl⟩
abbrev main_v392 : Ref sig .tc := ⟨.hbm, 415, rfl⟩
abbrev main_v393 : Ref sig .tc := ⟨.hbm, 416, rfl⟩
abbrev main_cst_11 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S1 : S_.BroadcastsInDim S1 (![] : Fin 0 → Fin S1.rank)
  shapeCasts_S8388608_S2x2x2x2x2x2x2x2x2x2x2x2x2x2x2x2x2x2x2x2x2x2x2 : S8388608.ShapeCasts S2x2x2x2x2x2x2x2x2x2x2x2x2x2x2x2x2x2x2x2x2x2x2
  slices_S2x2x2x2x2x2x2x2x2x2x2x2x2x2x2x2x2x2x2x2x2x2x2_S1x2x2x2x2x2x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S1x2x2x2x2x2x2x2x2x2x2x2x2x2x2x2x2x2x2x2x2x2x2
  slices_S2x2x2x2x2x2x2x2x2x2x2x2x2x2x2x2x2x2x2x2x2x2x2_S1x2x2x2x2x2x2x2x2x2x2x2x2x2x2x2x2x2x2x2x2x2x2_1_0_0_0_0_0_0_0_0_0_0_0_0_0_0_0_0_0_0_0_0_0_0 : S2x2x2x2x2x2x2x2x2x2x2x2x2x2x2x2x2x2x2x2x2x2x2.Slices ![1, 0, 0, 0, 0, 0, 0, 0, 0, 0, 0, 0, 0, 0, 0, 0, 0, 0, 0, 0, 0, 0, 0] S1x2x2x2x2x2x2x2x2x2x2x2x2x2x2x2x2x2x2x2x2x2x2
  concatenates_S1x2x2x2x2x2x2x2x2x2x2x2x2x2x2x2x2x2x2x2x2x2x2_S1x2x2x2x2x2x2x2x2x2x2x2x2x2x2x2x2x2x2x2x2x2x2_S2x2x2x2x2x2x2x2x2x2x2x2x2x2x2x2x2x2x2x2x2x2x2_d0 : Shape.Concatenates [S1x2x2x2x2x2x2x2x2x2x2x2x2x2x2x2x2x2x2x2x2x2x2, S1x2x2x2x2x2x2x2x2x2x2x2x2x2x2x2x2x2x2x2x2x2x2] S2x2x2x2x2x2x2x2x2x2x2x2x2x2x2x2x2x2x2x2x2x2x2 0
  slices_S2x2x2x2x2x2x2x2x2x2x2x2x2x2x2x2x2x2x2x2x2x2x2_S2x1x2x2x2x2x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x1x2x2x2x2x2x2x2x2x2x2x2x2x2x2x2x2x2x2x2x2x2
  slices_S2x2x2x2x2x2x2x2x2x2x2x2x2x2x2x2x2x2x2x2x2x2x2_S2x1x2x2x2x2x2x2x2x2x2x2x2x2x2x2x2x2x2x2x2x2x2_0_1_0_0_0_0_0_0_0_0_0_0_0_0_0_0_0_0_0_0_0_0_0 : S2x2x2x2x2x2x2x2x2x2x2x2x2x2x2x2x2x2x2x2x2x2x2.Slices ![0, 1, 0, 0, 0, 0, 0, 0, 0, 0, 0, 0, 0, 0, 0, 0, 0, 0, 0, 0, 0, 0, 0] S2x1x2x2x2x2x2x2x2x2x2x2x2x2x2x2x2x2x2x2x2x2x2
  concatenates_S2x1x2x2x2x2x2x2x2x2x2x2x2x2x2x2x2x2x2x2x2x2x2_S2x1x2x2x2x2x2x2x2x2x2x2x2x2x2x2x2x2x2x2x2x2x2_S2x2x2x2x2x2x2x2x2x2x2x2x2x2x2x2x2x2x2x2x2x2x2_d1 : Shape.Concatenates [S2x1x2x2x2x2x2x2x2x2x2x2x2x2x2x2x2x2x2x2x2x2x2, S2x1x2x2x2x2x2x2x2x2x2x2x2x2x2x2x2x2x2x2x2x2x2] S2x2x2x2x2x2x2x2x2x2x2x2x2x2x2x2x2x2x2x2x2x2x2 1
  slices_S2x2x2x2x2x2x2x2x2x2x2x2x2x2x2x2x2x2x2x2x2x2x2_S2x2x1x2x2x2x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x1x2x2x2x2x2x2x2x2x2x2x2x2x2x2x2x2x2x2x2x2
  slices_S2x2x2x2x2x2x2x2x2x2x2x2x2x2x2x2x2x2x2x2x2x2x2_S2x2x1x2x2x2x2x2x2x2x2x2x2x2x2x2x2x2x2x2x2x2x2_0_0_1_0_0_0_0_0_0_0_0_0_0_0_0_0_0_0_0_0_0_0_0 : S2x2x2x2x2x2x2x2x2x2x2x2x2x2x2x2x2x2x2x2x2x2x2.Slices ![0, 0, 1, 0, 0, 0, 0, 0, 0, 0, 0, 0, 0, 0, 0, 0, 0, 0, 0, 0, 0, 0, 0] S2x2x1x2x2x2x2x2x2x2x2x2x2x2x2x2x2x2x2x2x2x2x2
  concatenates_S2x2x1x2x2x2x2x2x2x2x2x2x2x2x2x2x2x2x2x2x2x2x2_S2x2x1x2x2x2x2x2x2x2x2x2x2x2x2x2x2x2x2x2x2x2x2_S2x2x2x2x2x2x2x2x2x2x2x2x2x2x2x2x2x2x2x2x2x2x2_d2 : Shape.Concatenates [S2x2x1x2x2x2x2x2x2x2x2x2x2x2x2x2x2x2x2x2x2x2x2, S2x2x1x2x2x2x2x2x2x2x2x2x2x2x2x2x2x2x2x2x2x2x2] S2x2x2x2x2x2x2x2x2x2x2x2x2x2x2x2x2x2x2x2x2x2x2 2
  slices_S2x2x2x2x2x2x2x2x2x2x2x2x2x2x2x2x2x2x2x2x2x2x2_S2x2x2x1x2x2x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x1x2x2x2x2x2x2x2x2x2x2x2x2x2x2x2x2x2x2x2
  slices_S2x2x2x2x2x2x2x2x2x2x2x2x2x2x2x2x2x2x2x2x2x2x2_S2x2x2x1x2x2x2x2x2x2x2x2x2x2x2x2x2x2x2x2x2x2x2_0_0_0_1_0_0_0_0_0_0_0_0_0_0_0_0_0_0_0_0_0_0_0 : S2x2x2x2x2x2x2x2x2x2x2x2x2x2x2x2x2x2x2x2x2x2x2.Slices ![0, 0, 0, 1, 0, 0, 0, 0, 0, 0, 0, 0, 0, 0, 0, 0, 0, 0, 0, 0, 0, 0, 0] S2x2x2x1x2x2x2x2x2x2x2x2x2x2x2x2x2x2x2x2x2x2x2
  concatenates_S2x2x2x1x2x2x2x2x2x2x2x2x2x2x2x2x2x2x2x2x2x2x2_S2x2x2x1x2x2x2x2x2x2x2x2x2x2x2x2x2x2x2x2x2x2x2_S2x2x2x2x2x2x2x2x2x2x2x2x2x2x2x2x2x2x2x2x2x2x2_d3 : Shape.Concatenates [S2x2x2x1x2x2x2x2x2x2x2x2x2x2x2x2x2x2x2x2x2x2x2, S2x2x2x1x2x2x2x2x2x2x2x2x2x2x2x2x2x2x2x2x2x2x2] S2x2x2x2x2x2x2x2x2x2x2x2x2x2x2x2x2x2x2x2x2x2x2 3
  slices_S2x2x2x2x2x2x2x2x2x2x2x2x2x2x2x2x2x2x2x2x2x2x2_S2x2x2x2x1x2x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x1x2x2x2x2x2x2x2x2x2x2x2x2x2x2x2x2x2x2
  slices_S2x2x2x2x2x2x2x2x2x2x2x2x2x2x2x2x2x2x2x2x2x2x2_S2x2x2x2x1x2x2x2x2x2x2x2x2x2x2x2x2x2x2x2x2x2x2_0_0_0_0_1_0_0_0_0_0_0_0_0_0_0_0_0_0_0_0_0_0_0 : S2x2x2x2x2x2x2x2x2x2x2x2x2x2x2x2x2x2x2x2x2x2x2.Slices ![0, 0, 0, 0, 1, 0, 0, 0, 0, 0, 0, 0, 0, 0, 0, 0, 0, 0, 0, 0, 0, 0, 0] S2x2x2x2x1x2x2x2x2x2x2x2x2x2x2x2x2x2x2x2x2x2x2
  concatenates_S2x2x2x2x1x2x2x2x2x2x2x2x2x2x2x2x2x2x2x2x2x2x2_S2x2x2x2x1x2x2x2x2x2x2x2x2x2x2x2x2x2x2x2x2x2x2_S2x2x2x2x2x2x2x2x2x2x2x2x2x2x2x2x2x2x2x2x2x2x2_d4 : Shape.Concatenates [S2x2x2x2x1x2x2x2x2x2x2x2x2x2x2x2x2x2x2x2x2x2x2, S2x2x2x2x1x2x2x2x2x2x2x2x2x2x2x2x2x2x2x2x2x2x2] S2x2x2x2x2x2x2x2x2x2x2x2x2x2x2x2x2x2x2x2x2x2x2 4
  slices_S2x2x2x2x2x2x2x2x2x2x2x2x2x2x2x2x2x2x2x2x2x2x2_S2x2x2x2x2x1x2x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x1x2x2x2x2x2x2x2x2x2x2x2x2x2x2x2x2x2
  slices_S2x2x2x2x2x2x2x2x2x2x2x2x2x2x2x2x2x2x2x2x2x2x2_S2x2x2x2x2x1x2x2x2x2x2x2x2x2x2x2x2x2x2x2x2x2x2_0_0_0_0_0_1_0_0_0_0_0_0_0_0_0_0_0_0_0_0_0_0_0 : S2x2x2x2x2x2x2x2x2x2x2x2x2x2x2x2x2x2x2x2x2x2x2.Slices ![0, 0, 0, 0, 0, 1, 0, 0, 0, 0, 0, 0, 0, 0, 0, 0, 0, 0, 0, 0, 0, 0, 0] S2x2x2x2x2x1x2x2x2x2x2x2x2x2x2x2x2x2x2x2x2x2x2
  concatenates_S2x2x2x2x2x1x2x2x2x2x2x2x2x2x2x2x2x2x2x2x2x2x2_S2x2x2x2x2x1x2x2x2x2x2x2x2x2x2x2x2x2x2x2x2x2x2_S2x2x2x2x2x2x2x2x2x2x2x2x2x2x2x2x2x2x2x2x2x2x2_d5 : Shape.Concatenates [S2x2x2x2x2x1x2x2x2x2x2x2x2x2x2x2x2x2x2x2x2x2x2, S2x2x2x2x2x1x2x2x2x2x2x2x2x2x2x2x2x2x2x2x2x2x2] S2x2x2x2x2x2x2x2x2x2x2x2x2x2x2x2x2x2x2x2x2x2x2 5
  slices_S2x2x2x2x2x2x2x2x2x2x2x2x2x2x2x2x2x2x2x2x2x2x2_S2x2x2x2x2x2x1x2x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x1x2x2x2x2x2x2x2x2x2x2x2x2x2x2x2x2
  slices_S2x2x2x2x2x2x2x2x2x2x2x2x2x2x2x2x2x2x2x2x2x2x2_S2x2x2x2x2x2x1x2x2x2x2x2x2x2x2x2x2x2x2x2x2x2x2_0_0_0_0_0_0_1_0_0_0_0_0_0_0_0_0_0_0_0_0_0_0_0 : S2x2x2x2x2x2x2x2x2x2x2x2x2x2x2x2x2x2x2x2x2x2x2.Slices ![0, 0, 0, 0, 0, 0, 1, 0, 0, 0, 0, 0, 0, 0, 0, 0, 0, 0, 0, 0, 0, 0, 0] S2x2x2x2x2x2x1x2x2x2x2x2x2x2x2x2x2x2x2x2x2x2x2
  concatenates_S2x2x2x2x2x2x1x2x2x2x2x2x2x2x2x2x2x2x2x2x2x2x2_S2x2x2x2x2x2x1x2x2x2x2x2x2x2x2x2x2x2x2x2x2x2x2_S2x2x2x2x2x2x2x2x2x2x2x2x2x2x2x2x2x2x2x2x2x2x2_d6 : Shape.Concatenates [S2x2x2x2x2x2x1x2x2x2x2x2x2x2x2x2x2x2x2x2x2x2x2, S2x2x2x2x2x2x1x2x2x2x2x2x2x2x2x2x2x2x2x2x2x2x2] S2x2x2x2x2x2x2x2x2x2x2x2x2x2x2x2x2x2x2x2x2x2x2 6
  slices_S2x2x2x2x2x2x2x2x2x2x2x2x2x2x2x2x2x2x2x2x2x2x2_S2x2x2x2x2x2x2x1x2x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x1x2x2x2x2x2x2x2x2x2x2x2x2x2x2x2
  slices_S2x2x2x2x2x2x2x2x2x2x2x2x2x2x2x2x2x2x2x2x2x2x2_S2x2x2x2x2x2x2x1x2x2x2x2x2x2x2x2x2x2x2x2x2x2x2_0_0_0_0_0_0_0_1_0_0_0_0_0_0_0_0_0_0_0_0_0_0_0 : S2x2x2x2x2x2x2x2x2x2x2x2x2x2x2x2x2x2x2x2x2x2x2.Slices ![0, 0, 0, 0, 0, 0, 0, 1, 0, 0, 0, 0, 0, 0, 0, 0, 0, 0, 0, 0, 0, 0, 0] S2x2x2x2x2x2x2x1x2x2x2x2x2x2x2x2x2x2x2x2x2x2x2
  concatenates_S2x2x2x2x2x2x2x1x2x2x2x2x2x2x2x2x2x2x2x2x2x2x2_S2x2x2x2x2x2x2x1x2x2x2x2x2x2x2x2x2x2x2x2x2x2x2_S2x2x2x2x2x2x2x2x2x2x2x2x2x2x2x2x2x2x2x2x2x2x2_d7 : Shape.Concatenates [S2x2x2x2x2x2x2x1x2x2x2x2x2x2x2x2x2x2x2x2x2x2x2, S2x2x2x2x2x2x2x1x2x2x2x2x2x2x2x2x2x2x2x2x2x2x2] S2x2x2x2x2x2x2x2x2x2x2x2x2x2x2x2x2x2x2x2x2x2x2 7
  slices_S2x2x2x2x2x2x2x2x2x2x2x2x2x2x2x2x2x2x2x2x2x2x2_S2x2x2x2x2x2x2x2x1x2x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x1x2x2x2x2x2x2x2x2x2x2x2x2x2x2
  slices_S2x2x2x2x2x2x2x2x2x2x2x2x2x2x2x2x2x2x2x2x2x2x2_S2x2x2x2x2x2x2x2x1x2x2x2x2x2x2x2x2x2x2x2x2x2x2_0_0_0_0_0_0_0_0_1_0_0_0_0_0_0_0_0_0_0_0_0_0_0 : S2x2x2x2x2x2x2x2x2x2x2x2x2x2x2x2x2x2x2x2x2x2x2.Slices ![0, 0, 0, 0, 0, 0, 0, 0, 1, 0, 0, 0, 0, 0, 0, 0, 0, 0, 0, 0, 0, 0, 0] S2x2x2x2x2x2x2x2x1x2x2x2x2x2x2x2x2x2x2x2x2x2x2
  concatenates_S2x2x2x2x2x2x2x2x1x2x2x2x2x2x2x2x2x2x2x2x2x2x2_S2x2x2x2x2x2x2x2x1x2x2x2x2x2x2x2x2x2x2x2x2x2x2_S2x2x2x2x2x2x2x2x2x2x2x2x2x2x2x2x2x2x2x2x2x2x2_d8 : Shape.Concatenates [S2x2x2x2x2x2x2x2x1x2x2x2x2x2x2x2x2x2x2x2x2x2x2, S2x2x2x2x2x2x2x2x1x2x2x2x2x2x2x2x2x2x2x2x2x2x2] S2x2x2x2x2x2x2x2x2x2x2x2x2x2x2x2x2x2x2x2x2x2x2 8
  slices_S2x2x2x2x2x2x2x2x2x2x2x2x2x2x2x2x2x2x2x2x2x2x2_S2x2x2x2x2x2x2x2x2x1x2x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x1x2x2x2x2x2x2x2x2x2x2x2x2x2
  slices_S2x2x2x2x2x2x2x2x2x2x2x2x2x2x2x2x2x2x2x2x2x2x2_S2x2x2x2x2x2x2x2x2x1x2x2x2x2x2x2x2x2x2x2x2x2x2_0_0_0_0_0_0_0_0_0_1_0_0_0_0_0_0_0_0_0_0_0_0_0 : S2x2x2x2x2x2x2x2x2x2x2x2x2x2x2x2x2x2x2x2x2x2x2.Slices ![0, 0, 0, 0, 0, 0, 0, 0, 0, 1, 0, 0, 0, 0, 0, 0, 0, 0, 0, 0, 0, 0, 0] S2x2x2x2x2x2x2x2x2x1x2x2x2x2x2x2x2x2x2x2x2x2x2
  concatenates_S2x2x2x2x2x2x2x2x2x1x2x2x2x2x2x2x2x2x2x2x2x2x2_S2x2x2x2x2x2x2x2x2x1x2x2x2x2x2x2x2x2x2x2x2x2x2_S2x2x2x2x2x2x2x2x2x2x2x2x2x2x2x2x2x2x2x2x2x2x2_d9 : Shape.Concatenates [S2x2x2x2x2x2x2x2x2x1x2x2x2x2x2x2x2x2x2x2x2x2x2, S2x2x2x2x2x2x2x2x2x1x2x2x2x2x2x2x2x2x2x2x2x2x2] S2x2x2x2x2x2x2x2x2x2x2x2x2x2x2x2x2x2x2x2x2x2x2 9
  slices_S2x2x2x2x2x2x2x2x2x2x2x2x2x2x2x2x2x2x2x2x2x2x2_S2x2x2x2x2x2x2x2x2x2x1x2x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x1x2x2x2x2x2x2x2x2x2x2x2x2
  slices_S2x2x2x2x2x2x2x2x2x2x2x2x2x2x2x2x2x2x2x2x2x2x2_S2x2x2x2x2x2x2x2x2x2x1x2x2x2x2x2x2x2x2x2x2x2x2_0_0_0_0_0_0_0_0_0_0_1_0_0_0_0_0_0_0_0_0_0_0_0 : S2x2x2x2x2x2x2x2x2x2x2x2x2x2x2x2x2x2x2x2x2x2x2.Slices ![0, 0, 0, 0, 0, 0, 0, 0, 0, 0, 1, 0, 0, 0, 0, 0, 0, 0, 0, 0, 0, 0, 0] S2x2x2x2x2x2x2x2x2x2x1x2x2x2x2x2x2x2x2x2x2x2x2
  concatenates_S2x2x2x2x2x2x2x2x2x2x1x2x2x2x2x2x2x2x2x2x2x2x2_S2x2x2x2x2x2x2x2x2x2x1x2x2x2x2x2x2x2x2x2x2x2x2_S2x2x2x2x2x2x2x2x2x2x2x2x2x2x2x2x2x2x2x2x2x2x2_d10 : Shape.Concatenates [S2x2x2x2x2x2x2x2x2x2x1x2x2x2x2x2x2x2x2x2x2x2x2, S2x2x2x2x2x2x2x2x2x2x1x2x2x2x2x2x2x2x2x2x2x2x2] S2x2x2x2x2x2x2x2x2x2x2x2x2x2x2x2x2x2x2x2x2x2x2 10
  slices_S2x2x2x2x2x2x2x2x2x2x2x2x2x2x2x2x2x2x2x2x2x2x2_S2x2x2x2x2x2x2x2x2x2x2x1x2x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x1x2x2x2x2x2x2x2x2x2x2x2
  slices_S2x2x2x2x2x2x2x2x2x2x2x2x2x2x2x2x2x2x2x2x2x2x2_S2x2x2x2x2x2x2x2x2x2x2x1x2x2x2x2x2x2x2x2x2x2x2_0_0_0_0_0_0_0_0_0_0_0_1_0_0_0_0_0_0_0_0_0_0_0 : S2x2x2x2x2x2x2x2x2x2x2x2x2x2x2x2x2x2x2x2x2x2x2.Slices ![0, 0, 0, 0, 0, 0, 0, 0, 0, 0, 0, 1, 0, 0, 0, 0, 0, 0, 0, 0, 0, 0, 0] S2x2x2x2x2x2x2x2x2x2x2x1x2x2x2x2x2x2x2x2x2x2x2
  concatenates_S2x2x2x2x2x2x2x2x2x2x2x1x2x2x2x2x2x2x2x2x2x2x2_S2x2x2x2x2x2x2x2x2x2x2x1x2x2x2x2x2x2x2x2x2x2x2_S2x2x2x2x2x2x2x2x2x2x2x2x2x2x2x2x2x2x2x2x2x2x2_d11 : Shape.Concatenates [S2x2x2x2x2x2x2x2x2x2x2x1x2x2x2x2x2x2x2x2x2x2x2, S2x2x2x2x2x2x2x2x2x2x2x1x2x2x2x2x2x2x2x2x2x2x2] S2x2x2x2x2x2x2x2x2x2x2x2x2x2x2x2x2x2x2x2x2x2x2 11
  slices_S2x2x2x2x2x2x2x2x2x2x2x2x2x2x2x2x2x2x2x2x2x2x2_S2x2x2x2x2x2x2x2x2x2x2x2x1x2x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x1x2x2x2x2x2x2x2x2x2x2
  slices_S2x2x2x2x2x2x2x2x2x2x2x2x2x2x2x2x2x2x2x2x2x2x2_S2x2x2x2x2x2x2x2x2x2x2x2x1x2x2x2x2x2x2x2x2x2x2_0_0_0_0_0_0_0_0_0_0_0_0_1_0_0_0_0_0_0_0_0_0_0 : S2x2x2x2x2x2x2x2x2x2x2x2x2x2x2x2x2x2x2x2x2x2x2.Slices ![0, 0, 0, 0, 0, 0, 0, 0, 0, 0, 0, 0, 1, 0, 0, 0, 0, 0, 0, 0, 0, 0, 0] S2x2x2x2x2x2x2x2x2x2x2x2x1x2x2x2x2x2x2x2x2x2x2
  concatenates_S2x2x2x2x2x2x2x2x2x2x2x2x1x2x2x2x2x2x2x2x2x2x2_S2x2x2x2x2x2x2x2x2x2x2x2x1x2x2x2x2x2x2x2x2x2x2_S2x2x2x2x2x2x2x2x2x2x2x2x2x2x2x2x2x2x2x2x2x2x2_d12 : Shape.Concatenates [S2x2x2x2x2x2x2x2x2x2x2x2x1x2x2x2x2x2x2x2x2x2x2, S2x2x2x2x2x2x2x2x2x2x2x2x1x2x2x2x2x2x2x2x2x2x2] S2x2x2x2x2x2x2x2x2x2x2x2x2x2x2x2x2x2x2x2x2x2x2 12
  slices_S2x2x2x2x2x2x2x2x2x2x2x2x2x2x2x2x2x2x2x2x2x2x2_S2x2x2x2x2x2x2x2x2x2x2x2x2x1x2x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x1x2x2x2x2x2x2x2x2x2
  slices_S2x2x2x2x2x2x2x2x2x2x2x2x2x2x2x2x2x2x2x2x2x2x2_S2x2x2x2x2x2x2x2x2x2x2x2x2x1x2x2x2x2x2x2x2x2x2_0_0_0_0_0_0_0_0_0_0_0_0_0_1_0_0_0_0_0_0_0_0_0 : S2x2x2x2x2x2x2x2x2x2x2x2x2x2x2x2x2x2x2x2x2x2x2.Slices ![0, 0, 0, 0, 0, 0, 0, 0, 0, 0, 0, 0, 0, 1, 0, 0, 0, 0, 0, 0, 0, 0, 0] S2x2x2x2x2x2x2x2x2x2x2x2x2x1x2x2x2x2x2x2x2x2x2
  concatenates_S2x2x2x2x2x2x2x2x2x2x2x2x2x1x2x2x2x2x2x2x2x2x2_S2x2x2x2x2x2x2x2x2x2x2x2x2x1x2x2x2x2x2x2x2x2x2_S2x2x2x2x2x2x2x2x2x2x2x2x2x2x2x2x2x2x2x2x2x2x2_d13 : Shape.Concatenates [S2x2x2x2x2x2x2x2x2x2x2x2x2x1x2x2x2x2x2x2x2x2x2, S2x2x2x2x2x2x2x2x2x2x2x2x2x1x2x2x2x2x2x2x2x2x2] S2x2x2x2x2x2x2x2x2x2x2x2x2x2x2x2x2x2x2x2x2x2x2 13
  slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x1x2x2x2x2x2x2x2x2
  slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_1_0_0_0_0_0_0_0_0 : S2x2x2x2x2x2x2x2x2x2x2x2x2x2x2x2x2x2x2x2x2x2x2.Slices ![0, 0, 0, 0, 0, 0, 0, 0, 0, 0, 0, 0, 0, 0, 1, 0, 0, 0, 0, 0, 0, 0, 0] S2x2x2x2x2x2x2x2x2x2x2x2x2x2x1x2x2x2x2x2x2x2x2
  concatenates_S2x2x2x2x2x2x2x2x2x2x2x2x2x2x1x2x2x2x2x2x2x2x2_S2x2x2x2x2x2x2x2x2x2x2x2x2x2x1x2x2x2x2x2x2x2x2_S2x2x2x2x2x2x2x2x2x2x2x2x2x2x2x2x2x2x2x2x2x2x2_d14 : Shape.Concatenates [S2x2x2x2x2x2x2x2x2x2x2x2x2x2x1x2x2x2x2x2x2x2x2, S2x2x2x2x2x2x2x2x2x2x2x2x2x2x1x2x2x2x2x2x2x2x2] S2x2x2x2x2x2x2x2x2x2x2x2x2x2x2x2x2x2x2x2x2x2x2 14
  slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x1x2x2x2x2x2x2x2
  slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_1_0_0_0_0_0_0_0 : S2x2x2x2x2x2x2x2x2x2x2x2x2x2x2x2x2x2x2x2x2x2x2.Slices ![0, 0, 0, 0, 0, 0, 0, 0, 0, 0, 0, 0, 0, 0, 0, 1, 0, 0, 0, 0, 0, 0, 0] S2x2x2x2x2x2x2x2x2x2x2x2x2x2x2x1x2x2x2x2x2x2x2
  concatenates_S2x2x2x2x2x2x2x2x2x2x2x2x2x2x2x1x2x2x2x2x2x2x2_S2x2x2x2x2x2x2x2x2x2x2x2x2x2x2x1x2x2x2x2x2x2x2_S2x2x2x2x2x2x2x2x2x2x2x2x2x2x2x2x2x2x2x2x2x2x2_d15 : Shape.Concatenates [S2x2x2x2x2x2x2x2x2x2x2x2x2x2x2x1x2x2x2x2x2x2x2, S2x2x2x2x2x2x2x2x2x2x2x2x2x2x2x1x2x2x2x2x2x2x2] S2x2x2x2x2x2x2x2x2x2x2x2x2x2x2x2x2x2x2x2x2x2x2 15
  slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x1x2x2x2x2x2x2
  slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_1_0_0_0_0_0_0 : S2x2x2x2x2x2x2x2x2x2x2x2x2x2x2x2x2x2x2x2x2x2x2.Slices ![0, 0, 0, 0, 0, 0, 0, 0, 0, 0, 0, 0, 0, 0, 0, 0, 1, 0, 0, 0, 0, 0, 0] S2x2x2x2x2x2x2x2x2x2x2x2x2x2x2x2x1x2x2x2x2x2x2
  concatenates_S2x2x2x2x2x2x2x2x2x2x2x2x2x2x2x2x1x2x2x2x2x2x2_S2x2x2x2x2x2x2x2x2x2x2x2x2x2x2x2x1x2x2x2x2x2x2_S2x2x2x2x2x2x2x2x2x2x2x2x2x2x2x2x2x2x2x2x2x2x2_d16 : Shape.Concatenates [S2x2x2x2x2x2x2x2x2x2x2x2x2x2x2x2x1x2x2x2x2x2x2, S2x2x2x2x2x2x2x2x2x2x2x2x2x2x2x2x1x2x2x2x2x2x2] S2x2x2x2x2x2x2x2x2x2x2x2x2x2x2x2x2x2x2x2x2x2x2 16
  slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x1x2x2x2x2x2
  slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_1_0_0_0_0_0 : S2x2x2x2x2x2x2x2x2x2x2x2x2x2x2x2x2x2x2x2x2x2x2.Slices ![0, 0, 0, 0, 0, 0, 0, 0, 0, 0, 0, 0, 0, 0, 0, 0, 0, 1, 0, 0, 0, 0, 0] S2x2x2x2x2x2x2x2x2x2x2x2x2x2x2x2x2x1x2x2x2x2x2
  concatenates_S2x2x2x2x2x2x2x2x2x2x2x2x2x2x2x2x2x1x2x2x2x2x2_S2x2x2x2x2x2x2x2x2x2x2x2x2x2x2x2x2x1x2x2x2x2x2_S2x2x2x2x2x2x2x2x2x2x2x2x2x2x2x2x2x2x2x2x2x2x2_d17 : Shape.Concatenates [S2x2x2x2x2x2x2x2x2x2x2x2x2x2x2x2x2x1x2x2x2x2x2, S2x2x2x2x2x2x2x2x2x2x2x2x2x2x2x2x2x1x2x2x2x2x2] S2x2x2x2x2x2x2x2x2x2x2x2x2x2x2x2x2x2x2x2x2x2x2 17
  slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x2x1x2x2x2x2
  slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_1_0_0_0_0 : S2x2x2x2x2x2x2x2x2x2x2x2x2x2x2x2x2x2x2x2x2x2x2.Slices ![0, 0, 0, 0, 0, 0, 0, 0, 0, 0, 0, 0, 0, 0, 0, 0, 0, 0, 1, 0, 0, 0, 0] S2x2x2x2x2x2x2x2x2x2x2x2x2x2x2x2x2x2x1x2x2x2x2
  concatenates_S2x2x2x2x2x2x2x2x2x2x2x2x2x2x2x2x2x2x1x2x2x2x2_S2x2x2x2x2x2x2x2x2x2x2x2x2x2x2x2x2x2x1x2x2x2x2_S2x2x2x2x2x2x2x2x2x2x2x2x2x2x2x2x2x2x2x2x2x2x2_d18 : Shape.Concatenates [S2x2x2x2x2x2x2x2x2x2x2x2x2x2x2x2x2x2x1x2x2x2x2, S2x2x2x2x2x2x2x2x2x2x2x2x2x2x2x2x2x2x1x2x2x2x2] S2x2x2x2x2x2x2x2x2x2x2x2x2x2x2x2x2x2x2x2x2x2x2 18
  slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x2x2x1x2x2x2
  slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_1_0_0_0 : S2x2x2x2x2x2x2x2x2x2x2x2x2x2x2x2x2x2x2x2x2x2x2.Slices ![0, 0, 0, 0, 0, 0, 0, 0, 0, 0, 0, 0, 0, 0, 0, 0, 0, 0, 0, 1, 0, 0, 0] S2x2x2x2x2x2x2x2x2x2x2x2x2x2x2x2x2x2x2x1x2x2x2
  concatenates_S2x2x2x2x2x2x2x2x2x2x2x2x2x2x2x2x2x2x2x1x2x2x2_S2x2x2x2x2x2x2x2x2x2x2x2x2x2x2x2x2x2x2x1x2x2x2_S2x2x2x2x2x2x2x2x2x2x2x2x2x2x2x2x2x2x2x2x2x2x2_d19 : Shape.Concatenates [S2x2x2x2x2x2x2x2x2x2x2x2x2x2x2x2x2x2x2x1x2x2x2, S2x2x2x2x2x2x2x2x2x2x2x2x2x2x2x2x2x2x2x1x2x2x2] S2x2x2x2x2x2x2x2x2x2x2x2x2x2x2x2x2x2x2x2x2x2x2 19
  slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x2x2x2x1x2x2
  slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_1_0_0 : S2x2x2x2x2x2x2x2x2x2x2x2x2x2x2x2x2x2x2x2x2x2x2.Slices ![0, 0, 0, 0, 0, 0, 0, 0, 0, 0, 0, 0, 0, 0, 0, 0, 0, 0, 0, 0, 1, 0, 0] S2x2x2x2x2x2x2x2x2x2x2x2x2x2x2x2x2x2x2x2x1x2x2
  concatenates_S2x2x2x2x2x2x2x2x2x2x2x2x2x2x2x2x2x2x2x2x1x2x2_S2x2x2x2x2x2x2x2x2x2x2x2x2x2x2x2x2x2x2x2x1x2x2_S2x2x2x2x2x2x2x2x2x2x2x2x2x2x2x2x2x2x2x2x2x2x2_d20 : Shape.Concatenates [S2x2x2x2x2x2x2x2x2x2x2x2x2x2x2x2x2x2x2x2x1x2x2, S2x2x2x2x2x2x2x2x2x2x2x2x2x2x2x2x2x2x2x2x1x2x2] S2x2x2x2x2x2x2x2x2x2x2x2x2x2x2x2x2x2x2x2x2x2x2 20
  slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x2x2x2x2x1x2
  slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_1_0 : S2x2x2x2x2x2x2x2x2x2x2x2x2x2x2x2x2x2x2x2x2x2x2.Slices ![0, 0, 0, 0, 0, 0, 0, 0, 0, 0, 0, 0, 0, 0, 0, 0, 0, 0, 0, 0, 0, 1, 0] S2x2x2x2x2x2x2x2x2x2x2x2x2x2x2x2x2x2x2x2x2x1x2
  concatenates_S2x2x2x2x2x2x2x2x2x2x2x2x2x2x2x2x2x2x2x2x2x1x2_S2x2x2x2x2x2x2x2x2x2x2x2x2x2x2x2x2x2x2x2x2x1x2_S2x2x2x2x2x2x2x2x2x2x2x2x2x2x2x2x2x2x2x2x2x2x2_d21 : Shape.Concatenates [S2x2x2x2x2x2x2x2x2x2x2x2x2x2x2x2x2x2x2x2x2x1x2, S2x2x2x2x2x2x2x2x2x2x2x2x2x2x2x2x2x2x2x2x2x1x2] S2x2x2x2x2x2x2x2x2x2x2x2x2x2x2x2x2x2x2x2x2x2x2 21
  slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_0 : S2x2x2x2x2x2x2x2x2x2x2x2x2x2x2x2x2x2x2x2x2x2x2.Slices ![0, 0, 0, 0, 0, 0, 0, 0, 0, 0, 0, 0, 0, 0, 0, 0, 0, 0, 0, 0, 0, 0, 0] S2x2x2x2x2x2x2x2x2x2x2x2x2x2x2x2x2x2x2x2x2x2x1
  slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_1 : S2x2x2x2x2x2x2x2x2x2x2x2x2x2x2x2x2x2x2x2x2x2x2.Slices ![0, 0, 0, 0, 0, 0, 0, 0, 0, 0, 0, 0, 0, 0, 0, 0, 0, 0, 0, 0, 0, 0, 1] S2x2x2x2x2x2x2x2x2x2x2x2x2x2x2x2x2x2x2x2x2x2x1
  concatenates_S2x2x2x2x2x2x2x2x2x2x2x2x2x2x2x2x2x2x2x2x2x2x1_S2x2x2x2x2x2x2x2x2x2x2x2x2x2x2x2x2x2x2x2x2x2x1_S2x2x2x2x2x2x2x2x2x2x2x2x2x2x2x2x2x2x2x2x2x2x2_d22 : Shape.Concatenates [S2x2x2x2x2x2x2x2x2x2x2x2x2x2x2x2x2x2x2x2x2x2x1, S2x2x2x2x2x2x2x2x2x2x2x2x2x2x2x2x2x2x2x2x2x2x1] S2x2x2x2x2x2x2x2x2x2x2x2x2x2x2x2x2x2x2x2x2x2x2 22
  shapeCasts_S2x2x2x2x2x2x2x2x2x2x2x2x2x2x2x2x2x2x2x2x2x2x2_S8388608 : S2x2x2x2x2x2x2x2x2x2x2x2x2x2x2x2x2x2x2x2x2x2x2.ShapeCasts S8388608
  bcast_S8388608_S8388608x1_0 : S8388608.BroadcastsInDim S8388608x1 (![0] : Fin 1 → Fin S8388608x1.rank)
  reducesTo_S8388608_S_d0 : S8388608.ReducesTo [0] S_
  h_S_ : 0 < S_.numel
  shapeCasts_S8388608_S4096x2048 : S8388608.ShapeCasts S4096x2048
  bcast_S_S4096 : S_.BroadcastsInDim S4096 (![] : Fin 0 → Fin S4096.rank)
  shapeCasts_S4096_S2x2x2x2x2x2x2x2x2x2x2x2 : S4096.ShapeCasts S2x2x2x2x2x2x2x2x2x2x2x2
  slices_S2x2x2x2x2x2x2x2x2x2x2x2_S1x2x2x2x2x2x2x2x2x2x2x2_0_0_0_0_0_0_0_0_0_0_0_0 : S2x2x2x2x2x2x2x2x2x2x2x2.Slices ![0, 0, 0, 0, 0, 0, 0, 0, 0, 0, 0, 0] S1x2x2x2x2x2x2x2x2x2x2x2
  slices_S2x2x2x2x2x2x2x2x2x2x2x2_S1x2x2x2x2x2x2x2x2x2x2x2_1_0_0_0_0_0_0_0_0_0_0_0 : S2x2x2x2x2x2x2x2x2x2x2x2.Slices ![1, 0, 0, 0, 0, 0, 0, 0, 0, 0, 0, 0] S1x2x2x2x2x2x2x2x2x2x2x2
  concatenates_S1x2x2x2x2x2x2x2x2x2x2x2_S1x2x2x2x2x2x2x2x2x2x2x2_S2x2x2x2x2x2x2x2x2x2x2x2_d0 : Shape.Concatenates [S1x2x2x2x2x2x2x2x2x2x2x2, S1x2x2x2x2x2x2x2x2x2x2x2] S2x2x2x2x2x2x2x2x2x2x2x2 0
  slices_S2x2x2x2x2x2x2x2x2x2x2x2_S2x1x2x2x2x2x2x2x2x2x2x2_0_0_0_0_0_0_0_0_0_0_0_0 : S2x2x2x2x2x2x2x2x2x2x2x2.Slices ![0, 0, 0, 0, 0, 0, 0, 0, 0, 0, 0, 0] S2x1x2x2x2x2x2x2x2x2x2x2
  slices_S2x2x2x2x2x2x2x2x2x2x2x2_S2x1x2x2x2x2x2x2x2x2x2x2_0_1_0_0_0_0_0_0_0_0_0_0 : S2x2x2x2x2x2x2x2x2x2x2x2.Slices ![0, 1, 0, 0, 0, 0, 0, 0, 0, 0, 0, 0] S2x1x2x2x2x2x2x2x2x2x2x2
  concatenates_S2x1x2x2x2x2x2x2x2x2x2x2_S2x1x2x2x2x2x2x2x2x2x2x2_S2x2x2x2x2x2x2x2x2x2x2x2_d1 : Shape.Concatenates [S2x1x2x2x2x2x2x2x2x2x2x2, S2x1x2x2x2x2x2x2x2x2x2x2] S2x2x2x2x2x2x2x2x2x2x2x2 1
  slices_S2x2x2x2x2x2x2x2x2x2x2x2_S2x2x1x2x2x2x2x2x2x2x2x2_0_0_0_0_0_0_0_0_0_0_0_0 : S2x2x2x2x2x2x2x2x2x2x2x2.Slices ![0, 0, 0, 0, 0, 0, 0, 0, 0, 0, 0, 0] S2x2x1x2x2x2x2x2x2x2x2x2
  slices_S2x2x2x2x2x2x2x2x2x2x2x2_S2x2x1x2x2x2x2x2x2x2x2x2_0_0_1_0_0_0_0_0_0_0_0_0 : S2x2x2x2x2x2x2x2x2x2x2x2.Slices ![0, 0, 1, 0, 0, 0, 0, 0, 0, 0, 0, 0] S2x2x1x2x2x2x2x2x2x2x2x2
  concatenates_S2x2x1x2x2x2x2x2x2x2x2x2_S2x2x1x2x2x2x2x2x2x2x2x2_S2x2x2x2x2x2x2x2x2x2x2x2_d2 : Shape.Concatenates [S2x2x1x2x2x2x2x2x2x2x2x2, S2x2x1x2x2x2x2x2x2x2x2x2] S2x2x2x2x2x2x2x2x2x2x2x2 2
  slices_S2x2x2x2x2x2x2x2x2x2x2x2_S2x2x2x1x2x2x2x2x2x2x2x2_0_0_0_0_0_0_0_0_0_0_0_0 : S2x2x2x2x2x2x2x2x2x2x2x2.Slices ![0, 0, 0, 0, 0, 0, 0, 0, 0, 0, 0, 0] S2x2x2x1x2x2x2x2x2x2x2x2
  slices_S2x2x2x2x2x2x2x2x2x2x2x2_S2x2x2x1x2x2x2x2x2x2x2x2_0_0_0_1_0_0_0_0_0_0_0_0 : S2x2x2x2x2x2x2x2x2x2x2x2.Slices ![0, 0, 0, 1, 0, 0, 0, 0, 0, 0, 0, 0] S2x2x2x1x2x2x2x2x2x2x2x2
  concatenates_S2x2x2x1x2x2x2x2x2x2x2x2_S2x2x2x1x2x2x2x2x2x2x2x2_S2x2x2x2x2x2x2x2x2x2x2x2_d3 : Shape.Concatenates [S2x2x2x1x2x2x2x2x2x2x2x2, S2x2x2x1x2x2x2x2x2x2x2x2] S2x2x2x2x2x2x2x2x2x2x2x2 3
  slices_S2x2x2x2x2x2x2x2x2x2x2x2_S2x2x2x2x1x2x2x2x2x2x2x2_0_0_0_0_0_0_0_0_0_0_0_0 : S2x2x2x2x2x2x2x2x2x2x2x2.Slices ![0, 0, 0, 0, 0, 0, 0, 0, 0, 0, 0, 0] S2x2x2x2x1x2x2x2x2x2x2x2
  slices_S2x2x2x2x2x2x2x2x2x2x2x2_S2x2x2x2x1x2x2x2x2x2x2x2_0_0_0_0_1_0_0_0_0_0_0_0 : S2x2x2x2x2x2x2x2x2x2x2x2.Slices ![0, 0, 0, 0, 1, 0, 0, 0, 0, 0, 0, 0] S2x2x2x2x1x2x2x2x2x2x2x2
  concatenates_S2x2x2x2x1x2x2x2x2x2x2x2_S2x2x2x2x1x2x2x2x2x2x2x2_S2x2x2x2x2x2x2x2x2x2x2x2_d4 : Shape.Concatenates [S2x2x2x2x1x2x2x2x2x2x2x2, S2x2x2x2x1x2x2x2x2x2x2x2] S2x2x2x2x2x2x2x2x2x2x2x2 4
  slices_S2x2x2x2x2x2x2x2x2x2x2x2_S2x2x2x2x2x1x2x2x2x2x2x2_0_0_0_0_0_0_0_0_0_0_0_0 : S2x2x2x2x2x2x2x2x2x2x2x2.Slices ![0, 0, 0, 0, 0, 0, 0, 0, 0, 0, 0, 0] S2x2x2x2x2x1x2x2x2x2x2x2
  slices_S2x2x2x2x2x2x2x2x2x2x2x2_S2x2x2x2x2x1x2x2x2x2x2x2_0_0_0_0_0_1_0_0_0_0_0_0 : S2x2x2x2x2x2x2x2x2x2x2x2.Slices ![0, 0, 0, 0, 0, 1, 0, 0, 0, 0, 0, 0] S2x2x2x2x2x1x2x2x2x2x2x2
  concatenates_S2x2x2x2x2x1x2x2x2x2x2x2_S2x2x2x2x2x1x2x2x2x2x2x2_S2x2x2x2x2x2x2x2x2x2x2x2_d5 : Shape.Concatenates [S2x2x2x2x2x1x2x2x2x2x2x2, S2x2x2x2x2x1x2x2x2x2x2x2] S2x2x2x2x2x2x2x2x2x2x2x2 5
  slices_S2x2x2x2x2x2x2x2x2x2x2x2_S2x2x2x2x2x2x1x2x2x2x2x2_0_0_0_0_0_0_0_0_0_0_0_0 : S2x2x2x2x2x2x2x2x2x2x2x2.Slices ![0, 0, 0, 0, 0, 0, 0, 0, 0, 0, 0, 0] S2x2x2x2x2x2x1x2x2x2x2x2
  slices_S2x2x2x2x2x2x2x2x2x2x2x2_S2x2x2x2x2x2x1x2x2x2x2x2_0_0_0_0_0_0_1_0_0_0_0_0 : S2x2x2x2x2x2x2x2x2x2x2x2.Slices ![0, 0, 0, 0, 0, 0, 1, 0, 0, 0, 0, 0] S2x2x2x2x2x2x1x2x2x2x2x2
  concatenates_S2x2x2x2x2x2x1x2x2x2x2x2_S2x2x2x2x2x2x1x2x2x2x2x2_S2x2x2x2x2x2x2x2x2x2x2x2_d6 : Shape.Concatenates [S2x2x2x2x2x2x1x2x2x2x2x2, S2x2x2x2x2x2x1x2x2x2x2x2] S2x2x2x2x2x2x2x2x2x2x2x2 6
  slices_S2x2x2x2x2x2x2x2x2x2x2x2_S2x2x2x2x2x2x2x1x2x2x2x2_0_0_0_0_0_0_0_0_0_0_0_0 : S2x2x2x2x2x2x2x2x2x2x2x2.Slices ![0, 0, 0, 0, 0, 0, 0, 0, 0, 0, 0, 0] S2x2x2x2x2x2x2x1x2x2x2x2
  slices_S2x2x2x2x2x2x2x2x2x2x2x2_S2x2x2x2x2x2x2x1x2x2x2x2_0_0_0_0_0_0_0_1_0_0_0_0 : S2x2x2x2x2x2x2x2x2x2x2x2.Slices ![0, 0, 0, 0, 0, 0, 0, 1, 0, 0, 0, 0] S2x2x2x2x2x2x2x1x2x2x2x2
  concatenates_S2x2x2x2x2x2x2x1x2x2x2x2_S2x2x2x2x2x2x2x1x2x2x2x2_S2x2x2x2x2x2x2x2x2x2x2x2_d7 : Shape.Concatenates [S2x2x2x2x2x2x2x1x2x2x2x2, S2x2x2x2x2x2x2x1x2x2x2x2] S2x2x2x2x2x2x2x2x2x2x2x2 7
  slices_S2x2x2x2x2x2x2x2x2x2x2x2_S2x2x2x2x2x2x2x2x1x2x2x2_0_0_0_0_0_0_0_0_0_0_0_0 : S2x2x2x2x2x2x2x2x2x2x2x2.Slices ![0, 0, 0, 0, 0, 0, 0, 0, 0, 0, 0, 0] S2x2x2x2x2x2x2x2x1x2x2x2
  slices_S2x2x2x2x2x2x2x2x2x2x2x2_S2x2x2x2x2x2x2x2x1x2x2x2_0_0_0_0_0_0_0_0_1_0_0_0 : S2x2x2x2x2x2x2x2x2x2x2x2.Slices ![0, 0, 0, 0, 0, 0, 0, 0, 1, 0, 0, 0] S2x2x2x2x2x2x2x2x1x2x2x2
  concatenates_S2x2x2x2x2x2x2x2x1x2x2x2_S2x2x2x2x2x2x2x2x1x2x2x2_S2x2x2x2x2x2x2x2x2x2x2x2_d8 : Shape.Concatenates [S2x2x2x2x2x2x2x2x1x2x2x2, S2x2x2x2x2x2x2x2x1x2x2x2] S2x2x2x2x2x2x2x2x2x2x2x2 8
  slices_S2x2x2x2x2x2x2x2x2x2x2x2_S2x2x2x2x2x2x2x2x2x1x2x2_0_0_0_0_0_0_0_0_0_0_0_0 : S2x2x2x2x2x2x2x2x2x2x2x2.Slices ![0, 0, 0, 0, 0, 0, 0, 0, 0, 0, 0, 0] S2x2x2x2x2x2x2x2x2x1x2x2
  slices_S2x2x2x2x2x2x2x2x2x2x2x2_S2x2x2x2x2x2x2x2x2x1x2x2_0_0_0_0_0_0_0_0_0_1_0_0 : S2x2x2x2x2x2x2x2x2x2x2x2.Slices ![0, 0, 0, 0, 0, 0, 0, 0, 0, 1, 0, 0] S2x2x2x2x2x2x2x2x2x1x2x2
  concatenates_S2x2x2x2x2x2x2x2x2x1x2x2_S2x2x2x2x2x2x2x2x2x1x2x2_S2x2x2x2x2x2x2x2x2x2x2x2_d9 : Shape.Concatenates [S2x2x2x2x2x2x2x2x2x1x2x2, S2x2x2x2x2x2x2x2x2x1x2x2] S2x2x2x2x2x2x2x2x2x2x2x2 9
  slices_S2x2x2x2x2x2x2x2x2x2x2x2_S2x2x2x2x2x2x2x2x2x2x1x2_0_0_0_0_0_0_0_0_0_0_0_0 : S2x2x2x2x2x2x2x2x2x2x2x2.Slices ![0, 0, 0, 0, 0, 0, 0, 0, 0, 0, 0, 0] S2x2x2x2x2x2x2x2x2x2x1x2
  slices_S2x2x2x2x2x2x2x2x2x2x2x2_S2x2x2x2x2x2x2x2x2x2x1x2_0_0_0_0_0_0_0_0_0_0_1_0 : S2x2x2x2x2x2x2x2x2x2x2x2.Slices ![0, 0, 0, 0, 0, 0, 0, 0, 0, 0, 1, 0] S2x2x2x2x2x2x2x2x2x2x1x2
  concatenates_S2x2x2x2x2x2x2x2x2x2x1x2_S2x2x2x2x2x2x2x2x2x2x1x2_S2x2x2x2x2x2x2x2x2x2x2x2_d10 : Shape.Concatenates [S2x2x2x2x2x2x2x2x2x2x1x2, S2x2x2x2x2x2x2x2x2x2x1x2] S2x2x2x2x2x2x2x2x2x2x2x2 10
  slices_S2x2x2x2x2x2x2x2x2x2x2x2_S2x2x2x2x2x2x2x2x2x2x2x1_0_0_0_0_0_0_0_0_0_0_0_0 : S2x2x2x2x2x2x2x2x2x2x2x2.Slices ![0, 0, 0, 0, 0, 0, 0, 0, 0, 0, 0, 0] S2x2x2x2x2x2x2x2x2x2x2x1
  slices_S2x2x2x2x2x2x2x2x2x2x2x2_S2x2x2x2x2x2x2x2x2x2x2x1_0_0_0_0_0_0_0_0_0_0_0_1 : S2x2x2x2x2x2x2x2x2x2x2x2.Slices ![0, 0, 0, 0, 0, 0, 0, 0, 0, 0, 0, 1] S2x2x2x2x2x2x2x2x2x2x2x1
  concatenates_S2x2x2x2x2x2x2x2x2x2x2x1_S2x2x2x2x2x2x2x2x2x2x2x1_S2x2x2x2x2x2x2x2x2x2x2x2_d11 : Shape.Concatenates [S2x2x2x2x2x2x2x2x2x2x2x1, S2x2x2x2x2x2x2x2x2x2x2x1] S2x2x2x2x2x2x2x2x2x2x2x2 11
  shapeCasts_S2x2x2x2x2x2x2x2x2x2x2x2_S4096 : S2x2x2x2x2x2x2x2x2x2x2x2.ShapeCasts S4096
  bcast_S4096_S4096x1_0 : S4096.BroadcastsInDim S4096x1 (![0] : Fin 1 → Fin S4096x1.rank)
  reducesTo_S4096_S_d0 : S4096.ReducesTo [0] S_
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S8388608_S1_S2048_0_n_0_0_wf : ScatterDims.WF S8388608 S1 S2048 [0] [] [0] 0
  gather_S8388608_S8388608x1_S8388608_n_0_n_n_0_1_1_wf : GatherDims.WF S8388608 S8388608x1 S8388608 [] [0] [] [0] [] 1 ![1]
  scatter_S4096_S1_S2048_0_n_0_0_wf : ScatterDims.WF S4096 S1 S2048 [0] [] [0] 0
  gather_S4096_S4096x1_S4096_n_0_n_n_0_1_1_wf : GatherDims.WF S4096 S4096x1 S4096 [] [0] [] [0] [] 1 ![1]
  dot_S4096x2048_S2048x4096_S4096x4096_1_0_0_1_n_n_wf : DotDims.WF S4096x2048 S2048x4096 S4096x4096 [1] [0] [0] [1] [] []

variable [Facts₀]

def scatter_S8388608_S1_S2048_0_n_0_0 : ScatterDims S8388608 S1 S2048 where
  updateWindowDims := [0]
  insertedWindowDims := []
  scatterDimsToOperandDims := [0]
  indexVectorDim := 0
  wf := scatter_S8388608_S1_S2048_0_n_0_0_wf
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf
def scatter_S4096_S1_S2048_0_n_0_0 : ScatterDims S4096 S1 S2048 where
  updateWindowDims := [0]
  insertedWindowDims := []
  scatterDimsToOperandDims := [0]
  indexVectorDim := 0
  wf := scatter_S4096_S1_S2048_0_n_0_0_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KHost.lean ====
/-
  The host operations that run before the kernel call, taken a few at a time: `U V0 a` is the contents of the buffers
  after the first `a` operations, from contents `V0`. Running `n` more operations from `U V0 a` gives `U V0 (a + n)`,
  so each stretch of the program can be read by itself.
-/
import proofs.«167603_j88115549045430_2_alg».proof.Proof.Gen.KernelIdeal.Launch
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.KHost

open Cert.KernelIdeal Cert.KernelIdeal.Gen

variable {F : FTy → Type} [FloatOps F]
variable (V0 : Valuation τ sig (Elt F))

/-- The buffers' contents after the first `a` host operations. -/
def U (a : ℕ) : Valuation τ sig (Elt F) := after ((hostOps0 (F := F)).take a) V0

theorem U_zero : U V0 0 = V0 := rfl

/-- `n` more operations. -/
theorem U_add (a n : ℕ) : U V0 (a + n) = after (((hostOps0 (F := F)).drop a).take n) (U V0 a) := by
  unfold U; rw [List.take_add, StableHlo.after_append]

/-- All 828 operations. -/
theorem U_all : U V0 828 = after (hostOps0 (F := F)) V0 := by
  unfold U; rw [show (hostOps0 (F := F)).take 828 = hostOps0 from List.take_of_length_le (Nat.le_of_eq rfl)]

end Cert.KHost

end
-- ==== Proof.Bfly.lean ====
/-
  The butterfly of a Walsh–Hadamard stage, as a statement about layouts only.

  For an array `x` over a shape `s` whose axis `a` has extent 2, the stage along `a` sends `x` to the array
  that holds `x[.., 0, ..] + x[.., 1, ..]` where the coordinate on `a` is 0 and `x[.., 0, ..] - x[.., 1, ..]`
  where it is 1 (`bfly`). Two programs spell it differently:
  * slicing the two halves along `a`, adding and subtracting them, and concatenating along `a` (`slices_concat`);
  * the same on a rank-3 view `[A, 2, B]` of a flat vector, with the two halves squeezed to `[A, B]` and
    re-expanded to `[A, 1, B]` around the arithmetic (`flat_stage`).
  Both are `bfly`; and `bfly` along the middle axis of the view `[A, 2, B]` is `bfly` along axis `a` of ANY shape with
  the same number of elements whose axis `a` has extent 2 and the same row-major weight `B` (`bfly_shapeCast`): in
  row-major order the position of an index is `P · (2·B) + c · B + R` with `R < B`, where `c` is the coordinate on the
  axis and `P`, `R` do not depend on it (`rank_update`), so two indices at the same position have the same
  coordinate there, and changing it on both sides keeps the positions equal.
  Nothing here is about floats: the statements hold for any operations `addf`, `subf`.
-/
import Idealize.ShloMosaic.Lib.Pipeline.Value
import Idealize.ShloMosaic.Lib.ValueIdx

noncomputable section

open Idealize.ShloMosaic

namespace Cert.Bfly

/-! ## Row-major positions and one coordinate -/

/-- The row-major weight of axis `a`: the product of the extents after it. -/
def wt : {n : ℕ} → (d : Fin n → ℕ) → Fin n → ℕ
  | 0, _, a => a.elim0
  | _ + 1, d, ⟨0, _⟩ => Shape.prodPi fun b => d b.succ
  | _ + 1, d, ⟨a + 1, h⟩ => wt (fun b => d b.succ) ⟨a, Nat.lt_of_succ_lt_succ h⟩

/-- The number of indices is a multiple of (extent of `a`) × (weight of `a`). -/
theorem prod_split : {n : ℕ} → (d : Fin n → ℕ) → (a : Fin n) → ∃ M, Shape.prodPi d = M * (d a * wt d a)
  | 0, _, a => a.elim0
  | _ + 1, d, ⟨0, _⟩ => ⟨1, by rw [Nat.one_mul]; rfl⟩
  | n + 1, d, ⟨a + 1, h⟩ => by
      obtain ⟨M, hM⟩ := prod_split (fun b => d b.succ) ⟨a, Nat.lt_of_succ_lt_succ h⟩
      refine ⟨d 0 * M, ?_⟩
      show d 0 * Shape.prodPi (fun b => d b.succ) = d 0 * M * (d ⟨a + 1, h⟩ * wt (fun b => d b.succ) ⟨a, Nat.lt_of_succ_lt_succ h⟩)
      rw [hM]
      show d 0 * (M * (d ⟨a + 1, h⟩ * wt (fun b => d b.succ) ⟨a, Nat.lt_of_succ_lt_succ h⟩)) = _
      ring

/-- The position of an index with its coordinate on `a` replaced by `c` is `P · (extent · weight) + c · weight + R`,
    `R` below the weight, `P` and `R` the same for every `c`. -/
theorem rank_update : {n : ℕ} → (d : Fin n → ℕ) → (x : (a : Fin n) → Fin (d a)) → (a : Fin n) →
    ∃ P R : ℕ, R < wt d a ∧ ∀ c : Fin (d a),
      Shape.rankPi d (Function.update x a c) = P * (d a * wt d a) + c.val * wt d a + R
  | 0, _, _, a => a.elim0
  | n + 1, d, x, ⟨0, h0⟩ => by
      refine ⟨0, Shape.rankPi (fun b => d b.succ) (fun b => x b.succ), Shape.rankPi_lt _ _, fun c => ?_⟩
      show (Function.update x ⟨0, h0⟩ c 0).val * Shape.prodPi (fun b => d b.succ)
          + Shape.rankPi (fun b => d b.succ) (fun b => Function.update x ⟨0, h0⟩ c b.succ) = _
      have e0 : Function.update x ⟨0, h0⟩ c 0 = c := Function.update_self (β := fun a => Fin (d a)) ⟨0, h0⟩ c x
      have e1 : (fun b : Fin n => Function.update x ⟨0, h0⟩ c b.succ) = (fun b : Fin n => x b.succ) :=
        funext fun b => Function.update_of_ne (β := fun a => Fin (d a))
          (show b.succ ≠ ⟨0, h0⟩ from fun e => absurd (congrArg Fin.val e) (by simp)) c x
      rw [e0, e1, Nat.zero_mul, Nat.zero_add]
      rfl
  | n + 1, d, x, ⟨a + 1, h⟩ => by
      obtain ⟨P, R, hR, hP⟩ := rank_update (fun b => d b.succ) (fun b => x b.succ) ⟨a, Nat.lt_of_succ_lt_succ h⟩
      obtain ⟨M, hM⟩ := prod_split (fun b => d b.succ) ⟨a, Nat.lt_of_succ_lt_succ h⟩
      refine ⟨(x 0).val * M + P, R, hR, fun c => ?_⟩
      show (Function.update x ⟨a + 1, h⟩ c 0).val * Shape.prodPi (fun b => d b.succ)
          + Shape.rankPi (fun b => d b.succ) (fun b => Function.update x ⟨a + 1, h⟩ c b.succ) = _
      have e0 : Function.update x ⟨a + 1, h⟩ c 0 = x 0 :=
        Function.update_of_ne (β := fun a => Fin (d a)) (by intro e; exact absurd (congrArg Fin.val e) (by simp)) c x
      have e1 : (fun b : Fin n => Function.update x ⟨a + 1, h⟩ c b.succ)
          = Function.update (fun b : Fin n => x b.succ) ⟨a, Nat.lt_of_succ_lt_succ h⟩ c :=
        Function.update_comp_eq_of_injective' (β := fun a => Fin (d a)) x (Fin.succ_injective n) ⟨a, Nat.lt_of_succ_lt_succ h⟩ c
      rw [e0, e1, hP c, hM]
      show _ = ((x 0).val * M + P) * (d ⟨a + 1, h⟩ * wt (fun b => d b.succ) ⟨a, Nat.lt_of_succ_lt_succ h⟩)
          + c.val * wt (fun b => d b.succ) ⟨a, Nat.lt_of_succ_lt_succ h⟩ + R
      show (x 0).val * (M * (d ⟨a + 1, h⟩ * wt (fun b => d b.succ) ⟨a, Nat.lt_of_succ_lt_succ h⟩))
          + (P * (d ⟨a + 1, h⟩ * wt (fun b => d b.succ) ⟨a, Nat.lt_of_succ_lt_succ h⟩)
            + c.val * wt (fun b => d b.succ) ⟨a, Nat.lt_of_succ_lt_succ h⟩ + R) = _
      ring

/-- Quotient and remainder by `W` are unique. -/
theorem divmod_unique {W X X' R R' : ℕ} (hR : R < W) (hR' : R' < W) (h : X * W + R = X' * W + R') :
    X = X' ∧ R = R' := by
  have hW : 0 < W := by omega
  have h1 : (X * W + R) / W = X := by rw [Nat.mul_comm, Nat.mul_add_div hW, Nat.div_eq_of_lt hR, Nat.add_zero]
  have h2 : (X' * W + R') / W = X' := by rw [Nat.mul_comm, Nat.mul_add_div hW, Nat.div_eq_of_lt hR', Nat.add_zero]
  have hx : X = X' := by rw [← h1, ← h2, h]
  subst hx
  exact ⟨rfl, by omega⟩

/-! ## The butterfly along an axis of extent 2 -/

variable {F : FTy → Type} [FloatOps F] {φ : FTy}

/-- One Walsh–Hadamard stage along axis `a` (extent 2): sums where the coordinate is 0, differences where it is 1. -/
def bfly (s : Shape) (a : Fin s.rank) (h2 : s.size a = 2) (x : FVec F s φ) : FVec F s φ := fun j =>
  if (j a).val = 0 then
    FloatOps.addf (x (Function.update j a ⟨0, by omega⟩)) (x (Function.update j a ⟨1, by omega⟩))
  else
    FloatOps.subf (x (Function.update j a ⟨0, by omega⟩)) (x (Function.update j a ⟨1, by omega⟩))

/-- Slicing the two halves along `a`, adding and subtracting them pointwise and concatenating the sums before the
    differences along `a` is the butterfly along `a`. -/
theorem slices_concat (s u : Shape) (a : Fin s.rank) (h2 : s.size a = 2) (off0 off1 : Fin s.rank → ℕ)
    (h0 : s.Slices off0 u) (h1 : s.Slices off1 u) (hc : Shape.Concatenates [u, u] s a)
    (hoff0 : ∀ b, off0 b = 0) (hoff1 : ∀ b, off1 b = if b = a then 1 else 0) (x : FVec F s φ) :
    concatenate s a [⟨u, addf (extractStridedSlice u off0 x h0) (extractStridedSlice u off1 x h1)⟩,
                     ⟨u, subf (extractStridedSlice u off0 x h0) (extractStridedSlice u off1 x h1)⟩] hc
      = bfly s a h2 x := by
  funext j
  have hr : u.rank = s.rank := h0.1
  obtain ⟨_, hsz⟩ := hc.2.1 u (by simp)
  have hua : u.size (a.cast hr.symm) = 1 := by
    have := hc.2.2
    simp only [List.map, dif_pos hr, List.sum_cons, List.sum_nil] at this
    omega
  -- the index of a half under `j`: `j` with the coordinate on `a` forgotten
  have hlt : ∀ b : Fin u.rank, (if b.cast hr = a then 0 else (j (b.cast hr)).val) < u.size b := fun b => by
    by_cases hb : b.cast hr = a
    · rw [if_pos hb]
      have e : b = a.cast hr.symm := Fin.ext (by rw [← hb]; rfl)
      rw [e, hua]; exact Nat.one_pos
    · rw [if_neg hb]
      have := hsz (b.cast hr) hb
      have e : (b.cast hr).cast hr.symm = b := Fin.ext rfl
      rw [e] at this
      rw [this]; exact (j (b.cast hr)).isLt
  let i : u.Idx := fun b => ⟨if b.cast hr = a then 0 else (j (b.cast hr)).val, hlt b⟩
  have hs0 : extractStridedSlice u off0 x h0 i = x (Function.update j a ⟨0, by omega⟩) := by
    refine extractStridedSlice_apply off0 x h0 i _ fun b => ?_
    rw [hoff0 b, Nat.zero_add]
    show _ = (if (b.cast h0.1.symm).cast hr = a then 0 else (j ((b.cast h0.1.symm).cast hr)).val)
    have e : (b.cast h0.1.symm).cast hr = b := Fin.ext rfl
    rw [e]
    by_cases hb : b = a
    · subst hb; rw [if_pos rfl, Function.update_self]
    · rw [if_neg hb, Function.update_of_ne hb]
  have hs1 : extractStridedSlice u off1 x h1 i = x (Function.update j a ⟨1, by omega⟩) := by
    refine extractStridedSlice_apply off1 x h1 i _ fun b => ?_
    rw [hoff1 b]
    show _ = _ + (if (b.cast h1.1.symm).cast hr = a then 0 else (j ((b.cast h1.1.symm).cast hr)).val)
    have e : (b.cast h1.1.symm).cast hr = b := Fin.ext rfl
    rw [e]
    by_cases hb : b = a
    · subst hb; rw [if_pos rfl, if_pos rfl, Function.update_self]
    · rw [if_neg hb, if_neg hb, Function.update_of_ne hb, Nat.zero_add]
  unfold bfly
  have hja : (j a).val < 2 := h2 ▸ (j a).isLt
  by_cases hj : (j a).val = 0
  · rw [if_pos hj]
    rw [concatenate_pair_apply_left a _ _ hc j hr i (fun b => by
      show (if b.cast hr = a then 0 else (j (b.cast hr)).val) = _
      by_cases hb : b.cast hr = a
      · rw [if_pos hb, hb, hj]
      · rw [if_neg hb])]
    show FloatOps.addf (extractStridedSlice u off0 x h0 i) (extractStridedSlice u off1 x h1 i) = _
    rw [hs0, hs1]
  · rw [if_neg hj]
    rw [concatenate_pair_apply_right a _ _ hc j hr hr i (fun b hb => by
      show (if b.cast hr = a then 0 else (j (b.cast hr)).val) = _
      rw [if_neg hb]) (by
      show (if (a.cast hr.symm).cast hr = a then 0 else (j ((a.cast hr.symm).cast hr)).val) + u.size (a.cast hr.symm) = _
      have e : (a.cast hr.symm).cast hr = a := Fin.ext rfl
      rw [e, if_pos rfl, hua]; omega)]
    show FloatOps.subf (extractStridedSlice u off0 x h0 i) (extractStridedSlice u off1 x h1 i) = _
    rw [hs0, hs1]

theorem off0_3 : ∀ b : Fin 3, (![0, 0, 0] : Fin 3 → ℕ) b = 0 := by decide
theorem off1_3 : ∀ b : Fin 3, (![0, 1, 0] : Fin 3 → ℕ) b = if b = 1 then 1 else 0 := by decide

/-- Squeezing the unit middle axis of `[A, 1, B]` and putting it back is the identity. -/
theorem unsqueeze_squeeze {α : Type} (A B : ℕ) (g : (⟨3, ![A, 1, B]⟩ : Shape).Idx → α)
    (hb : (⟨2, ![A, B]⟩ : Shape).BroadcastsInDim ⟨3, ![A, 1, B]⟩ ![0, 2])
    (hc : (⟨3, ![A, 1, B]⟩ : Shape).ShapeCasts ⟨2, ![A, B]⟩) :
    broadcastInDim ⟨3, ![A, 1, B]⟩ ![0, 2] hb (shapeCast ⟨2, ![A, B]⟩ g hc) = g := by
  funext i
  have hi1 : (i 1).val = 0 := by have h := (i 1).isLt; have : (i 1).val < 1 := h; omega
  have hi0 : (i 0).val < A := (i 0).isLt
  have hi2 : (i 2).val < B := (i 2).isLt
  refine (broadcastInDim_apply (s := ⟨2, ![A, B]⟩) (t := ⟨3, ![A, 1, B]⟩) ![0, 2] hb _ i
    (ValueIdx.ix2 (i 0) (i 2)) (fun a => ?_)).trans ?_
  · match a with
    | ⟨0, _⟩ =>
      show (i 0).val = if A = 1 then 0 else (i 0).val
      split
      · omega
      · rfl
    | ⟨1, _⟩ =>
      show (i 2).val = if B = 1 then 0 else (i 2).val
      split
      · omega
      · rfl
  · refine shapeCast_apply g hc (ValueIdx.ix2 (i 0) (i 2)) i ?_
    rw [Shape.rowMajor_val_three, Shape.rowMajor_val_two]
    show ((i 0).val * 1 + (i 1).val) * B + (i 2).val = (i 0).val * B + (i 2).val
    rw [hi1, Nat.mul_one, Nat.add_zero]

/-- One stage on a flat vector seen as `[A, 2, B]` — the halves squeezed to `[A, B]` for the arithmetic and
    re-expanded to `[A, 1, B]` for the concatenation — is the butterfly along the middle axis of the view. -/
theorem flat_stage (Sn : Shape) (A B : ℕ) (v : FVec F Sn φ)
    (c1 : Sn.ShapeCasts ⟨3, ![A, 2, B]⟩) (c2 : (⟨3, ![A, 1, B]⟩ : Shape).ShapeCasts ⟨2, ![A, B]⟩)
    (c3 : (⟨3, ![A, 2, B]⟩ : Shape).ShapeCasts Sn)
    (h0 : (⟨3, ![A, 2, B]⟩ : Shape).Slices ![0, 0, 0] ⟨3, ![A, 1, B]⟩)
    (h1 : (⟨3, ![A, 2, B]⟩ : Shape).Slices ![0, 1, 0] ⟨3, ![A, 1, B]⟩)
    (hb : (⟨2, ![A, B]⟩ : Shape).BroadcastsInDim ⟨3, ![A, 1, B]⟩ ![0, 2])
    (hc : Shape.Concatenates [⟨3, ![A, 1, B]⟩, ⟨3, ![A, 1, B]⟩] ⟨3, ![A, 2, B]⟩ 1) :
    shapeCast Sn (concatenate ⟨3, ![A, 2, B]⟩ 1
      [⟨⟨3, ![A, 1, B]⟩, broadcastInDim ⟨3, ![A, 1, B]⟩ ![0, 2] hb
          (addf (shapeCast ⟨2, ![A, B]⟩ (extractStridedSlice ⟨3, ![A, 1, B]⟩ ![0, 0, 0] (shapeCast ⟨3, ![A, 2, B]⟩ v c1) h0) c2)
                (shapeCast ⟨2, ![A, B]⟩ (extractStridedSlice ⟨3, ![A, 1, B]⟩ ![0, 1, 0] (shapeCast ⟨3, ![A, 2, B]⟩ v c1) h1) c2))⟩,
       ⟨⟨3, ![A, 1, B]⟩, broadcastInDim ⟨3, ![A, 1, B]⟩ ![0, 2] hb
          (subf (shapeCast ⟨2, ![A, B]⟩ (extractStridedSlice ⟨3, ![A, 1, B]⟩ ![0, 0, 0] (shapeCast ⟨3, ![A, 2, B]⟩ v c1) h0) c2)
                (shapeCast ⟨2, ![A, B]⟩ (extractStridedSlice ⟨3, ![A, 1, B]⟩ ![0, 1, 0] (shapeCast ⟨3, ![A, 2, B]⟩ v c1) h1) c2))⟩] hc) c3
      = shapeCast Sn (bfly ⟨3, ![A, 2, B]⟩ 1 rfl (shapeCast ⟨3, ![A, 2, B]⟩ v c1)) c3 := by
  have ea : ∀ p q : (⟨3, ![A, 1, B]⟩ : Shape).Idx → F φ,
      broadcastInDim ⟨3, ![A, 1, B]⟩ ![0, 2] hb (addf (shapeCast ⟨2, ![A, B]⟩ p c2) (shapeCast ⟨2, ![A, B]⟩ q c2)) = addf p q := fun p q => by
    have := unsqueeze_squeeze A B p hb c2
    have := unsqueeze_squeeze A B q hb c2
    calc broadcastInDim ⟨3, ![A, 1, B]⟩ ![0, 2] hb (addf (shapeCast ⟨2, ![A, B]⟩ p c2) (shapeCast ⟨2, ![A, B]⟩ q c2))
        = addf (broadcastInDim ⟨3, ![A, 1, B]⟩ ![0, 2] hb (shapeCast ⟨2, ![A, B]⟩ p c2))
               (broadcastInDim ⟨3, ![A, 1, B]⟩ ![0, 2] hb (shapeCast ⟨2, ![A, B]⟩ q c2)) := rfl
      _ = addf p q := by rw [unsqueeze_squeeze A B p hb c2, unsqueeze_squeeze A B q hb c2]
  have es : ∀ p q : (⟨3, ![A, 1, B]⟩ : Shape).Idx → F φ,
      broadcastInDim ⟨3, ![A, 1, B]⟩ ![0, 2] hb (subf (shapeCast ⟨2, ![A, B]⟩ p c2) (shapeCast ⟨2, ![A, B]⟩ q c2)) = subf p q := fun p q => by
    calc broadcastInDim ⟨3, ![A, 1, B]⟩ ![0, 2] hb (subf (shapeCast ⟨2, ![A, B]⟩ p c2) (shapeCast ⟨2, ![A, B]⟩ q c2))
        = subf (broadcastInDim ⟨3, ![A, 1, B]⟩ ![0, 2] hb (shapeCast ⟨2, ![A, B]⟩ p c2))
               (broadcastInDim ⟨3, ![A, 1, B]⟩ ![0, 2] hb (shapeCast ⟨2, ![A, B]⟩ q c2)) := rfl
      _ = subf p q := by rw [unsqueeze_squeeze A B p hb c2, unsqueeze_squeeze A B q hb c2]
  rw [ea, es]
  exact congrArg (fun z => shapeCast Sn z c3)
    (slices_concat ⟨3, ![A, 2, B]⟩ ⟨3, ![A, 1, B]⟩ 1 rfl ![0, 0, 0] ![0, 1, 0] h0 h1 hc off0_3 off1_3 _)

/-- The butterfly along axis `b` of `t`, seen through a reshape as an array over `s`, is the butterfly along the axis
    `a` of `s` that has the same extent 2 and the same row-major weight. -/
theorem bfly_shapeCast (s t : Shape) (a : Fin s.rank) (b : Fin t.rank) (hs : s.size a = 2) (ht : t.size b = 2)
    (hw : wt s.size a = wt t.size b) (hc : t.ShapeCasts s) (y : FVec F t φ) :
    shapeCast s (bfly t b ht y) hc = bfly s a hs (shapeCast s y hc) := by
  funext j
  obtain ⟨P, R, hR, hP⟩ := rank_update s.size j a
  obtain ⟨P', R', hR', hP'⟩ := rank_update t.size (Shape.reshapeEquiv hc j) b
  have hpos : (t.rowMajor (Shape.reshapeEquiv hc j)).val = (s.rowMajor j).val := Shape.rowMajor_reshapeEquiv hc j
  have ej := hP (j a)
  have ek := hP' (Shape.reshapeEquiv hc j b)
  rw [Function.update_eq_self] at ej ek
  have hja : (j a).val < 2 := hs ▸ (j a).isLt
  have hkb : (Shape.reshapeEquiv hc j b).val < 2 := ht ▸ (Shape.reshapeEquiv hc j b).isLt
  have e2 : s.size a * wt s.size a = 2 * wt s.size a := by rw [hs]
  have e2' : t.size b * wt t.size b = 2 * wt s.size a := by rw [ht, hw]
  rw [e2] at ej
  rw [e2', ← hw] at ek
  rw [← hw] at hR'
  have hP2 : ∀ (c : ℕ) (hc2 : c < 2), Shape.rankPi s.size (Function.update j a ⟨c, by omega⟩)
      = P * (2 * wt s.size a) + c * wt s.size a + R := fun c hc2 => by
    have h := hP ⟨c, by omega⟩
    rw [e2] at h
    exact h
  have hP2' : ∀ (c : ℕ) (hc2 : c < 2), Shape.rankPi t.size (Function.update (Shape.reshapeEquiv hc j) b ⟨c, by omega⟩)
      = P' * (2 * wt s.size a) + c * wt s.size a + R' := fun c hc2 => by
    have h := hP' ⟨c, by omega⟩
    rw [e2', ← hw] at h
    exact h
  have hpos' : Shape.rankPi t.size (Shape.reshapeEquiv hc j) = Shape.rankPi s.size j := hpos
  have key : (2 * P + (j a).val) * wt s.size a + R = (2 * P' + (Shape.reshapeEquiv hc j b).val) * wt s.size a + R' := by
    have : P * (2 * wt s.size a) + (j a).val * wt s.size a + R
        = P' * (2 * wt s.size a) + (Shape.reshapeEquiv hc j b).val * wt s.size a + R' := by rw [← ej, ← ek, hpos']
    calc (2 * P + (j a).val) * wt s.size a + R = P * (2 * wt s.size a) + (j a).val * wt s.size a + R := by ring
      _ = P' * (2 * wt s.size a) + (Shape.reshapeEquiv hc j b).val * wt s.size a + R' := this
      _ = _ := by ring
  obtain ⟨hX, hRR⟩ := divmod_unique hR hR' key
  have hcoord : (Shape.reshapeEquiv hc j b).val = (j a).val := by omega
  have hPP : P' = P := by omega
  have hmove : ∀ (c : ℕ) (hc2 : c < 2),
      Shape.reshapeEquiv hc (Function.update j a ⟨c, by omega⟩) = Function.update (Shape.reshapeEquiv hc j) b ⟨c, by omega⟩ := fun c hc2 => by
    refine Shape.reshapeEquiv_eq_of_rowMajor hc ?_
    show Shape.rankPi t.size _ = Shape.rankPi s.size _
    rw [hP2 c hc2, hP2' c hc2, hPP, hRR]
  show bfly t b ht y (Shape.reshapeEquiv hc j) = _
  unfold bfly
  rw [hcoord]
  show _ = if (j a).val = 0 then FloatOps.addf (y (Shape.reshapeEquiv hc _)) (y (Shape.reshapeEquiv hc _))
      else FloatOps.subf (y (Shape.reshapeEquiv hc _)) (y (Shape.reshapeEquiv hc _))
  rw [hmove 0 (by omega), hmove 1 (by omega)]

/-- Reshaping to `t` and back to where one came from is the identity. -/
theorem shapeCast_cancel {α : Type} (s t : Shape) (z : s.Idx → α) (h1 : s.ShapeCasts t) (h2 : t.ShapeCasts s) :
    shapeCast s (shapeCast t z h1) h2 = z := by
  funext j
  show z (Shape.reshapeEquiv h1 (Shape.reshapeEquiv h2 j)) = z j
  rw [Shape.reshapeEquiv_reshapeEquiv, Shape.reshapeEquiv_self]

/-- Reshaping through an intermediate shape is reshaping directly. -/
theorem shapeCast_trans {α : Type} (s t u : Shape) (z : s.Idx → α) (h1 : s.ShapeCasts t) (h2 : t.ShapeCasts u)
    (h3 : s.ShapeCasts u) : shapeCast u (shapeCast t z h1) h2 = shapeCast u z h3 := by
  funext j
  show z (Shape.reshapeEquiv h1 (Shape.reshapeEquiv h2 j)) = z (Shape.reshapeEquiv h3 j)
  rw [Shape.reshapeEquiv_reshapeEquiv]

/-- A stage on the flat vector through the view `t = [A, 2, B]` is the stage along axis `a` of the shape `s`,
    conjugated by the reshape between the flat vector and `s`. -/
theorem flat_to_axis (Sn s t : Shape) (a : Fin s.rank) (b : Fin t.rank) (hs : s.size a = 2) (ht : t.size b = 2)
    (hw : wt s.size a = wt t.size b) (v : FVec F Sn φ)
    (c1 : Sn.ShapeCasts t) (c3 : t.ShapeCasts Sn) (d1 : Sn.ShapeCasts s) (d3 : s.ShapeCasts Sn) :
    shapeCast Sn (bfly t b ht (shapeCast t v c1)) c3 = shapeCast Sn (bfly s a hs (shapeCast s v d1)) d3 := by
  have hts : t.ShapeCasts s := d1.trans c3
  have e := bfly_shapeCast s t a b hs ht hw hts (shapeCast t v c1)
  rw [shapeCast_trans Sn t s v c1 hts d1] at e
  rw [← e, shapeCast_trans t s Sn _ hts d3 c3]

/-- One stage on a flat vector through the view `[A, 2, B]`, halves squeezed and re-expanded, is the stage along the axis
    `a` of `s` of extent 2 and weight `B`, conjugated by the reshape between the flat vector and `s`. -/
theorem flat_stage_axis (Sn s : Shape) (A B : ℕ) (a : Fin s.rank) (hs : s.size a = 2)
    (hw : wt s.size a = wt (⟨3, ![A, 2, B]⟩ : Shape).size 1) (v : FVec F Sn φ)
    (c1 : Sn.ShapeCasts ⟨3, ![A, 2, B]⟩) (c2 : (⟨3, ![A, 1, B]⟩ : Shape).ShapeCasts ⟨2, ![A, B]⟩)
    (c3 : (⟨3, ![A, 2, B]⟩ : Shape).ShapeCasts Sn)
    (h0 : (⟨3, ![A, 2, B]⟩ : Shape).Slices ![0, 0, 0] ⟨3, ![A, 1, B]⟩)
    (h1 : (⟨3, ![A, 2, B]⟩ : Shape).Slices ![0, 1, 0] ⟨3, ![A, 1, B]⟩)
    (hb : (⟨2, ![A, B]⟩ : Shape).BroadcastsInDim ⟨3, ![A, 1, B]⟩ ![0, 2])
    (hc : Shape.Concatenates [⟨3, ![A, 1, B]⟩, ⟨3, ![A, 1, B]⟩] ⟨3, ![A, 2, B]⟩ 1)
    (d1 : Sn.ShapeCasts s) (d3 : s.ShapeCasts Sn) :
    shapeCast Sn (concatenate ⟨3, ![A, 2, B]⟩ 1
      [⟨⟨3, ![A, 1, B]⟩, broadcastInDim ⟨3, ![A, 1, B]⟩ ![0, 2] hb
          (addf (shapeCast ⟨2, ![A, B]⟩ (extractStridedSlice ⟨3, ![A, 1, B]⟩ ![0, 0, 0] (shapeCast ⟨3, ![A, 2, B]⟩ v c1) h0) c2)
                (shapeCast ⟨2, ![A, B]⟩ (extractStridedSlice ⟨3, ![A, 1, B]⟩ ![0, 1, 0] (shapeCast ⟨3, ![A, 2, B]⟩ v c1) h1) c2))⟩,
       ⟨⟨3, ![A, 1, B]⟩, broadcastInDim ⟨3, ![A, 1, B]⟩ ![0, 2] hb
          (subf (shapeCast ⟨2, ![A, B]⟩ (extractStridedSlice ⟨3, ![A, 1, B]⟩ ![0, 0, 0] (shapeCast ⟨3, ![A, 2, B]⟩ v c1) h0) c2)
                (shapeCast ⟨2, ![A, B]⟩ (extractStridedSlice ⟨3, ![A, 1, B]⟩ ![0, 1, 0] (shapeCast ⟨3, ![A, 2, B]⟩ v c1) h1) c2))⟩] hc) c3
      = shapeCast Sn (bfly s a hs (shapeCast s v d1)) d3 :=
  (flat_stage Sn A B v c1 c2 c3 h0 h1 hb hc).trans
    (flat_to_axis Sn s ⟨3, ![A, 2, B]⟩ a 1 hs rfl hw v c1 c3 d1 d3)

/-! ## The two transforms' shapes -/

/-- A flat vector of 2^23 entries, and the same entries as a 23-dimensional cube of side 2. -/
abbrev SW : Shape := ⟨1, ![8388608]⟩
abbrev S23 : Shape := ⟨23, ![2, 2, 2, 2, 2, 2, 2, 2, 2, 2, 2, 2, 2, 2, 2, 2, 2, 2, 2, 2, 2, 2, 2]⟩
/-- A flat vector of 2^12 entries, and the same entries as a 12-dimensional cube of side 2. -/
abbrev SB : Shape := ⟨1, ![4096]⟩
abbrev S12 : Shape := ⟨12, ![2, 2, 2, 2, 2, 2, 2, 2, 2, 2, 2, 2]⟩

/-- Every axis of the cubes has extent 2. -/
theorem size23 (i : Fin 23) : S23.size i = 2 := by revert i; decide
theorem size12 (i : Fin 12) : S12.size i = 2 := by revert i; decide

theorem castW : SW.ShapeCasts S23 := by decide
theorem castW' : S23.ShapeCasts SW := by decide
theorem castB : SB.ShapeCasts S12 := by decide
theorem castB' : S12.ShapeCasts SB := by decide

/-- The unnormalized Walsh–Hadamard transform of a cube of side 2: the stage along every axis, first axis first. -/
def cube23 (x : FVec F S23 φ) : FVec F S23 φ :=
  bfly S23 22 (size23 22) (bfly S23 21 (size23 21) (bfly S23 20 (size23 20) (bfly S23 19 (size23 19) (bfly S23 18 (size23 18) (bfly S23 17 (size23 17) (bfly S23 16 (size23 16) (bfly S23 15 (size23 15) (bfly S23 14 (size23 14) (bfly S23 13 (size23 13) (bfly S23 12 (size23 12) (bfly S23 11 (size23 11) (bfly S23 10 (size23 10) (bfly S23 9 (size23 9) (bfly S23 8 (size23 8) (bfly S23 7 (size23 7) (bfly S23 6 (size23 6) (bfly S23 5 (size23 5) (bfly S23 4 (size23 4) (bfly S23 3 (size23 3) (bfly S23 2 (size23 2) (bfly S23 1 (size23 1) (bfly S23 0 (size23 0) (x)))))))))))))))))))))))
def cube12 (x : FVec F S12 φ) : FVec F S12 φ :=
  bfly S12 11 (size12 11) (bfly S12 10 (size12 10) (bfly S12 9 (size12 9) (bfly S12 8 (size12 8) (bfly S12 7 (size12 7) (bfly S12 6 (size12 6) (bfly S12 5 (size12 5) (bfly S12 4 (size12 4) (bfly S12 3 (size12 3) (bfly S12 2 (size12 2) (bfly S12 1 (size12 1) (bfly S12 0 (size12 0) (x))))))))))))

/-- The transform of a flat vector: of its cube, flattened again. -/
def fwhtW (v : FVec F SW φ) : FVec F SW φ := shapeCast SW (cube23 (shapeCast S23 v castW)) castW'
def fwhtB (v : FVec F SB φ) : FVec F SB φ := shapeCast SB (cube12 (shapeCast S12 v castB)) castB'

end Cert.Bfly

end
-- ==== Proof.KW1.lean ====
/-
  The first transform of the long vector (2^23 entries) in the kernel's host program.
  Each of the 23 stretches of eleven host operations is one butterfly stage on the flat vector through the view
  [2^k, 2, 8388608/2^(k+1)]; read with `flat_stage_axis` it is the stage along axis k of the cube of side 2, conjugated by the
  reshape between the flat vector and the cube. Chained, the reshapes between consecutive stages cancel and the 23 stages
  are the transform of the cube (`fwhtW`). The 23 stage lemmas are one statement instantiated at k = 0 … 22.
-/
import proofs.«167603_j88115549045430_2_alg».proof.Proof.KHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.KHost.W1

open Cert.KernelIdeal Cert.KernelIdeal.Gen Cert.Bfly Cert.KHost

variable {F : FTy → Type} [FloatOps F]
variable (V0 : Valuation τ sig (Elt F))

theorem stage0 : U V0 17 (Proc.devRef .tc main_v14)
    = shapeCast SW (bfly (φ := .f32) S23 0 (size23 0) (shapeCast S23 (U V0 6 (Proc.devRef .tc main_v3)) castW)) castW' := by
  show U V0 (6 + 11) _ = _
  rw [U_add]
  show after [_, _, _, _, _, _, _, _, _, _, _] _ _ = _
  after_results
  exact flat_stage_axis SW S23 1 4194304 0 (size23 0) (by decide) _ _ _ _ _ _ _ _ castW castW'

theorem stage1 : U V0 28 (Proc.devRef .tc main_v25)
    = shapeCast SW (bfly (φ := .f32) S23 1 (size23 1) (shapeCast S23 (U V0 17 (Proc.devRef .tc main_v14)) castW)) castW' := by
  show U V0 (17 + 11) _ = _
  rw [U_add]
  show after [_, _, _, _, _, _, _, _, _, _, _] _ _ = _
  after_results
  exact flat_stage_axis SW S23 2 2097152 1 (size23 1) (by decide) _ _ _ _ _ _ _ _ castW castW'

theorem stage2 : U V0 39 (Proc.devRef .tc main_v36)
    = shapeCast SW (bfly (φ := .f32) S23 2 (size23 2) (shapeCast S23 (U V0 28 (Proc.devRef .tc main_v25)) castW)) castW' := by
  show U V0 (28 + 11) _ = _
  rw [U_add]
  show after [_, _, _, _, _, _, _, _, _, _, _] _ _ = _
  after_results
  exact flat_stage_axis SW S23 4 1048576 2 (size23 2) (by decide) _ _ _ _ _ _ _ _ castW castW'

theorem stage3 : U V0 50 (Proc.devRef .tc main_v47)
    = shapeCast SW (bfly (φ := .f32) S23 3 (size23 3) (shapeCast S23 (U V0 39 (Proc.devRef .tc main_v36)) castW)) castW' := by
  show U V0 (39 + 11) _ = _
  rw [U_add]
  show after [_, _, _, _, _, _, _, _, _, _, _] _ _ = _
  after_results
  exact flat_stage_axis SW S23 8 524288 3 (size23 3) (by decide) _ _ _ _ _ _ _ _ castW castW'

theorem stage4 : U V0 61 (Proc.devRef .tc main_v58)
    = shapeCast SW (bfly (φ := .f32) S23 4 (size23 4) (shapeCast S23 (U V0 50 (Proc.devRef .tc main_v47)) castW)) castW' := by
  show U V0 (50 + 11) _ = _
  rw [U_add]
  show after [_, _, _, _, _, _, _, _, _, _, _] _ _ = _
  after_results
  exact flat_stage_axis SW S23 16 262144 4 (size23 4) (by decide) _ _ _ _ _ _ _ _ castW castW'

theorem stage5 : U V0 72 (Proc.devRef .tc main_v69)
    = shapeCast SW (bfly (φ := .f32) S23 5 (size23 5) (shapeCast S23 (U V0 61 (Proc.devRef .tc main_v58)) castW)) castW' := by
  show U V0 (61 + 11) _ = _
  rw [U_add]
  show after [_, _, _, _, _, _, _, _, _, _, _] _ _ = _
  after_results
  exact flat_stage_axis SW S23 32 131072 5 (size23 5) (by decide) _ _ _ _ _ _ _ _ castW castW'

theorem stage6 : U V0 83 (Proc.devRef .tc main_v80)
    = shapeCast SW (bfly (φ := .f32) S23 6 (size23 6) (shapeCast S23 (U V0 72 (Proc.devRef .tc main_v69)) castW)) castW' := by
  show U V0 (72 + 11) _ = _
  rw [U_add]
  show after [_, _, _, _, _, _, _, _, _, _, _] _ _ = _
  after_results
  exact flat_stage_axis SW S23 64 65536 6 (size23 6) (by decide) _ _ _ _ _ _ _ _ castW castW'

theorem stage7 : U V0 94 (Proc.devRef .tc main_v91)
    = shapeCast SW (bfly (φ := .f32) S23 7 (size23 7) (shapeCast S23 (U V0 83 (Proc.devRef .tc main_v80)) castW)) castW' := by
  show U V0 (83 + 11) _ = _
  rw [U_add]
  show after [_, _, _, _, _, _, _, _, _, _, _] _ _ = _
  after_results
  exact flat_stage_axis SW S23 128 32768 7 (size23 7) (by decide) _ _ _ _ _ _ _ _ castW castW'

theorem stage8 : U V0 105 (Proc.devRef .tc main_v102)
    = shapeCast SW (bfly (φ := .f32) S23 8 (size23 8) (shapeCast S23 (U V0 94 (Proc.devRef .tc main_v91)) castW)) castW' := by
  show U V0 (94 + 11) _ = _
  rw [U_add]
  show after [_, _, _, _, _, _, _, _, _, _, _] _ _ = _
  after_results
  exact flat_stage_axis SW S23 256 16384 8 (size23 8) (by decide) _ _ _ _ _ _ _ _ castW castW'

theorem stage9 : U V0 116 (Proc.devRef .tc main_v113)
    = shapeCast SW (bfly (φ := .f32) S23 9 (size23 9) (shapeCast S23 (U V0 105 (Proc.devRef .tc main_v102)) castW)) castW' := by
  show U V0 (105 + 11) _ = _
  rw [U_add]
  show after [_, _, _, _, _, _, _, _, _, _, _] _ _ = _
  after_results
  exact flat_stage_axis SW S23 512 8192 9 (size23 9) (by decide) _ _ _ _ _ _ _ _ castW castW'

theorem stage10 : U V0 127 (Proc.devRef .tc main_v124)
    = shapeCast SW (bfly (φ := .f32) S23 10 (size23 10) (shapeCast S23 (U V0 116 (Proc.devRef .tc main_v113)) castW)) castW' := by
  show U V0 (116 + 11) _ = _
  rw [U_add]
  show after [_, _, _, _, _, _, _, _, _, _, _] _ _ = _
  after_results
  exact flat_stage_axis SW S23 1024 4096 10 (size23 10) (by decide) _ _ _ _ _ _ _ _ castW castW'

theorem stage11 : U V0 138 (Proc.devRef .tc main_v135)
    = shapeCast SW (bfly (φ := .f32) S23 11 (size23 11) (shapeCast S23 (U V0 127 (Proc.devRef .tc main_v124)) castW)) castW' := by
  show U V0 (127 + 11) _ = _
  rw [U_add]
  show after [_, _, _, _, _, _, _, _, _, _, _] _ _ = _
  after_results
  exact flat_stage_axis SW S23 2048 2048 11 (size23 11) (by decide) _ _ _ _ _ _ _ _ castW castW'

theorem stage12 : U V0 149 (Proc.devRef .tc main_v146)
    = shapeCast SW (bfly (φ := .f32) S23 12 (size23 12) (shapeCast S23 (U V0 138 (Proc.devRef .tc main_v135)) castW)) castW' := by
  show U V0 (138 + 11) _ = _
  rw [U_add]
  show after [_, _, _, _, _, _, _, _, _, _, _] _ _ = _
  after_results
  exact flat_stage_axis SW S23 4096 1024 12 (size23 12) (by decide) _ _ _ _ _ _ _ _ castW castW'

theorem stage13 : U V0 160 (Proc.devRef .tc main_v157)
    = shapeCast SW (bfly (φ := .f32) S23 13 (size23 13) (shapeCast S23 (U V0 149 (Proc.devRef .tc main_v146)) castW)) castW' := by
  show U V0 (149 + 11) _ = _
  rw [U_add]
  show after [_, _, _, _, _, _, _, _, _, _, _] _ _ = _
  after_results
  exact flat_stage_axis SW S23 8192 512 13 (size23 13) (by decide) _ _ _ _ _ _ _ _ castW castW'

theorem stage14 : U V0 171 (Proc.devRef .tc main_v168)
    = shapeCast SW (bfly (φ := .f32) S23 14 (size23 14) (shapeCast S23 (U V0 160 (Proc.devRef .tc main_v157)) castW)) castW' := by
  show U V0 (160 + 11) _ = _
  rw [U_add]
  show after [_, _, _, _, _, _, _, _, _, _, _] _ _ = _
  after_results
  exact flat_stage_axis SW S23 16384 256 14 (size23 14) (by decide) _ _ _ _ _ _ _ _ castW castW'

theorem stage15 : U V0 182 (Proc.devRef .tc main_v179)
    = shapeCast SW (bfly (φ := .f32) S23 15 (size23 15) (shapeCast S23 (U V0 171 (Proc.devRef .tc main_v168)) castW)) castW' := by
  show U V0 (171 + 11) _ = _
  rw [U_add]
  show after [_, _, _, _, _, _, _, _, _, _, _] _ _ = _
  after_results
  exact flat_stage_axis SW S23 32768 128 15 (size23 15) (by decide) _ _ _ _ _ _ _ _ castW castW'

theorem stage16 : U V0 193 (Proc.devRef .tc main_v190)
    = shapeCast SW (bfly (φ := .f32) S23 16 (size23 16) (shapeCast S23 (U V0 182 (Proc.devRef .tc main_v179)) castW)) castW' := by
  show U V0 (182 + 11) _ = _
  rw [U_add]
  show after [_, _, _, _, _, _, _, _, _, _, _] _ _ = _
  after_results
  exact flat_stage_axis SW S23 65536 64 16 (size23 16) (by decide) _ _ _ _ _ _ _ _ castW castW'

theorem stage17 : U V0 204 (Proc.devRef .tc main_v201)
    = shapeCast SW (bfly (φ := .f32) S23 17 (size23 17) (shapeCast S23 (U V0 193 (Proc.devRef .tc main_v190)) castW)) castW' := by
  show U V0 (193 + 11) _ = _
  rw [U_add]
  show after [_, _, _, _, _, _, _, _, _, _, _] _ _ = _
  after_results
  exact flat_stage_axis SW S23 131072 32 17 (size23 17) (by decide) _ _ _ _ _ _ _ _ castW castW'

theorem stage18 : U V0 215 (Proc.devRef .tc main_v212)
    = shapeCast SW (bfly (φ := .f32) S23 18 (size23 18) (shapeCast S23 (U V0 204 (Proc.devRef .tc main_v201)) castW)) castW' := by
  show U V0 (204 + 11) _ = _
  rw [U_add]
  show after [_, _, _, _, _, _, _, _, _, _, _] _ _ = _
  after_results
  exact flat_stage_axis SW S23 262144 16 18 (size23 18) (by decide) _ _ _ _ _ _ _ _ castW castW'

theorem stage19 : U V0 226 (Proc.devRef .tc main_v223)
    = shapeCast SW (bfly (φ := .f32) S23 19 (size23 19) (shapeCast S23 (U V0 215 (Proc.devRef .tc main_v212)) castW)) castW' := by
  show U V0 (215 + 11) _ = _
  rw [U_add]
  show after [_, _, _, _, _, _, _, _, _, _, _] _ _ = _
  after_results
  exact flat_stage_axis SW S23 524288 8 19 (size23 19) (by decide) _ _ _ _ _ _ _ _ castW castW'

theorem stage20 : U V0 237 (Proc.devRef .tc main_v234)
    = shapeCast SW (bfly (φ := .f32) S23 20 (size23 20) (shapeCast S23 (U V0 226 (Proc.devRef .tc main_v223)) castW)) castW' := by
  show U V0 (226 + 11) _ = _
  rw [U_add]
  show after [_, _, _, _, _, _, _, _, _, _, _] _ _ = _
  after_results
  exact flat_stage_axis SW S23 1048576 4 20 (size23 20) (by decide) _ _ _ _ _ _ _ _ castW castW'

theorem stage21 : U V0 248 (Proc.devRef .tc main_v245)
    = shapeCast SW (bfly (φ := .f32) S23 21 (size23 21) (shapeCast S23 (U V0 237 (Proc.devRef .tc main_v234)) castW)) castW' := by
  show U V0 (237 + 11) _ = _
  rw [U_add]
  show after [_, _, _, _, _, _, _, _, _, _, _] _ _ = _
  after_results
  exact flat_stage_axis SW S23 2097152 2 21 (size23 21) (by decide) _ _ _ _ _ _ _ _ castW castW'

theorem stage22 : U V0 259 (Proc.devRef .tc main_v256)
    = shapeCast SW (bfly (φ := .f32) S23 22 (size23 22) (shapeCast S23 (U V0 248 (Proc.devRef .tc main_v245)) castW)) castW' := by
  show U V0 (248 + 11) _ = _
  rw [U_add]
  show after [_, _, _, _, _, _, _, _, _, _, _] _ _ = _
  after_results
  exact flat_stage_axis SW S23 4194304 1 22 (size23 22) (by decide) _ _ _ _ _ _ _ _ castW castW'

/-- The 23 stages together: the transform of the flat vector. -/
theorem all : U V0 259 (Proc.devRef .tc main_v256) = fwhtW (φ := .f32) (U V0 6 (Proc.devRef .tc main_v3)) := by
  unfold fwhtW cube23
  rw [stage22 V0, stage21 V0, stage20 V0, stage19 V0, stage18 V0, stage17 V0, stage16 V0, stage15 V0, stage14 V0, stage13 V0, stage12 V0, stage11 V0, stage10 V0, stage9 V0, stage8 V0, stage7 V0, stage6 V0, stage5 V0, stage4 V0, stage3 V0, stage2 V0, stage1 V0, stage0 V0]
  rw [shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW]
  all_goals rfl

end Cert.KHost.W1

end
-- ==== Proof.KW2.lean ====
/-
  The second transform of the long vector (2^23 entries) in the kernel's host program.
  Each of the 23 stretches of eleven host operations is one butterfly stage on the flat vector through the view
  [2^k, 2, 8388608/2^(k+1)]; read with `flat_stage_axis` it is the stage along axis k of the cube of side 2, conjugated by the
  reshape between the flat vector and the cube. Chained, the reshapes between consecutive stages cancel and the 23 stages
  are the transform of the cube (`fwhtW`). The 23 stage lemmas are one statement instantiated at k = 0 … 22.
-/
import proofs.«167603_j88115549045430_2_alg».proof.Proof.KHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.KHost.W2

open Cert.KernelIdeal Cert.KernelIdeal.Gen Cert.Bfly Cert.KHost

variable {F : FTy → Type} [FloatOps F]
variable (V0 : Valuation τ sig (Elt F))

theorem stage0 : U V0 280 (Proc.devRef .tc main_v275)
    = shapeCast SW (bfly (φ := .f32) S23 0 (size23 0) (shapeCast S23 (U V0 269 (Proc.devRef .tc main_v264)) castW)) castW' := by
  show U V0 (269 + 11) _ = _
  rw [U_add]
  show after [_, _, _, _, _, _, _, _, _, _, _] _ _ = _
  after_results
  exact flat_stage_axis SW S23 1 4194304 0 (size23 0) (by decide) _ _ _ _ _ _ _ _ castW castW'

theorem stage1 : U V0 291 (Proc.devRef .tc main_v286)
    = shapeCast SW (bfly (φ := .f32) S23 1 (size23 1) (shapeCast S23 (U V0 280 (Proc.devRef .tc main_v275)) castW)) castW' := by
  show U V0 (280 + 11) _ = _
  rw [U_add]
  show after [_, _, _, _, _, _, _, _, _, _, _] _ _ = _
  after_results
  exact flat_stage_axis SW S23 2 2097152 1 (size23 1) (by decide) _ _ _ _ _ _ _ _ castW castW'

theorem stage2 : U V0 302 (Proc.devRef .tc main_v297)
    = shapeCast SW (bfly (φ := .f32) S23 2 (size23 2) (shapeCast S23 (U V0 291 (Proc.devRef .tc main_v286)) castW)) castW' := by
  show U V0 (291 + 11) _ = _
  rw [U_add]
  show after [_, _, _, _, _, _, _, _, _, _, _] _ _ = _
  after_results
  exact flat_stage_axis SW S23 4 1048576 2 (size23 2) (by decide) _ _ _ _ _ _ _ _ castW castW'

theorem stage3 : U V0 313 (Proc.devRef .tc main_v308)
    = shapeCast SW (bfly (φ := .f32) S23 3 (size23 3) (shapeCast S23 (U V0 302 (Proc.devRef .tc main_v297)) castW)) castW' := by
  show U V0 (302 + 11) _ = _
  rw [U_add]
  show after [_, _, _, _, _, _, _, _, _, _, _] _ _ = _
  after_results
  exact flat_stage_axis SW S23 8 524288 3 (size23 3) (by decide) _ _ _ _ _ _ _ _ castW castW'

theorem stage4 : U V0 324 (Proc.devRef .tc main_v319)
    = shapeCast SW (bfly (φ := .f32) S23 4 (size23 4) (shapeCast S23 (U V0 313 (Proc.devRef .tc main_v308)) castW)) castW' := by
  show U V0 (313 + 11) _ = _
  rw [U_add]
  show after [_, _, _, _, _, _, _, _, _, _, _] _ _ = _
  after_results
  exact flat_stage_axis SW S23 16 262144 4 (size23 4) (by decide) _ _ _ _ _ _ _ _ castW castW'

theorem stage5 : U V0 335 (Proc.devRef .tc main_v330)
    = shapeCast SW (bfly (φ := .f32) S23 5 (size23 5) (shapeCast S23 (U V0 324 (Proc.devRef .tc main_v319)) castW)) castW' := by
  show U V0 (324 + 11) _ = _
  rw [U_add]
  show after [_, _, _, _, _, _, _, _, _, _, _] _ _ = _
  after_results
  exact flat_stage_axis SW S23 32 131072 5 (size23 5) (by decide) _ _ _ _ _ _ _ _ castW castW'

theorem stage6 : U V0 346 (Proc.devRef .tc main_v341)
    = shapeCast SW (bfly (φ := .f32) S23 6 (size23 6) (shapeCast S23 (U V0 335 (Proc.devRef .tc main_v330)) castW)) castW' := by
  show U V0 (335 + 11) _ = _
  rw [U_add]
  show after [_, _, _, _, _, _, _, _, _, _, _] _ _ = _
  after_results
  exact flat_stage_axis SW S23 64 65536 6 (size23 6) (by decide) _ _ _ _ _ _ _ _ castW castW'

theorem stage7 : U V0 357 (Proc.devRef .tc main_v352)
    = shapeCast SW (bfly (φ := .f32) S23 7 (size23 7) (shapeCast S23 (U V0 346 (Proc.devRef .tc main_v341)) castW)) castW' := by
  show U V0 (346 + 11) _ = _
  rw [U_add]
  show after [_, _, _, _, _, _, _, _, _, _, _] _ _ = _
  after_results
  exact flat_stage_axis SW S23 128 32768 7 (size23 7) (by decide) _ _ _ _ _ _ _ _ castW castW'

theorem stage8 : U V0 368 (Proc.devRef .tc main_v363)
    = shapeCast SW (bfly (φ := .f32) S23 8 (size23 8) (shapeCast S23 (U V0 357 (Proc.devRef .tc main_v352)) castW)) castW' := by
  show U V0 (357 + 11) _ = _
  rw [U_add]
  show after [_, _, _, _, _, _, _, _, _, _, _] _ _ = _
  after_results
  exact flat_stage_axis SW S23 256 16384 8 (size23 8) (by decide) _ _ _ _ _ _ _ _ castW castW'

theorem stage9 : U V0 379 (Proc.devRef .tc main_v374)
    = shapeCast SW (bfly (φ := .f32) S23 9 (size23 9) (shapeCast S23 (U V0 368 (Proc.devRef .tc main_v363)) castW)) castW' := by
  show U V0 (368 + 11) _ = _
  rw [U_add]
  show after [_, _, _, _, _, _, _, _, _, _, _] _ _ = _
  after_results
  exact flat_stage_axis SW S23 512 8192 9 (size23 9) (by decide) _ _ _ _ _ _ _ _ castW castW'

theorem stage10 : U V0 390 (Proc.devRef .tc main_v385)
    = shapeCast SW (bfly (φ := .f32) S23 10 (size23 10) (shapeCast S23 (U V0 379 (Proc.devRef .tc main_v374)) castW)) castW' := by
  show U V0 (379 + 11) _ = _
  rw [U_add]
  show after [_, _, _, _, _, _, _, _, _, _, _] _ _ = _
  after_results
  exact flat_stage_axis SW S23 1024 4096 10 (size23 10) (by decide) _ _ _ _ _ _ _ _ castW castW'

theorem stage11 : U V0 401 (Proc.devRef .tc main_v396)
    = shapeCast SW (bfly (φ := .f32) S23 11 (size23 11) (shapeCast S23 (U V0 390 (Proc.devRef .tc main_v385)) castW)) castW' := by
  show U V0 (390 + 11) _ = _
  rw [U_add]
  show after [_, _, _, _, _, _, _, _, _, _, _] _ _ = _
  after_results
  exact flat_stage_axis SW S23 2048 2048 11 (size23 11) (by decide) _ _ _ _ _ _ _ _ castW castW'

theorem stage12 : U V0 412 (Proc.devRef .tc main_v407)
    = shapeCast SW (bfly (φ := .f32) S23 12 (size23 12) (shapeCast S23 (U V0 401 (Proc.devRef .tc main_v396)) castW)) castW' := by
  show U V0 (401 + 11) _ = _
  rw [U_add]
  show after [_, _, _, _, _, _, _, _, _, _, _] _ _ = _
  after_results
  exact flat_stage_axis SW S23 4096 1024 12 (size23 12) (by decide) _ _ _ _ _ _ _ _ castW castW'

theorem stage13 : U V0 423 (Proc.devRef .tc main_v418)
    = shapeCast SW (bfly (φ := .f32) S23 13 (size23 13) (shapeCast S23 (U V0 412 (Proc.devRef .tc main_v407)) castW)) castW' := by
  show U V0 (412 + 11) _ = _
  rw [U_add]
  show after [_, _, _, _, _, _, _, _, _, _, _] _ _ = _
  after_results
  exact flat_stage_axis SW S23 8192 512 13 (size23 13) (by decide) _ _ _ _ _ _ _ _ castW castW'

theorem stage14 : U V0 434 (Proc.devRef .tc main_v429)
    = shapeCast SW (bfly (φ := .f32) S23 14 (size23 14) (shapeCast S23 (U V0 423 (Proc.devRef .tc main_v418)) castW)) castW' := by
  show U V0 (423 + 11) _ = _
  rw [U_add]
  show after [_, _, _, _, _, _, _, _, _, _, _] _ _ = _
  after_results
  exact flat_stage_axis SW S23 16384 256 14 (size23 14) (by decide) _ _ _ _ _ _ _ _ castW castW'

theorem stage15 : U V0 445 (Proc.devRef .tc main_v440)
    = shapeCast SW (bfly (φ := .f32) S23 15 (size23 15) (shapeCast S23 (U V0 434 (Proc.devRef .tc main_v429)) castW)) castW' := by
  show U V0 (434 + 11) _ = _
  rw [U_add]
  show after [_, _, _, _, _, _, _, _, _, _, _] _ _ = _
  after_results
  exact flat_stage_axis SW S23 32768 128 15 (size23 15) (by decide) _ _ _ _ _ _ _ _ castW castW'

theorem stage16 : U V0 456 (Proc.devRef .tc main_v451)
    = shapeCast SW (bfly (φ := .f32) S23 16 (size23 16) (shapeCast S23 (U V0 445 (Proc.devRef .tc main_v440)) castW)) castW' := by
  show U V0 (445 + 11) _ = _
  rw [U_add]
  show after [_, _, _, _, _, _, _, _, _, _, _] _ _ = _
  after_results
  exact flat_stage_axis SW S23 65536 64 16 (size23 16) (by decide) _ _ _ _ _ _ _ _ castW castW'

theorem stage17 : U V0 467 (Proc.devRef .tc main_v462)
    = shapeCast SW (bfly (φ := .f32) S23 17 (size23 17) (shapeCast S23 (U V0 456 (Proc.devRef .tc main_v451)) castW)) castW' := by
  show U V0 (456 + 11) _ = _
  rw [U_add]
  show after [_, _, _, _, _, _, _, _, _, _, _] _ _ = _
  after_results
  exact flat_stage_axis SW S23 131072 32 17 (size23 17) (by decide) _ _ _ _ _ _ _ _ castW castW'

theorem stage18 : U V0 478 (Proc.devRef .tc main_v473)
    = shapeCast SW (bfly (φ := .f32) S23 18 (size23 18) (shapeCast S23 (U V0 467 (Proc.devRef .tc main_v462)) castW)) castW' := by
  show U V0 (467 + 11) _ = _
  rw [U_add]
  show after [_, _, _, _, _, _, _, _, _, _, _] _ _ = _
  after_results
  exact flat_stage_axis SW S23 262144 16 18 (size23 18) (by decide) _ _ _ _ _ _ _ _ castW castW'

theorem stage19 : U V0 489 (Proc.devRef .tc main_v484)
    = shapeCast SW (bfly (φ := .f32) S23 19 (size23 19) (shapeCast S23 (U V0 478 (Proc.devRef .tc main_v473)) castW)) castW' := by
  show U V0 (478 + 11) _ = _
  rw [U_add]
  show after [_, _, _, _, _, _, _, _, _, _, _] _ _ = _
  after_results
  exact flat_stage_axis SW S23 524288 8 19 (size23 19) (by decide) _ _ _ _ _ _ _ _ castW castW'

theorem stage20 : U V0 500 (Proc.devRef .tc main_v495)
    = shapeCast SW (bfly (φ := .f32) S23 20 (size23 20) (shapeCast S23 (U V0 489 (Proc.devRef .tc main_v484)) castW)) castW' := by
  show U V0 (489 + 11) _ = _
  rw [U_add]
  show after [_, _, _, _, _, _, _, _, _, _, _] _ _ = _
  after_results
  exact flat_stage_axis SW S23 1048576 4 20 (size23 20) (by decide) _ _ _ _ _ _ _ _ castW castW'

theorem stage21 : U V0 511 (Proc.devRef .tc main_v506)
    = shapeCast SW (bfly (φ := .f32) S23 21 (size23 21) (shapeCast S23 (U V0 500 (Proc.devRef .tc main_v495)) castW)) castW' := by
  show U V0 (500 + 11) _ = _
  rw [U_add]
  show after [_, _, _, _, _, _, _, _, _, _, _] _ _ = _
  after_results
  exact flat_stage_axis SW S23 2097152 2 21 (size23 21) (by decide) _ _ _ _ _ _ _ _ castW castW'

theorem stage22 : U V0 522 (Proc.devRef .tc main_v517)
    = shapeCast SW (bfly (φ := .f32) S23 22 (size23 22) (shapeCast S23 (U V0 511 (Proc.devRef .tc main_v506)) castW)) castW' := by
  show U V0 (511 + 11) _ = _
  rw [U_add]
  show after [_, _, _, _, _, _, _, _, _, _, _] _ _ = _
  after_results
  exact flat_stage_axis SW S23 4194304 1 22 (size23 22) (by decide) _ _ _ _ _ _ _ _ castW castW'

/-- The 23 stages together: the transform of the flat vector. -/
theorem all : U V0 522 (Proc.devRef .tc main_v517) = fwhtW (φ := .f32) (U V0 269 (Proc.devRef .tc main_v264)) := by
  unfold fwhtW cube23
  rw [stage22 V0, stage21 V0, stage20 V0, stage19 V0, stage18 V0, stage17 V0, stage16 V0, stage15 V0, stage14 V0, stage13 V0, stage12 V0, stage11 V0, stage10 V0, stage9 V0, stage8 V0, stage7 V0, stage6 V0, stage5 V0, stage4 V0, stage3 V0, stage2 V0, stage1 V0, stage0 V0]
  rw [shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW, shapeCast_cancel S23 SW _ castW' castW]
  all_goals rfl

end Cert.KHost.W2

end
-- ==== Proof.KB1.lean ====
/-
  The first transform of the short vector (2^12 entries) in the kernel's host program.
  Each of the 12 stretches of eleven host operations is one butterfly stage on the flat vector through the view
  [2^k, 2, 4096/2^(k+1)]; read with `flat_stage_axis` it is the stage along axis k of the cube of side 2, conjugated by the
  reshape between the flat vector and the cube. Chained, the reshapes between consecutive stages cancel and the 12 stages
  are the transform of the cube (`fwhtB`). The 12 stage lemmas are one statement instantiated at k = 0 … 11.
-/
import proofs.«167603_j88115549045430_2_alg».proof.Proof.KHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.KHost.B1

open Cert.KernelIdeal Cert.KernelIdeal.Gen Cert.Bfly Cert.KHost

variable {F : FTy → Type} [FloatOps F]
variable (V0 : Valuation τ sig (Elt F))

theorem stage0 : U V0 550 (Proc.devRef .tc main_v540)
    = shapeCast SB (bfly (φ := .f32) S12 0 (size12 0) (shapeCast S12 (U V0 539 (Proc.devRef .tc main_v529)) castB)) castB' := by
  show U V0 (539 + 11) _ = _
  rw [U_add]
  show after [_, _, _, _, _, _, _, _, _, _, _] _ _ = _
  after_results
  exact flat_stage_axis SB S12 1 2048 0 (size12 0) (by decide) _ _ _ _ _ _ _ _ castB castB'

theorem stage1 : U V0 561 (Proc.devRef .tc main_v551)
    = shapeCast SB (bfly (φ := .f32) S12 1 (size12 1) (shapeCast S12 (U V0 550 (Proc.devRef .tc main_v540)) castB)) castB' := by
  show U V0 (550 + 11) _ = _
  rw [U_add]
  show after [_, _, _, _, _, _, _, _, _, _, _] _ _ = _
  after_results
  exact flat_stage_axis SB S12 2 1024 1 (size12 1) (by decide) _ _ _ _ _ _ _ _ castB castB'

theorem stage2 : U V0 572 (Proc.devRef .tc main_v562)
    = shapeCast SB (bfly (φ := .f32) S12 2 (size12 2) (shapeCast S12 (U V0 561 (Proc.devRef .tc main_v551)) castB)) castB' := by
  show U V0 (561 + 11) _ = _
  rw [U_add]
  show after [_, _, _, _, _, _, _, _, _, _, _] _ _ = _
  after_results
  exact flat_stage_axis SB S12 4 512 2 (size12 2) (by decide) _ _ _ _ _ _ _ _ castB castB'

theorem stage3 : U V0 583 (Proc.devRef .tc main_v573)
    = shapeCast SB (bfly (φ := .f32) S12 3 (size12 3) (shapeCast S12 (U V0 572 (Proc.devRef .tc main_v562)) castB)) castB' := by
  show U V0 (572 + 11) _ = _
  rw [U_add]
  show after [_, _, _, _, _, _, _, _, _, _, _] _ _ = _
  after_results
  exact flat_stage_axis SB S12 8 256 3 (size12 3) (by decide) _ _ _ _ _ _ _ _ castB castB'

theorem stage4 : U V0 594 (Proc.devRef .tc main_v584)
    = shapeCast SB (bfly (φ := .f32) S12 4 (size12 4) (shapeCast S12 (U V0 583 (Proc.devRef .tc main_v573)) castB)) castB' := by
  show U V0 (583 + 11) _ = _
  rw [U_add]
  show after [_, _, _, _, _, _, _, _, _, _, _] _ _ = _
  after_results
  exact flat_stage_axis SB S12 16 128 4 (size12 4) (by decide) _ _ _ _ _ _ _ _ castB castB'

theorem stage5 : U V0 605 (Proc.devRef .tc main_v595)
    = shapeCast SB (bfly (φ := .f32) S12 5 (size12 5) (shapeCast S12 (U V0 594 (Proc.devRef .tc main_v584)) castB)) castB' := by
  show U V0 (594 + 11) _ = _
  rw [U_add]
  show after [_, _, _, _, _, _, _, _, _, _, _] _ _ = _
  after_results
  exact flat_stage_axis SB S12 32 64 5 (size12 5) (by decide) _ _ _ _ _ _ _ _ castB castB'

theorem stage6 : U V0 616 (Proc.devRef .tc main_v606)
    = shapeCast SB (bfly (φ := .f32) S12 6 (size12 6) (shapeCast S12 (U V0 605 (Proc.devRef .tc main_v595)) castB)) castB' := by
  show U V0 (605 + 11) _ = _
  rw [U_add]
  show after [_, _, _, _, _, _, _, _, _, _, _] _ _ = _
  after_results
  exact flat_stage_axis SB S12 64 32 6 (size12 6) (by decide) _ _ _ _ _ _ _ _ castB castB'

theorem stage7 : U V0 627 (Proc.devRef .tc main_v617)
    = shapeCast SB (bfly (φ := .f32) S12 7 (size12 7) (shapeCast S12 (U V0 616 (Proc.devRef .tc main_v606)) castB)) castB' := by
  show U V0 (616 + 11) _ = _
  rw [U_add]
  show after [_, _, _, _, _, _, _, _, _, _, _] _ _ = _
  after_results
  exact flat_stage_axis SB S12 128 16 7 (size12 7) (by decide) _ _ _ _ _ _ _ _ castB castB'

theorem stage8 : U V0 638 (Proc.devRef .tc main_v628)
    = shapeCast SB (bfly (φ := .f32) S12 8 (size12 8) (shapeCast S12 (U V0 627 (Proc.devRef .tc main_v617)) castB)) castB' := by
  show U V0 (627 + 11) _ = _
  rw [U_add]
  show after [_, _, _, _, _, _, _, _, _, _, _] _ _ = _
  after_results
  exact flat_stage_axis SB S12 256 8 8 (size12 8) (by decide) _ _ _ _ _ _ _ _ castB castB'

theorem stage9 : U V0 649 (Proc.devRef .tc main_v639)
    = shapeCast SB (bfly (φ := .f32) S12 9 (size12 9) (shapeCast S12 (U V0 638 (Proc.devRef .tc main_v628)) castB)) castB' := by
  show U V0 (638 + 11) _ = _
  rw [U_add]
  show after [_, _, _, _, _, _, _, _, _, _, _] _ _ = _
  after_results
  exact flat_stage_axis SB S12 512 4 9 (size12 9) (by decide) _ _ _ _ _ _ _ _ castB castB'

theorem stage10 : U V0 660 (Proc.devRef .tc main_v650)
    = shapeCast SB (bfly (φ := .f32) S12 10 (size12 10) (shapeCast S12 (U V0 649 (Proc.devRef .tc main_v639)) castB)) castB' := by
  show U V0 (649 + 11) _ = _
  rw [U_add]
  show after [_, _, _, _, _, _, _, _, _, _, _] _ _ = _
  after_results
  exact flat_stage_axis SB S12 1024 2 10 (size12 10) (by decide) _ _ _ _ _ _ _ _ castB castB'

theorem stage11 : U V0 671 (Proc.devRef .tc main_v661)
    = shapeCast SB (bfly (φ := .f32) S12 11 (size12 11) (shapeCast S12 (U V0 660 (Proc.devRef .tc main_v650)) castB)) castB' := by
  show U V0 (660 + 11) _ = _
  rw [U_add]
  show after [_, _, _, _, _, _, _, _, _, _, _] _ _ = _
  after_results
  exact flat_stage_axis SB S12 2048 1 11 (size12 11) (by decide) _ _ _ _ _ _ _ _ castB castB'

/-- The 12 stages together: the transform of the flat vector. -/
theorem all : U V0 671 (Proc.devRef .tc main_v661) = fwhtB (φ := .f32) (U V0 539 (Proc.devRef .tc main_v529)) := by
  unfold fwhtB cube12
  rw [stage11 V0, stage10 V0, stage9 V0, stage8 V0, stage7 V0, stage6 V0, stage5 V0, stage4 V0, stage3 V0, stage2 V0, stage1 V0, stage0 V0]
  rw [shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB]
  all_goals rfl

end Cert.KHost.B1

end
-- ==== Proof.KB2.lean ====
/-
  The second transform of the short vector (2^12 entries) in the kernel's host program.
  Each of the 12 stretches of eleven host operations is one butterfly stage on the flat vector through the view
  [2^k, 2, 4096/2^(k+1)]; read with `flat_stage_axis` it is the stage along axis k of the cube of side 2, conjugated by the
  reshape between the flat vector and the cube. Chained, the reshapes between consecutive stages cancel and the 12 stages
  are the transform of the cube (`fwhtB`). The 12 stage lemmas are one statement instantiated at k = 0 … 11.
-/
import proofs.«167603_j88115549045430_2_alg».proof.Proof.KHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.KHost.B2

open Cert.KernelIdeal Cert.KernelIdeal.Gen Cert.Bfly Cert.KHost

variable {F : FTy → Type} [FloatOps F]
variable (V0 : Valuation τ sig (Elt F))

theorem stage0 : U V0 692 (Proc.devRef .tc main_v680)
    = shapeCast SB (bfly (φ := .f32) S12 0 (size12 0) (shapeCast S12 (U V0 681 (Proc.devRef .tc main_v669)) castB)) castB' := by
  show U V0 (681 + 11) _ = _
  rw [U_add]
  show after [_, _, _, _, _, _, _, _, _, _, _] _ _ = _
  after_results
  exact flat_stage_axis SB S12 1 2048 0 (size12 0) (by decide) _ _ _ _ _ _ _ _ castB castB'

theorem stage1 : U V0 703 (Proc.devRef .tc main_v691)
    = shapeCast SB (bfly (φ := .f32) S12 1 (size12 1) (shapeCast S12 (U V0 692 (Proc.devRef .tc main_v680)) castB)) castB' := by
  show U V0 (692 + 11) _ = _
  rw [U_add]
  show after [_, _, _, _, _, _, _, _, _, _, _] _ _ = _
  after_results
  exact flat_stage_axis SB S12 2 1024 1 (size12 1) (by decide) _ _ _ _ _ _ _ _ castB castB'

theorem stage2 : U V0 714 (Proc.devRef .tc main_v702)
    = shapeCast SB (bfly (φ := .f32) S12 2 (size12 2) (shapeCast S12 (U V0 703 (Proc.devRef .tc main_v691)) castB)) castB' := by
  show U V0 (703 + 11) _ = _
  rw [U_add]
  show after [_, _, _, _, _, _, _, _, _, _, _] _ _ = _
  after_results
  exact flat_stage_axis SB S12 4 512 2 (size12 2) (by decide) _ _ _ _ _ _ _ _ castB castB'

theorem stage3 : U V0 725 (Proc.devRef .tc main_v713)
    = shapeCast SB (bfly (φ := .f32) S12 3 (size12 3) (shapeCast S12 (U V0 714 (Proc.devRef .tc main_v702)) castB)) castB' := by
  show U V0 (714 + 11) _ = _
  rw [U_add]
  show after [_, _, _, _, _, _, _, _, _, _, _] _ _ = _
  after_results
  exact flat_stage_axis SB S12 8 256 3 (size12 3) (by decide) _ _ _ _ _ _ _ _ castB castB'

theorem stage4 : U V0 736 (Proc.devRef .tc main_v724)
    = shapeCast SB (bfly (φ := .f32) S12 4 (size12 4) (shapeCast S12 (U V0 725 (Proc.devRef .tc main_v713)) castB)) castB' := by
  show U V0 (725 + 11) _ = _
  rw [U_add]
  show after [_, _, _, _, _, _, _, _, _, _, _] _ _ = _
  after_results
  exact flat_stage_axis SB S12 16 128 4 (size12 4) (by decide) _ _ _ _ _ _ _ _ castB castB'

theorem stage5 : U V0 747 (Proc.devRef .tc main_v735)
    = shapeCast SB (bfly (φ := .f32) S12 5 (size12 5) (shapeCast S12 (U V0 736 (Proc.devRef .tc main_v724)) castB)) castB' := by
  show U V0 (736 + 11) _ = _
  rw [U_add]
  show after [_, _, _, _, _, _, _, _, _, _, _] _ _ = _
  after_results
  exact flat_stage_axis SB S12 32 64 5 (size12 5) (by decide) _ _ _ _ _ _ _ _ castB castB'

theorem stage6 : U V0 758 (Proc.devRef .tc main_v746)
    = shapeCast SB (bfly (φ := .f32) S12 6 (size12 6) (shapeCast S12 (U V0 747 (Proc.devRef .tc main_v735)) castB)) castB' := by
  show U V0 (747 + 11) _ = _
  rw [U_add]
  show after [_, _, _, _, _, _, _, _, _, _, _] _ _ = _
  after_results
  exact flat_stage_axis SB S12 64 32 6 (size12 6) (by decide) _ _ _ _ _ _ _ _ castB castB'

theorem stage7 : U V0 769 (Proc.devRef .tc main_v757)
    = shapeCast SB (bfly (φ := .f32) S12 7 (size12 7) (shapeCast S12 (U V0 758 (Proc.devRef .tc main_v746)) castB)) castB' := by
  show U V0 (758 + 11) _ = _
  rw [U_add]
  show after [_, _, _, _, _, _, _, _, _, _, _] _ _ = _
  after_results
  exact flat_stage_axis SB S12 128 16 7 (size12 7) (by decide) _ _ _ _ _ _ _ _ castB castB'

theorem stage8 : U V0 780 (Proc.devRef .tc main_v768)
    = shapeCast SB (bfly (φ := .f32) S12 8 (size12 8) (shapeCast S12 (U V0 769 (Proc.devRef .tc main_v757)) castB)) castB' := by
  show U V0 (769 + 11) _ = _
  rw [U_add]
  show after [_, _, _, _, _, _, _, _, _, _, _] _ _ = _
  after_results
  exact flat_stage_axis SB S12 256 8 8 (size12 8) (by decide) _ _ _ _ _ _ _ _ castB castB'

theorem stage9 : U V0 791 (Proc.devRef .tc main_v779)
    = shapeCast SB (bfly (φ := .f32) S12 9 (size12 9) (shapeCast S12 (U V0 780 (Proc.devRef .tc main_v768)) castB)) castB' := by
  show U V0 (780 + 11) _ = _
  rw [U_add]
  show after [_, _, _, _, _, _, _, _, _, _, _] _ _ = _
  after_results
  exact flat_stage_axis SB S12 512 4 9 (size12 9) (by decide) _ _ _ _ _ _ _ _ castB castB'

theorem stage10 : U V0 802 (Proc.devRef .tc main_v790)
    = shapeCast SB (bfly (φ := .f32) S12 10 (size12 10) (shapeCast S12 (U V0 791 (Proc.devRef .tc main_v779)) castB)) castB' := by
  show U V0 (791 + 11) _ = _
  rw [U_add]
  show after [_, _, _, _, _, _, _, _, _, _, _] _ _ = _
  after_results
  exact flat_stage_axis SB S12 1024 2 10 (size12 10) (by decide) _ _ _ _ _ _ _ _ castB castB'

theorem stage11 : U V0 813 (Proc.devRef .tc main_v801)
    = shapeCast SB (bfly (φ := .f32) S12 11 (size12 11) (shapeCast S12 (U V0 802 (Proc.devRef .tc main_v790)) castB)) castB' := by
  show U V0 (802 + 11) _ = _
  rw [U_add]
  show after [_, _, _, _, _, _, _, _, _, _, _] _ _ = _
  after_results
  exact flat_stage_axis SB S12 2048 1 11 (size12 11) (by decide) _ _ _ _ _ _ _ _ castB castB'

/-- The 12 stages together: the transform of the flat vector. -/
theorem all : U V0 813 (Proc.devRef .tc main_v801) = fwhtB (φ := .f32) (U V0 681 (Proc.devRef .tc main_v669)) := by
  unfold fwhtB cube12
  rw [stage11 V0, stage10 V0, stage9 V0, stage8 V0, stage7 V0, stage6 V0, stage5 V0, stage4 V0, stage3 V0, stage2 V0, stage1 V0, stage0 V0]
  rw [shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB, shapeCast_cancel S12 SB _ castB' castB]
  all_goals rfl

end Cert.KHost.B2

end
-- ==== Proof.Spec.lean ====
/-
  The two parameter updates as functions of the argument arrays: the low-dimensional parameter vector is padded with
  zeros to the full length and multiplied by the signs, transformed (Walsh–Hadamard, unnormalized), permuted by a gather
  and multiplied by the Gaussian weights, transformed again, and divided by sqrt (length · Σ weights²) · 1.
-/
import proofs.«167603_j88115549045430_2_alg».proof.Proof.Gen.KernelIdeal
import proofs.«167603_j88115549045430_2_alg».proof.Proof.Bfly

noncomputable section

open Idealize.ShloMosaic Idealize.ShloMosaic.TcCoe Idealize.SL.Sem

namespace Cert.Spec

open Cert.KernelIdeal Cert.KernelIdeal.Gen Cert.Bfly

variable {F : FTy → Type} [FloatOps F]

/-- The update of the weight matrix from the parameter vector `a1`, the signs `a4`, the Gaussian weights `a5` and the
    permutation `a8`: pad, multiply by the signs, transform, permute, multiply by the weights, transform, divide by
    `sqrt (2^23 · Σ a5²) · 1`, as a 4096 × 2048 matrix. -/
def dW (a1 : FVec F S2048 .f32) (a4 a5 : FVec F S8388608 .f32) (a8 : IVec S8388608 32) : FVec F S4096x2048 .f32 :=
  shapeCast S4096x2048
    (Host.divf
      (fwhtW (φ := .f32) (mulf (Host.gather gather_S8388608_S8388608x1_S8388608_n_0_n_n_0_1_1
          (fwhtW (φ := .f32) (mulf a4 (Host.scatter scatter_S8388608_S1_S2048_0_n_0_0 (fun _ b => b)
              (broadcastInDim S8388608 ![] bcast_S_S8388608 (constant S_ .f32 0x00000000#32))
              (broadcastInDim S1 ![] bcast_S_S1 (constantI S_ 32 0#32)) a1)))
          (broadcastInDim S8388608x1 ![0] bcast_S8388608_S8388608x1_0
            (select (cmpi .slt a8 (broadcastInDim S8388608 ![] bcast_S_S8388608 (constantI S_ 32 0#32)))
                    (addi a8 (broadcastInDim S8388608 ![] bcast_S_S8388608 (constantI S_ 32 8388608#32))) a8)))
        a5))
      (broadcastInDim S8388608 ![] bcast_S_S8388608
        (mulf (Host.sqrt (mulf (constant S_ .f32 0x4B000000#32)
            (Host.reduceAdd (mulf a5 a5) (constant S_ .f32 0x00000000#32) reducesTo_S8388608_S_d0 h_S_)))
          (constant S_ .f32 0x3F800000#32))))
    shapeCasts_S8388608_S4096x2048

/-- The update of the bias, the same construction on vectors of 4096 entries. -/
def db (a1 : FVec F S2048 .f32) (a6 a7 : FVec F S4096 .f32) (a9 : IVec S4096 32) : FVec F S4096 .f32 :=
  Host.divf
    (fwhtB (φ := .f32) (mulf (Host.gather gather_S4096_S4096x1_S4096_n_0_n_n_0_1_1
        (fwhtB (φ := .f32) (mulf a6 (Host.scatter scatter_S4096_S1_S2048_0_n_0_0 (fun _ b => b)
            (broadcastInDim S4096 ![] bcast_S_S4096 (constant S_ .f32 0x00000000#32))
            (broadcastInDim S1 ![] bcast_S_S1 (constantI S_ 32 0#32)) a1)))
        (broadcastInDim S4096x1 ![0] bcast_S4096_S4096x1_0
          (select (cmpi .slt a9 (broadcastInDim S4096 ![] bcast_S_S4096 (constantI S_ 32 0#32)))
                  (addi a9 (broadcastInDim S4096 ![] bcast_S_S4096 (constantI S_ 32 4096#32))) a9)))
      a7))
    (broadcastInDim S4096 ![] bcast_S_S4096
      (mulf (Host.sqrt (mulf (constant S_ .f32 0x45800000#32)
          (Host.reduceAdd (mulf a7 a7) (constant S_ .f32 0x00000000#32) reducesTo_S4096_S_d0 h_S_)))
        (constant S_ .f32 0x3F800000#32)))

end Cert.Spec

end
-- ==== Proof.KGlue.lean ====
/-
  The kernel's host program, stretch by stretch, in closed form. Between the four transforms (modules KW1, KW2, KB1, KB2)
  the program pads the low-dimensional parameter vector with zeros and multiplies by the signs, permutes by a gather and
  multiplies by the Gaussian weights, and divides by the norm factor; `dW` and `db` name the two results as functions of the
  argument arrays. The call's three operands are then the input, the weights `W0 + dW` and the bias `b0 + db`, each through a
  change of float format.
-/
import proofs.«167603_j88115549045430_2_alg».proof.Proof.KW1
import proofs.«167603_j88115549045430_2_alg».proof.Proof.KW2
import proofs.«167603_j88115549045430_2_alg».proof.Proof.KB1
import proofs.«167603_j88115549045430_2_alg».proof.Proof.KB2
import proofs.«167603_j88115549045430_2_alg».proof.Proof.KernelIdealFrameP
import proofs.«167603_j88115549045430_2_alg».proof.Proof.Spec

set_option maxRecDepth 16384
set_option maxHeartbeats 2000000

noncomputable section

open Idealize.ShloMosaic Idealize.ShloMosaic.TcCoe Idealize.SL.Sem Idealize.ShloMosaic.StableHlo

namespace Cert.KHost

open Cert.KernelIdeal Cert.KernelIdeal.Gen Cert.KernelIdeal.GenP Cert.Bfly Cert.Spec

variable {F : FTy → Type} [FloatOps F]
variable (V0 : Valuation τ sig (Elt F))

/-- An argument array is as launched at every point of the host program. -/
theorem U_arg (k : Fin 10) (a : ℕ) : U V0 a (Proc.devRef .tc (argOf k)) = V0 (Proc.devRef .tc (argOf k)) :=
  StableHlo.after_of_forall_not_mem (b := Proc.devRef .tc (argOf k)) _ _
    (fun op hop => args_not_written op (List.mem_of_mem_take hop) k)

theorem U_arg0 (a : ℕ) : U V0 a (Proc.devRef .tc main_arg0) = V0 (Proc.devRef .tc main_arg0) := U_arg V0 0 a
theorem U_arg1 (a : ℕ) : U V0 a (Proc.devRef .tc main_arg1) = V0 (Proc.devRef .tc main_arg1) := U_arg V0 1 a
theorem U_arg2 (a : ℕ) : U V0 a (Proc.devRef .tc main_arg2) = V0 (Proc.devRef .tc main_arg2) := U_arg V0 2 a
theorem U_arg3 (a : ℕ) : U V0 a (Proc.devRef .tc main_arg3) = V0 (Proc.devRef .tc main_arg3) := U_arg V0 3 a
theorem U_arg4 (a : ℕ) : U V0 a (Proc.devRef .tc main_arg4) = V0 (Proc.devRef .tc main_arg4) := U_arg V0 4 a
theorem U_arg5 (a : ℕ) : U V0 a (Proc.devRef .tc main_arg5) = V0 (Proc.devRef .tc main_arg5) := U_arg V0 5 a
theorem U_arg6 (a : ℕ) : U V0 a (Proc.devRef .tc main_arg6) = V0 (Proc.devRef .tc main_arg6) := U_arg V0 6 a
theorem U_arg7 (a : ℕ) : U V0 a (Proc.devRef .tc main_arg7) = V0 (Proc.devRef .tc main_arg7) := U_arg V0 7 a
theorem U_arg8 (a : ℕ) : U V0 a (Proc.devRef .tc main_arg8) = V0 (Proc.devRef .tc main_arg8) := U_arg V0 8 a
theorem U_arg9 (a : ℕ) : U V0 a (Proc.devRef .tc main_arg9) = V0 (Proc.devRef .tc main_arg9) := U_arg V0 9 a

/-- The padded parameter vector times the signs. -/
theorem pre_W : U V0 6 (Proc.devRef .tc main_v3)
    = mulf (V0 (Proc.devRef .tc main_arg4)) (Host.scatter scatter_S8388608_S1_S2048_0_n_0_0 (fun _ b => b)
        (broadcastInDim S8388608 ![] bcast_S_S8388608 (constant S_ .f32 0x00000000#32))
        (broadcastInDim S1 ![] bcast_S_S1 (constantI S_ 32 0#32)) (V0 (Proc.devRef .tc main_arg1))) := by
  show U V0 (0 + 6) _ = _
  rw [U_add, U_zero]
  show after [_, _, _, _, _, _] _ _ = _
  after_results
  all_goals rfl

/-- The permuted vector times the Gaussian weights. -/
theorem mid_W : U V0 269 (Proc.devRef .tc main_v264)
    = mulf (Host.gather gather_S8388608_S8388608x1_S8388608_n_0_n_n_0_1_1 (U V0 259 (Proc.devRef .tc main_v256))
        (broadcastInDim S8388608x1 ![0] bcast_S8388608_S8388608x1_0
          (select (cmpi .slt (V0 (Proc.devRef .tc main_arg8)) (broadcastInDim S8388608 ![] bcast_S_S8388608 (constantI S_ 32 0#32)))
                  (addi (V0 (Proc.devRef .tc main_arg8)) (broadcastInDim S8388608 ![] bcast_S_S8388608 (constantI S_ 32 8388608#32)))
                  (V0 (Proc.devRef .tc main_arg8)))))
      (V0 (Proc.devRef .tc main_arg5)) := by
  show U V0 (259 + 10) _ = _
  rw [U_add]
  show after [_, _, _, _, _, _, _, _, _, _] _ _ = _
  after_results
  rw [U_arg8, U_arg5]
  all_goals rfl

/-- The division by the norm factor, and the matrix shape. -/
theorem post_W : U V0 533 (Proc.devRef .tc main_v525)
    = shapeCast S4096x2048 (Host.divf (U V0 522 (Proc.devRef .tc main_v517))
        (broadcastInDim S8388608 ![] bcast_S_S8388608
          (mulf (Host.sqrt (mulf (constant S_ .f32 0x4B000000#32)
              (Host.reduceAdd (mulf (V0 (Proc.devRef .tc main_arg5)) (V0 (Proc.devRef .tc main_arg5))) (constant S_ .f32 0x00000000#32) reducesTo_S8388608_S_d0 h_S_)))
            (constant S_ .f32 0x3F800000#32)))) shapeCasts_S8388608_S4096x2048 := by
  show U V0 (522 + 11) _ = _
  rw [U_add]
  show after [_, _, _, _, _, _, _, _, _, _, _] _ _ = _
  after_results
  rw [U_arg5]
  all_goals rfl

/-- The weight update in closed form. -/
theorem dW_eq : U V0 533 (Proc.devRef .tc main_v525)
    = dW (V0 (Proc.devRef .tc main_arg1)) (V0 (Proc.devRef .tc main_arg4)) (V0 (Proc.devRef .tc main_arg5)) (V0 (Proc.devRef .tc main_arg8)) := by
  rw [post_W, W2.all, mid_W, W1.all, pre_W]
  all_goals rfl

theorem pre_B : U V0 539 (Proc.devRef .tc main_v529)
    = mulf (V0 (Proc.devRef .tc main_arg6)) (Host.scatter scatter_S4096_S1_S2048_0_n_0_0 (fun _ b => b)
        (broadcastInDim S4096 ![] bcast_S_S4096 (constant S_ .f32 0x00000000#32))
        (broadcastInDim S1 ![] bcast_S_S1 (constantI S_ 32 0#32)) (V0 (Proc.devRef .tc main_arg1))) := by
  show U V0 (533 + 6) _ = _
  rw [U_add]
  show after [_, _, _, _, _, _] _ _ = _
  after_results
  rw [U_arg6, U_arg1]
  all_goals rfl

theorem mid_B : U V0 681 (Proc.devRef .tc main_v669)
    = mulf (Host.gather gather_S4096_S4096x1_S4096_n_0_n_n_0_1_1 (U V0 671 (Proc.devRef .tc main_v661))
        (broadcastInDim S4096x1 ![0] bcast_S4096_S4096x1_0
          (select (cmpi .slt (V0 (Proc.devRef .tc main_arg9)) (broadcastInDim S4096 ![] bcast_S_S4096 (constantI S_ 32 0#32)))
                  (addi (V0 (Proc.devRef .tc main_arg9)) (broadcastInDim S4096 ![] bcast_S_S4096 (constantI S_ 32 4096#32)))
                  (V0 (Proc.devRef .tc main_arg9)))))
      (V0 (Proc.devRef .tc main_arg7)) := by
  show U V0 (671 + 10) _ = _
  rw [U_add]
  show after [_, _, _, _, _, _, _, _, _, _] _ _ = _
  after_results
  rw [U_arg9, U_arg7]
  all_goals rfl

theorem post_B : U V0 823 (Proc.devRef .tc main_v808)
    = Host.divf (U V0 813 (Proc.devRef .tc main_v801))
        (broadcastInDim S4096 ![] bcast_S_S4096
          (mulf (Host.sqrt (mulf (constant S_ .f32 0x45800000#32)
              (Host.reduceAdd (mulf (V0 (Proc.devRef .tc main_arg7)) (V0 (Proc.devRef .tc main_arg7))) (constant S_ .f32 0x00000000#32) reducesTo_S4096_S_d0 h_S_)))
            (constant S_ .f32 0x3F800000#32))) := by
  show U V0 (813 + 10) _ = _
  rw [U_add]
  show after [_, _, _, _, _, _, _, _, _, _] _ _ = _
  after_results
  rw [U_arg7]
  all_goals rfl

/-- The bias update in closed form. -/
theorem db_eq : U V0 823 (Proc.devRef .tc main_v808)
    = db (V0 (Proc.devRef .tc main_arg1)) (V0 (Proc.devRef .tc main_arg6)) (V0 (Proc.devRef .tc main_arg7)) (V0 (Proc.devRef .tc main_arg9)) := by
  rw [post_B, B2.all, mid_B, B1.all, pre_B]
  all_goals rfl

/-- The weight update is still in its buffer when the bias update is done: none of the 290 operations in between writes it. -/
theorem keep_dW : U V0 823 (Proc.devRef .tc main_v525) = U V0 533 (Proc.devRef .tc main_v525) := by
  show U V0 (533 + 290) _ = _
  rw [U_add]
  refine StableHlo.after_of_forall_not_mem (b := Proc.devRef .tc main_v525) _ _ ?_
  show ∀ op ∈ [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _], _
  repeat (first
    | exact fun _ h => absurd h List.not_mem_nil
    | refine List.forall_mem_cons.2 ⟨fun h => absurd (Finset.mem_singleton.1 h) (StableHlo.devRef_ne_of_ne (by decide)), ?_⟩)

/-- The call's three operands. -/
theorem operands :
    U V0 828 (Proc.devRef .tc main_v811) = truncf .bf16 (V0 (Proc.devRef .tc main_arg0)) bitsLt_bf16_f32
    ∧ U V0 828 (Proc.devRef .tc main_v812)
        = truncf .bf16 (addf (V0 (Proc.devRef .tc main_arg2))
            (dW (V0 (Proc.devRef .tc main_arg1)) (V0 (Proc.devRef .tc main_arg4)) (V0 (Proc.devRef .tc main_arg5)) (V0 (Proc.devRef .tc main_arg8)))) bitsLt_bf16_f32
    ∧ U V0 828 (Proc.devRef .tc main_v813)
        = shapeCast S1x4096 (addf (V0 (Proc.devRef .tc main_arg3))
            (db (V0 (Proc.devRef .tc main_arg1)) (V0 (Proc.devRef .tc main_arg6)) (V0 (Proc.devRef .tc main_arg7)) (V0 (Proc.devRef .tc main_arg9)))) shapeCasts_S4096_S1x4096 := by
  refine ⟨?_, ?_, ?_⟩
  · show U V0 (823 + 5) _ = _
    rw [U_add]
    show after [_, _, _, _, _] _ _ = _
    after_results
    rw [U_arg0]
  · show U V0 (823 + 5) _ = _
    rw [U_add]
    show after [_, _, _, _, _] _ _ = _
    after_results
    rw [U_arg2, keep_dW, dW_eq]
  · show U V0 (823 + 5) _ = _
    rw [U_add]
    show after [_, _, _, _, _] _ _ = _
    after_results
    rw [U_arg3, db_eq]
    rfl

end Cert.KHost

end
-- ==== Proof.Matmul.lean ====
/- The last stage of the kernel against the last stage of the reference, at the exact (extended-real) values.

   Both compute the affine map  out[r, q] = (∑ k < 2048, X[r, k] · W[q, k]) + b[q]  on a 4096 × 2048 matrix X, a
   4096 × 2048 matrix W (used transposed) and a bias vector b of length 4096 (`linSpec`).
   * The reference does it in one piece: it transposes W, contracts X's columns against the transposed W's rows, and adds
     the bias broadcast along the rows (`ref_final`).
   * The kernel does it in 4 × 4 blocks of 1024 × 1024 outputs: block (a, b) multiplies rows 1024a … of X against rows
     1024b … of W over all 2048 columns and adds entries 1024b … of the one bias row (`pay_apply`, `pay_is_spec`); each
     operand block is a rectangle of its array (`blk0_apply`, `blk1_apply`, `blk2_apply`), so the stored value of the
     operand blocks at a grid point is that point's block of the specification (`pay_blocks_eq`); the sixteen blocks
     cover the output (`cover`), hence the whole output array is the specification of the operand arrays
     (`array_of_blocks`, and `kernel_array` for the kernel's own run).
   * Before the kernel, the two matrices are narrowed to bf16 — the identity at the exact values (`truncf_ideal`) — and
     the bias vector is reshaped to one row (`bias_row`). -/
import proofs.«167603_j88115549045430_2_alg».proof.Proof.Gen.KernelIdeal.Skeleton
import proofs.«167603_j88115549045430_2_alg».proof.Proof.Gen.KernelIdeal.Points
import proofs.«167603_j88115549045430_2_alg».proof.Proof.KernelIdealFrameP
import proofs.«167603_j88115549045430_2_alg».proof.Proof.Gen.ReferenceIdeal
import Idealize.ShloMosaic.Lib.Pipeline.Value
import Idealize.ShloMosaic.Lib.ValueIdx
import Idealize.ShloMosaic.PureOps.Ideal.Laws

noncomputable section

namespace Cert.Mat

open Idealize.ShloMosaic Idealize.ShloMosaic.ValueIdx
open scoped BigOperators

/-- The affine map: entry (r, q) is the inner product of row r of X with row q of W, plus b at q. -/
def linSpec (X W : (⟨2, ![4096, 2048]⟩ : Shape).Idx → EReal) (b : (⟨1, ![4096]⟩ : Shape).Idx → EReal) :
    (⟨2, ![4096, 4096]⟩ : Shape).Idx → EReal :=
  fun i => (∑ k : Fin 2048, X (ix2 (i 0) k) * W (ix2 (i 1) k)) + b (ix1 (i 1))

section Ref
open Cert.ReferenceIdeal Cert.ReferenceIdeal.Facts₀

/-- The reference's contraction: columns of the left operand against rows of the right. -/
abbrev DR := Cert.ReferenceIdeal.dot_S4096x2048_S2048x4096_S4096x4096_1_0_0_1_n_n

/-- Its operand indices at output index j and contraction position k: (j 0, k) on the left, (k, j 1) on the right. -/
theorem lhsR_0 (j : S4096x4096.Idx) (k : DR.contr.Idx) : (DR.lhsIdx j k 0 : ℕ) = j 0 := by
  simp [DotDims.lhsIdx, DR, dot_S4096x2048_S2048x4096_S4096x4096_1_0_0_1_n_n]; rfl
theorem lhsR_1 (j : S4096x4096.Idx) (k : DR.contr.Idx) : (DR.lhsIdx j k 1 : ℕ) = k ⟨0, by decide⟩ :=
  DotDims.lhsIdx_val_of_single (d := DR) (cl := 1) rfl j k
theorem rhsR_0 (j : S4096x4096.Idx) (k : DR.contr.Idx) : (DR.rhsIdx j k 0 : ℕ) = k ⟨0, by decide⟩ :=
  DotDims.rhsIdx_val_of_single (d := DR) (cr := 0) rfl j k
theorem rhsR_1 (j : S4096x4096.Idx) (k : DR.contr.Idx) : (DR.rhsIdx j k 1 : ℕ) = j 1 := by
  simp [DotDims.rhsIdx, DR, dot_S4096x2048_S2048x4096_S4096x4096_1_0_0_1_n_n]; rfl

/-- The reference's last five operations — transpose W, contract, broadcast the bias twice, add — are the affine map. -/
theorem ref_final (X Wm : FVec Ideal Cert.ReferenceIdeal.S4096x2048 .f32) (bv : FVec Ideal Cert.ReferenceIdeal.S4096 .f32) :
    addf (Host.dotGeneral (F := Ideal) dot_S4096x2048_S2048x4096_S4096x4096_1_0_0_1_n_n none X
          (transpose S2048x4096 [1, 0] Wm transposes_S4096x2048_S2048x4096_1_0))
        (broadcastInDim S4096x4096 ![0, 1] bcast_S1x4096_S4096x4096_0_1 (broadcastInDim S1x4096 ![1] bcast_S4096_S1x4096_1 bv))
      = linSpec X Wm bv := by
  funext j
  obtain ⟨r, q, rfl⟩ : ∃ (r : Fin 4096) (q : Fin 4096), j = ix2 r q := ⟨j 0, j 1, eq_ix2 j⟩
  rw [addf_apply]
  unfold linSpec
  simp only [Host.dotGeneral]
  rw [Ideal.dotGeneral_apply, ← Equiv.sum_comp (contrEquiv1 DR 2048 rfl rfl).symm]
  congr 1
  · refine Finset.sum_congr rfl fun k _ => ?_
    congr 1
    · refine congrArg X (funext fun a => Fin.ext ?_)
      match a with
      | ⟨0, _⟩ => exact lhsR_0 _ _
      | ⟨1, _⟩ => exact (lhsR_1 _ _).trans (contrEquiv1_symm_val DR 2048 rfl rfl k)
    · refine transpose_apply _ _ _ _ (ix2 q k) fun b => ?_
      match b with
      | ⟨0, _⟩ => exact ((rhsR_0 _ _).trans (contrEquiv1_symm_val DR 2048 rfl rfl k)).symm
      | ⟨1, _⟩ => exact (rhsR_1 (ix2 r q) _).symm
  · refine (broadcastInDim_apply _ _ _ _ (ix2 (0 : Fin 1) q) fun a => ?_).trans ?_
    · match a with
      | ⟨0, _⟩ => rfl
      | ⟨1, _⟩ => rfl
    · refine broadcastInDim_apply _ _ _ _ (ix1 q) fun a => ?_
      match a with
      | ⟨0, _⟩ => rfl

end Ref

section Ker
open Cert.KernelIdeal Cert.KernelIdeal.Facts₀ Cert.KernelIdeal.Gen

/-- The kernel's contraction: columns of the left block against columns of the right block. -/
abbrev DK := Cert.KernelIdeal.dot_S1024x2048_S1024x2048_S1024x1024_1_1_0_0_n_n

/-- Its operand indices at output index j and contraction position k: (j 0, k) on the left, (j 1, k) on the right. -/
theorem lhsK_0 (j : S1024x1024.Idx) (k : DK.contr.Idx) : (DK.lhsIdx j k 0 : ℕ) = j 0 := by
  simp [DotDims.lhsIdx, DK, dot_S1024x2048_S1024x2048_S1024x1024_1_1_0_0_n_n]; rfl
theorem lhsK_1 (j : S1024x1024.Idx) (k : DK.contr.Idx) : (DK.lhsIdx j k 1 : ℕ) = k ⟨0, by decide⟩ :=
  DotDims.lhsIdx_val_of_single (d := DK) (cl := 1) rfl j k
theorem rhsK_0 (j : S1024x1024.Idx) (k : DK.contr.Idx) : (DK.rhsIdx j k 0 : ℕ) = j 1 := by
  simp [DotDims.rhsIdx, DK, dot_S1024x2048_S1024x2048_S1024x1024_1_1_0_0_n_n]; rfl
theorem rhsK_1 (j : S1024x1024.Idx) (k : DK.contr.Idx) : (DK.rhsIdx j k 1 : ℕ) = k ⟨0, by decide⟩ :=
  DotDims.rhsIdx_val_of_single (d := DK) (cr := 1) rfl j k

/-- The body's stored value at (r, q) of a block: row r of the first operand block against row q of the second,
    summed over the 2048 columns, plus the bias row at q. -/
theorem pay_apply (v0 v2 : Vec Ideal S1024x2048 .bf16) (v5 : Vec Ideal S1x1024 .f32) (r q : Fin 1024) :
    k0_pay1 (F := Ideal) v0 v2 v5 (ix2 r q) = (∑ k : Fin 2048, v0 (ix2 r k) * v2 (ix2 q k)) + v5 (ix2 (0 : Fin 1) q) := by
  unfold k0_pay1
  simp only [shapeCast_self]
  refine (addf_apply _ _ _).trans ?_
  congr 1
  · simp only [matmul]
    refine (Ideal.matmul_constant_zero_apply (φ₁ := .bf16) (φ₂ := .bf16) DK none v0 v2 (ix2 r q)).trans ?_
    rw [← Equiv.sum_comp (contrEquiv1 DK 2048 rfl rfl).symm]
    refine Finset.sum_congr rfl fun k _ => ?_
    congr 1
    · refine congrArg v0 (funext fun a => Fin.ext ?_)
      match a with
      | ⟨0, _⟩ => exact lhsK_0 (ix2 r q) _
      | ⟨1, _⟩ => exact (lhsK_1 (ix2 r q) _).trans (contrEquiv1_symm_val DK 2048 rfl rfl k)
    · refine congrArg v2 (funext fun a => Fin.ext ?_)
      match a with
      | ⟨0, _⟩ => exact rhsK_0 (ix2 r q) _
      | ⟨1, _⟩ => exact (rhsK_1 (ix2 r q) _).trans (contrEquiv1_symm_val DK 2048 rfl rfl k)
  · refine broadcastTo_apply _ _ _ (ix2 (0 : Fin 1) q) fun a => ?_
    match a with
    | ⟨0, _⟩ => rfl
    | ⟨1, _⟩ => rfl

end Ker

section Arr
open Cert.KernelIdeal Cert.KernelIdeal.Gen Idealize.ShloMosaic.TcCoe Idealize.SL.Sem
open Idealize.ShloMosaic.Pipeline (Dat)

/-- The stored value of a block at (r, q), given that row r of the first operand block is row (i 0) of X, row q of the
    second is row (i 1) of W, and the bias block at q is B at (i 1): the specification at i. -/
theorem pay_is_spec (X W : (⟨2, ![4096, 2048]⟩ : Shape).Idx → EReal) (B : (⟨2, ![1, 4096]⟩ : Shape).Idx → EReal)
    (x0 x1 : Vec Ideal S1024x2048 .bf16) (x2 : Vec Ideal S1x1024 .f32) (r q : Fin 1024) (i : S4096x4096.Idx)
    (h0 : ∀ k : Fin 2048, x0 (ix2 r k) = X (ix2 (i 0) k))
    (h1 : ∀ k : Fin 2048, x1 (ix2 q k) = W (ix2 (i 1) k))
    (h2 : x2 (ix2 (0 : Fin 1) q) = B (ix2 (0 : Fin 1) (i 1))) :
    k0_pay1 (F := Ideal) x0 x1 x2 (ix2 r q) = linSpec X W (fun j => B (ix2 (0 : Fin 1) (j 0))) i := by
  rw [pay_apply, h2]
  unfold linSpec
  refine congrArg (· + _) (Finset.sum_congr rfl fun k _ => ?_)
  rw [h0 k, h1 k]

/-- The same at an index not yet split into its coordinates. -/
theorem pay_is_spec_idx (X W : (⟨2, ![4096, 2048]⟩ : Shape).Idx → EReal) (B : (⟨2, ![1, 4096]⟩ : Shape).Idx → EReal)
    (x0 x1 : Vec Ideal S1024x2048 .bf16) (x2 : Vec Ideal S1x1024 .f32) (y : S1024x1024.Idx) (i : S4096x4096.Idx)
    (h0 : ∀ k : Fin 2048, x0 (ix2 (y 0) k) = X (ix2 (i 0) k))
    (h1 : ∀ k : Fin 2048, x1 (ix2 (y 1) k) = W (ix2 (i 1) k))
    (h2 : x2 (ix2 (0 : Fin 1) (y 1)) = B (ix2 (0 : Fin 1) (i 1))) :
    k0_pay1 (F := Ideal) x0 x1 x2 y = linSpec X W (fun j => B (ix2 (0 : Fin 1) (j 0))) i := by
  exact (congrArg (k0_pay1 (F := Ideal) x0 x1 x2) (eq_ix2 y)).trans (pay_is_spec X W B x0 x1 x2 (y 0) (y 1) i h0 h1 h2)

/-- The zero offsets of a whole-block access, spelt as a function. -/
theorem hz : (![0, 0] : Fin 2 → Nat) = fun _ => 0 := funext fun a => by fin_cases a <;> rfl

/-- The kernel's block index maps over the sixteen grid points: the first operand's row block is the output's row block, the
    second operand's row block and the bias's column block are the output's column block, every other block index is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every one of the 4 × 4 output blocks is some grid pay_is_spec_idxs. -/
theorem idx_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- An index of the output array is in point t's block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v814).slice (win0_3.rect t)).set ↔ _
  rw [View.set_slice_whole, Rect.mem_set_unit]
  exact Iff.rfl

/-- The sixteen blocks cover the output array: (row, column) lies in the block (row / 1024, column / 1024). -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Arr

section Blocks
open Cert.KernelIdeal Cert.KernelIdeal.Gen Idealize.ShloMosaic.TcCoe Idealize.SL.Sem
open Idealize.ShloMosaic.Pipeline (Dat)

/-- The body's one store covers the whole output block from offset zero, and its operands are loaded whole from offset
    zero: what the store leaves in the block is the stored value of the three operand blocks. -/
theorem canon_pay (x0 x1 : Vec Ideal S1024x2048 .bf16) (x2 : Vec Ideal S1x1024 .f32)
    (ho : ∀ a, (![0, 0] : Fin 2 → Nat) a + S1024x1024.size a ≤ S1024x1024.size a)
    (ha : ∀ a, (![0, 0] : Fin 2 → Nat) a + S1024x2048.size a ≤ S1024x2048.size a)
    (hb : ∀ a, (![0, 0] : Fin 2 → Nat) a + S1x1024.size a ≤ S1x1024.size a) :
    View.canon [(⟨Rect.unit (s := S1024x1024) ![0, 0] S1024x1024.size ho,
        k0_pay1 (F := Ideal) (View.ld x0 (Rect.unit (s := S1024x2048) ![0, 0] S1024x2048.size ha))
          (View.ld x1 (Rect.unit (s := S1024x2048) ![0, 0] S1024x2048.size ha))
          (View.ld x2 (Rect.unit (s := S1x1024) ![0, 0] S1x1024.size hb))⟩ : View.Piece (Elt Ideal) S1024x1024 .f32)]
      = k0_pay1 (F := Ideal) x0 x1 x2 := by
  rw [View.canon_unit_zero hz]
  simp only [View.ld_unit_zero (S := S1024x2048) hz, View.ld_unit_zero (S := S1x1024) hz]

variable (X W : S4096x2048.Idx → EReal) (B : S1x4096.Idx → EReal)

/-- The first operand's block at point t is rows (block index × 1024 …) of the first operand array, all 2048 columns. -/
theorem blk0_apply (t : Fin cfg0.N) (y : S1024x2048.Idx) (i : S4096x2048.Idx)
    (h0 : (i 0).val = win0_0.index t (0 : Fin 2) * 1024 + (y 0).val)
    (h1 : (i 1).val = win0_0.index t (1 : Fin 2) * 2048 + (y 1).val) :
    (((cfg0.win 0).blk t).view.read (Elt Ideal) X : Vec Ideal S1024x2048 .bf16) y = X i := by
  rw [View.read_apply]
  show X _ = X _
  refine congrArg X (funext fun a => Fin.ext ?_)
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The second operand's block at point t, likewise. -/
theorem blk1_apply (t : Fin cfg0.N) (y : S1024x2048.Idx) (i : S4096x2048.Idx)
    (h0 : (i 0).val = win0_1.index t (0 : Fin 2) * 1024 + (y 0).val)
    (h1 : (i 1).val = win0_1.index t (1 : Fin 2) * 2048 + (y 1).val) :
    (((cfg0.win 1).blk t).view.read (Elt Ideal) W : Vec Ideal S1024x2048 .bf16) y = W i := by
  rw [View.read_apply]
  show W _ = W _
  refine congrArg W (funext fun a => Fin.ext ?_)
  match a with
  | ⟨0, _⟩ => show win0_1.index t (0 : Fin 2) * 1024 + 1 * (y 0).val = (i 0).val; omega
  | ⟨1, _⟩ => show win0_1.index t (1 : Fin 2) * 2048 + 1 * (y 1).val = (i 1).val; omega

/-- The bias block at point t: 1024 consecutive entries of the one bias row. -/
theorem blk2_apply (t : Fin cfg0.N) (y : S1x1024.Idx) (i : S1x4096.Idx)
    (h0 : (i 0).val = win0_2.index t (0 : Fin 2) * 1 + (y 0).val)
    (h1 : (i 1).val = win0_2.index t (1 : Fin 2) * 1024 + (y 1).val) :
    (((cfg0.win 2).blk t).view.read (Elt Ideal) B : Vec Ideal S1x1024 .f32) y = B i := by
  rw [View.read_apply]
  show B _ = B _
  refine congrArg B (funext fun a => Fin.ext ?_)
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- The stored value of the three operand blocks at grid point t is block t of the specification. -/
theorem pay_blocks_eq (t : Fin cfg0.N) :
    (cfg0.win 3).cut (grid0.coords t) (k0_pay1 (F := Ideal) (((cfg0.win 0).blk t).view.read (Elt Ideal) X)
        (((cfg0.win 1).blk t).view.read (Elt Ideal) W) (((cfg0.win 2).blk t).view.read (Elt Ideal) B))
      = ((cfg0.win 3).blk t).view.read (Elt Ideal) (linSpec X W (fun j => B (ix2 (0 : Fin 1) (j 0)))) := by
  obtain ⟨e0, e1, e2, e3, e4, e5, e6, e7⟩ := idx_facts t
  funext j
  show k0_pay1 (F := Ideal) (((cfg0.win 0).blk t).view.read (Elt Ideal) X) (((cfg0.win 1).blk t).view.read (Elt Ideal) W)
      (((cfg0.win 2).blk t).view.read (Elt Ideal) B) j
    = linSpec X W (fun j => B (ix2 (0 : Fin 1) (j 0))) (((cfg0.win 3).blk t).view.emb j)
  have hj0 : (j 0).val < 1024 := (j 0).isLt
  have hj1 : (j 1).val < 1024 := (j 1).isLt
  refine pay_is_spec_idx X W B _ _ _ j (((cfg0.win 3).blk t).view.emb j) (fun k => ?_) (fun k => ?_) ?_
  · refine blk0_apply X t _ _ ?_ ?_
    · show win0_3.index t (0 : Fin 2) * 1024 + 1 * (j 0).val = win0_0.index t (0 : Fin 2) * 1024 + (j 0).val; omega
    · show k.val = win0_0.index t (1 : Fin 2) * 2048 + k.val; omega
  · refine blk1_apply W t _ _ ?_ ?_
    · show win0_3.index t (1 : Fin 2) * 1024 + 1 * (j 1).val = win0_1.index t (0 : Fin 2) * 1024 + (j 1).val; omega
    · show k.val = win0_1.index t (1 : Fin 2) * 2048 + k.val; omega
  · refine blk2_apply B t _ _ ?_ ?_
    · show (0 : Nat) = win0_2.index t (0 : Fin 2) * 1 + 0; omega
    · show win0_3.index t (1 : Fin 2) * 1024 + 1 * (j 1).val = win0_2.index t (1 : Fin 2) * 1024 + (j 1).val; omega

/-- THE ARRAY FROM THE BLOCKS, for any bookkeeping of the pipeline on core c whose body leaves, at every grid point, the
    stored value of the three operand blocks read off arrays X, W, B: the output array ends as the specification of X, W, B. -/
theorem array_of_blocks {c : Dev nD} (dat : Dat τ (Elt Ideal) Unit ℕ (UR sig nD τ) ℕ cfg0 c)
    (hafter : ∀ t : Fin cfg0.N, dat.after 3 t = k0_pay1 (F := Ideal) (((cfg0.win 0).blk t).view.read (Elt Ideal) X)
        (((cfg0.win 1).blk t).view.read (Elt Ideal) W) (((cfg0.win 2).blk t).view.read (Elt Ideal) B)) :
    dat.arrAt 3 cfg0.N = linSpec X W (fun j => B (ix2 (0 : Fin 1) (j 0))) :=
  dat.arrAt_eq_of_cover 3 (linSpec X W (fun j => B (ix2 (0 : Fin 1) (j 0))))
    (fun t _ => by
      show (cfg0.win 3).cut (grid0.coords t) (dat.after 3 t) = _
      rw [hafter t]
      exact pay_blocks_eq X W B t)
    cover

end Blocks

section Host
open Cert.KernelIdeal

/-- Narrowing f32 to bf16 changes nothing at the exact values: both element types are the extended reals there. -/
theorem truncf_ideal {s : Shape} (X : FVec Ideal s .f32) (h : FTy.bits .bf16 < FTy.bits .f32) :
    (truncf .bf16 X h : s.Idx → EReal) = X := rfl

/-- The bias vector reshaped to one row of length 4096 and read back along that row is the bias vector. -/
theorem bias_row (bv : FVec Ideal S4096 .f32) (h : S4096.ShapeCasts S1x4096) :
    (fun j : S4096.Idx => (shapeCast S1x4096 bv h : S1x4096.Idx → EReal) (ix2 (0 : Fin 1) (j 0))) = bv := by
  funext j
  refine shapeCast_apply bv h (ix2 (0 : Fin 1) (j 0)) j ?_
  rw [Shape.rowMajor_val_one, Shape.rowMajor_val_two]
  show (j 0).val = 0 * 4096 + (j 0).val
  omega

end Host

/-! ## The kernel's run -/

section Run
-- the frame module's names: the arrays as the region finds them (V), a window's block at a point (iblk), what the body
-- leaves in the output block (out0_3), the pipeline's bookkeeping (dats) and its output entry (after0_3)
open Cert.KernelIdeal Cert.KernelIdeal.Gen Cert.KernelIdeal.GenP Idealize.ShloMosaic.TcCoe Idealize.SL.Sem

variable (m : (ℓ : Loc nD τ sig) → Buf (Elt Ideal) ℓ)

/-- The output array after the run is the specification of the three operand arrays as the region finds them. -/
theorem kernel_array (c : Dev nD) :
    (dats m 0 c).arrAt 3 cfg0.N
      = linSpec (V m c main_v811) (V m c main_v812) (fun j => (V m c main_v813 : S1x4096.Idx → EReal) (ix2 (0 : Fin 1) (j 0))) :=
  array_of_blocks (V m c main_v811) (V m c main_v812) (V m c main_v813) (dats m 0 c) fun t => by
    rw [after0_3]
    unfold out0_3 iblk
    exact canon_pay _ _ _ _ _ _

end Run

end Cert.Mat

end
-- ==== Proof.KRun.lean ====
/-
  The kernel's run in closed form. The call tiles the output into 4 × 4 blocks of 1024 × 1024; block (i, j) is the product of
  rows block i of the input with rows block j of the weights over the whole contracted axis, plus the bias row's block j, so
  the output array is `Σ_k x[i,k] · W[j,k] + b[j]` of the call's operands (`Cert.Mat.array_of_blocks`); the operands are
  the input, `W0 + dW` and `b0 + db` (module KGlue), a change of float format being the identity on extended reals.
-/
import proofs.«167603_j88115549045430_2_alg».proof.Proof.KGlue
import proofs.«167603_j88115549045430_2_alg».proof.Proof.Matmul

set_option maxRecDepth 16384
set_option maxHeartbeats 2000000

noncomputable section

open Idealize.ShloMosaic Idealize.ShloMosaic.TcCoe Idealize.SL.Sem Idealize.ShloMosaic.StableHlo

namespace Cert.KRun

open Cert.KernelIdeal Cert.KernelIdeal.Gen Cert.KernelIdeal.GenP Cert.KHost Cert.Spec
open Idealize.ShloMosaic.ValueIdx

variable (m : (ℓ : Loc nD τ sig) → Buf (Elt Ideal) ℓ) (ρ : Dev nD → PrngReg)

/-- The output array after the run, as a function of the argument arrays. -/
theorem array_eq (c : Dev nD) :
    (dats m 0 c).arrAt 3 cfg0.N
      = Cert.Mat.linSpec (m ((c : Thread nD τ).loc main_arg0))
          (addf (F := Ideal) (m ((c : Thread nD τ).loc main_arg2))
            (dW (F := Ideal) (m ((c : Thread nD τ).loc main_arg1)) (m ((c : Thread nD τ).loc main_arg4)) (m ((c : Thread nD τ).loc main_arg5)) (m ((c : Thread nD τ).loc main_arg8))))
          (addf (F := Ideal) (m ((c : Thread nD τ).loc main_arg3))
            (db (F := Ideal) (m ((c : Thread nD τ).loc main_arg1)) (m ((c : Thread nD τ).loc main_arg6)) (m ((c : Thread nD τ).loc main_arg7)) (m ((c : Thread nD τ).loc main_arg9)))) := by
  rw [Cert.Mat.kernel_array m c]
  obtain ⟨h1, h2, h3⟩ := operands (F := Ideal) (fun b => m (c, b))
  rw [U_all] at h1 h2 h3
  have e1 : V m c main_v811 = _ := h1
  have e2 : V m c main_v812 = _ := h2
  have e3 : V m c main_v813 = _ := h3
  rw [e1, e2, e3, Cert.Mat.truncf_ideal, Cert.Mat.truncf_ideal, Cert.Mat.bias_row]

/-- Every weakly fair execution of the kernel program ends with the output array at that function and the arguments
    unchanged. -/
theorem run : θ_run defs (onTc (τ := τ) (main (F := Ideal))) ⟨m, fun _ => 0, ρ⟩ fun r => ∀ c : Dev nD,
      r.2.mem ((c : Thread nD τ).loc main_v814)
        = Cert.Mat.linSpec (m ((c : Thread nD τ).loc main_arg0))
          (addf (F := Ideal) (m ((c : Thread nD τ).loc main_arg2))
            (dW (F := Ideal) (m ((c : Thread nD τ).loc main_arg1)) (m ((c : Thread nD τ).loc main_arg4)) (m ((c : Thread nD τ).loc main_arg5)) (m ((c : Thread nD τ).loc main_arg8))))
          (addf (F := Ideal) (m ((c : Thread nD τ).loc main_arg3))
            (db (F := Ideal) (m ((c : Thread nD τ).loc main_arg1)) (m ((c : Thread nD τ).loc main_arg6)) (m ((c : Thread nD τ).loc main_arg7)) (m ((c : Thread nD τ).loc main_arg9))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 3).trans (array_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KRun

end
-- ==== Proof.ROps.lean ====
/- The reference's host program as a list: its 418 operations in program order, the program as their sequence, and its
   run — every fair execution ends with each buffer at the fold of the operations' results over the launch contents. -/
import proofs.«167603_j88115549045430_2_alg».proof.Proof.Gen.ReferenceIdeal
import Idealize.ShloMosaic.Lib.StableHlo.Run
import Idealize.ShloMosaic.Lib.Pipeline.Frame

noncomputable section

namespace Cert.RHost

open Cert.ReferenceIdeal Cert.ReferenceIdeal.Gen Idealize.ShloMosaic Idealize.ShloMosaic.TcCoe Idealize.SL.Sem Idealize.ShloMosaic.StableHlo

variable {F : FTy → Type} [FloatOps F]

/-- The program's operations 1 … 60 of 418. -/
abbrev ops_part0 : List (HloOp τ sig (Elt F)) :=
  [ StableHlo.nullary main_cst (constant S_ .f32 0x00000000#32),
    StableHlo.unary main_cst main_v0 (broadcastInDim S8388608 ![] bcast_S_S8388608 : (⟨S_, .f32⟩ : BufTy).Contents (Elt F) → (⟨S8388608, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg1 main_v2 ((fun x i u => Host.scatter scatter_S8388608_S1_S2048_0_n_0_0 (fun _ b => b) x i u) : (⟨S8388608, .f32⟩ : BufTy).Contents (Elt F) → (⟨S1, .i32⟩ : BufTy).Contents (Elt F) → (⟨S2048, .f32⟩ : BufTy).Contents (Elt F) → (⟨S8388608, .f32⟩ : BufTy).Contents (Elt F)),
    StableHlo.binary main_arg4 main_v2 main_v3 (mulf : (⟨S8388608, .f32⟩ : BufTy).Contents (Elt F) → (⟨S8388608, .f32⟩ : BufTy).Contents (Elt F) → (⟨S8388608, .f32⟩ : BufTy).Contents (Elt F)),
    StableHlo.reshape main_v3 main_v4 rfl shapeCasts_S8388608_S2x2x2x2x2x2x2x2x2x2x2x2x2x2x2x2x2x2x2x2x2x2x2,
    StableHlo.unary main_v4 main_v5 ((extractStridedSlice S1x2x2x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S1x2x2x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.unary main_v4 main_v6 ((extractStridedSlice S1x2x2x2x2x2x2x2x2x2x2x2x2x2x2x2x2x2x2x2x2x2x2 ![1, 0, 0, 0, 0, 0, 0, 0, 0, 0, 0, 0, 0, 0, 0, 0, 0, 0, 0, 0, 0, 0, 0] · slices_S2x2x2x2x2x2x2x2x2x2x2x2x2x2x2x2x2x2x2x2x2x2x2_S1x2x2x2x2x2x2x2x2x2x2x2x2x2x2x2x2x2x2x2x2x2x2_1_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v5 main_v6 main_v7 (addf : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v5 main_v6 main_v8 (subf : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v7 main_v8 main_v9 ((fun a b => concatenate S2x2x2x2x2x2x2x2x2x2x2x2x2x2x2x2x2x2x2x2x2x2x2 0 [⟨S1x2x2x2x2x2x2x2x2x2x2x2x2x2x2x2x2x2x2x2x2x2x2, a⟩, ⟨S1x2x2x2x2x2x2x2x2x2x2x2x2x2x2x2x2x2x2x2x2x2x2, b⟩] concatenates_S1x2x2x2x2x2x2x2x2x2x2x2x2x2x2x2x2x2x2x2x2x2x2_S1x2x2x2x2x2x2x2x2x2x2x2x2x2x2x2x2x2x2x2x2x2x2_S2x2x2x2x2x2x2x2x2x2x2x2x2x2x2x2x2x2x2x2x2x2x2_d0) : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v9 main_v10 ((extractStridedSlice S2x1x2x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x1x2x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.unary main_v9 main_v11 ((extractStridedSlice S2x1x2x2x2x2x2x2x2x2x2x2x2x2x2x2x2x2x2x2x2x2x2 ![0, 1, 0, 0, 0, 0, 0, 0, 0, 0, 0, 0, 0, 0, 0, 0, 0, 0, 0, 0, 0, 0, 0] · slices_S2x2x2x2x2x2x2x2x2x2x2x2x2x2x2x2x2x2x2x2x2x2x2_S2x1x2x2x2x2x2x2x2x2x2x2x2x2x2x2x2x2x2x2x2x2x2_0_1_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v10 main_v11 main_v12 (addf : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v10 main_v11 main_v13 (subf : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v12 main_v13 main_v14 ((fun a b => concatenate S2x2x2x2x2x2x2x2x2x2x2x2x2x2x2x2x2x2x2x2x2x2x2 1 [⟨S2x1x2x2x2x2x2x2x2x2x2x2x2x2x2x2x2x2x2x2x2x2x2, a⟩, ⟨S2x1x2x2x2x2x2x2x2x2x2x2x2x2x2x2x2x2x2x2x2x2x2, b⟩] concatenates_S2x1x2x2x2x2x2x2x2x2x2x2x2x2x2x2x2x2x2x2x2x2x2_S2x1x2x2x2x2x2x2x2x2x2x2x2x2x2x2x2x2x2x2x2x2x2_S2x2x2x2x2x2x2x2x2x2x2x2x2x2x2x2x2x2x2x2x2x2x2_d1) : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v14 main_v15 ((extractStridedSlice S2x2x1x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x1x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.unary main_v14 main_v16 ((extractStridedSlice S2x2x1x2x2x2x2x2x2x2x2x2x2x2x2x2x2x2x2x2x2x2x2 ![0, 0, 1, 0, 0, 0, 0, 0, 0, 0, 0, 0, 0, 0, 0, 0, 0, 0, 0, 0, 0, 0, 0] · slices_S2x2x2x2x2x2x2x2x2x2x2x2x2x2x2x2x2x2x2x2x2x2x2_S2x2x1x2x2x2x2x2x2x2x2x2x2x2x2x2x2x2x2x2x2x2x2_0_0_1_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v15 main_v16 main_v17 (addf : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v15 main_v16 main_v18 (subf : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v17 main_v18 main_v19 ((fun a b => concatenate S2x2x2x2x2x2x2x2x2x2x2x2x2x2x2x2x2x2x2x2x2x2x2 2 [⟨S2x2x1x2x2x2x2x2x2x2x2x2x2x2x2x2x2x2x2x2x2x2x2, a⟩, ⟨S2x2x1x2x2x2x2x2x2x2x2x2x2x2x2x2x2x2x2x2x2x2x2, b⟩] concatenates_S2x2x1x2x2x2x2x2x2x2x2x2x2x2x2x2x2x2x2x2x2x2x2_S2x2x1x2x2x2x2x2x2x2x2x2x2x2x2x2x2x2x2x2x2x2x2_S2x2x2x2x2x2x2x2x2x2x2x2x2x2x2x2x2x2x2x2x2x2x2_d2) : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v19 main_v20 ((extractStridedSlice S2x2x2x1x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x1x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.unary main_v19 main_v21 ((extractStridedSlice S2x2x2x1x2x2x2x2x2x2x2x2x2x2x2x2x2x2x2x2x2x2x2 ![0, 0, 0, 1, 0, 0, 0, 0, 0, 0, 0, 0, 0, 0, 0, 0, 0, 0, 0, 0, 0, 0, 0] · slices_S2x2x2x2x2x2x2x2x2x2x2x2x2x2x2x2x2x2x2x2x2x2x2_S2x2x2x1x2x2x2x2x2x2x2x2x2x2x2x2x2x2x2x2x2x2x2_0_0_0_1_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v20 main_v21 main_v22 (addf : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v20 main_v21 main_v23 (subf : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v22 main_v23 main_v24 ((fun a b => concatenate S2x2x2x2x2x2x2x2x2x2x2x2x2x2x2x2x2x2x2x2x2x2x2 3 [⟨S2x2x2x1x2x2x2x2x2x2x2x2x2x2x2x2x2x2x2x2x2x2x2, a⟩, ⟨S2x2x2x1x2x2x2x2x2x2x2x2x2x2x2x2x2x2x2x2x2x2x2, b⟩] concatenates_S2x2x2x1x2x2x2x2x2x2x2x2x2x2x2x2x2x2x2x2x2x2x2_S2x2x2x1x2x2x2x2x2x2x2x2x2x2x2x2x2x2x2x2x2x2x2_S2x2x2x2x2x2x2x2x2x2x2x2x2x2x2x2x2x2x2x2x2x2x2_d3) : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v24 main_v25 ((extractStridedSlice S2x2x2x2x1x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x1x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.unary main_v24 main_v26 ((extractStridedSlice S2x2x2x2x1x2x2x2x2x2x2x2x2x2x2x2x2x2x2x2x2x2x2 ![0, 0, 0, 0, 1, 0, 0, 0, 0, 0, 0, 0, 0, 0, 0, 0, 0, 0, 0, 0, 0, 0, 0] · slices_S2x2x2x2x2x2x2x2x2x2x2x2x2x2x2x2x2x2x2x2x2x2x2_S2x2x2x2x1x2x2x2x2x2x2x2x2x2x2x2x2x2x2x2x2x2x2_0_0_0_0_1_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v25 main_v26 main_v27 (addf : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v25 main_v26 main_v28 (subf : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v27 main_v28 main_v29 ((fun a b => concatenate S2x2x2x2x2x2x2x2x2x2x2x2x2x2x2x2x2x2x2x2x2x2x2 4 [⟨S2x2x2x2x1x2x2x2x2x2x2x2x2x2x2x2x2x2x2x2x2x2x2, a⟩, ⟨S2x2x2x2x1x2x2x2x2x2x2x2x2x2x2x2x2x2x2x2x2x2x2, b⟩] concatenates_S2x2x2x2x1x2x2x2x2x2x2x2x2x2x2x2x2x2x2x2x2x2x2_S2x2x2x2x1x2x2x2x2x2x2x2x2x2x2x2x2x2x2x2x2x2x2_S2x2x2x2x2x2x2x2x2x2x2x2x2x2x2x2x2x2x2x2x2x2x2_d4) : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v29 main_v30 ((extractStridedSlice S2x2x2x2x2x1x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x1x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.unary main_v29 main_v31 ((extractStridedSlice S2x2x2x2x2x1x2x2x2x2x2x2x2x2x2x2x2x2x2x2x2x2x2 ![0, 0, 0, 0, 0, 1, 0, 0, 0, 0, 0, 0, 0, 0, 0, 0, 0, 0, 0, 0, 0, 0, 0] · slices_S2x2x2x2x2x2x2x2x2x2x2x2x2x2x2x2x2x2x2x2x2x2x2_S2x2x2x2x2x1x2x2x2x2x2x2x2x2x2x2x2x2x2x2x2x2x2_0_0_0_0_0_1_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v30 main_v31 main_v32 (addf : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v30 main_v31 main_v33 (subf : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v32 main_v33 main_v34 ((fun a b => concatenate S2x2x2x2x2x2x2x2x2x2x2x2x2x2x2x2x2x2x2x2x2x2x2 5 [⟨S2x2x2x2x2x1x2x2x2x2x2x2x2x2x2x2x2x2x2x2x2x2x2, a⟩, ⟨S2x2x2x2x2x1x2x2x2x2x2x2x2x2x2x2x2x2x2x2x2x2x2, b⟩] concatenates_S2x2x2x2x2x1x2x2x2x2x2x2x2x2x2x2x2x2x2x2x2x2x2_S2x2x2x2x2x1x2x2x2x2x2x2x2x2x2x2x2x2x2x2x2x2x2_S2x2x2x2x2x2x2x2x2x2x2x2x2x2x2x2x2x2x2x2x2x2x2_d5) : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v34 main_v35 ((extractStridedSlice S2x2x2x2x2x2x1x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x1x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.unary main_v34 main_v36 ((extractStridedSlice S2x2x2x2x2x2x1x2x2x2x2x2x2x2x2x2x2x2x2x2x2x2x2 ![0, 0, 0, 0, 0, 0, 1, 0, 0, 0, 0, 0, 0, 0, 0, 0, 0, 0, 0, 0, 0, 0, 0] · slices_S2x2x2x2x2x2x2x2x2x2x2x2x2x2x2x2x2x2x2x2x2x2x2_S2x2x2x2x2x2x1x2x2x2x2x2x2x2x2x2x2x2x2x2x2x2x2_0_0_0_0_0_0_1_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v35 main_v36 main_v37 (addf : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v35 main_v36 main_v38 (subf : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v37 main_v38 main_v39 ((fun a b => concatenate S2x2x2x2x2x2x2x2x2x2x2x2x2x2x2x2x2x2x2x2x2x2x2 6 [⟨S2x2x2x2x2x2x1x2x2x2x2x2x2x2x2x2x2x2x2x2x2x2x2, a⟩, ⟨S2x2x2x2x2x2x1x2x2x2x2x2x2x2x2x2x2x2x2x2x2x2x2, b⟩] concatenates_S2x2x2x2x2x2x1x2x2x2x2x2x2x2x2x2x2x2x2x2x2x2x2_S2x2x2x2x2x2x1x2x2x2x2x2x2x2x2x2x2x2x2x2x2x2x2_S2x2x2x2x2x2x2x2x2x2x2x2x2x2x2x2x2x2x2x2x2x2x2_d6) : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v39 main_v40 ((extractStridedSlice S2x2x2x2x2x2x2x1x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x1x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.unary main_v39 main_v41 ((extractStridedSlice S2x2x2x2x2x2x2x1x2x2x2x2x2x2x2x2x2x2x2x2x2x2x2 ![0, 0, 0, 0, 0, 0, 0, 1, 0, 0, 0, 0, 0, 0, 0, 0, 0, 0, 0, 0, 0, 0, 0] · slices_S2x2x2x2x2x2x2x2x2x2x2x2x2x2x2x2x2x2x2x2x2x2x2_S2x2x2x2x2x2x2x1x2x2x2x2x2x2x2x2x2x2x2x2x2x2x2_0_0_0_0_0_0_0_1_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v40 main_v41 main_v42 (addf : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v40 main_v41 main_v43 (subf : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v42 main_v43 main_v44 ((fun a b => concatenate S2x2x2x2x2x2x2x2x2x2x2x2x2x2x2x2x2x2x2x2x2x2x2 7 [⟨S2x2x2x2x2x2x2x1x2x2x2x2x2x2x2x2x2x2x2x2x2x2x2, a⟩, ⟨S2x2x2x2x2x2x2x1x2x2x2x2x2x2x2x2x2x2x2x2x2x2x2, b⟩] concatenates_S2x2x2x2x2x2x2x1x2x2x2x2x2x2x2x2x2x2x2x2x2x2x2_S2x2x2x2x2x2x2x1x2x2x2x2x2x2x2x2x2x2x2x2x2x2x2_S2x2x2x2x2x2x2x2x2x2x2x2x2x2x2x2x2x2x2x2x2x2x2_d7) : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v44 main_v45 ((extractStridedSlice S2x2x2x2x2x2x2x2x1x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x1x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.unary main_v44 main_v46 ((extractStridedSlice S2x2x2x2x2x2x2x2x1x2x2x2x2x2x2x2x2x2x2x2x2x2x2 ![0, 0, 0, 0, 0, 0, 0, 0, 1, 0, 0, 0, 0, 0, 0, 0, 0, 0, 0, 0, 0, 0, 0] · slices_S2x2x2x2x2x2x2x2x2x2x2x2x2x2x2x2x2x2x2x2x2x2x2_S2x2x2x2x2x2x2x2x1x2x2x2x2x2x2x2x2x2x2x2x2x2x2_0_0_0_0_0_0_0_0_1_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v45 main_v46 main_v47 (addf : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v45 main_v46 main_v48 (subf : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v47 main_v48 main_v49 ((fun a b => concatenate S2x2x2x2x2x2x2x2x2x2x2x2x2x2x2x2x2x2x2x2x2x2x2 8 [⟨S2x2x2x2x2x2x2x2x1x2x2x2x2x2x2x2x2x2x2x2x2x2x2, a⟩, ⟨S2x2x2x2x2x2x2x2x1x2x2x2x2x2x2x2x2x2x2x2x2x2x2, b⟩] concatenates_S2x2x2x2x2x2x2x2x1x2x2x2x2x2x2x2x2x2x2x2x2x2x2_S2x2x2x2x2x2x2x2x1x2x2x2x2x2x2x2x2x2x2x2x2x2x2_S2x2x2x2x2x2x2x2x2x2x2x2x2x2x2x2x2x2x2x2x2x2x2_d8) : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v49 main_v50 ((extractStridedSlice S2x2x2x2x2x2x2x2x2x1x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x1x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.unary main_v49 main_v51 ((extractStridedSlice S2x2x2x2x2x2x2x2x2x1x2x2x2x2x2x2x2x2x2x2x2x2x2 ![0, 0, 0, 0, 0, 0, 0, 0, 0, 1, 0, 0, 0, 0, 0, 0, 0, 0, 0, 0, 0, 0, 0] · slices_S2x2x2x2x2x2x2x2x2x2x2x2x2x2x2x2x2x2x2x2x2x2x2_S2x2x2x2x2x2x2x2x2x1x2x2x2x2x2x2x2x2x2x2x2x2x2_0_0_0_0_0_0_0_0_0_1_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v50 main_v51 main_v52 (addf : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v50 main_v51 main_v53 (subf : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v52 main_v53 main_v54 ((fun a b => concatenate S2x2x2x2x2x2x2x2x2x2x2x2x2x2x2x2x2x2x2x2x2x2x2 9 [⟨S2x2x2x2x2x2x2x2x2x1x2x2x2x2x2x2x2x2x2x2x2x2x2, a⟩, ⟨S2x2x2x2x2x2x2x2x2x1x2x2x2x2x2x2x2x2x2x2x2x2x2, b⟩] concatenates_S2x2x2x2x2x2x2x2x2x1x2x2x2x2x2x2x2x2x2x2x2x2x2_S2x2x2x2x2x2x2x2x2x1x2x2x2x2x2x2x2x2x2x2x2x2x2_S2x2x2x2x2x2x2x2x2x2x2x2x2x2x2x2x2x2x2x2x2x2x2_d9) : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v54 main_v55 ((extractStridedSlice S2x2x2x2x2x2x2x2x2x2x1x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x1x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.unary main_v54 main_v56 ((extractStridedSlice S2x2x2x2x2x2x2x2x2x2x1x2x2x2x2x2x2x2x2x2x2x2x2 ![0, 0, 0, 0, 0, 0, 0, 0, 0, 0, 1, 0, 0, 0, 0, 0, 0, 0, 0, 0, 0, 0, 0] · slices_S2x2x2x2x2x2x2x2x2x2x2x2x2x2x2x2x2x2x2x2x2x2x2_S2x2x2x2x2x2x2x2x2x2x1x2x2x2x2x2x2x2x2x2x2x2x2_0_0_0_0_0_0_0_0_0_0_1_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.binary main_v55 main_v56 main_v57 (addf : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F)) ]

/-- The program's operations 61 … 120 of 418. -/
abbrev ops_part1 : List (HloOp τ sig (Elt F)) :=
  [ StableHlo.binary main_v55 main_v56 main_v58 (subf : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.binary main_v57 main_v58 main_v59 ((fun a b => concatenate S2x2x2x2x2x2x2x2x2x2x2x2x2x2x2x2x2x2x2x2x2x2x2 10 [⟨S2x2x2x2x2x2x2x2x2x2x1x2x2x2x2x2x2x2x2x2x2x2x2, a⟩, ⟨S2x2x2x2x2x2x2x2x2x2x1x2x2x2x2x2x2x2x2x2x2x2x2, b⟩] concatenates_S2x2x2x2x2x2x2x2x2x2x1x2x2x2x2x2x2x2x2x2x2x2x2_S2x2x2x2x2x2x2x2x2x2x1x2x2x2x2x2x2x2x2x2x2x2x2_S2x2x2x2x2x2x2x2x2x2x2x2x2x2x2x2x2x2x2x2x2x2x2_d10) : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v59 main_v60 ((extractStridedSlice S2x2x2x2x2x2x2x2x2x2x2x1x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x1x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.unary main_v59 main_v61 ((extractStridedSlice S2x2x2x2x2x2x2x2x2x2x2x1x2x2x2x2x2x2x2x2x2x2x2 ![0, 0, 0, 0, 0, 0, 0, 0, 0, 0, 0, 1, 0, 0, 0, 0, 0, 0, 0, 0, 0, 0, 0] · slices_S2x2x2x2x2x2x2x2x2x2x2x2x2x2x2x2x2x2x2x2x2x2x2_S2x2x2x2x2x2x2x2x2x2x2x1x2x2x2x2x2x2x2x2x2x2x2_0_0_0_0_0_0_0_0_0_0_0_1_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v60 main_v61 main_v62 (addf : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v60 main_v61 main_v63 (subf : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v62 main_v63 main_v64 ((fun a b => concatenate S2x2x2x2x2x2x2x2x2x2x2x2x2x2x2x2x2x2x2x2x2x2x2 11 [⟨S2x2x2x2x2x2x2x2x2x2x2x1x2x2x2x2x2x2x2x2x2x2x2, a⟩, ⟨S2x2x2x2x2x2x2x2x2x2x2x1x2x2x2x2x2x2x2x2x2x2x2, b⟩] concatenates_S2x2x2x2x2x2x2x2x2x2x2x1x2x2x2x2x2x2x2x2x2x2x2_S2x2x2x2x2x2x2x2x2x2x2x1x2x2x2x2x2x2x2x2x2x2x2_S2x2x2x2x2x2x2x2x2x2x2x2x2x2x2x2x2x2x2x2x2x2x2_d11) : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v64 main_v65 ((extractStridedSlice S2x2x2x2x2x2x2x2x2x2x2x2x1x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x1x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.unary main_v64 main_v66 ((extractStridedSlice S2x2x2x2x2x2x2x2x2x2x2x2x1x2x2x2x2x2x2x2x2x2x2 ![0, 0, 0, 0, 0, 0, 0, 0, 0, 0, 0, 0, 1, 0, 0, 0, 0, 0, 0, 0, 0, 0, 0] · slices_S2x2x2x2x2x2x2x2x2x2x2x2x2x2x2x2x2x2x2x2x2x2x2_S2x2x2x2x2x2x2x2x2x2x2x2x1x2x2x2x2x2x2x2x2x2x2_0_0_0_0_0_0_0_0_0_0_0_0_1_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v65 main_v66 main_v67 (addf : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v65 main_v66 main_v68 (subf : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v67 main_v68 main_v69 ((fun a b => concatenate S2x2x2x2x2x2x2x2x2x2x2x2x2x2x2x2x2x2x2x2x2x2x2 12 [⟨S2x2x2x2x2x2x2x2x2x2x2x2x1x2x2x2x2x2x2x2x2x2x2, a⟩, ⟨S2x2x2x2x2x2x2x2x2x2x2x2x1x2x2x2x2x2x2x2x2x2x2, b⟩] concatenates_S2x2x2x2x2x2x2x2x2x2x2x2x1x2x2x2x2x2x2x2x2x2x2_S2x2x2x2x2x2x2x2x2x2x2x2x1x2x2x2x2x2x2x2x2x2x2_S2x2x2x2x2x2x2x2x2x2x2x2x2x2x2x2x2x2x2x2x2x2x2_d12) : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v69 main_v70 ((extractStridedSlice S2x2x2x2x2x2x2x2x2x2x2x2x2x1x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x1x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x1x2x2x2x2x2x2x2x2x2, .f32⟩ : BufTy).Contents (Elt F)),
    StableHlo.unary main_v69 main_v71 ((extractStridedSlice S2x2x2x2x2x2x2x2x2x2x2x2x2x1x2x2x2x2x2x2x2x2x2 ![0, 0, 0, 0, 0, 0, 0, 0, 0, 0, 0, 0, 0, 1, 0, 0, 0, 0, 0, 0, 0, 0, 0] · slices_S2x2x2x2x2x2x2x2x2x2x2x2x2x2x2x2x2x2x2x2x2x2x2_S2x2x2x2x2x2x2x2x2x2x2x2x2x1x2x2x2x2x2x2x2x2x2_0_0_0_0_0_0_0_0_0_0_0_0_0_1_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v70 main_v71 main_v72 (addf : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v70 main_v71 main_v73 (subf : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v72 main_v73 main_v74 ((fun a b => concatenate S2x2x2x2x2x2x2x2x2x2x2x2x2x2x2x2x2x2x2x2x2x2x2 13 [⟨S2x2x2x2x2x2x2x2x2x2x2x2x2x1x2x2x2x2x2x2x2x2x2, a⟩, ⟨S2x2x2x2x2x2x2x2x2x2x2x2x2x1x2x2x2x2x2x2x2x2x2, b⟩] concatenates_S2x2x2x2x2x2x2x2x2x2x2x2x2x1x2x2x2x2x2x2x2x2x2_S2x2x2x2x2x2x2x2x2x2x2x2x2x1x2x2x2x2x2x2x2x2x2_S2x2x2x2x2x2x2x2x2x2x2x2x2x2x2x2x2x2x2x2x2x2x2_d13) : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v74 main_v75 ((extractStridedSlice S2x2x2x2x2x2x2x2x2x2x2x2x2x2x1x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x1x2x2x2x2x2x2x2x2, .f32⟩ : BufTy).Contents (Elt F)),
    StableHlo.unary main_v74 main_v76 ((extractStridedSlice S2x2x2x2x2x2x2x2x2x2x2x2x2x2x1x2x2x2x2x2x2x2x2 ![0, 0, 0, 0, 0, 0, 0, 0, 0, 0, 0, 0, 0, 0, 1, 0, 0, 0, 0, 0, 0, 0, 0] · slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_1_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v75 main_v76 main_v77 (addf : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v75 main_v76 main_v78 (subf : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v77 main_v78 main_v79 ((fun a b => concatenate S2x2x2x2x2x2x2x2x2x2x2x2x2x2x2x2x2x2x2x2x2x2x2 14 [⟨S2x2x2x2x2x2x2x2x2x2x2x2x2x2x1x2x2x2x2x2x2x2x2, a⟩, ⟨S2x2x2x2x2x2x2x2x2x2x2x2x2x2x1x2x2x2x2x2x2x2x2, b⟩] concatenates_S2x2x2x2x2x2x2x2x2x2x2x2x2x2x1x2x2x2x2x2x2x2x2_S2x2x2x2x2x2x2x2x2x2x2x2x2x2x1x2x2x2x2x2x2x2x2_S2x2x2x2x2x2x2x2x2x2x2x2x2x2x2x2x2x2x2x2x2x2x2_d14) : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v79 main_v80 ((extractStridedSlice S2x2x2x2x2x2x2x2x2x2x2x2x2x2x2x1x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x1x2x2x2x2x2x2x2, .f32⟩ : BufTy).Contents (Elt F)),
    StableHlo.unary main_v79 main_v81 ((extractStridedSlice S2x2x2x2x2x2x2x2x2x2x2x2x2x2x2x1x2x2x2x2x2x2x2 ![0, 0, 0, 0, 0, 0, 0, 0, 0, 0, 0, 0, 0, 0, 0, 1, 0, 0, 0, 0, 0, 0, 0] · slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_1_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v80 main_v81 main_v82 (addf : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v80 main_v81 main_v83 (subf : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v82 main_v83 main_v84 ((fun a b => concatenate S2x2x2x2x2x2x2x2x2x2x2x2x2x2x2x2x2x2x2x2x2x2x2 15 [⟨S2x2x2x2x2x2x2x2x2x2x2x2x2x2x2x1x2x2x2x2x2x2x2, a⟩, ⟨S2x2x2x2x2x2x2x2x2x2x2x2x2x2x2x1x2x2x2x2x2x2x2, b⟩] concatenates_S2x2x2x2x2x2x2x2x2x2x2x2x2x2x2x1x2x2x2x2x2x2x2_S2x2x2x2x2x2x2x2x2x2x2x2x2x2x2x1x2x2x2x2x2x2x2_S2x2x2x2x2x2x2x2x2x2x2x2x2x2x2x2x2x2x2x2x2x2x2_d15) : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v84 main_v85 ((extractStridedSlice S2x2x2x2x2x2x2x2x2x2x2x2x2x2x2x2x1x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x1x2x2x2x2x2x2, .f32⟩ : BufTy).Contents (Elt F)),
    StableHlo.unary main_v84 main_v86 ((extractStridedSlice S2x2x2x2x2x2x2x2x2x2x2x2x2x2x2x2x1x2x2x2x2x2x2 ![0, 0, 0, 0, 0, 0, 0, 0, 0, 0, 0, 0, 0, 0, 0, 0, 1, 0, 0, 0, 0, 0, 0] · slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_1_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x1x2x2x2x2x2x2, .f32⟩ : BufTy).Contents (Elt F)),
    StableHlo.binary main_v85 main_v86 main_v87 (addf : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F)),
    StableHlo.binary main_v85 main_v86 main_v88 (subf : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F)),
    StableHlo.binary main_v87 main_v88 main_v89 ((fun a b => concatenate S2x2x2x2x2x2x2x2x2x2x2x2x2x2x2x2x2x2x2x2x2x2x2 16 [⟨S2x2x2x2x2x2x2x2x2x2x2x2x2x2x2x2x1x2x2x2x2x2x2, a⟩, ⟨S2x2x2x2x2x2x2x2x2x2x2x2x2x2x2x2x1x2x2x2x2x2x2, b⟩] concatenates_S2x2x2x2x2x2x2x2x2x2x2x2x2x2x2x2x1x2x2x2x2x2x2_S2x2x2x2x2x2x2x2x2x2x2x2x2x2x2x2x1x2x2x2x2x2x2_S2x2x2x2x2x2x2x2x2x2x2x2x2x2x2x2x2x2x2x2x2x2x2_d16) : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x2x2x2x2x2x2x2, .f32⟩ : BufTy).Contents (Elt F)),
    StableHlo.unary main_v89 main_v90 ((extractStridedSlice S2x2x2x2x2x2x2x2x2x2x2x2x2x2x2x2x2x1x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x1x2x2x2x2x2, .f32⟩ : BufTy).Contents (Elt F)),
    StableHlo.unary main_v89 main_v91 ((extractStridedSlice S2x2x2x2x2x2x2x2x2x2x2x2x2x2x2x2x2x1x2x2x2x2x2 ![0, 0, 0, 0, 0, 0, 0, 0, 0, 0, 0, 0, 0, 0, 0, 0, 0, 1, 0, 0, 0, 0, 0] · slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_1_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x1x2x2x2x2x2, .f32⟩ : BufTy).Contents (Elt F)),
    StableHlo.binary main_v90 main_v91 main_v92 (addf : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F)),
    StableHlo.binary main_v90 main_v91 main_v93 (subf : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F)),
    StableHlo.binary main_v92 main_v93 main_v94 ((fun a b => concatenate S2x2x2x2x2x2x2x2x2x2x2x2x2x2x2x2x2x2x2x2x2x2x2 17 [⟨S2x2x2x2x2x2x2x2x2x2x2x2x2x2x2x2x2x1x2x2x2x2x2, a⟩, ⟨S2x2x2x2x2x2x2x2x2x2x2x2x2x2x2x2x2x1x2x2x2x2x2, b⟩] concatenates_S2x2x2x2x2x2x2x2x2x2x2x2x2x2x2x2x2x1x2x2x2x2x2_S2x2x2x2x2x2x2x2x2x2x2x2x2x2x2x2x2x1x2x2x2x2x2_S2x2x2x2x2x2x2x2x2x2x2x2x2x2x2x2x2x2x2x2x2x2x2_d17) : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x2x2x2x2x2x2, .f32⟩ : BufTy).Contents (Elt F)),
    StableHlo.unary main_v94 main_v95 ((extractStridedSlice S2x2x2x2x2x2x2x2x2x2x2x2x2x2x2x2x2x2x1x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x1x2x2x2x2, .f32⟩ : BufTy).Contents (Elt F)),
    StableHlo.unary main_v94 main_v96 ((extractStridedSlice S2x2x2x2x2x2x2x2x2x2x2x2x2x2x2x2x2x2x1x2x2x2x2 ![0, 0, 0, 0, 0, 0, 0, 0, 0, 0, 0, 0, 0, 0, 0, 0, 0, 0, 1, 0, 0, 0, 0] · slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_1_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x1x2x2x2x2, .f32⟩ : BufTy).Contents (Elt F)),
    StableHlo.binary main_v95 main_v96 main_v97 (addf : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F)),
    StableHlo.binary main_v95 main_v96 main_v98 (subf : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F)),
    StableHlo.binary main_v97 main_v98 main_v99 ((fun a b => concatenate S2x2x2x2x2x2x2x2x2x2x2x2x2x2x2x2x2x2x2x2x2x2x2 18 [⟨S2x2x2x2x2x2x2x2x2x2x2x2x2x2x2x2x2x2x1x2x2x2x2, a⟩, ⟨S2x2x2x2x2x2x2x2x2x2x2x2x2x2x2x2x2x2x1x2x2x2x2, b⟩] concatenates_S2x2x2x2x2x2x2x2x2x2x2x2x2x2x2x2x2x2x1x2x2x2x2_S2x2x2x2x2x2x2x2x2x2x2x2x2x2x2x2x2x2x1x2x2x2x2_S2x2x2x2x2x2x2x2x2x2x2x2x2x2x2x2x2x2x2x2x2x2x2_d18) : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x2x2x2x2x2, .f32⟩ : BufTy).Contents (Elt F)),
    StableHlo.unary main_v99 main_v100 ((extractStridedSlice S2x2x2x2x2x2x2x2x2x2x2x2x2x2x2x2x2x2x2x1x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x1x2x2x2, .f32⟩ : BufTy).Contents (Elt F)),
    StableHlo.unary main_v99 main_v101 ((extractStridedSlice S2x2x2x2x2x2x2x2x2x2x2x2x2x2x2x2x2x2x2x1x2x2x2 ![0, 0, 0, 0, 0, 0, 0, 0, 0, 0, 0, 0, 0, 0, 0, 0, 0, 0, 0, 1, 0, 0, 0] · slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_1_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x1x2x2x2, .f32⟩ : BufTy).Contents (Elt F)),
    StableHlo.binary main_v100 main_v101 main_v102 (addf : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F)),
    StableHlo.binary main_v100 main_v101 main_v103 (subf : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F)),
    StableHlo.binary main_v102 main_v103 main_v104 ((fun a b => concatenate S2x2x2x2x2x2x2x2x2x2x2x2x2x2x2x2x2x2x2x2x2x2x2 19 [⟨S2x2x2x2x2x2x2x2x2x2x2x2x2x2x2x2x2x2x2x1x2x2x2, a⟩, ⟨S2x2x2x2x2x2x2x2x2x2x2x2x2x2x2x2x2x2x2x1x2x2x2, b⟩] concatenates_S2x2x2x2x2x2x2x2x2x2x2x2x2x2x2x2x2x2x2x1x2x2x2_S2x2x2x2x2x2x2x2x2x2x2x2x2x2x2x2x2x2x2x1x2x2x2_S2x2x2x2x2x2x2x2x2x2x2x2x2x2x2x2x2x2x2x2x2x2x2_d19) : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x2x2x2x2, .f32⟩ : BufTy).Contents (Elt F)),
    StableHlo.unary main_v104 main_v105 ((extractStridedSlice S2x2x2x2x2x2x2x2x2x2x2x2x2x2x2x2x2x2x2x2x1x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x1x2x2, .f32⟩ : BufTy).Contents (Elt F)),
    StableHlo.unary main_v104 main_v106 ((extractStridedSlice S2x2x2x2x2x2x2x2x2x2x2x2x2x2x2x2x2x2x2x2x1x2x2 ![0, 0, 0, 0, 0, 0, 0, 0, 0, 0, 0, 0, 0, 0, 0, 0, 0, 0, 0, 0, 1, 0, 0] · slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_1_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x1x2x2, .f32⟩ : BufTy).Contents (Elt F)),
    StableHlo.binary main_v105 main_v106 main_v107 (addf : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F)),
    StableHlo.binary main_v105 main_v106 main_v108 (subf : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F)),
    StableHlo.binary main_v107 main_v108 main_v109 ((fun a b => concatenate S2x2x2x2x2x2x2x2x2x2x2x2x2x2x2x2x2x2x2x2x2x2x2 20 [⟨S2x2x2x2x2x2x2x2x2x2x2x2x2x2x2x2x2x2x2x2x1x2x2, a⟩, ⟨S2x2x2x2x2x2x2x2x2x2x2x2x2x2x2x2x2x2x2x2x1x2x2, b⟩] concatenates_S2x2x2x2x2x2x2x2x2x2x2x2x2x2x2x2x2x2x2x2x1x2x2_S2x2x2x2x2x2x2x2x2x2x2x2x2x2x2x2x2x2x2x2x1x2x2_S2x2x2x2x2x2x2x2x2x2x2x2x2x2x2x2x2x2x2x2x2x2x2_d20) : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x2x2x2, .f32⟩ : BufTy).Contents (Elt F)),
    StableHlo.unary main_v109 main_v110 ((extractStridedSlice S2x2x2x2x2x2x2x2x2x2x2x2x2x2x2x2x2x2x2x2x2x1x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x1x2, .f32⟩ : BufTy).Contents (Elt F)),
    StableHlo.unary main_v109 main_v111 ((extractStridedSlice S2x2x2x2x2x2x2x2x2x2x2x2x2x2x2x2x2x2x2x2x2x1x2 ![0, 0, 0, 0, 0, 0, 0, 0, 0, 0, 0, 0, 0, 0, 0, 0, 0, 0, 0, 0, 0, 1, 0] · slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_1_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x1x2, .f32⟩ : BufTy).Contents (Elt F)),
    StableHlo.binary main_v110 main_v111 main_v112 (addf : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F)),
    StableHlo.binary main_v110 main_v111 main_v113 (subf : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F)),
    StableHlo.binary main_v112 main_v113 main_v114 ((fun a b => concatenate S2x2x2x2x2x2x2x2x2x2x2x2x2x2x2x2x2x2x2x2x2x2x2 21 [⟨S2x2x2x2x2x2x2x2x2x2x2x2x2x2x2x2x2x2x2x2x2x1x2, a⟩, ⟨S2x2x2x2x2x2x2x2x2x2x2x2x2x2x2x2x2x2x2x2x2x1x2, b⟩] concatenates_S2x2x2x2x2x2x2x2x2x2x2x2x2x2x2x2x2x2x2x2x2x1x2_S2x2x2x2x2x2x2x2x2x2x2x2x2x2x2x2x2x2x2x2x2x1x2_S2x2x2x2x2x2x2x2x2x2x2x2x2x2x2x2x2x2x2x2x2x2x2_d21) : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x2x2, .f32⟩ : BufTy).Contents (Elt F)),
    StableHlo.unary main_v114 main_v115 ((extractStridedSlice S2x2x2x2x2x2x2x2x2x2x2x2x2x2x2x2x2x2x2x2x2x2x1 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x2x1, .f32⟩ : BufTy).Contents (Elt F)),
    StableHlo.unary main_v114 main_v116 ((extractStridedSlice S2x2x2x2x2x2x2x2x2x2x2x2x2x2x2x2x2x2x2x2x2x2x1 ![0, 0, 0, 0, 0, 0, 0, 0, 0, 0, 0, 0, 0, 0, 0, 0, 0, 0, 0, 0, 0, 0, 1] · slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_1) : (⟨S2x2x2x2x2x2x2x2x2x2x2x2x2x2x2x2x2x2x2x2x2x2x2, .f32⟩ : BufTy).Contents (Elt F) → (⟨S2x2x2x2x2x2x2x2x2x2x2x2x2x2x2x2x2x2x2x2x2x2x1, .f32⟩ : BufTy).Contents (Elt F)),
    StableHlo.binary main_v115 main_v116 main_v117 (addf : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F)) ]

/-- The program's operations 121 … 180 of 418. -/
abbrev ops_part2 : List (HloOp τ sig (Elt F)) :=
  [ StableHlo.binary main_v115 main_v116 main_v118 (subf : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F)),
    StableHlo.binary main_v117 main_v118 main_v119 ((fun a b => concatenate S2x2x2x2x2x2x2x2x2x2x2x2x2x2x2x2x2x2x2x2x2x2x2 22 [⟨S2x2x2x2x2x2x2x2x2x2x2x2x2x2x2x2x2x2x2x2x2x2x1, a⟩, ⟨S2x2x2x2x2x2x2x2x2x2x2x2x2x2x2x2x2x2x2x2x2x2x1, b⟩] concatenates_S2x2x2x2x2x2x2x2x2x2x2x2x2x2x2x2x2x2x2x2x2x2x1_S2x2x2x2x2x2x2x2x2x2x2x2x2x2x2x2x2x2x2x2x2x2x1_S2x2x2x2x2x2x2x2x2x2x2x2x2x2x2x2x2x2x2x2x2x2x2_d22) : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x2, .f32⟩ : BufTy).Contents (Elt F)),
    StableHlo.reshape main_v119 main_v120 rfl shapeCasts_S2x2x2x2x2x2x2x2x2x2x2x2x2x2x2x2x2x2x2x2x2x2x2_S8388608,
    StableHlo.nullary main_c_0 (constantI S_ 32 0#32),
    StableHlo.unary main_c_0 main_v121 (broadcastInDim S8388608 ![] bcast_S_S8388608 : (⟨S_, .i32⟩ : BufTy).Contents (Elt F) → (⟨S8388608, .i32⟩ : BufTy).Contents (Elt F)),
    StableHlo.binary main_arg8 main_v121 main_v122 (cmpi .slt : (⟨S8388608, .i32⟩ : BufTy).Contents (Elt F) → (⟨S8388608, .i32⟩ : BufTy).Contents (Elt F) → (⟨S8388608, .i1⟩ : BufTy).Contents (Elt F)),
    StableHlo.nullary main_c_1 (constantI S_ 32 8388608#32),
    StableHlo.unary main_c_1 main_v123 (broadcastInDim S8388608 ![] bcast_S_S8388608 : (⟨S_, .i32⟩ : BufTy).Contents (Elt F) → (⟨S8388608, .i32⟩ : BufTy).Contents (Elt F)),
    StableHlo.binary main_arg8 main_v123 main_v124 (addi : (⟨S8388608, .i32⟩ : BufTy).Contents (Elt F) → (⟨S8388608, .i32⟩ : BufTy).Contents (Elt F) → (⟨S8388608, .i32⟩ : BufTy).Contents (Elt F)),
    StableHlo.ternary main_v122 main_v124 main_arg8 main_v125 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v125 main_v126 (broadcastInDim S8388608x1 ![0] bcast_S8388608_S8388608x1_0 : (⟨S8388608, .i32⟩ : BufTy).Contents (Elt F) → (⟨S8388608x1, .i32⟩ : BufTy).Contents (Elt F)),
    StableHlo.binary main_v120 main_v126 main_v127 ((fun x i => Host.gather gather_S8388608_S8388608x1_S8388608_n_0_n_n_0_1_1 x i) : (⟨S8388608, .f32⟩ : BufTy).Contents (Elt F) → (⟨S8388608x1, .i32⟩ : BufTy).Contents (Elt F) → (⟨S8388608, .f32⟩ : BufTy).Contents (Elt F)),
    StableHlo.binary main_v127 main_arg5 main_v128 (mulf : (⟨S8388608, .f32⟩ : BufTy).Contents (Elt F) → (⟨S8388608, .f32⟩ : BufTy).Contents (Elt F) → (⟨S8388608, .f32⟩ : BufTy).Contents (Elt F)),
    StableHlo.reshape main_v128 main_v129 rfl shapeCasts_S8388608_S2x2x2x2x2x2x2x2x2x2x2x2x2x2x2x2x2x2x2x2x2x2x2,
    StableHlo.unary main_v129 main_v130 ((extractStridedSlice S1x2x2x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S1x2x2x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.unary main_v129 main_v131 ((extractStridedSlice S1x2x2x2x2x2x2x2x2x2x2x2x2x2x2x2x2x2x2x2x2x2x2 ![1, 0, 0, 0, 0, 0, 0, 0, 0, 0, 0, 0, 0, 0, 0, 0, 0, 0, 0, 0, 0, 0, 0] · slices_S2x2x2x2x2x2x2x2x2x2x2x2x2x2x2x2x2x2x2x2x2x2x2_S1x2x2x2x2x2x2x2x2x2x2x2x2x2x2x2x2x2x2x2x2x2x2_1_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v130 main_v131 main_v132 (addf : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v130 main_v131 main_v133 (subf : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F)),
    StableHlo.binary main_v132 main_v133 main_v134 ((fun a b => concatenate S2x2x2x2x2x2x2x2x2x2x2x2x2x2x2x2x2x2x2x2x2x2x2 0 [⟨S1x2x2x2x2x2x2x2x2x2x2x2x2x2x2x2x2x2x2x2x2x2x2, a⟩, ⟨S1x2x2x2x2x2x2x2x2x2x2x2x2x2x2x2x2x2x2x2x2x2x2, b⟩] concatenates_S1x2x2x2x2x2x2x2x2x2x2x2x2x2x2x2x2x2x2x2x2x2x2_S1x2x2x2x2x2x2x2x2x2x2x2x2x2x2x2x2x2x2x2x2x2x2_S2x2x2x2x2x2x2x2x2x2x2x2x2x2x2x2x2x2x2x2x2x2x2_d0) : (⟨S1x2x2x2x2x2x2x2x2x2x2x2x2x2x2x2x2x2x2x2x2x2x2, .f32⟩ : BufTy).Contents (Elt F) → (⟨S1x2x2x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v134 main_v135 ((extractStridedSlice S2x1x2x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x1x2x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.unary main_v134 main_v136 ((extractStridedSlice S2x1x2x2x2x2x2x2x2x2x2x2x2x2x2x2x2x2x2x2x2x2x2 ![0, 1, 0, 0, 0, 0, 0, 0, 0, 0, 0, 0, 0, 0, 0, 0, 0, 0, 0, 0, 0, 0, 0] · slices_S2x2x2x2x2x2x2x2x2x2x2x2x2x2x2x2x2x2x2x2x2x2x2_S2x1x2x2x2x2x2x2x2x2x2x2x2x2x2x2x2x2x2x2x2x2x2_0_1_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v135 main_v136 main_v137 (addf : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v135 main_v136 main_v138 (subf : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F)),
    StableHlo.binary main_v137 main_v138 main_v139 ((fun a b => concatenate S2x2x2x2x2x2x2x2x2x2x2x2x2x2x2x2x2x2x2x2x2x2x2 1 [⟨S2x1x2x2x2x2x2x2x2x2x2x2x2x2x2x2x2x2x2x2x2x2x2, a⟩, ⟨S2x1x2x2x2x2x2x2x2x2x2x2x2x2x2x2x2x2x2x2x2x2x2, b⟩] concatenates_S2x1x2x2x2x2x2x2x2x2x2x2x2x2x2x2x2x2x2x2x2x2x2_S2x1x2x2x2x2x2x2x2x2x2x2x2x2x2x2x2x2x2x2x2x2x2_S2x2x2x2x2x2x2x2x2x2x2x2x2x2x2x2x2x2x2x2x2x2x2_d1) : (⟨S2x1x2x2x2x2x2x2x2x2x2x2x2x2x2x2x2x2x2x2x2x2x2, .f32⟩ : BufTy).Contents (Elt F) → (⟨S2x1x2x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v139 main_v140 ((extractStridedSlice S2x2x1x2x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x1x2x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.unary main_v139 main_v141 ((extractStridedSlice S2x2x1x2x2x2x2x2x2x2x2x2x2x2x2x2x2x2x2x2x2x2x2 ![0, 0, 1, 0, 0, 0, 0, 0, 0, 0, 0, 0, 0, 0, 0, 0, 0, 0, 0, 0, 0, 0, 0] · slices_S2x2x2x2x2x2x2x2x2x2x2x2x2x2x2x2x2x2x2x2x2x2x2_S2x2x1x2x2x2x2x2x2x2x2x2x2x2x2x2x2x2x2x2x2x2x2_0_0_1_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v140 main_v141 main_v142 (addf : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v140 main_v141 main_v143 (subf : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F)),
    StableHlo.binary main_v142 main_v143 main_v144 ((fun a b => concatenate S2x2x2x2x2x2x2x2x2x2x2x2x2x2x2x2x2x2x2x2x2x2x2 2 [⟨S2x2x1x2x2x2x2x2x2x2x2x2x2x2x2x2x2x2x2x2x2x2x2, a⟩, ⟨S2x2x1x2x2x2x2x2x2x2x2x2x2x2x2x2x2x2x2x2x2x2x2, b⟩] concatenates_S2x2x1x2x2x2x2x2x2x2x2x2x2x2x2x2x2x2x2x2x2x2x2_S2x2x1x2x2x2x2x2x2x2x2x2x2x2x2x2x2x2x2x2x2x2x2_S2x2x2x2x2x2x2x2x2x2x2x2x2x2x2x2x2x2x2x2x2x2x2_d2) : (⟨S2x2x1x2x2x2x2x2x2x2x2x2x2x2x2x2x2x2x2x2x2x2x2, .f32⟩ : BufTy).Contents (Elt F) → (⟨S2x2x1x2x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v144 main_v145 ((extractStridedSlice S2x2x2x1x2x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x1x2x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.unary main_v144 main_v146 ((extractStridedSlice S2x2x2x1x2x2x2x2x2x2x2x2x2x2x2x2x2x2x2x2x2x2x2 ![0, 0, 0, 1, 0, 0, 0, 0, 0, 0, 0, 0, 0, 0, 0, 0, 0, 0, 0, 0, 0, 0, 0] · slices_S2x2x2x2x2x2x2x2x2x2x2x2x2x2x2x2x2x2x2x2x2x2x2_S2x2x2x1x2x2x2x2x2x2x2x2x2x2x2x2x2x2x2x2x2x2x2_0_0_0_1_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v145 main_v146 main_v147 (addf : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v145 main_v146 main_v148 (subf : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F)),
    StableHlo.binary main_v147 main_v148 main_v149 ((fun a b => concatenate S2x2x2x2x2x2x2x2x2x2x2x2x2x2x2x2x2x2x2x2x2x2x2 3 [⟨S2x2x2x1x2x2x2x2x2x2x2x2x2x2x2x2x2x2x2x2x2x2x2, a⟩, ⟨S2x2x2x1x2x2x2x2x2x2x2x2x2x2x2x2x2x2x2x2x2x2x2, b⟩] concatenates_S2x2x2x1x2x2x2x2x2x2x2x2x2x2x2x2x2x2x2x2x2x2x2_S2x2x2x1x2x2x2x2x2x2x2x2x2x2x2x2x2x2x2x2x2x2x2_S2x2x2x2x2x2x2x2x2x2x2x2x2x2x2x2x2x2x2x2x2x2x2_d3) : (⟨S2x2x2x1x2x2x2x2x2x2x2x2x2x2x2x2x2x2x2x2x2x2x2, .f32⟩ : BufTy).Contents (Elt F) → (⟨S2x2x2x1x2x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v149 main_v150 ((extractStridedSlice S2x2x2x2x1x2x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x1x2x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.unary main_v149 main_v151 ((extractStridedSlice S2x2x2x2x1x2x2x2x2x2x2x2x2x2x2x2x2x2x2x2x2x2x2 ![0, 0, 0, 0, 1, 0, 0, 0, 0, 0, 0, 0, 0, 0, 0, 0, 0, 0, 0, 0, 0, 0, 0] · slices_S2x2x2x2x2x2x2x2x2x2x2x2x2x2x2x2x2x2x2x2x2x2x2_S2x2x2x2x1x2x2x2x2x2x2x2x2x2x2x2x2x2x2x2x2x2x2_0_0_0_0_1_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v150 main_v151 main_v152 (addf : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v150 main_v151 main_v153 (subf : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F)),
    StableHlo.binary main_v152 main_v153 main_v154 ((fun a b => concatenate S2x2x2x2x2x2x2x2x2x2x2x2x2x2x2x2x2x2x2x2x2x2x2 4 [⟨S2x2x2x2x1x2x2x2x2x2x2x2x2x2x2x2x2x2x2x2x2x2x2, a⟩, ⟨S2x2x2x2x1x2x2x2x2x2x2x2x2x2x2x2x2x2x2x2x2x2x2, b⟩] concatenates_S2x2x2x2x1x2x2x2x2x2x2x2x2x2x2x2x2x2x2x2x2x2x2_S2x2x2x2x1x2x2x2x2x2x2x2x2x2x2x2x2x2x2x2x2x2x2_S2x2x2x2x2x2x2x2x2x2x2x2x2x2x2x2x2x2x2x2x2x2x2_d4) : (⟨S2x2x2x2x1x2x2x2x2x2x2x2x2x2x2x2x2x2x2x2x2x2x2, .f32⟩ : BufTy).Contents (Elt F) → (⟨S2x2x2x2x1x2x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v154 main_v155 ((extractStridedSlice S2x2x2x2x2x1x2x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x1x2x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.unary main_v154 main_v156 ((extractStridedSlice S2x2x2x2x2x1x2x2x2x2x2x2x2x2x2x2x2x2x2x2x2x2x2 ![0, 0, 0, 0, 0, 1, 0, 0, 0, 0, 0, 0, 0, 0, 0, 0, 0, 0, 0, 0, 0, 0, 0] · slices_S2x2x2x2x2x2x2x2x2x2x2x2x2x2x2x2x2x2x2x2x2x2x2_S2x2x2x2x2x1x2x2x2x2x2x2x2x2x2x2x2x2x2x2x2x2x2_0_0_0_0_0_1_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v155 main_v156 main_v157 (addf : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v155 main_v156 main_v158 (subf : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F)),
    StableHlo.binary main_v157 main_v158 main_v159 ((fun a b => concatenate S2x2x2x2x2x2x2x2x2x2x2x2x2x2x2x2x2x2x2x2x2x2x2 5 [⟨S2x2x2x2x2x1x2x2x2x2x2x2x2x2x2x2x2x2x2x2x2x2x2, a⟩, ⟨S2x2x2x2x2x1x2x2x2x2x2x2x2x2x2x2x2x2x2x2x2x2x2, b⟩] concatenates_S2x2x2x2x2x1x2x2x2x2x2x2x2x2x2x2x2x2x2x2x2x2x2_S2x2x2x2x2x1x2x2x2x2x2x2x2x2x2x2x2x2x2x2x2x2x2_S2x2x2x2x2x2x2x2x2x2x2x2x2x2x2x2x2x2x2x2x2x2x2_d5) : (⟨S2x2x2x2x2x1x2x2x2x2x2x2x2x2x2x2x2x2x2x2x2x2x2, .f32⟩ : BufTy).Contents (Elt F) → (⟨S2x2x2x2x2x1x2x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v159 main_v160 ((extractStridedSlice S2x2x2x2x2x2x1x2x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x1x2x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.unary main_v159 main_v161 ((extractStridedSlice S2x2x2x2x2x2x1x2x2x2x2x2x2x2x2x2x2x2x2x2x2x2x2 ![0, 0, 0, 0, 0, 0, 1, 0, 0, 0, 0, 0, 0, 0, 0, 0, 0, 0, 0, 0, 0, 0, 0] · slices_S2x2x2x2x2x2x2x2x2x2x2x2x2x2x2x2x2x2x2x2x2x2x2_S2x2x2x2x2x2x1x2x2x2x2x2x2x2x2x2x2x2x2x2x2x2x2_0_0_0_0_0_0_1_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v160 main_v161 main_v162 (addf : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v160 main_v161 main_v163 (subf : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F)),
    StableHlo.binary main_v162 main_v163 main_v164 ((fun a b => concatenate S2x2x2x2x2x2x2x2x2x2x2x2x2x2x2x2x2x2x2x2x2x2x2 6 [⟨S2x2x2x2x2x2x1x2x2x2x2x2x2x2x2x2x2x2x2x2x2x2x2, a⟩, ⟨S2x2x2x2x2x2x1x2x2x2x2x2x2x2x2x2x2x2x2x2x2x2x2, b⟩] concatenates_S2x2x2x2x2x2x1x2x2x2x2x2x2x2x2x2x2x2x2x2x2x2x2_S2x2x2x2x2x2x1x2x2x2x2x2x2x2x2x2x2x2x2x2x2x2x2_S2x2x2x2x2x2x2x2x2x2x2x2x2x2x2x2x2x2x2x2x2x2x2_d6) : (⟨S2x2x2x2x2x2x1x2x2x2x2x2x2x2x2x2x2x2x2x2x2x2x2, .f32⟩ : BufTy).Contents (Elt F) → (⟨S2x2x2x2x2x2x1x2x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v164 main_v165 ((extractStridedSlice S2x2x2x2x2x2x2x1x2x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x1x2x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.unary main_v164 main_v166 ((extractStridedSlice S2x2x2x2x2x2x2x1x2x2x2x2x2x2x2x2x2x2x2x2x2x2x2 ![0, 0, 0, 0, 0, 0, 0, 1, 0, 0, 0, 0, 0, 0, 0, 0, 0, 0, 0, 0, 0, 0, 0] · slices_S2x2x2x2x2x2x2x2x2x2x2x2x2x2x2x2x2x2x2x2x2x2x2_S2x2x2x2x2x2x2x1x2x2x2x2x2x2x2x2x2x2x2x2x2x2x2_0_0_0_0_0_0_0_1_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v165 main_v166 main_v167 (addf : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v165 main_v166 main_v168 (subf : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F)),
    StableHlo.binary main_v167 main_v168 main_v169 ((fun a b => concatenate S2x2x2x2x2x2x2x2x2x2x2x2x2x2x2x2x2x2x2x2x2x2x2 7 [⟨S2x2x2x2x2x2x2x1x2x2x2x2x2x2x2x2x2x2x2x2x2x2x2, a⟩, ⟨S2x2x2x2x2x2x2x1x2x2x2x2x2x2x2x2x2x2x2x2x2x2x2, b⟩] concatenates_S2x2x2x2x2x2x2x1x2x2x2x2x2x2x2x2x2x2x2x2x2x2x2_S2x2x2x2x2x2x2x1x2x2x2x2x2x2x2x2x2x2x2x2x2x2x2_S2x2x2x2x2x2x2x2x2x2x2x2x2x2x2x2x2x2x2x2x2x2x2_d7) : (⟨S2x2x2x2x2x2x2x1x2x2x2x2x2x2x2x2x2x2x2x2x2x2x2, .f32⟩ : BufTy).Contents (Elt F) → (⟨S2x2x2x2x2x2x2x1x2x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v169 main_v170 ((extractStridedSlice S2x2x2x2x2x2x2x2x1x2x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x1x2x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.unary main_v169 main_v171 ((extractStridedSlice S2x2x2x2x2x2x2x2x1x2x2x2x2x2x2x2x2x2x2x2x2x2x2 ![0, 0, 0, 0, 0, 0, 0, 0, 1, 0, 0, 0, 0, 0, 0, 0, 0, 0, 0, 0, 0, 0, 0] · slices_S2x2x2x2x2x2x2x2x2x2x2x2x2x2x2x2x2x2x2x2x2x2x2_S2x2x2x2x2x2x2x2x1x2x2x2x2x2x2x2x2x2x2x2x2x2x2_0_0_0_0_0_0_0_0_1_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v170 main_v171 main_v172 (addf : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v170 main_v171 main_v173 (subf : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F)),
    StableHlo.binary main_v172 main_v173 main_v174 ((fun a b => concatenate S2x2x2x2x2x2x2x2x2x2x2x2x2x2x2x2x2x2x2x2x2x2x2 8 [⟨S2x2x2x2x2x2x2x2x1x2x2x2x2x2x2x2x2x2x2x2x2x2x2, a⟩, ⟨S2x2x2x2x2x2x2x2x1x2x2x2x2x2x2x2x2x2x2x2x2x2x2, b⟩] concatenates_S2x2x2x2x2x2x2x2x1x2x2x2x2x2x2x2x2x2x2x2x2x2x2_S2x2x2x2x2x2x2x2x1x2x2x2x2x2x2x2x2x2x2x2x2x2x2_S2x2x2x2x2x2x2x2x2x2x2x2x2x2x2x2x2x2x2x2x2x2x2_d8) : (⟨S2x2x2x2x2x2x2x2x1x2x2x2x2x2x2x2x2x2x2x2x2x2x2, .f32⟩ : BufTy).Contents (Elt F) → (⟨S2x2x2x2x2x2x2x2x1x2x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v174 main_v175 ((extractStridedSlice S2x2x2x2x2x2x2x2x2x1x2x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x1x2x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x1x2x2x2x2x2x2x2x2x2x2x2x2x2, .f32⟩ : BufTy).Contents (Elt F)) ]

/-- The program's operations 181 … 240 of 418. -/
abbrev ops_part3 : List (HloOp τ sig (Elt F)) :=
  [ StableHlo.unary main_v174 main_v176 ((extractStridedSlice S2x2x2x2x2x2x2x2x2x1x2x2x2x2x2x2x2x2x2x2x2x2x2 ![0, 0, 0, 0, 0, 0, 0, 0, 0, 1, 0, 0, 0, 0, 0, 0, 0, 0, 0, 0, 0, 0, 0] · slices_S2x2x2x2x2x2x2x2x2x2x2x2x2x2x2x2x2x2x2x2x2x2x2_S2x2x2x2x2x2x2x2x2x1x2x2x2x2x2x2x2x2x2x2x2x2x2_0_0_0_0_0_0_0_0_0_1_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v175 main_v176 main_v177 (addf : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v175 main_v176 main_v178 (subf : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F)),
    StableHlo.binary main_v177 main_v178 main_v179 ((fun a b => concatenate S2x2x2x2x2x2x2x2x2x2x2x2x2x2x2x2x2x2x2x2x2x2x2 9 [⟨S2x2x2x2x2x2x2x2x2x1x2x2x2x2x2x2x2x2x2x2x2x2x2, a⟩, ⟨S2x2x2x2x2x2x2x2x2x1x2x2x2x2x2x2x2x2x2x2x2x2x2, b⟩] concatenates_S2x2x2x2x2x2x2x2x2x1x2x2x2x2x2x2x2x2x2x2x2x2x2_S2x2x2x2x2x2x2x2x2x1x2x2x2x2x2x2x2x2x2x2x2x2x2_S2x2x2x2x2x2x2x2x2x2x2x2x2x2x2x2x2x2x2x2x2x2x2_d9) : (⟨S2x2x2x2x2x2x2x2x2x1x2x2x2x2x2x2x2x2x2x2x2x2x2, .f32⟩ : BufTy).Contents (Elt F) → (⟨S2x2x2x2x2x2x2x2x2x1x2x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v179 main_v180 ((extractStridedSlice S2x2x2x2x2x2x2x2x2x2x1x2x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x1x2x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.unary main_v179 main_v181 ((extractStridedSlice S2x2x2x2x2x2x2x2x2x2x1x2x2x2x2x2x2x2x2x2x2x2x2 ![0, 0, 0, 0, 0, 0, 0, 0, 0, 0, 1, 0, 0, 0, 0, 0, 0, 0, 0, 0, 0, 0, 0] · slices_S2x2x2x2x2x2x2x2x2x2x2x2x2x2x2x2x2x2x2x2x2x2x2_S2x2x2x2x2x2x2x2x2x2x1x2x2x2x2x2x2x2x2x2x2x2x2_0_0_0_0_0_0_0_0_0_0_1_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.binary main_v180 main_v181 main_v182 (addf : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.binary main_v180 main_v181 main_v183 (subf : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F)),
    StableHlo.binary main_v182 main_v183 main_v184 ((fun a b => concatenate S2x2x2x2x2x2x2x2x2x2x2x2x2x2x2x2x2x2x2x2x2x2x2 10 [⟨S2x2x2x2x2x2x2x2x2x2x1x2x2x2x2x2x2x2x2x2x2x2x2, a⟩, ⟨S2x2x2x2x2x2x2x2x2x2x1x2x2x2x2x2x2x2x2x2x2x2x2, b⟩] concatenates_S2x2x2x2x2x2x2x2x2x2x1x2x2x2x2x2x2x2x2x2x2x2x2_S2x2x2x2x2x2x2x2x2x2x1x2x2x2x2x2x2x2x2x2x2x2x2_S2x2x2x2x2x2x2x2x2x2x2x2x2x2x2x2x2x2x2x2x2x2x2_d10) : (⟨S2x2x2x2x2x2x2x2x2x2x1x2x2x2x2x2x2x2x2x2x2x2x2, .f32⟩ : BufTy).Contents (Elt F) → (⟨S2x2x2x2x2x2x2x2x2x2x1x2x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v184 main_v185 ((extractStridedSlice S2x2x2x2x2x2x2x2x2x2x2x1x2x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x1x2x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.unary main_v184 main_v186 ((extractStridedSlice S2x2x2x2x2x2x2x2x2x2x2x1x2x2x2x2x2x2x2x2x2x2x2 ![0, 0, 0, 0, 0, 0, 0, 0, 0, 0, 0, 1, 0, 0, 0, 0, 0, 0, 0, 0, 0, 0, 0] · slices_S2x2x2x2x2x2x2x2x2x2x2x2x2x2x2x2x2x2x2x2x2x2x2_S2x2x2x2x2x2x2x2x2x2x2x1x2x2x2x2x2x2x2x2x2x2x2_0_0_0_0_0_0_0_0_0_0_0_1_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v185 main_v186 main_v187 (addf : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v185 main_v186 main_v188 (subf : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F)),
    StableHlo.binary main_v187 main_v188 main_v189 ((fun a b => concatenate S2x2x2x2x2x2x2x2x2x2x2x2x2x2x2x2x2x2x2x2x2x2x2 11 [⟨S2x2x2x2x2x2x2x2x2x2x2x1x2x2x2x2x2x2x2x2x2x2x2, a⟩, ⟨S2x2x2x2x2x2x2x2x2x2x2x1x2x2x2x2x2x2x2x2x2x2x2, b⟩] concatenates_S2x2x2x2x2x2x2x2x2x2x2x1x2x2x2x2x2x2x2x2x2x2x2_S2x2x2x2x2x2x2x2x2x2x2x1x2x2x2x2x2x2x2x2x2x2x2_S2x2x2x2x2x2x2x2x2x2x2x2x2x2x2x2x2x2x2x2x2x2x2_d11) : (⟨S2x2x2x2x2x2x2x2x2x2x2x1x2x2x2x2x2x2x2x2x2x2x2, .f32⟩ : BufTy).Contents (Elt F) → (⟨S2x2x2x2x2x2x2x2x2x2x2x1x2x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v189 main_v190 ((extractStridedSlice S2x2x2x2x2x2x2x2x2x2x2x2x1x2x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x1x2x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.unary main_v189 main_v191 ((extractStridedSlice S2x2x2x2x2x2x2x2x2x2x2x2x1x2x2x2x2x2x2x2x2x2x2 ![0, 0, 0, 0, 0, 0, 0, 0, 0, 0, 0, 0, 1, 0, 0, 0, 0, 0, 0, 0, 0, 0, 0] · slices_S2x2x2x2x2x2x2x2x2x2x2x2x2x2x2x2x2x2x2x2x2x2x2_S2x2x2x2x2x2x2x2x2x2x2x2x1x2x2x2x2x2x2x2x2x2x2_0_0_0_0_0_0_0_0_0_0_0_0_1_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v190 main_v191 main_v192 (addf : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v190 main_v191 main_v193 (subf : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F)),
    StableHlo.binary main_v192 main_v193 main_v194 ((fun a b => concatenate S2x2x2x2x2x2x2x2x2x2x2x2x2x2x2x2x2x2x2x2x2x2x2 12 [⟨S2x2x2x2x2x2x2x2x2x2x2x2x1x2x2x2x2x2x2x2x2x2x2, a⟩, ⟨S2x2x2x2x2x2x2x2x2x2x2x2x1x2x2x2x2x2x2x2x2x2x2, b⟩] concatenates_S2x2x2x2x2x2x2x2x2x2x2x2x1x2x2x2x2x2x2x2x2x2x2_S2x2x2x2x2x2x2x2x2x2x2x2x1x2x2x2x2x2x2x2x2x2x2_S2x2x2x2x2x2x2x2x2x2x2x2x2x2x2x2x2x2x2x2x2x2x2_d12) : (⟨S2x2x2x2x2x2x2x2x2x2x2x2x1x2x2x2x2x2x2x2x2x2x2, .f32⟩ : BufTy).Contents (Elt F) → (⟨S2x2x2x2x2x2x2x2x2x2x2x2x1x2x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v194 main_v195 ((extractStridedSlice S2x2x2x2x2x2x2x2x2x2x2x2x2x1x2x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x1x2x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x1x2x2x2x2x2x2x2x2x2, .f32⟩ : BufTy).Contents (Elt F)),
    StableHlo.unary main_v194 main_v196 ((extractStridedSlice S2x2x2x2x2x2x2x2x2x2x2x2x2x1x2x2x2x2x2x2x2x2x2 ![0, 0, 0, 0, 0, 0, 0, 0, 0, 0, 0, 0, 0, 1, 0, 0, 0, 0, 0, 0, 0, 0, 0] · slices_S2x2x2x2x2x2x2x2x2x2x2x2x2x2x2x2x2x2x2x2x2x2x2_S2x2x2x2x2x2x2x2x2x2x2x2x2x1x2x2x2x2x2x2x2x2x2_0_0_0_0_0_0_0_0_0_0_0_0_0_1_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v195 main_v196 main_v197 (addf : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v195 main_v196 main_v198 (subf : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F)),
    StableHlo.binary main_v197 main_v198 main_v199 ((fun a b => concatenate S2x2x2x2x2x2x2x2x2x2x2x2x2x2x2x2x2x2x2x2x2x2x2 13 [⟨S2x2x2x2x2x2x2x2x2x2x2x2x2x1x2x2x2x2x2x2x2x2x2, a⟩, ⟨S2x2x2x2x2x2x2x2x2x2x2x2x2x1x2x2x2x2x2x2x2x2x2, b⟩] concatenates_S2x2x2x2x2x2x2x2x2x2x2x2x2x1x2x2x2x2x2x2x2x2x2_S2x2x2x2x2x2x2x2x2x2x2x2x2x1x2x2x2x2x2x2x2x2x2_S2x2x2x2x2x2x2x2x2x2x2x2x2x2x2x2x2x2x2x2x2x2x2_d13) : (⟨S2x2x2x2x2x2x2x2x2x2x2x2x2x1x2x2x2x2x2x2x2x2x2, .f32⟩ : BufTy).Contents (Elt F) → (⟨S2x2x2x2x2x2x2x2x2x2x2x2x2x1x2x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v199 main_v200 ((extractStridedSlice S2x2x2x2x2x2x2x2x2x2x2x2x2x2x1x2x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x1x2x2x2x2x2x2x2x2, .f32⟩ : BufTy).Contents (Elt F)),
    StableHlo.unary main_v199 main_v201 ((extractStridedSlice S2x2x2x2x2x2x2x2x2x2x2x2x2x2x1x2x2x2x2x2x2x2x2 ![0, 0, 0, 0, 0, 0, 0, 0, 0, 0, 0, 0, 0, 0, 1, 0, 0, 0, 0, 0, 0, 0, 0] · slices_S2x2x2x2x2x2x2x2x2x2x2x2x2x2x2x2x2x2x2x2x2x2x2_S2x2x2x2x2x2x2x2x2x2x2x2x2x2x1x2x2x2x2x2x2x2x2_0_0_0_0_0_0_0_0_0_0_0_0_0_0_1_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v200 main_v201 main_v202 (addf : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v200 main_v201 main_v203 (subf : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F)),
    StableHlo.binary main_v202 main_v203 main_v204 ((fun a b => concatenate S2x2x2x2x2x2x2x2x2x2x2x2x2x2x2x2x2x2x2x2x2x2x2 14 [⟨S2x2x2x2x2x2x2x2x2x2x2x2x2x2x1x2x2x2x2x2x2x2x2, a⟩, ⟨S2x2x2x2x2x2x2x2x2x2x2x2x2x2x1x2x2x2x2x2x2x2x2, b⟩] concatenates_S2x2x2x2x2x2x2x2x2x2x2x2x2x2x1x2x2x2x2x2x2x2x2_S2x2x2x2x2x2x2x2x2x2x2x2x2x2x1x2x2x2x2x2x2x2x2_S2x2x2x2x2x2x2x2x2x2x2x2x2x2x2x2x2x2x2x2x2x2x2_d14) : (⟨S2x2x2x2x2x2x2x2x2x2x2x2x2x2x1x2x2x2x2x2x2x2x2, .f32⟩ : BufTy).Contents (Elt F) → (⟨S2x2x2x2x2x2x2x2x2x2x2x2x2x2x1x2x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v204 main_v205 ((extractStridedSlice S2x2x2x2x2x2x2x2x2x2x2x2x2x2x2x1x2x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x1x2x2x2x2x2x2x2, .f32⟩ : BufTy).Contents (Elt F)),
    StableHlo.unary main_v204 main_v206 ((extractStridedSlice S2x2x2x2x2x2x2x2x2x2x2x2x2x2x2x1x2x2x2x2x2x2x2 ![0, 0, 0, 0, 0, 0, 0, 0, 0, 0, 0, 0, 0, 0, 0, 1, 0, 0, 0, 0, 0, 0, 0] · slices_S2x2x2x2x2x2x2x2x2x2x2x2x2x2x2x2x2x2x2x2x2x2x2_S2x2x2x2x2x2x2x2x2x2x2x2x2x2x2x1x2x2x2x2x2x2x2_0_0_0_0_0_0_0_0_0_0_0_0_0_0_0_1_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v205 main_v206 main_v207 (addf : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v205 main_v206 main_v208 (subf : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F)),
    StableHlo.binary main_v207 main_v208 main_v209 ((fun a b => concatenate S2x2x2x2x2x2x2x2x2x2x2x2x2x2x2x2x2x2x2x2x2x2x2 15 [⟨S2x2x2x2x2x2x2x2x2x2x2x2x2x2x2x1x2x2x2x2x2x2x2, a⟩, ⟨S2x2x2x2x2x2x2x2x2x2x2x2x2x2x2x1x2x2x2x2x2x2x2, b⟩] concatenates_S2x2x2x2x2x2x2x2x2x2x2x2x2x2x2x1x2x2x2x2x2x2x2_S2x2x2x2x2x2x2x2x2x2x2x2x2x2x2x1x2x2x2x2x2x2x2_S2x2x2x2x2x2x2x2x2x2x2x2x2x2x2x2x2x2x2x2x2x2x2_d15) : (⟨S2x2x2x2x2x2x2x2x2x2x2x2x2x2x2x1x2x2x2x2x2x2x2, .f32⟩ : BufTy).Contents (Elt F) → (⟨S2x2x2x2x2x2x2x2x2x2x2x2x2x2x2x1x2x2x2x2x2x2x2, .f32⟩ : BufTy).Contents (Elt F) → (⟨S2x2x2x2x2x2x2x2x2x2x2x2x2x2x2x2x2x2x2x2x2x2x2, .f32⟩ : BufTy).Contents (Elt F)),
    StableHlo.unary main_v209 main_v210 ((extractStridedSlice S2x2x2x2x2x2x2x2x2x2x2x2x2x2x2x2x1x2x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x1x2x2x2x2x2x2, .f32⟩ : BufTy).Contents (Elt F)),
    StableHlo.unary main_v209 main_v211 ((extractStridedSlice S2x2x2x2x2x2x2x2x2x2x2x2x2x2x2x2x1x2x2x2x2x2x2 ![0, 0, 0, 0, 0, 0, 0, 0, 0, 0, 0, 0, 0, 0, 0, 0, 1, 0, 0, 0, 0, 0, 0] · slices_S2x2x2x2x2x2x2x2x2x2x2x2x2x2x2x2x2x2x2x2x2x2x2_S2x2x2x2x2x2x2x2x2x2x2x2x2x2x2x2x1x2x2x2x2x2x2_0_0_0_0_0_0_0_0_0_0_0_0_0_0_0_0_1_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x1x2x2x2x2x2x2, .f32⟩ : BufTy).Contents (Elt F)),
    StableHlo.binary main_v210 main_v211 main_v212 (addf : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F)),
    StableHlo.binary main_v210 main_v211 main_v213 (subf : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F)),
    StableHlo.binary main_v212 main_v213 main_v214 ((fun a b => concatenate S2x2x2x2x2x2x2x2x2x2x2x2x2x2x2x2x2x2x2x2x2x2x2 16 [⟨S2x2x2x2x2x2x2x2x2x2x2x2x2x2x2x2x1x2x2x2x2x2x2, a⟩, ⟨S2x2x2x2x2x2x2x2x2x2x2x2x2x2x2x2x1x2x2x2x2x2x2, b⟩] concatenates_S2x2x2x2x2x2x2x2x2x2x2x2x2x2x2x2x1x2x2x2x2x2x2_S2x2x2x2x2x2x2x2x2x2x2x2x2x2x2x2x1x2x2x2x2x2x2_S2x2x2x2x2x2x2x2x2x2x2x2x2x2x2x2x2x2x2x2x2x2x2_d16) : (⟨S2x2x2x2x2x2x2x2x2x2x2x2x2x2x2x2x1x2x2x2x2x2x2, .f32⟩ : BufTy).Contents (Elt F) → (⟨S2x2x2x2x2x2x2x2x2x2x2x2x2x2x2x2x1x2x2x2x2x2x2, .f32⟩ : BufTy).Contents (Elt F) → (⟨S2x2x2x2x2x2x2x2x2x2x2x2x2x2x2x2x2x2x2x2x2x2x2, .f32⟩ : BufTy).Contents (Elt F)),
    StableHlo.unary main_v214 main_v215 ((extractStridedSlice S2x2x2x2x2x2x2x2x2x2x2x2x2x2x2x2x2x1x2x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x1x2x2x2x2x2, .f32⟩ : BufTy).Contents (Elt F)),
    StableHlo.unary main_v214 main_v216 ((extractStridedSlice S2x2x2x2x2x2x2x2x2x2x2x2x2x2x2x2x2x1x2x2x2x2x2 ![0, 0, 0, 0, 0, 0, 0, 0, 0, 0, 0, 0, 0, 0, 0, 0, 0, 1, 0, 0, 0, 0, 0] · slices_S2x2x2x2x2x2x2x2x2x2x2x2x2x2x2x2x2x2x2x2x2x2x2_S2x2x2x2x2x2x2x2x2x2x2x2x2x2x2x2x2x1x2x2x2x2x2_0_0_0_0_0_0_0_0_0_0_0_0_0_0_0_0_0_1_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x1x2x2x2x2x2, .f32⟩ : BufTy).Contents (Elt F)),
    StableHlo.binary main_v215 main_v216 main_v217 (addf : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F)),
    StableHlo.binary main_v215 main_v216 main_v218 (subf : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F)),
    StableHlo.binary main_v217 main_v218 main_v219 ((fun a b => concatenate S2x2x2x2x2x2x2x2x2x2x2x2x2x2x2x2x2x2x2x2x2x2x2 17 [⟨S2x2x2x2x2x2x2x2x2x2x2x2x2x2x2x2x2x1x2x2x2x2x2, a⟩, ⟨S2x2x2x2x2x2x2x2x2x2x2x2x2x2x2x2x2x1x2x2x2x2x2, b⟩] concatenates_S2x2x2x2x2x2x2x2x2x2x2x2x2x2x2x2x2x1x2x2x2x2x2_S2x2x2x2x2x2x2x2x2x2x2x2x2x2x2x2x2x1x2x2x2x2x2_S2x2x2x2x2x2x2x2x2x2x2x2x2x2x2x2x2x2x2x2x2x2x2_d17) : (⟨S2x2x2x2x2x2x2x2x2x2x2x2x2x2x2x2x2x1x2x2x2x2x2, .f32⟩ : BufTy).Contents (Elt F) → (⟨S2x2x2x2x2x2x2x2x2x2x2x2x2x2x2x2x2x1x2x2x2x2x2, .f32⟩ : BufTy).Contents (Elt F) → (⟨S2x2x2x2x2x2x2x2x2x2x2x2x2x2x2x2x2x2x2x2x2x2x2, .f32⟩ : BufTy).Contents (Elt F)),
    StableHlo.unary main_v219 main_v220 ((extractStridedSlice S2x2x2x2x2x2x2x2x2x2x2x2x2x2x2x2x2x2x1x2x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x1x2x2x2x2, .f32⟩ : BufTy).Contents (Elt F)),
    StableHlo.unary main_v219 main_v221 ((extractStridedSlice S2x2x2x2x2x2x2x2x2x2x2x2x2x2x2x2x2x2x1x2x2x2x2 ![0, 0, 0, 0, 0, 0, 0, 0, 0, 0, 0, 0, 0, 0, 0, 0, 0, 0, 1, 0, 0, 0, 0] · slices_S2x2x2x2x2x2x2x2x2x2x2x2x2x2x2x2x2x2x2x2x2x2x2_S2x2x2x2x2x2x2x2x2x2x2x2x2x2x2x2x2x2x1x2x2x2x2_0_0_0_0_0_0_0_0_0_0_0_0_0_0_0_0_0_0_1_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x1x2x2x2x2, .f32⟩ : BufTy).Contents (Elt F)),
    StableHlo.binary main_v220 main_v221 main_v222 (addf : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F)),
    StableHlo.binary main_v220 main_v221 main_v223 (subf : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F)),
    StableHlo.binary main_v222 main_v223 main_v224 ((fun a b => concatenate S2x2x2x2x2x2x2x2x2x2x2x2x2x2x2x2x2x2x2x2x2x2x2 18 [⟨S2x2x2x2x2x2x2x2x2x2x2x2x2x2x2x2x2x2x1x2x2x2x2, a⟩, ⟨S2x2x2x2x2x2x2x2x2x2x2x2x2x2x2x2x2x2x1x2x2x2x2, b⟩] concatenates_S2x2x2x2x2x2x2x2x2x2x2x2x2x2x2x2x2x2x1x2x2x2x2_S2x2x2x2x2x2x2x2x2x2x2x2x2x2x2x2x2x2x1x2x2x2x2_S2x2x2x2x2x2x2x2x2x2x2x2x2x2x2x2x2x2x2x2x2x2x2_d18) : (⟨S2x2x2x2x2x2x2x2x2x2x2x2x2x2x2x2x2x2x1x2x2x2x2, .f32⟩ : BufTy).Contents (Elt F) → (⟨S2x2x2x2x2x2x2x2x2x2x2x2x2x2x2x2x2x2x1x2x2x2x2, .f32⟩ : BufTy).Contents (Elt F) → (⟨S2x2x2x2x2x2x2x2x2x2x2x2x2x2x2x2x2x2x2x2x2x2x2, .f32⟩ : BufTy).Contents (Elt F)),
    StableHlo.unary main_v224 main_v225 ((extractStridedSlice S2x2x2x2x2x2x2x2x2x2x2x2x2x2x2x2x2x2x2x1x2x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x1x2x2x2, .f32⟩ : BufTy).Contents (Elt F)),
    StableHlo.unary main_v224 main_v226 ((extractStridedSlice S2x2x2x2x2x2x2x2x2x2x2x2x2x2x2x2x2x2x2x1x2x2x2 ![0, 0, 0, 0, 0, 0, 0, 0, 0, 0, 0, 0, 0, 0, 0, 0, 0, 0, 0, 1, 0, 0, 0] · slices_S2x2x2x2x2x2x2x2x2x2x2x2x2x2x2x2x2x2x2x2x2x2x2_S2x2x2x2x2x2x2x2x2x2x2x2x2x2x2x2x2x2x2x1x2x2x2_0_0_0_0_0_0_0_0_0_0_0_0_0_0_0_0_0_0_0_1_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x1x2x2x2, .f32⟩ : BufTy).Contents (Elt F)),
    StableHlo.binary main_v225 main_v226 main_v227 (addf : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F)),
    StableHlo.binary main_v225 main_v226 main_v228 (subf : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F)),
    StableHlo.binary main_v227 main_v228 main_v229 ((fun a b => concatenate S2x2x2x2x2x2x2x2x2x2x2x2x2x2x2x2x2x2x2x2x2x2x2 19 [⟨S2x2x2x2x2x2x2x2x2x2x2x2x2x2x2x2x2x2x2x1x2x2x2, a⟩, ⟨S2x2x2x2x2x2x2x2x2x2x2x2x2x2x2x2x2x2x2x1x2x2x2, b⟩] concatenates_S2x2x2x2x2x2x2x2x2x2x2x2x2x2x2x2x2x2x2x1x2x2x2_S2x2x2x2x2x2x2x2x2x2x2x2x2x2x2x2x2x2x2x1x2x2x2_S2x2x2x2x2x2x2x2x2x2x2x2x2x2x2x2x2x2x2x2x2x2x2_d19) : (⟨S2x2x2x2x2x2x2x2x2x2x2x2x2x2x2x2x2x2x2x1x2x2x2, .f32⟩ : BufTy).Contents (Elt F) → (⟨S2x2x2x2x2x2x2x2x2x2x2x2x2x2x2x2x2x2x2x1x2x2x2, .f32⟩ : BufTy).Contents (Elt F) → (⟨S2x2x2x2x2x2x2x2x2x2x2x2x2x2x2x2x2x2x2x2x2x2x2, .f32⟩ : BufTy).Contents (Elt F)),
    StableHlo.unary main_v229 main_v230 ((extractStridedSlice S2x2x2x2x2x2x2x2x2x2x2x2x2x2x2x2x2x2x2x2x1x2x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x1x2x2, .f32⟩ : BufTy).Contents (Elt F)),
    StableHlo.unary main_v229 main_v231 ((extractStridedSlice S2x2x2x2x2x2x2x2x2x2x2x2x2x2x2x2x2x2x2x2x1x2x2 ![0, 0, 0, 0, 0, 0, 0, 0, 0, 0, 0, 0, 0, 0, 0, 0, 0, 0, 0, 0, 1, 0, 0] · slices_S2x2x2x2x2x2x2x2x2x2x2x2x2x2x2x2x2x2x2x2x2x2x2_S2x2x2x2x2x2x2x2x2x2x2x2x2x2x2x2x2x2x2x2x1x2x2_0_0_0_0_0_0_0_0_0_0_0_0_0_0_0_0_0_0_0_0_1_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x1x2x2, .f32⟩ : BufTy).Contents (Elt F)),
    StableHlo.binary main_v230 main_v231 main_v232 (addf : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F)),
    StableHlo.binary main_v230 main_v231 main_v233 (subf : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F)),
    StableHlo.binary main_v232 main_v233 main_v234 ((fun a b => concatenate S2x2x2x2x2x2x2x2x2x2x2x2x2x2x2x2x2x2x2x2x2x2x2 20 [⟨S2x2x2x2x2x2x2x2x2x2x2x2x2x2x2x2x2x2x2x2x1x2x2, a⟩, ⟨S2x2x2x2x2x2x2x2x2x2x2x2x2x2x2x2x2x2x2x2x1x2x2, b⟩] concatenates_S2x2x2x2x2x2x2x2x2x2x2x2x2x2x2x2x2x2x2x2x1x2x2_S2x2x2x2x2x2x2x2x2x2x2x2x2x2x2x2x2x2x2x2x1x2x2_S2x2x2x2x2x2x2x2x2x2x2x2x2x2x2x2x2x2x2x2x2x2x2_d20) : (⟨S2x2x2x2x2x2x2x2x2x2x2x2x2x2x2x2x2x2x2x2x1x2x2, .f32⟩ : BufTy).Contents (Elt F) → (⟨S2x2x2x2x2x2x2x2x2x2x2x2x2x2x2x2x2x2x2x2x1x2x2, .f32⟩ : BufTy).Contents (Elt F) → (⟨S2x2x2x2x2x2x2x2x2x2x2x2x2x2x2x2x2x2x2x2x2x2x2, .f32⟩ : BufTy).Contents (Elt F)),
    StableHlo.unary main_v234 main_v235 ((extractStridedSlice S2x2x2x2x2x2x2x2x2x2x2x2x2x2x2x2x2x2x2x2x2x1x2 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x1x2, .f32⟩ : BufTy).Contents (Elt F)) ]

/-- The program's operations 241 … 300 of 418. -/
abbrev ops_part4 : List (HloOp τ sig (Elt F)) :=
  [ StableHlo.unary main_v234 main_v236 ((extractStridedSlice S2x2x2x2x2x2x2x2x2x2x2x2x2x2x2x2x2x2x2x2x2x1x2 ![0, 0, 0, 0, 0, 0, 0, 0, 0, 0, 0, 0, 0, 0, 0, 0, 0, 0, 0, 0, 0, 1, 0] · slices_S2x2x2x2x2x2x2x2x2x2x2x2x2x2x2x2x2x2x2x2x2x2x2_S2x2x2x2x2x2x2x2x2x2x2x2x2x2x2x2x2x2x2x2x2x1x2_0_0_0_0_0_0_0_0_0_0_0_0_0_0_0_0_0_0_0_0_0_1_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x1x2, .f32⟩ : BufTy).Contents (Elt F)),
    StableHlo.binary main_v235 main_v236 main_v237 (addf : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F)),
    StableHlo.binary main_v235 main_v236 main_v238 (subf : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F)),
    StableHlo.binary main_v237 main_v238 main_v239 ((fun a b => concatenate S2x2x2x2x2x2x2x2x2x2x2x2x2x2x2x2x2x2x2x2x2x2x2 21 [⟨S2x2x2x2x2x2x2x2x2x2x2x2x2x2x2x2x2x2x2x2x2x1x2, a⟩, ⟨S2x2x2x2x2x2x2x2x2x2x2x2x2x2x2x2x2x2x2x2x2x1x2, b⟩] concatenates_S2x2x2x2x2x2x2x2x2x2x2x2x2x2x2x2x2x2x2x2x2x1x2_S2x2x2x2x2x2x2x2x2x2x2x2x2x2x2x2x2x2x2x2x2x1x2_S2x2x2x2x2x2x2x2x2x2x2x2x2x2x2x2x2x2x2x2x2x2x2_d21) : (⟨S2x2x2x2x2x2x2x2x2x2x2x2x2x2x2x2x2x2x2x2x2x1x2, .f32⟩ : BufTy).Contents (Elt F) → (⟨S2x2x2x2x2x2x2x2x2x2x2x2x2x2x2x2x2x2x2x2x2x1x2, .f32⟩ : BufTy).Contents (Elt F) → (⟨S2x2x2x2x2x2x2x2x2x2x2x2x2x2x2x2x2x2x2x2x2x2x2, .f32⟩ : BufTy).Contents (Elt F)),
    StableHlo.unary main_v239 main_v240 ((extractStridedSlice S2x2x2x2x2x2x2x2x2x2x2x2x2x2x2x2x2x2x2x2x2x2x1 ![0, 0, 0, 0, 0, 0, 0, 0, 0, 0, 0, 0, 0, 0, 0, 0, 0, 0, 0, 0, 0, 0, 0] · slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_0) : (⟨S2x2x2x2x2x2x2x2x2x2x2x2x2x2x2x2x2x2x2x2x2x2x2, .f32⟩ : BufTy).Contents (Elt F) → (⟨S2x2x2x2x2x2x2x2x2x2x2x2x2x2x2x2x2x2x2x2x2x2x1, .f32⟩ : BufTy).Contents (Elt F)),
    StableHlo.unary main_v239 main_v241 ((extractStridedSlice S2x2x2x2x2x2x2x2x2x2x2x2x2x2x2x2x2x2x2x2x2x2x1 ![0, 0, 0, 0, 0, 0, 0, 0, 0, 0, 0, 0, 0, 0, 0, 0, 0, 0, 0, 0, 0, 0, 1] · slices_S2x2x2x2x2x2x2x2x2x2x2x2x2x2x2x2x2x2x2x2x2x2x2_S2x2x2x2x2x2x2x2x2x2x2x2x2x2x2x2x2x2x2x2x2x2x1_0_0_0_0_0_0_0_0_0_0_0_0_0_0_0_0_0_0_0_0_0_0_1) : (⟨S2x2x2x2x2x2x2x2x2x2x2x2x2x2x2x2x2x2x2x2x2x2x2, .f32⟩ : BufTy).Contents (Elt F) → (⟨S2x2x2x2x2x2x2x2x2x2x2x2x2x2x2x2x2x2x2x2x2x2x1, .f32⟩ : BufTy).Contents (Elt F)),
    StableHlo.binary main_v240 main_v241 main_v242 (addf : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F)),
    StableHlo.binary main_v240 main_v241 main_v243 (subf : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F)),
    StableHlo.binary main_v242 main_v243 main_v244 ((fun a b => concatenate S2x2x2x2x2x2x2x2x2x2x2x2x2x2x2x2x2x2x2x2x2x2x2 22 [⟨S2x2x2x2x2x2x2x2x2x2x2x2x2x2x2x2x2x2x2x2x2x2x1, a⟩, ⟨S2x2x2x2x2x2x2x2x2x2x2x2x2x2x2x2x2x2x2x2x2x2x1, b⟩] concatenates_S2x2x2x2x2x2x2x2x2x2x2x2x2x2x2x2x2x2x2x2x2x2x1_S2x2x2x2x2x2x2x2x2x2x2x2x2x2x2x2x2x2x2x2x2x2x1_S2x2x2x2x2x2x2x2x2x2x2x2x2x2x2x2x2x2x2x2x2x2x2_d22) : (⟨S2x2x2x2x2x2x2x2x2x2x2x2x2x2x2x2x2x2x2x2x2x2x1, .f32⟩ : BufTy).Contents (Elt F) → (⟨S2x2x2x2x2x2x2x2x2x2x2x2x2x2x2x2x2x2x2x2x2x2x1, .f32⟩ : BufTy).Contents (Elt F) → (⟨S2x2x2x2x2x2x2x2x2x2x2x2x2x2x2x2x2x2x2x2x2x2x2, .f32⟩ : BufTy).Contents (Elt F)),
    StableHlo.reshape main_v244 main_v245 rfl shapeCasts_S2x2x2x2x2x2x2x2x2x2x2x2x2x2x2x2x2x2x2x2x2x2x2_S8388608,
    StableHlo.binary main_arg5 main_arg5 main_v246 (mulf : (⟨S8388608, .f32⟩ : BufTy).Contents (Elt F) → (⟨S8388608, .f32⟩ : BufTy).Contents (Elt F) → (⟨S8388608, .f32⟩ : BufTy).Contents (Elt F)),
    StableHlo.nullary main_cst_2 (constant S_ .f32 0x00000000#32),
    StableHlo.binary main_v246 main_cst_2 main_v247 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    StableHlo.nullary main_cst_3 (constant S_ .f32 0x4B000000#32),
    StableHlo.binary main_cst_3 main_v247 main_v248 (mulf : (⟨S_, .f32⟩ : BufTy).Contents (Elt F) → (⟨S_, .f32⟩ : BufTy).Contents (Elt F) → (⟨S_, .f32⟩ : BufTy).Contents (Elt F)),
    StableHlo.unary main_v248 main_v249 (Host.sqrt : (⟨S_, .f32⟩ : BufTy).Contents (Elt F) → (⟨S_, .f32⟩ : BufTy).Contents (Elt F)),
    StableHlo.nullary main_cst_4 (constant S_ .f32 0x3F800000#32),
    StableHlo.binary main_v249 main_cst_4 main_v250 (mulf : (⟨S_, .f32⟩ : BufTy).Contents (Elt F) → (⟨S_, .f32⟩ : BufTy).Contents (Elt F) → (⟨S_, .f32⟩ : BufTy).Contents (Elt F)),
    StableHlo.unary main_v250 main_v251 (broadcastInDim S8388608 ![] bcast_S_S8388608 : (⟨S_, .f32⟩ : BufTy).Contents (Elt F) → (⟨S8388608, .f32⟩ : BufTy).Contents (Elt F)),
    StableHlo.binary main_v245 main_v251 main_v252 (Host.divf : (⟨S8388608, .f32⟩ : BufTy).Contents (Elt F) → (⟨S8388608, .f32⟩ : BufTy).Contents (Elt F) → (⟨S8388608, .f32⟩ : BufTy).Contents (Elt F)),
    StableHlo.reshape main_v252 main_v253 rfl shapeCasts_S8388608_S4096x2048,
    StableHlo.nullary main_cst_5 (constant S_ .f32 0x00000000#32),
    StableHlo.unary main_cst_5 main_v254 (broadcastInDim S4096 ![] bcast_S_S4096 : (⟨S_, .f32⟩ : BufTy).Contents (Elt F) → (⟨S4096, .f32⟩ : BufTy).Contents (Elt F)),
    StableHlo.nullary main_c_6 (constantI S_ 32 0#32),
    StableHlo.unary main_c_6 main_v255 (broadcastInDim S1 ![] bcast_S_S1 : (⟨S_, .i32⟩ : BufTy).Contents (Elt F) → (⟨S1, .i32⟩ : BufTy).Contents (Elt F)),
    StableHlo.ternary main_v254 main_v255 main_arg1 main_v256 ((fun x i u => Host.scatter scatter_S4096_S1_S2048_0_n_0_0 (fun _ b => b) x i u) : (⟨S4096, .f32⟩ : BufTy).Contents (Elt F) → (⟨S1, .i32⟩ : BufTy).Contents (Elt F) → (⟨S2048, .f32⟩ : BufTy).Contents (Elt F) → (⟨S4096, .f32⟩ : BufTy).Contents (Elt F)),
    StableHlo.binary main_arg6 main_v256 main_v257 (mulf : (⟨S4096, .f32⟩ : BufTy).Contents (Elt F) → (⟨S4096, .f32⟩ : BufTy).Contents (Elt F) → (⟨S4096, .f32⟩ : BufTy).Contents (Elt F)),
    StableHlo.reshape main_v257 main_v258 rfl shapeCasts_S4096_S2x2x2x2x2x2x2x2x2x2x2x2,
    StableHlo.unary main_v258 main_v259 ((extractStridedSlice S1x2x2x2x2x2x2x2x2x2x2x2 ![0, 0, 0, 0, 0, 0, 0, 0, 0, 0, 0, 0] · slices_S2x2x2x2x2x2x2x2x2x2x2x2_S1x2x2x2x2x2x2x2x2x2x2x2_0_0_0_0_0_0_0_0_0_0_0_0) : (⟨S2x2x2x2x2x2x2x2x2x2x2x2, .f32⟩ : BufTy).Contents (Elt F) → (⟨S1x2x2x2x2x2x2x2x2x2x2x2, .f32⟩ : BufTy).Contents (Elt F)),
    StableHlo.unary main_v258 main_v260 ((extractStridedSlice S1x2x2x2x2x2x2x2x2x2x2x2 ![1, 0, 0, 0, 0, 0, 0, 0, 0, 0, 0, 0] · slices_S2x2x2x2x2x2x2x2x2x2x2x2_S1x2x2x2x2x2x2x2x2x2x2x2_1_0_0_0_0_0_0_0_0_0_0_0) : (⟨S2x2x2x2x2x2x2x2x2x2x2x2, .f32⟩ : BufTy).Contents (Elt F) → (⟨S1x2x2x2x2x2x2x2x2x2x2x2, .f32⟩ : BufTy).Contents (Elt F)),
    StableHlo.binary main_v259 main_v260 main_v261 (addf : (⟨S1x2x2x2x2x2x2x2x2x2x2x2, .f32⟩ : BufTy).Contents (Elt F) → (⟨S1x2x2x2x2x2x2x2x2x2x2x2, .f32⟩ : BufTy).Contents (Elt F) → (⟨S1x2x2x2x2x2x2x2x2x2x2x2, .f32⟩ : BufTy).Contents (Elt F)),
    StableHlo.binary main_v259 main_v260 main_v262 (subf : (⟨S1x2x2x2x2x2x2x2x2x2x2x2, .f32⟩ : BufTy).Contents (Elt F) → (⟨S1x2x2x2x2x2x2x2x2x2x2x2, .f32⟩ : BufTy).Contents (Elt F) → (⟨S1x2x2x2x2x2x2x2x2x2x2x2, .f32⟩ : BufTy).Contents (Elt F)),
    StableHlo.binary main_v261 main_v262 main_v263 ((fun a b => concatenate S2x2x2x2x2x2x2x2x2x2x2x2 0 [⟨S1x2x2x2x2x2x2x2x2x2x2x2, a⟩, ⟨S1x2x2x2x2x2x2x2x2x2x2x2, b⟩] concatenates_S1x2x2x2x2x2x2x2x2x2x2x2_S1x2x2x2x2x2x2x2x2x2x2x2_S2x2x2x2x2x2x2x2x2x2x2x2_d0) : (⟨S1x2x2x2x2x2x2x2x2x2x2x2, .f32⟩ : BufTy).Contents (Elt F) → (⟨S1x2x2x2x2x2x2x2x2x2x2x2, .f32⟩ : BufTy).Contents (Elt F) → (⟨S2x2x2x2x2x2x2x2x2x2x2x2, .f32⟩ : BufTy).Contents (Elt F)),
    StableHlo.unary main_v263 main_v264 ((extractStridedSlice S2x1x2x2x2x2x2x2x2x2x2x2 ![0, 0, 0, 0, 0, 0, 0, 0, 0, 0, 0, 0] · slices_S2x2x2x2x2x2x2x2x2x2x2x2_S2x1x2x2x2x2x2x2x2x2x2x2_0_0_0_0_0_0_0_0_0_0_0_0) : (⟨S2x2x2x2x2x2x2x2x2x2x2x2, .f32⟩ : BufTy).Contents (Elt F) → (⟨S2x1x2x2x2x2x2x2x2x2x2x2, .f32⟩ : BufTy).Contents (Elt F)),
    StableHlo.unary main_v263 main_v265 ((extractStridedSlice S2x1x2x2x2x2x2x2x2x2x2x2 ![0, 1, 0, 0, 0, 0, 0, 0, 0, 0, 0, 0] · slices_S2x2x2x2x2x2x2x2x2x2x2x2_S2x1x2x2x2x2x2x2x2x2x2x2_0_1_0_0_0_0_0_0_0_0_0_0) : (⟨S2x2x2x2x2x2x2x2x2x2x2x2, .f32⟩ : BufTy).Contents (Elt F) → (⟨S2x1x2x2x2x2x2x2x2x2x2x2, .f32⟩ : BufTy).Contents (Elt F)),
    StableHlo.binary main_v264 main_v265 main_v266 (addf : (⟨S2x1x2x2x2x2x2x2x2x2x2x2, .f32⟩ : BufTy).Contents (Elt F) → (⟨S2x1x2x2x2x2x2x2x2x2x2x2, .f32⟩ : BufTy).Contents (Elt F) → (⟨S2x1x2x2x2x2x2x2x2x2x2x2, .f32⟩ : BufTy).Contents (Elt F)),
    StableHlo.binary main_v264 main_v265 main_v267 (subf : (⟨S2x1x2x2x2x2x2x2x2x2x2x2, .f32⟩ : BufTy).Contents (Elt F) → (⟨S2x1x2x2x2x2x2x2x2x2x2x2, .f32⟩ : BufTy).Contents (Elt F) → (⟨S2x1x2x2x2x2x2x2x2x2x2x2, .f32⟩ : BufTy).Contents (Elt F)),
    StableHlo.binary main_v266 main_v267 main_v268 ((fun a b => concatenate S2x2x2x2x2x2x2x2x2x2x2x2 1 [⟨S2x1x2x2x2x2x2x2x2x2x2x2, a⟩, ⟨S2x1x2x2x2x2x2x2x2x2x2x2, b⟩] concatenates_S2x1x2x2x2x2x2x2x2x2x2x2_S2x1x2x2x2x2x2x2x2x2x2x2_S2x2x2x2x2x2x2x2x2x2x2x2_d1) : (⟨S2x1x2x2x2x2x2x2x2x2x2x2, .f32⟩ : BufTy).Contents (Elt F) → (⟨S2x1x2x2x2x2x2x2x2x2x2x2, .f32⟩ : BufTy).Contents (Elt F) → (⟨S2x2x2x2x2x2x2x2x2x2x2x2, .f32⟩ : BufTy).Contents (Elt F)),
    StableHlo.unary main_v268 main_v269 ((extractStridedSlice S2x2x1x2x2x2x2x2x2x2x2x2 ![0, 0, 0, 0, 0, 0, 0, 0, 0, 0, 0, 0] · slices_S2x2x2x2x2x2x2x2x2x2x2x2_S2x2x1x2x2x2x2x2x2x2x2x2_0_0_0_0_0_0_0_0_0_0_0_0) : (⟨S2x2x2x2x2x2x2x2x2x2x2x2, .f32⟩ : BufTy).Contents (Elt F) → (⟨S2x2x1x2x2x2x2x2x2x2x2x2, .f32⟩ : BufTy).Contents (Elt F)),
    StableHlo.unary main_v268 main_v270 ((extractStridedSlice S2x2x1x2x2x2x2x2x2x2x2x2 ![0, 0, 1, 0, 0, 0, 0, 0, 0, 0, 0, 0] · slices_S2x2x2x2x2x2x2x2x2x2x2x2_S2x2x1x2x2x2x2x2x2x2x2x2_0_0_1_0_0_0_0_0_0_0_0_0) : (⟨S2x2x2x2x2x2x2x2x2x2x2x2, .f32⟩ : BufTy).Contents (Elt F) → (⟨S2x2x1x2x2x2x2x2x2x2x2x2, .f32⟩ : BufTy).Contents (Elt F)),
    StableHlo.binary main_v269 main_v270 main_v271 (addf : (⟨S2x2x1x2x2x2x2x2x2x2x2x2, .f32⟩ : BufTy).Contents (Elt F) → (⟨S2x2x1x2x2x2x2x2x2x2x2x2, .f32⟩ : BufTy).Contents (Elt F) → (⟨S2x2x1x2x2x2x2x2x2x2x2x2, .f32⟩ : BufTy).Contents (Elt F)),
    StableHlo.binary main_v269 main_v270 main_v272 (subf : (⟨S2x2x1x2x2x2x2x2x2x2x2x2, .f32⟩ : BufTy).Contents (Elt F) → (⟨S2x2x1x2x2x2x2x2x2x2x2x2, .f32⟩ : BufTy).Contents (Elt F) → (⟨S2x2x1x2x2x2x2x2x2x2x2x2, .f32⟩ : BufTy).Contents (Elt F)),
    StableHlo.binary main_v271 main_v272 main_v273 ((fun a b => concatenate S2x2x2x2x2x2x2x2x2x2x2x2 2 [⟨S2x2x1x2x2x2x2x2x2x2x2x2, a⟩, ⟨S2x2x1x2x2x2x2x2x2x2x2x2, b⟩] concatenates_S2x2x1x2x2x2x2x2x2x2x2x2_S2x2x1x2x2x2x2x2x2x2x2x2_S2x2x2x2x2x2x2x2x2x2x2x2_d2) : (⟨S2x2x1x2x2x2x2x2x2x2x2x2, .f32⟩ : BufTy).Contents (Elt F) → (⟨S2x2x1x2x2x2x2x2x2x2x2x2, .f32⟩ : BufTy).Contents (Elt F) → (⟨S2x2x2x2x2x2x2x2x2x2x2x2, .f32⟩ : BufTy).Contents (Elt F)),
    StableHlo.unary main_v273 main_v274 ((extractStridedSlice S2x2x2x1x2x2x2x2x2x2x2x2 ![0, 0, 0, 0, 0, 0, 0, 0, 0, 0, 0, 0] · slices_S2x2x2x2x2x2x2x2x2x2x2x2_S2x2x2x1x2x2x2x2x2x2x2x2_0_0_0_0_0_0_0_0_0_0_0_0) : (⟨S2x2x2x2x2x2x2x2x2x2x2x2, .f32⟩ : BufTy).Contents (Elt F) → (⟨S2x2x2x1x2x2x2x2x2x2x2x2, .f32⟩ : BufTy).Contents (Elt F)),
    StableHlo.unary main_v273 main_v275 ((extractStridedSlice S2x2x2x1x2x2x2x2x2x2x2x2 ![0, 0, 0, 1, 0, 0, 0, 0, 0, 0, 0, 0] · slices_S2x2x2x2x2x2x2x2x2x2x2x2_S2x2x2x1x2x2x2x2x2x2x2x2_0_0_0_1_0_0_0_0_0_0_0_0) : (⟨S2x2x2x2x2x2x2x2x2x2x2x2, .f32⟩ : BufTy).Contents (Elt F) → (⟨S2x2x2x1x2x2x2x2x2x2x2x2, .f32⟩ : BufTy).Contents (Elt F)),
    StableHlo.binary main_v274 main_v275 main_v276 (addf : (⟨S2x2x2x1x2x2x2x2x2x2x2x2, .f32⟩ : BufTy).Contents (Elt F) → (⟨S2x2x2x1x2x2x2x2x2x2x2x2, .f32⟩ : BufTy).Contents (Elt F) → (⟨S2x2x2x1x2x2x2x2x2x2x2x2, .f32⟩ : BufTy).Contents (Elt F)),
    StableHlo.binary main_v274 main_v275 main_v277 (subf : (⟨S2x2x2x1x2x2x2x2x2x2x2x2, .f32⟩ : BufTy).Contents (Elt F) → (⟨S2x2x2x1x2x2x2x2x2x2x2x2, .f32⟩ : BufTy).Contents (Elt F) → (⟨S2x2x2x1x2x2x2x2x2x2x2x2, .f32⟩ : BufTy).Contents (Elt F)),
    StableHlo.binary main_v276 main_v277 main_v278 ((fun a b => concatenate S2x2x2x2x2x2x2x2x2x2x2x2 3 [⟨S2x2x2x1x2x2x2x2x2x2x2x2, a⟩, ⟨S2x2x2x1x2x2x2x2x2x2x2x2, b⟩] concatenates_S2x2x2x1x2x2x2x2x2x2x2x2_S2x2x2x1x2x2x2x2x2x2x2x2_S2x2x2x2x2x2x2x2x2x2x2x2_d3) : (⟨S2x2x2x1x2x2x2x2x2x2x2x2, .f32⟩ : BufTy).Contents (Elt F) → (⟨S2x2x2x1x2x2x2x2x2x2x2x2, .f32⟩ : BufTy).Contents (Elt F) → (⟨S2x2x2x2x2x2x2x2x2x2x2x2, .f32⟩ : BufTy).Contents (Elt F)),
    StableHlo.unary main_v278 main_v279 ((extractStridedSlice S2x2x2x2x1x2x2x2x2x2x2x2 ![0, 0, 0, 0, 0, 0, 0, 0, 0, 0, 0, 0] · slices_S2x2x2x2x2x2x2x2x2x2x2x2_S2x2x2x2x1x2x2x2x2x2x2x2_0_0_0_0_0_0_0_0_0_0_0_0) : (⟨S2x2x2x2x2x2x2x2x2x2x2x2, .f32⟩ : BufTy).Contents (Elt F) → (⟨S2x2x2x2x1x2x2x2x2x2x2x2, .f32⟩ : BufTy).Contents (Elt F)),
    StableHlo.unary main_v278 main_v280 ((extractStridedSlice S2x2x2x2x1x2x2x2x2x2x2x2 ![0, 0, 0, 0, 1, 0, 0, 0, 0, 0, 0, 0] · slices_S2x2x2x2x2x2x2x2x2x2x2x2_S2x2x2x2x1x2x2x2x2x2x2x2_0_0_0_0_1_0_0_0_0_0_0_0) : (⟨S2x2x2x2x2x2x2x2x2x2x2x2, .f32⟩ : BufTy).Contents (Elt F) → (⟨S2x2x2x2x1x2x2x2x2x2x2x2, .f32⟩ : BufTy).Contents (Elt F)),
    StableHlo.binary main_v279 main_v280 main_v281 (addf : (⟨S2x2x2x2x1x2x2x2x2x2x2x2, .f32⟩ : BufTy).Contents (Elt F) → (⟨S2x2x2x2x1x2x2x2x2x2x2x2, .f32⟩ : BufTy).Contents (Elt F) → (⟨S2x2x2x2x1x2x2x2x2x2x2x2, .f32⟩ : BufTy).Contents (Elt F)),
    StableHlo.binary main_v279 main_v280 main_v282 (subf : (⟨S2x2x2x2x1x2x2x2x2x2x2x2, .f32⟩ : BufTy).Contents (Elt F) → (⟨S2x2x2x2x1x2x2x2x2x2x2x2, .f32⟩ : BufTy).Contents (Elt F) → (⟨S2x2x2x2x1x2x2x2x2x2x2x2, .f32⟩ : BufTy).Contents (Elt F)),
    StableHlo.binary main_v281 main_v282 main_v283 ((fun a b => concatenate S2x2x2x2x2x2x2x2x2x2x2x2 4 [⟨S2x2x2x2x1x2x2x2x2x2x2x2, a⟩, ⟨S2x2x2x2x1x2x2x2x2x2x2x2, b⟩] concatenates_S2x2x2x2x1x2x2x2x2x2x2x2_S2x2x2x2x1x2x2x2x2x2x2x2_S2x2x2x2x2x2x2x2x2x2x2x2_d4) : (⟨S2x2x2x2x1x2x2x2x2x2x2x2, .f32⟩ : BufTy).Contents (Elt F) → (⟨S2x2x2x2x1x2x2x2x2x2x2x2, .f32⟩ : BufTy).Contents (Elt F) → (⟨S2x2x2x2x2x2x2x2x2x2x2x2, .f32⟩ : BufTy).Contents (Elt F)),
    StableHlo.unary main_v283 main_v284 ((extractStridedSlice S2x2x2x2x2x1x2x2x2x2x2x2 ![0, 0, 0, 0, 0, 0, 0, 0, 0, 0, 0, 0] · slices_S2x2x2x2x2x2x2x2x2x2x2x2_S2x2x2x2x2x1x2x2x2x2x2x2_0_0_0_0_0_0_0_0_0_0_0_0) : (⟨S2x2x2x2x2x2x2x2x2x2x2x2, .f32⟩ : BufTy).Contents (Elt F) → (⟨S2x2x2x2x2x1x2x2x2x2x2x2, .f32⟩ : BufTy).Contents (Elt F)),
    StableHlo.unary main_v283 main_v285 ((extractStridedSlice S2x2x2x2x2x1x2x2x2x2x2x2 ![0, 0, 0, 0, 0, 1, 0, 0, 0, 0, 0, 0] · slices_S2x2x2x2x2x2x2x2x2x2x2x2_S2x2x2x2x2x1x2x2x2x2x2x2_0_0_0_0_0_1_0_0_0_0_0_0) : (⟨S2x2x2x2x2x2x2x2x2x2x2x2, .f32⟩ : BufTy).Contents (Elt F) → (⟨S2x2x2x2x2x1x2x2x2x2x2x2, .f32⟩ : BufTy).Contents (Elt F)),
    StableHlo.binary main_v284 main_v285 main_v286 (addf : (⟨S2x2x2x2x2x1x2x2x2x2x2x2, .f32⟩ : BufTy).Contents (Elt F) → (⟨S2x2x2x2x2x1x2x2x2x2x2x2, .f32⟩ : BufTy).Contents (Elt F) → (⟨S2x2x2x2x2x1x2x2x2x2x2x2, .f32⟩ : BufTy).Contents (Elt F)),
    StableHlo.binary main_v284 main_v285 main_v287 (subf : (⟨S2x2x2x2x2x1x2x2x2x2x2x2, .f32⟩ : BufTy).Contents (Elt F) → (⟨S2x2x2x2x2x1x2x2x2x2x2x2, .f32⟩ : BufTy).Contents (Elt F) → (⟨S2x2x2x2x2x1x2x2x2x2x2x2, .f32⟩ : BufTy).Contents (Elt F)),
    StableHlo.binary main_v286 main_v287 main_v288 ((fun a b => concatenate S2x2x2x2x2x2x2x2x2x2x2x2 5 [⟨S2x2x2x2x2x1x2x2x2x2x2x2, a⟩, ⟨S2x2x2x2x2x1x2x2x2x2x2x2, b⟩] concatenates_S2x2x2x2x2x1x2x2x2x2x2x2_S2x2x2x2x2x1x2x2x2x2x2x2_S2x2x2x2x2x2x2x2x2x2x2x2_d5) : (⟨S2x2x2x2x2x1x2x2x2x2x2x2, .f32⟩ : BufTy).Contents (Elt F) → (⟨S2x2x2x2x2x1x2x2x2x2x2x2, .f32⟩ : BufTy).Contents (Elt F) → (⟨S2x2x2x2x2x2x2x2x2x2x2x2, .f32⟩ : BufTy).Contents (Elt F)),
    StableHlo.unary main_v288 main_v289 ((extractStridedSlice S2x2x2x2x2x2x1x2x2x2x2x2 ![0, 0, 0, 0, 0, 0, 0, 0, 0, 0, 0, 0] · slices_S2x2x2x2x2x2x2x2x2x2x2x2_S2x2x2x2x2x2x1x2x2x2x2x2_0_0_0_0_0_0_0_0_0_0_0_0) : (⟨S2x2x2x2x2x2x2x2x2x2x2x2, .f32⟩ : BufTy).Contents (Elt F) → (⟨S2x2x2x2x2x2x1x2x2x2x2x2, .f32⟩ : BufTy).Contents (Elt F)),
    StableHlo.unary main_v288 main_v290 ((extractStridedSlice S2x2x2x2x2x2x1x2x2x2x2x2 ![0, 0, 0, 0, 0, 0, 1, 0, 0, 0, 0, 0] · slices_S2x2x2x2x2x2x2x2x2x2x2x2_S2x2x2x2x2x2x1x2x2x2x2x2_0_0_0_0_0_0_1_0_0_0_0_0) : (⟨S2x2x2x2x2x2x2x2x2x2x2x2, .f32⟩ : BufTy).Contents (Elt F) → (⟨S2x2x2x2x2x2x1x2x2x2x2x2, .f32⟩ : BufTy).Contents (Elt F)) ]

/-- The program's operations 301 … 360 of 418. -/
abbrev ops_part5 : List (HloOp τ sig (Elt F)) :=
  [ StableHlo.binary main_v289 main_v290 main_v291 (addf : (⟨S2x2x2x2x2x2x1x2x2x2x2x2, .f32⟩ : BufTy).Contents (Elt F) → (⟨S2x2x2x2x2x2x1x2x2x2x2x2, .f32⟩ : BufTy).Contents (Elt F) → (⟨S2x2x2x2x2x2x1x2x2x2x2x2, .f32⟩ : BufTy).Contents (Elt F)),
    StableHlo.binary main_v289 main_v290 main_v292 (subf : (⟨S2x2x2x2x2x2x1x2x2x2x2x2, .f32⟩ : BufTy).Contents (Elt F) → (⟨S2x2x2x2x2x2x1x2x2x2x2x2, .f32⟩ : BufTy).Contents (Elt F) → (⟨S2x2x2x2x2x2x1x2x2x2x2x2, .f32⟩ : BufTy).Contents (Elt F)),
    StableHlo.binary main_v291 main_v292 main_v293 ((fun a b => concatenate S2x2x2x2x2x2x2x2x2x2x2x2 6 [⟨S2x2x2x2x2x2x1x2x2x2x2x2, a⟩, ⟨S2x2x2x2x2x2x1x2x2x2x2x2, b⟩] concatenates_S2x2x2x2x2x2x1x2x2x2x2x2_S2x2x2x2x2x2x1x2x2x2x2x2_S2x2x2x2x2x2x2x2x2x2x2x2_d6) : (⟨S2x2x2x2x2x2x1x2x2x2x2x2, .f32⟩ : BufTy).Contents (Elt F) → (⟨S2x2x2x2x2x2x1x2x2x2x2x2, .f32⟩ : BufTy).Contents (Elt F) → (⟨S2x2x2x2x2x2x2x2x2x2x2x2, .f32⟩ : BufTy).Contents (Elt F)),
    StableHlo.unary main_v293 main_v294 ((extractStridedSlice S2x2x2x2x2x2x2x1x2x2x2x2 ![0, 0, 0, 0, 0, 0, 0, 0, 0, 0, 0, 0] · slices_S2x2x2x2x2x2x2x2x2x2x2x2_S2x2x2x2x2x2x2x1x2x2x2x2_0_0_0_0_0_0_0_0_0_0_0_0) : (⟨S2x2x2x2x2x2x2x2x2x2x2x2, .f32⟩ : BufTy).Contents (Elt F) → (⟨S2x2x2x2x2x2x2x1x2x2x2x2, .f32⟩ : BufTy).Contents (Elt F)),
    StableHlo.unary main_v293 main_v295 ((extractStridedSlice S2x2x2x2x2x2x2x1x2x2x2x2 ![0, 0, 0, 0, 0, 0, 0, 1, 0, 0, 0, 0] · slices_S2x2x2x2x2x2x2x2x2x2x2x2_S2x2x2x2x2x2x2x1x2x2x2x2_0_0_0_0_0_0_0_1_0_0_0_0) : (⟨S2x2x2x2x2x2x2x2x2x2x2x2, .f32⟩ : BufTy).Contents (Elt F) → (⟨S2x2x2x2x2x2x2x1x2x2x2x2, .f32⟩ : BufTy).Contents (Elt F)),
    StableHlo.binary main_v294 main_v295 main_v296 (addf : (⟨S2x2x2x2x2x2x2x1x2x2x2x2, .f32⟩ : BufTy).Contents (Elt F) → (⟨S2x2x2x2x2x2x2x1x2x2x2x2, .f32⟩ : BufTy).Contents (Elt F) → (⟨S2x2x2x2x2x2x2x1x2x2x2x2, .f32⟩ : BufTy).Contents (Elt F)),
    StableHlo.binary main_v294 main_v295 main_v297 (subf : (⟨S2x2x2x2x2x2x2x1x2x2x2x2, .f32⟩ : BufTy).Contents (Elt F) → (⟨S2x2x2x2x2x2x2x1x2x2x2x2, .f32⟩ : BufTy).Contents (Elt F) → (⟨S2x2x2x2x2x2x2x1x2x2x2x2, .f32⟩ : BufTy).Contents (Elt F)),
    StableHlo.binary main_v296 main_v297 main_v298 ((fun a b => concatenate S2x2x2x2x2x2x2x2x2x2x2x2 7 [⟨S2x2x2x2x2x2x2x1x2x2x2x2, a⟩, ⟨S2x2x2x2x2x2x2x1x2x2x2x2, b⟩] concatenates_S2x2x2x2x2x2x2x1x2x2x2x2_S2x2x2x2x2x2x2x1x2x2x2x2_S2x2x2x2x2x2x2x2x2x2x2x2_d7) : (⟨S2x2x2x2x2x2x2x1x2x2x2x2, .f32⟩ : BufTy).Contents (Elt F) → (⟨S2x2x2x2x2x2x2x1x2x2x2x2, .f32⟩ : BufTy).Contents (Elt F) → (⟨S2x2x2x2x2x2x2x2x2x2x2x2, .f32⟩ : BufTy).Contents (Elt F)),
    StableHlo.unary main_v298 main_v299 ((extractStridedSlice S2x2x2x2x2x2x2x2x1x2x2x2 ![0, 0, 0, 0, 0, 0, 0, 0, 0, 0, 0, 0] · slices_S2x2x2x2x2x2x2x2x2x2x2x2_S2x2x2x2x2x2x2x2x1x2x2x2_0_0_0_0_0_0_0_0_0_0_0_0) : (⟨S2x2x2x2x2x2x2x2x2x2x2x2, .f32⟩ : BufTy).Contents (Elt F) → (⟨S2x2x2x2x2x2x2x2x1x2x2x2, .f32⟩ : BufTy).Contents (Elt F)),
    StableHlo.unary main_v298 main_v300 ((extractStridedSlice S2x2x2x2x2x2x2x2x1x2x2x2 ![0, 0, 0, 0, 0, 0, 0, 0, 1, 0, 0, 0] · slices_S2x2x2x2x2x2x2x2x2x2x2x2_S2x2x2x2x2x2x2x2x1x2x2x2_0_0_0_0_0_0_0_0_1_0_0_0) : (⟨S2x2x2x2x2x2x2x2x2x2x2x2, .f32⟩ : BufTy).Contents (Elt F) → (⟨S2x2x2x2x2x2x2x2x1x2x2x2, .f32⟩ : BufTy).Contents (Elt F)),
    StableHlo.binary main_v299 main_v300 main_v301 (addf : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x1x2x2x2, .f32⟩ : BufTy).Contents (Elt F)),
    StableHlo.binary main_v299 main_v300 main_v302 (subf : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x1x2x2x2, .f32⟩ : BufTy).Contents (Elt F)),
    StableHlo.binary main_v301 main_v302 main_v303 ((fun a b => concatenate S2x2x2x2x2x2x2x2x2x2x2x2 8 [⟨S2x2x2x2x2x2x2x2x1x2x2x2, a⟩, ⟨S2x2x2x2x2x2x2x2x1x2x2x2, b⟩] concatenates_S2x2x2x2x2x2x2x2x1x2x2x2_S2x2x2x2x2x2x2x2x1x2x2x2_S2x2x2x2x2x2x2x2x2x2x2x2_d8) : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x2x2x2x2, .f32⟩ : BufTy).Contents (Elt F)),
    StableHlo.unary main_v303 main_v304 ((extractStridedSlice S2x2x2x2x2x2x2x2x2x1x2x2 ![0, 0, 0, 0, 0, 0, 0, 0, 0, 0, 0, 0] · slices_S2x2x2x2x2x2x2x2x2x2x2x2_S2x2x2x2x2x2x2x2x2x1x2x2_0_0_0_0_0_0_0_0_0_0_0_0) : (⟨S2x2x2x2x2x2x2x2x2x2x2x2, .f32⟩ : BufTy).Contents (Elt F) → (⟨S2x2x2x2x2x2x2x2x2x1x2x2, .f32⟩ : BufTy).Contents (Elt F)),
    StableHlo.unary main_v303 main_v305 ((extractStridedSlice S2x2x2x2x2x2x2x2x2x1x2x2 ![0, 0, 0, 0, 0, 0, 0, 0, 0, 1, 0, 0] · slices_S2x2x2x2x2x2x2x2x2x2x2x2_S2x2x2x2x2x2x2x2x2x1x2x2_0_0_0_0_0_0_0_0_0_1_0_0) : (⟨S2x2x2x2x2x2x2x2x2x2x2x2, .f32⟩ : BufTy).Contents (Elt F) → (⟨S2x2x2x2x2x2x2x2x2x1x2x2, .f32⟩ : BufTy).Contents (Elt F)),
    StableHlo.binary main_v304 main_v305 main_v306 (addf : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x1x2x2, .f32⟩ : BufTy).Contents (Elt F)),
    StableHlo.binary main_v304 main_v305 main_v307 (subf : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x1x2x2, .f32⟩ : BufTy).Contents (Elt F)),
    StableHlo.binary main_v306 main_v307 main_v308 ((fun a b => concatenate S2x2x2x2x2x2x2x2x2x2x2x2 9 [⟨S2x2x2x2x2x2x2x2x2x1x2x2, a⟩, ⟨S2x2x2x2x2x2x2x2x2x1x2x2, b⟩] concatenates_S2x2x2x2x2x2x2x2x2x1x2x2_S2x2x2x2x2x2x2x2x2x1x2x2_S2x2x2x2x2x2x2x2x2x2x2x2_d9) : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x2x2x2, .f32⟩ : BufTy).Contents (Elt F)),
    StableHlo.unary main_v308 main_v309 ((extractStridedSlice S2x2x2x2x2x2x2x2x2x2x1x2 ![0, 0, 0, 0, 0, 0, 0, 0, 0, 0, 0, 0] · slices_S2x2x2x2x2x2x2x2x2x2x2x2_S2x2x2x2x2x2x2x2x2x2x1x2_0_0_0_0_0_0_0_0_0_0_0_0) : (⟨S2x2x2x2x2x2x2x2x2x2x2x2, .f32⟩ : BufTy).Contents (Elt F) → (⟨S2x2x2x2x2x2x2x2x2x2x1x2, .f32⟩ : BufTy).Contents (Elt F)),
    StableHlo.unary main_v308 main_v310 ((extractStridedSlice S2x2x2x2x2x2x2x2x2x2x1x2 ![0, 0, 0, 0, 0, 0, 0, 0, 0, 0, 1, 0] · slices_S2x2x2x2x2x2x2x2x2x2x2x2_S2x2x2x2x2x2x2x2x2x2x1x2_0_0_0_0_0_0_0_0_0_0_1_0) : (⟨S2x2x2x2x2x2x2x2x2x2x2x2, .f32⟩ : BufTy).Contents (Elt F) → (⟨S2x2x2x2x2x2x2x2x2x2x1x2, .f32⟩ : BufTy).Contents (Elt F)),
    StableHlo.binary main_v309 main_v310 main_v311 (addf : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x1x2, .f32⟩ : BufTy).Contents (Elt F)),
    StableHlo.binary main_v309 main_v310 main_v312 (subf : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x1x2, .f32⟩ : BufTy).Contents (Elt F)),
    StableHlo.binary main_v311 main_v312 main_v313 ((fun a b => concatenate S2x2x2x2x2x2x2x2x2x2x2x2 10 [⟨S2x2x2x2x2x2x2x2x2x2x1x2, a⟩, ⟨S2x2x2x2x2x2x2x2x2x2x1x2, b⟩] concatenates_S2x2x2x2x2x2x2x2x2x2x1x2_S2x2x2x2x2x2x2x2x2x2x1x2_S2x2x2x2x2x2x2x2x2x2x2x2_d10) : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x2x2, .f32⟩ : BufTy).Contents (Elt F)),
    StableHlo.unary main_v313 main_v314 ((extractStridedSlice S2x2x2x2x2x2x2x2x2x2x2x1 ![0, 0, 0, 0, 0, 0, 0, 0, 0, 0, 0, 0] · slices_S2x2x2x2x2x2x2x2x2x2x2x2_S2x2x2x2x2x2x2x2x2x2x2x1_0_0_0_0_0_0_0_0_0_0_0_0) : (⟨S2x2x2x2x2x2x2x2x2x2x2x2, .f32⟩ : BufTy).Contents (Elt F) → (⟨S2x2x2x2x2x2x2x2x2x2x2x1, .f32⟩ : BufTy).Contents (Elt F)),
    StableHlo.unary main_v313 main_v315 ((extractStridedSlice S2x2x2x2x2x2x2x2x2x2x2x1 ![0, 0, 0, 0, 0, 0, 0, 0, 0, 0, 0, 1] · slices_S2x2x2x2x2x2x2x2x2x2x2x2_S2x2x2x2x2x2x2x2x2x2x2x1_0_0_0_0_0_0_0_0_0_0_0_1) : (⟨S2x2x2x2x2x2x2x2x2x2x2x2, .f32⟩ : BufTy).Contents (Elt F) → (⟨S2x2x2x2x2x2x2x2x2x2x2x1, .f32⟩ : BufTy).Contents (Elt F)),
    StableHlo.binary main_v314 main_v315 main_v316 (addf : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x1, .f32⟩ : BufTy).Contents (Elt F)),
    StableHlo.binary main_v314 main_v315 main_v317 (subf : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x1, .f32⟩ : BufTy).Contents (Elt F)),
    StableHlo.binary main_v316 main_v317 main_v318 ((fun a b => concatenate S2x2x2x2x2x2x2x2x2x2x2x2 11 [⟨S2x2x2x2x2x2x2x2x2x2x2x1, a⟩, ⟨S2x2x2x2x2x2x2x2x2x2x2x1, b⟩] concatenates_S2x2x2x2x2x2x2x2x2x2x2x1_S2x2x2x2x2x2x2x2x2x2x2x1_S2x2x2x2x2x2x2x2x2x2x2x2_d11) : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x2, .f32⟩ : BufTy).Contents (Elt F)),
    StableHlo.reshape main_v318 main_v319 rfl shapeCasts_S2x2x2x2x2x2x2x2x2x2x2x2_S4096,
    StableHlo.nullary main_c_7 (constantI S_ 32 0#32),
    StableHlo.unary main_c_7 main_v320 (broadcastInDim S4096 ![] bcast_S_S4096 : (⟨S_, .i32⟩ : BufTy).Contents (Elt F) → (⟨S4096, .i32⟩ : BufTy).Contents (Elt F)),
    StableHlo.binary main_arg9 main_v320 main_v321 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 4096#32),
    StableHlo.unary main_c_8 main_v322 (broadcastInDim S4096 ![] bcast_S_S4096 : (⟨S_, .i32⟩ : BufTy).Contents (Elt F) → (⟨S4096, .i32⟩ : BufTy).Contents (Elt F)),
    StableHlo.binary main_arg9 main_v322 main_v323 (addi : (⟨S4096, .i32⟩ : BufTy).Contents (Elt F) → (⟨S4096, .i32⟩ : BufTy).Contents (Elt F) → (⟨S4096, .i32⟩ : BufTy).Contents (Elt F)),
    StableHlo.ternary main_v321 main_v323 main_arg9 main_v324 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v324 main_v325 (broadcastInDim S4096x1 ![0] bcast_S4096_S4096x1_0 : (⟨S4096, .i32⟩ : BufTy).Contents (Elt F) → (⟨S4096x1, .i32⟩ : BufTy).Contents (Elt F)),
    StableHlo.binary main_v319 main_v325 main_v326 ((fun x i => Host.gather gather_S4096_S4096x1_S4096_n_0_n_n_0_1_1 x i) : (⟨S4096, .f32⟩ : BufTy).Contents (Elt F) → (⟨S4096x1, .i32⟩ : BufTy).Contents (Elt F) → (⟨S4096, .f32⟩ : BufTy).Contents (Elt F)),
    StableHlo.binary main_v326 main_arg7 main_v327 (mulf : (⟨S4096, .f32⟩ : BufTy).Contents (Elt F) → (⟨S4096, .f32⟩ : BufTy).Contents (Elt F) → (⟨S4096, .f32⟩ : BufTy).Contents (Elt F)),
    StableHlo.reshape main_v327 main_v328 rfl shapeCasts_S4096_S2x2x2x2x2x2x2x2x2x2x2x2,
    StableHlo.unary main_v328 main_v329 ((extractStridedSlice S1x2x2x2x2x2x2x2x2x2x2x2 ![0, 0, 0, 0, 0, 0, 0, 0, 0, 0, 0, 0] · slices_S2x2x2x2x2x2x2x2x2x2x2x2_S1x2x2x2x2x2x2x2x2x2x2x2_0_0_0_0_0_0_0_0_0_0_0_0) : (⟨S2x2x2x2x2x2x2x2x2x2x2x2, .f32⟩ : BufTy).Contents (Elt F) → (⟨S1x2x2x2x2x2x2x2x2x2x2x2, .f32⟩ : BufTy).Contents (Elt F)),
    StableHlo.unary main_v328 main_v330 ((extractStridedSlice S1x2x2x2x2x2x2x2x2x2x2x2 ![1, 0, 0, 0, 0, 0, 0, 0, 0, 0, 0, 0] · slices_S2x2x2x2x2x2x2x2x2x2x2x2_S1x2x2x2x2x2x2x2x2x2x2x2_1_0_0_0_0_0_0_0_0_0_0_0) : (⟨S2x2x2x2x2x2x2x2x2x2x2x2, .f32⟩ : BufTy).Contents (Elt F) → (⟨S1x2x2x2x2x2x2x2x2x2x2x2, .f32⟩ : BufTy).Contents (Elt F)),
    StableHlo.binary main_v329 main_v330 main_v331 (addf : (⟨S1x2x2x2x2x2x2x2x2x2x2x2, .f32⟩ : BufTy).Contents (Elt F) → (⟨S1x2x2x2x2x2x2x2x2x2x2x2, .f32⟩ : BufTy).Contents (Elt F) → (⟨S1x2x2x2x2x2x2x2x2x2x2x2, .f32⟩ : BufTy).Contents (Elt F)),
    StableHlo.binary main_v329 main_v330 main_v332 (subf : (⟨S1x2x2x2x2x2x2x2x2x2x2x2, .f32⟩ : BufTy).Contents (Elt F) → (⟨S1x2x2x2x2x2x2x2x2x2x2x2, .f32⟩ : BufTy).Contents (Elt F) → (⟨S1x2x2x2x2x2x2x2x2x2x2x2, .f32⟩ : BufTy).Contents (Elt F)),
    StableHlo.binary main_v331 main_v332 main_v333 ((fun a b => concatenate S2x2x2x2x2x2x2x2x2x2x2x2 0 [⟨S1x2x2x2x2x2x2x2x2x2x2x2, a⟩, ⟨S1x2x2x2x2x2x2x2x2x2x2x2, b⟩] concatenates_S1x2x2x2x2x2x2x2x2x2x2x2_S1x2x2x2x2x2x2x2x2x2x2x2_S2x2x2x2x2x2x2x2x2x2x2x2_d0) : (⟨S1x2x2x2x2x2x2x2x2x2x2x2, .f32⟩ : BufTy).Contents (Elt F) → (⟨S1x2x2x2x2x2x2x2x2x2x2x2, .f32⟩ : BufTy).Contents (Elt F) → (⟨S2x2x2x2x2x2x2x2x2x2x2x2, .f32⟩ : BufTy).Contents (Elt F)),
    StableHlo.unary main_v333 main_v334 ((extractStridedSlice S2x1x2x2x2x2x2x2x2x2x2x2 ![0, 0, 0, 0, 0, 0, 0, 0, 0, 0, 0, 0] · slices_S2x2x2x2x2x2x2x2x2x2x2x2_S2x1x2x2x2x2x2x2x2x2x2x2_0_0_0_0_0_0_0_0_0_0_0_0) : (⟨S2x2x2x2x2x2x2x2x2x2x2x2, .f32⟩ : BufTy).Contents (Elt F) → (⟨S2x1x2x2x2x2x2x2x2x2x2x2, .f32⟩ : BufTy).Contents (Elt F)),
    StableHlo.unary main_v333 main_v335 ((extractStridedSlice S2x1x2x2x2x2x2x2x2x2x2x2 ![0, 1, 0, 0, 0, 0, 0, 0, 0, 0, 0, 0] · slices_S2x2x2x2x2x2x2x2x2x2x2x2_S2x1x2x2x2x2x2x2x2x2x2x2_0_1_0_0_0_0_0_0_0_0_0_0) : (⟨S2x2x2x2x2x2x2x2x2x2x2x2, .f32⟩ : BufTy).Contents (Elt F) → (⟨S2x1x2x2x2x2x2x2x2x2x2x2, .f32⟩ : BufTy).Contents (Elt F)),
    StableHlo.binary main_v334 main_v335 main_v336 (addf : (⟨S2x1x2x2x2x2x2x2x2x2x2x2, .f32⟩ : BufTy).Contents (Elt F) → (⟨S2x1x2x2x2x2x2x2x2x2x2x2, .f32⟩ : BufTy).Contents (Elt F) → (⟨S2x1x2x2x2x2x2x2x2x2x2x2, .f32⟩ : BufTy).Contents (Elt F)),
    StableHlo.binary main_v334 main_v335 main_v337 (subf : (⟨S2x1x2x2x2x2x2x2x2x2x2x2, .f32⟩ : BufTy).Contents (Elt F) → (⟨S2x1x2x2x2x2x2x2x2x2x2x2, .f32⟩ : BufTy).Contents (Elt F) → (⟨S2x1x2x2x2x2x2x2x2x2x2x2, .f32⟩ : BufTy).Contents (Elt F)),
    StableHlo.binary main_v336 main_v337 main_v338 ((fun a b => concatenate S2x2x2x2x2x2x2x2x2x2x2x2 1 [⟨S2x1x2x2x2x2x2x2x2x2x2x2, a⟩, ⟨S2x1x2x2x2x2x2x2x2x2x2x2, b⟩] concatenates_S2x1x2x2x2x2x2x2x2x2x2x2_S2x1x2x2x2x2x2x2x2x2x2x2_S2x2x2x2x2x2x2x2x2x2x2x2_d1) : (⟨S2x1x2x2x2x2x2x2x2x2x2x2, .f32⟩ : BufTy).Contents (Elt F) → (⟨S2x1x2x2x2x2x2x2x2x2x2x2, .f32⟩ : BufTy).Contents (Elt F) → (⟨S2x2x2x2x2x2x2x2x2x2x2x2, .f32⟩ : BufTy).Contents (Elt F)),
    StableHlo.unary main_v338 main_v339 ((extractStridedSlice S2x2x1x2x2x2x2x2x2x2x2x2 ![0, 0, 0, 0, 0, 0, 0, 0, 0, 0, 0, 0] · slices_S2x2x2x2x2x2x2x2x2x2x2x2_S2x2x1x2x2x2x2x2x2x2x2x2_0_0_0_0_0_0_0_0_0_0_0_0) : (⟨S2x2x2x2x2x2x2x2x2x2x2x2, .f32⟩ : BufTy).Contents (Elt F) → (⟨S2x2x1x2x2x2x2x2x2x2x2x2, .f32⟩ : BufTy).Contents (Elt F)),
    StableHlo.unary main_v338 main_v340 ((extractStridedSlice S2x2x1x2x2x2x2x2x2x2x2x2 ![0, 0, 1, 0, 0, 0, 0, 0, 0, 0, 0, 0] · slices_S2x2x2x2x2x2x2x2x2x2x2x2_S2x2x1x2x2x2x2x2x2x2x2x2_0_0_1_0_0_0_0_0_0_0_0_0) : (⟨S2x2x2x2x2x2x2x2x2x2x2x2, .f32⟩ : BufTy).Contents (Elt F) → (⟨S2x2x1x2x2x2x2x2x2x2x2x2, .f32⟩ : BufTy).Contents (Elt F)),
    StableHlo.binary main_v339 main_v340 main_v341 (addf : (⟨S2x2x1x2x2x2x2x2x2x2x2x2, .f32⟩ : BufTy).Contents (Elt F) → (⟨S2x2x1x2x2x2x2x2x2x2x2x2, .f32⟩ : BufTy).Contents (Elt F) → (⟨S2x2x1x2x2x2x2x2x2x2x2x2, .f32⟩ : BufTy).Contents (Elt F)),
    StableHlo.binary main_v339 main_v340 main_v342 (subf : (⟨S2x2x1x2x2x2x2x2x2x2x2x2, .f32⟩ : BufTy).Contents (Elt F) → (⟨S2x2x1x2x2x2x2x2x2x2x2x2, .f32⟩ : BufTy).Contents (Elt F) → (⟨S2x2x1x2x2x2x2x2x2x2x2x2, .f32⟩ : BufTy).Contents (Elt F)),
    StableHlo.binary main_v341 main_v342 main_v343 ((fun a b => concatenate S2x2x2x2x2x2x2x2x2x2x2x2 2 [⟨S2x2x1x2x2x2x2x2x2x2x2x2, a⟩, ⟨S2x2x1x2x2x2x2x2x2x2x2x2, b⟩] concatenates_S2x2x1x2x2x2x2x2x2x2x2x2_S2x2x1x2x2x2x2x2x2x2x2x2_S2x2x2x2x2x2x2x2x2x2x2x2_d2) : (⟨S2x2x1x2x2x2x2x2x2x2x2x2, .f32⟩ : BufTy).Contents (Elt F) → (⟨S2x2x1x2x2x2x2x2x2x2x2x2, .f32⟩ : BufTy).Contents (Elt F) → (⟨S2x2x2x2x2x2x2x2x2x2x2x2, .f32⟩ : BufTy).Contents (Elt F)),
    StableHlo.unary main_v343 main_v344 ((extractStridedSlice S2x2x2x1x2x2x2x2x2x2x2x2 ![0, 0, 0, 0, 0, 0, 0, 0, 0, 0, 0, 0] · slices_S2x2x2x2x2x2x2x2x2x2x2x2_S2x2x2x1x2x2x2x2x2x2x2x2_0_0_0_0_0_0_0_0_0_0_0_0) : (⟨S2x2x2x2x2x2x2x2x2x2x2x2, .f32⟩ : BufTy).Contents (Elt F) → (⟨S2x2x2x1x2x2x2x2x2x2x2x2, .f32⟩ : BufTy).Contents (Elt F)),
    StableHlo.unary main_v343 main_v345 ((extractStridedSlice S2x2x2x1x2x2x2x2x2x2x2x2 ![0, 0, 0, 1, 0, 0, 0, 0, 0, 0, 0, 0] · slices_S2x2x2x2x2x2x2x2x2x2x2x2_S2x2x2x1x2x2x2x2x2x2x2x2_0_0_0_1_0_0_0_0_0_0_0_0) : (⟨S2x2x2x2x2x2x2x2x2x2x2x2, .f32⟩ : BufTy).Contents (Elt F) → (⟨S2x2x2x1x2x2x2x2x2x2x2x2, .f32⟩ : BufTy).Contents (Elt F)),
    StableHlo.binary main_v344 main_v345 main_v346 (addf : (⟨S2x2x2x1x2x2x2x2x2x2x2x2, .f32⟩ : BufTy).Contents (Elt F) → (⟨S2x2x2x1x2x2x2x2x2x2x2x2, .f32⟩ : BufTy).Contents (Elt F) → (⟨S2x2x2x1x2x2x2x2x2x2x2x2, .f32⟩ : BufTy).Contents (Elt F)),
    StableHlo.binary main_v344 main_v345 main_v347 (subf : (⟨S2x2x2x1x2x2x2x2x2x2x2x2, .f32⟩ : BufTy).Contents (Elt F) → (⟨S2x2x2x1x2x2x2x2x2x2x2x2, .f32⟩ : BufTy).Contents (Elt F) → (⟨S2x2x2x1x2x2x2x2x2x2x2x2, .f32⟩ : BufTy).Contents (Elt F)),
    StableHlo.binary main_v346 main_v347 main_v348 ((fun a b => concatenate S2x2x2x2x2x2x2x2x2x2x2x2 3 [⟨S2x2x2x1x2x2x2x2x2x2x2x2, a⟩, ⟨S2x2x2x1x2x2x2x2x2x2x2x2, b⟩] concatenates_S2x2x2x1x2x2x2x2x2x2x2x2_S2x2x2x1x2x2x2x2x2x2x2x2_S2x2x2x2x2x2x2x2x2x2x2x2_d3) : (⟨S2x2x2x1x2x2x2x2x2x2x2x2, .f32⟩ : BufTy).Contents (Elt F) → (⟨S2x2x2x1x2x2x2x2x2x2x2x2, .f32⟩ : BufTy).Contents (Elt F) → (⟨S2x2x2x2x2x2x2x2x2x2x2x2, .f32⟩ : BufTy).Contents (Elt F)) ]

/-- The program's operations 361 … 418 of 418. -/
abbrev ops_part6 : List (HloOp τ sig (Elt F)) :=
  [ StableHlo.unary main_v348 main_v349 ((extractStridedSlice S2x2x2x2x1x2x2x2x2x2x2x2 ![0, 0, 0, 0, 0, 0, 0, 0, 0, 0, 0, 0] · slices_S2x2x2x2x2x2x2x2x2x2x2x2_S2x2x2x2x1x2x2x2x2x2x2x2_0_0_0_0_0_0_0_0_0_0_0_0) : (⟨S2x2x2x2x2x2x2x2x2x2x2x2, .f32⟩ : BufTy).Contents (Elt F) → (⟨S2x2x2x2x1x2x2x2x2x2x2x2, .f32⟩ : BufTy).Contents (Elt F)),
    StableHlo.unary main_v348 main_v350 ((extractStridedSlice S2x2x2x2x1x2x2x2x2x2x2x2 ![0, 0, 0, 0, 1, 0, 0, 0, 0, 0, 0, 0] · slices_S2x2x2x2x2x2x2x2x2x2x2x2_S2x2x2x2x1x2x2x2x2x2x2x2_0_0_0_0_1_0_0_0_0_0_0_0) : (⟨S2x2x2x2x2x2x2x2x2x2x2x2, .f32⟩ : BufTy).Contents (Elt F) → (⟨S2x2x2x2x1x2x2x2x2x2x2x2, .f32⟩ : BufTy).Contents (Elt F)),
    StableHlo.binary main_v349 main_v350 main_v351 (addf : (⟨S2x2x2x2x1x2x2x2x2x2x2x2, .f32⟩ : BufTy).Contents (Elt F) → (⟨S2x2x2x2x1x2x2x2x2x2x2x2, .f32⟩ : BufTy).Contents (Elt F) → (⟨S2x2x2x2x1x2x2x2x2x2x2x2, .f32⟩ : BufTy).Contents (Elt F)),
    StableHlo.binary main_v349 main_v350 main_v352 (subf : (⟨S2x2x2x2x1x2x2x2x2x2x2x2, .f32⟩ : BufTy).Contents (Elt F) → (⟨S2x2x2x2x1x2x2x2x2x2x2x2, .f32⟩ : BufTy).Contents (Elt F) → (⟨S2x2x2x2x1x2x2x2x2x2x2x2, .f32⟩ : BufTy).Contents (Elt F)),
    StableHlo.binary main_v351 main_v352 main_v353 ((fun a b => concatenate S2x2x2x2x2x2x2x2x2x2x2x2 4 [⟨S2x2x2x2x1x2x2x2x2x2x2x2, a⟩, ⟨S2x2x2x2x1x2x2x2x2x2x2x2, b⟩] concatenates_S2x2x2x2x1x2x2x2x2x2x2x2_S2x2x2x2x1x2x2x2x2x2x2x2_S2x2x2x2x2x2x2x2x2x2x2x2_d4) : (⟨S2x2x2x2x1x2x2x2x2x2x2x2, .f32⟩ : BufTy).Contents (Elt F) → (⟨S2x2x2x2x1x2x2x2x2x2x2x2, .f32⟩ : BufTy).Contents (Elt F) → (⟨S2x2x2x2x2x2x2x2x2x2x2x2, .f32⟩ : BufTy).Contents (Elt F)),
    StableHlo.unary main_v353 main_v354 ((extractStridedSlice S2x2x2x2x2x1x2x2x2x2x2x2 ![0, 0, 0, 0, 0, 0, 0, 0, 0, 0, 0, 0] · slices_S2x2x2x2x2x2x2x2x2x2x2x2_S2x2x2x2x2x1x2x2x2x2x2x2_0_0_0_0_0_0_0_0_0_0_0_0) : (⟨S2x2x2x2x2x2x2x2x2x2x2x2, .f32⟩ : BufTy).Contents (Elt F) → (⟨S2x2x2x2x2x1x2x2x2x2x2x2, .f32⟩ : BufTy).Contents (Elt F)),
    StableHlo.unary main_v353 main_v355 ((extractStridedSlice S2x2x2x2x2x1x2x2x2x2x2x2 ![0, 0, 0, 0, 0, 1, 0, 0, 0, 0, 0, 0] · slices_S2x2x2x2x2x2x2x2x2x2x2x2_S2x2x2x2x2x1x2x2x2x2x2x2_0_0_0_0_0_1_0_0_0_0_0_0) : (⟨S2x2x2x2x2x2x2x2x2x2x2x2, .f32⟩ : BufTy).Contents (Elt F) → (⟨S2x2x2x2x2x1x2x2x2x2x2x2, .f32⟩ : BufTy).Contents (Elt F)),
    StableHlo.binary main_v354 main_v355 main_v356 (addf : (⟨S2x2x2x2x2x1x2x2x2x2x2x2, .f32⟩ : BufTy).Contents (Elt F) → (⟨S2x2x2x2x2x1x2x2x2x2x2x2, .f32⟩ : BufTy).Contents (Elt F) → (⟨S2x2x2x2x2x1x2x2x2x2x2x2, .f32⟩ : BufTy).Contents (Elt F)),
    StableHlo.binary main_v354 main_v355 main_v357 (subf : (⟨S2x2x2x2x2x1x2x2x2x2x2x2, .f32⟩ : BufTy).Contents (Elt F) → (⟨S2x2x2x2x2x1x2x2x2x2x2x2, .f32⟩ : BufTy).Contents (Elt F) → (⟨S2x2x2x2x2x1x2x2x2x2x2x2, .f32⟩ : BufTy).Contents (Elt F)),
    StableHlo.binary main_v356 main_v357 main_v358 ((fun a b => concatenate S2x2x2x2x2x2x2x2x2x2x2x2 5 [⟨S2x2x2x2x2x1x2x2x2x2x2x2, a⟩, ⟨S2x2x2x2x2x1x2x2x2x2x2x2, b⟩] concatenates_S2x2x2x2x2x1x2x2x2x2x2x2_S2x2x2x2x2x1x2x2x2x2x2x2_S2x2x2x2x2x2x2x2x2x2x2x2_d5) : (⟨S2x2x2x2x2x1x2x2x2x2x2x2, .f32⟩ : BufTy).Contents (Elt F) → (⟨S2x2x2x2x2x1x2x2x2x2x2x2, .f32⟩ : BufTy).Contents (Elt F) → (⟨S2x2x2x2x2x2x2x2x2x2x2x2, .f32⟩ : BufTy).Contents (Elt F)),
    StableHlo.unary main_v358 main_v359 ((extractStridedSlice S2x2x2x2x2x2x1x2x2x2x2x2 ![0, 0, 0, 0, 0, 0, 0, 0, 0, 0, 0, 0] · slices_S2x2x2x2x2x2x2x2x2x2x2x2_S2x2x2x2x2x2x1x2x2x2x2x2_0_0_0_0_0_0_0_0_0_0_0_0) : (⟨S2x2x2x2x2x2x2x2x2x2x2x2, .f32⟩ : BufTy).Contents (Elt F) → (⟨S2x2x2x2x2x2x1x2x2x2x2x2, .f32⟩ : BufTy).Contents (Elt F)),
    StableHlo.unary main_v358 main_v360 ((extractStridedSlice S2x2x2x2x2x2x1x2x2x2x2x2 ![0, 0, 0, 0, 0, 0, 1, 0, 0, 0, 0, 0] · slices_S2x2x2x2x2x2x2x2x2x2x2x2_S2x2x2x2x2x2x1x2x2x2x2x2_0_0_0_0_0_0_1_0_0_0_0_0) : (⟨S2x2x2x2x2x2x2x2x2x2x2x2, .f32⟩ : BufTy).Contents (Elt F) → (⟨S2x2x2x2x2x2x1x2x2x2x2x2, .f32⟩ : BufTy).Contents (Elt F)),
    StableHlo.binary main_v359 main_v360 main_v361 (addf : (⟨S2x2x2x2x2x2x1x2x2x2x2x2, .f32⟩ : BufTy).Contents (Elt F) → (⟨S2x2x2x2x2x2x1x2x2x2x2x2, .f32⟩ : BufTy).Contents (Elt F) → (⟨S2x2x2x2x2x2x1x2x2x2x2x2, .f32⟩ : BufTy).Contents (Elt F)),
    StableHlo.binary main_v359 main_v360 main_v362 (subf : (⟨S2x2x2x2x2x2x1x2x2x2x2x2, .f32⟩ : BufTy).Contents (Elt F) → (⟨S2x2x2x2x2x2x1x2x2x2x2x2, .f32⟩ : BufTy).Contents (Elt F) → (⟨S2x2x2x2x2x2x1x2x2x2x2x2, .f32⟩ : BufTy).Contents (Elt F)),
    StableHlo.binary main_v361 main_v362 main_v363 ((fun a b => concatenate S2x2x2x2x2x2x2x2x2x2x2x2 6 [⟨S2x2x2x2x2x2x1x2x2x2x2x2, a⟩, ⟨S2x2x2x2x2x2x1x2x2x2x2x2, b⟩] concatenates_S2x2x2x2x2x2x1x2x2x2x2x2_S2x2x2x2x2x2x1x2x2x2x2x2_S2x2x2x2x2x2x2x2x2x2x2x2_d6) : (⟨S2x2x2x2x2x2x1x2x2x2x2x2, .f32⟩ : BufTy).Contents (Elt F) → (⟨S2x2x2x2x2x2x1x2x2x2x2x2, .f32⟩ : BufTy).Contents (Elt F) → (⟨S2x2x2x2x2x2x2x2x2x2x2x2, .f32⟩ : BufTy).Contents (Elt F)),
    StableHlo.unary main_v363 main_v364 ((extractStridedSlice S2x2x2x2x2x2x2x1x2x2x2x2 ![0, 0, 0, 0, 0, 0, 0, 0, 0, 0, 0, 0] · slices_S2x2x2x2x2x2x2x2x2x2x2x2_S2x2x2x2x2x2x2x1x2x2x2x2_0_0_0_0_0_0_0_0_0_0_0_0) : (⟨S2x2x2x2x2x2x2x2x2x2x2x2, .f32⟩ : BufTy).Contents (Elt F) → (⟨S2x2x2x2x2x2x2x1x2x2x2x2, .f32⟩ : BufTy).Contents (Elt F)),
    StableHlo.unary main_v363 main_v365 ((extractStridedSlice S2x2x2x2x2x2x2x1x2x2x2x2 ![0, 0, 0, 0, 0, 0, 0, 1, 0, 0, 0, 0] · slices_S2x2x2x2x2x2x2x2x2x2x2x2_S2x2x2x2x2x2x2x1x2x2x2x2_0_0_0_0_0_0_0_1_0_0_0_0) : (⟨S2x2x2x2x2x2x2x2x2x2x2x2, .f32⟩ : BufTy).Contents (Elt F) → (⟨S2x2x2x2x2x2x2x1x2x2x2x2, .f32⟩ : BufTy).Contents (Elt F)),
    StableHlo.binary main_v364 main_v365 main_v366 (addf : (⟨S2x2x2x2x2x2x2x1x2x2x2x2, .f32⟩ : BufTy).Contents (Elt F) → (⟨S2x2x2x2x2x2x2x1x2x2x2x2, .f32⟩ : BufTy).Contents (Elt F) → (⟨S2x2x2x2x2x2x2x1x2x2x2x2, .f32⟩ : BufTy).Contents (Elt F)),
    StableHlo.binary main_v364 main_v365 main_v367 (subf : (⟨S2x2x2x2x2x2x2x1x2x2x2x2, .f32⟩ : BufTy).Contents (Elt F) → (⟨S2x2x2x2x2x2x2x1x2x2x2x2, .f32⟩ : BufTy).Contents (Elt F) → (⟨S2x2x2x2x2x2x2x1x2x2x2x2, .f32⟩ : BufTy).Contents (Elt F)),
    StableHlo.binary main_v366 main_v367 main_v368 ((fun a b => concatenate S2x2x2x2x2x2x2x2x2x2x2x2 7 [⟨S2x2x2x2x2x2x2x1x2x2x2x2, a⟩, ⟨S2x2x2x2x2x2x2x1x2x2x2x2, b⟩] concatenates_S2x2x2x2x2x2x2x1x2x2x2x2_S2x2x2x2x2x2x2x1x2x2x2x2_S2x2x2x2x2x2x2x2x2x2x2x2_d7) : (⟨S2x2x2x2x2x2x2x1x2x2x2x2, .f32⟩ : BufTy).Contents (Elt F) → (⟨S2x2x2x2x2x2x2x1x2x2x2x2, .f32⟩ : BufTy).Contents (Elt F) → (⟨S2x2x2x2x2x2x2x2x2x2x2x2, .f32⟩ : BufTy).Contents (Elt F)),
    StableHlo.unary main_v368 main_v369 ((extractStridedSlice S2x2x2x2x2x2x2x2x1x2x2x2 ![0, 0, 0, 0, 0, 0, 0, 0, 0, 0, 0, 0] · slices_S2x2x2x2x2x2x2x2x2x2x2x2_S2x2x2x2x2x2x2x2x1x2x2x2_0_0_0_0_0_0_0_0_0_0_0_0) : (⟨S2x2x2x2x2x2x2x2x2x2x2x2, .f32⟩ : BufTy).Contents (Elt F) → (⟨S2x2x2x2x2x2x2x2x1x2x2x2, .f32⟩ : BufTy).Contents (Elt F)),
    StableHlo.unary main_v368 main_v370 ((extractStridedSlice S2x2x2x2x2x2x2x2x1x2x2x2 ![0, 0, 0, 0, 0, 0, 0, 0, 1, 0, 0, 0] · slices_S2x2x2x2x2x2x2x2x2x2x2x2_S2x2x2x2x2x2x2x2x1x2x2x2_0_0_0_0_0_0_0_0_1_0_0_0) : (⟨S2x2x2x2x2x2x2x2x2x2x2x2, .f32⟩ : BufTy).Contents (Elt F) → (⟨S2x2x2x2x2x2x2x2x1x2x2x2, .f32⟩ : BufTy).Contents (Elt F)),
    StableHlo.binary main_v369 main_v370 main_v371 (addf : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x1x2x2x2, .f32⟩ : BufTy).Contents (Elt F)),
    StableHlo.binary main_v369 main_v370 main_v372 (subf : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x1x2x2x2, .f32⟩ : BufTy).Contents (Elt F)),
    StableHlo.binary main_v371 main_v372 main_v373 ((fun a b => concatenate S2x2x2x2x2x2x2x2x2x2x2x2 8 [⟨S2x2x2x2x2x2x2x2x1x2x2x2, a⟩, ⟨S2x2x2x2x2x2x2x2x1x2x2x2, b⟩] concatenates_S2x2x2x2x2x2x2x2x1x2x2x2_S2x2x2x2x2x2x2x2x1x2x2x2_S2x2x2x2x2x2x2x2x2x2x2x2_d8) : (⟨S2x2x2x2x2x2x2x2x1x2x2x2, .f32⟩ : BufTy).Contents (Elt F) → (⟨S2x2x2x2x2x2x2x2x1x2x2x2, .f32⟩ : BufTy).Contents (Elt F) → (⟨S2x2x2x2x2x2x2x2x2x2x2x2, .f32⟩ : BufTy).Contents (Elt F)),
    StableHlo.unary main_v373 main_v374 ((extractStridedSlice S2x2x2x2x2x2x2x2x2x1x2x2 ![0, 0, 0, 0, 0, 0, 0, 0, 0, 0, 0, 0] · slices_S2x2x2x2x2x2x2x2x2x2x2x2_S2x2x2x2x2x2x2x2x2x1x2x2_0_0_0_0_0_0_0_0_0_0_0_0) : (⟨S2x2x2x2x2x2x2x2x2x2x2x2, .f32⟩ : BufTy).Contents (Elt F) → (⟨S2x2x2x2x2x2x2x2x2x1x2x2, .f32⟩ : BufTy).Contents (Elt F)),
    StableHlo.unary main_v373 main_v375 ((extractStridedSlice S2x2x2x2x2x2x2x2x2x1x2x2 ![0, 0, 0, 0, 0, 0, 0, 0, 0, 1, 0, 0] · slices_S2x2x2x2x2x2x2x2x2x2x2x2_S2x2x2x2x2x2x2x2x2x1x2x2_0_0_0_0_0_0_0_0_0_1_0_0) : (⟨S2x2x2x2x2x2x2x2x2x2x2x2, .f32⟩ : BufTy).Contents (Elt F) → (⟨S2x2x2x2x2x2x2x2x2x1x2x2, .f32⟩ : BufTy).Contents (Elt F)),
    StableHlo.binary main_v374 main_v375 main_v376 (addf : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x1x2x2, .f32⟩ : BufTy).Contents (Elt F)),
    StableHlo.binary main_v374 main_v375 main_v377 (subf : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x1x2x2, .f32⟩ : BufTy).Contents (Elt F)),
    StableHlo.binary main_v376 main_v377 main_v378 ((fun a b => concatenate S2x2x2x2x2x2x2x2x2x2x2x2 9 [⟨S2x2x2x2x2x2x2x2x2x1x2x2, a⟩, ⟨S2x2x2x2x2x2x2x2x2x1x2x2, b⟩] concatenates_S2x2x2x2x2x2x2x2x2x1x2x2_S2x2x2x2x2x2x2x2x2x1x2x2_S2x2x2x2x2x2x2x2x2x2x2x2_d9) : (⟨S2x2x2x2x2x2x2x2x2x1x2x2, .f32⟩ : BufTy).Contents (Elt F) → (⟨S2x2x2x2x2x2x2x2x2x1x2x2, .f32⟩ : BufTy).Contents (Elt F) → (⟨S2x2x2x2x2x2x2x2x2x2x2x2, .f32⟩ : BufTy).Contents (Elt F)),
    StableHlo.unary main_v378 main_v379 ((extractStridedSlice S2x2x2x2x2x2x2x2x2x2x1x2 ![0, 0, 0, 0, 0, 0, 0, 0, 0, 0, 0, 0] · slices_S2x2x2x2x2x2x2x2x2x2x2x2_S2x2x2x2x2x2x2x2x2x2x1x2_0_0_0_0_0_0_0_0_0_0_0_0) : (⟨S2x2x2x2x2x2x2x2x2x2x2x2, .f32⟩ : BufTy).Contents (Elt F) → (⟨S2x2x2x2x2x2x2x2x2x2x1x2, .f32⟩ : BufTy).Contents (Elt F)),
    StableHlo.unary main_v378 main_v380 ((extractStridedSlice S2x2x2x2x2x2x2x2x2x2x1x2 ![0, 0, 0, 0, 0, 0, 0, 0, 0, 0, 1, 0] · slices_S2x2x2x2x2x2x2x2x2x2x2x2_S2x2x2x2x2x2x2x2x2x2x1x2_0_0_0_0_0_0_0_0_0_0_1_0) : (⟨S2x2x2x2x2x2x2x2x2x2x2x2, .f32⟩ : BufTy).Contents (Elt F) → (⟨S2x2x2x2x2x2x2x2x2x2x1x2, .f32⟩ : BufTy).Contents (Elt F)),
    StableHlo.binary main_v379 main_v380 main_v381 (addf : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x1x2, .f32⟩ : BufTy).Contents (Elt F)),
    StableHlo.binary main_v379 main_v380 main_v382 (subf : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x1x2, .f32⟩ : BufTy).Contents (Elt F)),
    StableHlo.binary main_v381 main_v382 main_v383 ((fun a b => concatenate S2x2x2x2x2x2x2x2x2x2x2x2 10 [⟨S2x2x2x2x2x2x2x2x2x2x1x2, a⟩, ⟨S2x2x2x2x2x2x2x2x2x2x1x2, b⟩] concatenates_S2x2x2x2x2x2x2x2x2x2x1x2_S2x2x2x2x2x2x2x2x2x2x1x2_S2x2x2x2x2x2x2x2x2x2x2x2_d10) : (⟨S2x2x2x2x2x2x2x2x2x2x1x2, .f32⟩ : BufTy).Contents (Elt F) → (⟨S2x2x2x2x2x2x2x2x2x2x1x2, .f32⟩ : BufTy).Contents (Elt F) → (⟨S2x2x2x2x2x2x2x2x2x2x2x2, .f32⟩ : BufTy).Contents (Elt F)),
    StableHlo.unary main_v383 main_v384 ((extractStridedSlice S2x2x2x2x2x2x2x2x2x2x2x1 ![0, 0, 0, 0, 0, 0, 0, 0, 0, 0, 0, 0] · slices_S2x2x2x2x2x2x2x2x2x2x2x2_S2x2x2x2x2x2x2x2x2x2x2x1_0_0_0_0_0_0_0_0_0_0_0_0) : (⟨S2x2x2x2x2x2x2x2x2x2x2x2, .f32⟩ : BufTy).Contents (Elt F) → (⟨S2x2x2x2x2x2x2x2x2x2x2x1, .f32⟩ : BufTy).Contents (Elt F)),
    StableHlo.unary main_v383 main_v385 ((extractStridedSlice S2x2x2x2x2x2x2x2x2x2x2x1 ![0, 0, 0, 0, 0, 0, 0, 0, 0, 0, 0, 1] · slices_S2x2x2x2x2x2x2x2x2x2x2x2_S2x2x2x2x2x2x2x2x2x2x2x1_0_0_0_0_0_0_0_0_0_0_0_1) : (⟨S2x2x2x2x2x2x2x2x2x2x2x2, .f32⟩ : BufTy).Contents (Elt F) → (⟨S2x2x2x2x2x2x2x2x2x2x2x1, .f32⟩ : BufTy).Contents (Elt F)),
    StableHlo.binary main_v384 main_v385 main_v386 (addf : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x1, .f32⟩ : BufTy).Contents (Elt F)),
    StableHlo.binary main_v384 main_v385 main_v387 (subf : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x1, .f32⟩ : BufTy).Contents (Elt F)),
    StableHlo.binary main_v386 main_v387 main_v388 ((fun a b => concatenate S2x2x2x2x2x2x2x2x2x2x2x2 11 [⟨S2x2x2x2x2x2x2x2x2x2x2x1, a⟩, ⟨S2x2x2x2x2x2x2x2x2x2x2x1, b⟩] concatenates_S2x2x2x2x2x2x2x2x2x2x2x1_S2x2x2x2x2x2x2x2x2x2x2x1_S2x2x2x2x2x2x2x2x2x2x2x2_d11) : (⟨S2x2x2x2x2x2x2x2x2x2x2x1, .f32⟩ : BufTy).Contents (Elt F) → (⟨S2x2x2x2x2x2x2x2x2x2x2x1, .f32⟩ : BufTy).Contents (Elt F) → (⟨S2x2x2x2x2x2x2x2x2x2x2x2, .f32⟩ : BufTy).Contents (Elt F)),
    StableHlo.reshape main_v388 main_v389 rfl shapeCasts_S2x2x2x2x2x2x2x2x2x2x2x2_S4096,
    StableHlo.binary main_arg7 main_arg7 main_v390 (mulf : (⟨S4096, .f32⟩ : BufTy).Contents (Elt F) → (⟨S4096, .f32⟩ : BufTy).Contents (Elt F) → (⟨S4096, .f32⟩ : BufTy).Contents (Elt F)),
    StableHlo.nullary main_cst_9 (constant S_ .f32 0x00000000#32),
    StableHlo.binary main_v390 main_cst_9 main_v391 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_10 (constant S_ .f32 0x45800000#32),
    StableHlo.binary main_cst_10 main_v391 main_v392 (mulf : (⟨S_, .f32⟩ : BufTy).Contents (Elt F) → (⟨S_, .f32⟩ : BufTy).Contents (Elt F) → (⟨S_, .f32⟩ : BufTy).Contents (Elt F)),
    StableHlo.unary main_v392 main_v393 (Host.sqrt : (⟨S_, .f32⟩ : BufTy).Contents (Elt F) → (⟨S_, .f32⟩ : BufTy).Contents (Elt F)),
    StableHlo.nullary main_cst_11 (constant S_ .f32 0x3F800000#32),
    StableHlo.binary main_v393 main_cst_11 main_v394 (mulf : (⟨S_, .f32⟩ : BufTy).Contents (Elt F) → (⟨S_, .f32⟩ : BufTy).Contents (Elt F) → (⟨S_, .f32⟩ : BufTy).Contents (Elt F)),
    StableHlo.unary main_v394 main_v395 (broadcastInDim S4096 ![] bcast_S_S4096 : (⟨S_, .f32⟩ : BufTy).Contents (Elt F) → (⟨S4096, .f32⟩ : BufTy).Contents (Elt F)),
    StableHlo.binary main_v389 main_v395 main_v396 (Host.divf : (⟨S4096, .f32⟩ : BufTy).Contents (Elt F) → (⟨S4096, .f32⟩ : BufTy).Contents (Elt F) → (⟨S4096, .f32⟩ : BufTy).Contents (Elt F)),
    StableHlo.binary main_arg2 main_v253 main_v397 (addf : (⟨S4096x2048, .f32⟩ : BufTy).Contents (Elt F) → (⟨S4096x2048, .f32⟩ : BufTy).Contents (Elt F) → (⟨S4096x2048, .f32⟩ : BufTy).Contents (Elt F)),
    StableHlo.binary main_arg3 main_v396 main_v398 (addf : (⟨S4096, .f32⟩ : BufTy).Contents (Elt F) → (⟨S4096, .f32⟩ : BufTy).Contents (Elt F) → (⟨S4096, .f32⟩ : BufTy).Contents (Elt F)),
    StableHlo.unary main_v397 main_v399 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v399 main_v400 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.unary main_v398 main_v401 (broadcastInDim S1x4096 ![1] bcast_S4096_S1x4096_1 : (⟨S4096, .f32⟩ : BufTy).Contents (Elt F) → (⟨S1x4096, .f32⟩ : BufTy).Contents (Elt F)),
    StableHlo.unary main_v401 main_v402 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v400 main_v402 main_v403 (addf : (⟨S4096x4096, .f32⟩ : BufTy).Contents (Elt F) → (⟨S4096x4096, .f32⟩ : BufTy).Contents (Elt F) → (⟨S4096x4096, .f32⟩ : BufTy).Contents (Elt F)) ]

/-- The program's 418 operations, in order. -/
abbrev ops : List (HloOp τ sig (Elt F)) :=
  ops_part0 ++ (ops_part1 ++ (ops_part2 ++ (ops_part3 ++ (ops_part4 ++ (ops_part5 ++ (ops_part6))))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
/-- The program is the sequence of its operations. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., nullary_bufs_sub .., unary_bufs_sub .., ternary_bufs_sub .., binary_bufs_sub .., reshape_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem ops_part1_sub : (ops_part1 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem ops_part2_sub : (ops_part2 : List (HloOp τ sig (Elt F))).Forall fun op => op.bufs ⊆ tcRefs τ sig :=
  ⟨binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub ..⟩
set_option maxRecDepth 8192 in
theorem ops_part3_sub : (ops_part3 : List (HloOp τ sig (Elt F))).Forall fun op => op.bufs ⊆ tcRefs τ sig :=
  ⟨unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub ..⟩
set_option maxRecDepth 8192 in
theorem ops_part4_sub : (ops_part4 : List (HloOp τ sig (Elt F))).Forall fun op => op.bufs ⊆ tcRefs τ sig :=
  ⟨unary_bufs_sub .., binary_bufs_sub .., binary_bufs_sub .., binary_bufs_sub .., unary_bufs_sub .., unary_bufs_sub .., binary_bufs_sub .., binary_bufs_sub .., binary_bufs_sub .., reshape_bufs_sub .., binary_bufs_sub .., nullary_bufs_sub .., binary_bufs_sub .., nullary_bufs_sub .., binary_bufs_sub .., unary_bufs_sub .., nullary_bufs_sub .., binary_bufs_sub .., unary_bufs_sub .., binary_bufs_sub .., reshape_bufs_sub .., nullary_bufs_sub .., unary_bufs_sub .., nullary_bufs_sub .., unary_bufs_sub .., ternary_bufs_sub .., binary_bufs_sub .., reshape_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub ..⟩
set_option maxRecDepth 8192 in
theorem ops_part5_sub : (ops_part5 : List (HloOp τ sig (Elt F))).Forall fun op => op.bufs ⊆ tcRefs τ sig :=
  ⟨binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub ..⟩
set_option maxRecDepth 8192 in
theorem ops_part6_sub : (ops_part6 : List (HloOp τ sig (Elt F))).Forall fun op => op.bufs ⊆ tcRefs τ sig :=
  ⟨unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., reshape_bufs_sub .., binary_bufs_sub .., nullary_bufs_sub .., binary_bufs_sub .., nullary_bufs_sub .., binary_bufs_sub .., unary_bufs_sub .., nullary_bufs_sub .., binary_bufs_sub .., unary_bufs_sub .., binary_bufs_sub .., binary_bufs_sub .., binary_bufs_sub .., unary_bufs_sub .., binary_bufs_sub .., unary_bufs_sub .., unary_bufs_sub .., binary_bufs_sub ..⟩
/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Every operation determines what it writes. -/
theorem ops_fresh : ∀ op ∈ (ops : List (HloOp τ sig (Elt F))), op.fresh = ∅ := fun op h => by
  simp only [ops, List.mem_append] at h
  rcases h with h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h]

/-- On every device, for any float values, from any memory with zero counters: every weakly fair execution of the program
    terminates with each TensorCore buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RHost

end
-- ==== Proof.RArgs.lean ====
/- No operation of the reference's host program writes an argument array: each operation writes one buffer, and that buffer is
   none of the ten arguments. -/
import proofs.«167603_j88115549045430_2_alg».proof.Proof.ROps

noncomputable section

open Idealize.ShloMosaic Idealize.ShloMosaic.TcCoe Idealize.SL.Sem Idealize.ShloMosaic.StableHlo

namespace Cert.RHost

open Cert.ReferenceIdeal Cert.ReferenceIdeal.Gen

variable {F : FTy → Type} [FloatOps F]

/-- The ten argument arrays. -/
abbrev argOf : Fin 10 → Ref sig .tc := ![main_arg0, main_arg1, main_arg2, main_arg3, main_arg4, main_arg5, main_arg6, main_arg7, main_arg8, main_arg9]

/-- An operation that writes the one buffer `y`, which is no argument, writes no argument. -/
theorem nw {y : Ref sig .tc} (hy : ∀ k : Fin 10, argOf k ≠ y) {op : HloOp τ sig (Elt F)}
    (hw : op.writes = {(Proc.devRef .tc y : DevRef τ sig)}) : ∀ k : Fin 10, (Proc.devRef .tc (argOf k) : DevRef τ sig) ∉ op.writes :=
  fun k h => StableHlo.devRef_ne_of_ne (hy k) (Finset.mem_singleton.1 (hw ▸ h))

set_option maxRecDepth 8192 in
theorem ops_part0_nw : (ops_part0 : List (HloOp τ sig (Elt F))).Forall fun op => ∀ k : Fin 10, (Proc.devRef .tc (argOf k) : DevRef τ sig) ∉ op.writes :=
  ⟨nw (y := main_cst) (by decide) rfl, nw (y := main_v0) (by decide) rfl, nw (y := main_c) (by decide) rfl, nw (y := main_v1) (by decide) rfl, nw (y := main_v2) (by decide) rfl, nw (y := main_v3) (by decide) rfl, nw (y := main_v4) (by decide) rfl, nw (y := main_v5) (by decide) rfl, nw (y := main_v6) (by decide) rfl, nw (y := main_v7) (by decide) rfl, nw (y := main_v8) (by decide) rfl, nw (y := main_v9) (by decide) rfl, nw (y := main_v10) (by decide) rfl, nw (y := main_v11) (by decide) rfl, nw (y := main_v12) (by decide) rfl, nw (y := main_v13) (by decide) rfl, nw (y := main_v14) (by decide) rfl, nw (y := main_v15) (by decide) rfl, nw (y := main_v16) (by decide) rfl, nw (y := main_v17) (by decide) rfl, nw (y := main_v18) (by decide) rfl, nw (y := main_v19) (by decide) rfl, nw (y := main_v20) (by decide) rfl, nw (y := main_v21) (by decide) rfl, nw (y := main_v22) (by decide) rfl, nw (y := main_v23) (by decide) rfl, nw (y := main_v24) (by decide) rfl, nw (y := main_v25) (by decide) rfl, nw (y := main_v26) (by decide) rfl, nw (y := main_v27) (by decide) rfl, nw (y := main_v28) (by decide) rfl, nw (y := main_v29) (by decide) rfl, nw (y := main_v30) (by decide) rfl, nw (y := main_v31) (by decide) rfl, nw (y := main_v32) (by decide) rfl, nw (y := main_v33) (by decide) rfl, nw (y := main_v34) (by decide) rfl, nw (y := main_v35) (by decide) rfl, nw (y := main_v36) (by decide) rfl, nw (y := main_v37) (by decide) rfl, nw (y := main_v38) (by decide) rfl, nw (y := main_v39) (by decide) rfl, nw (y := main_v40) (by decide) rfl, nw (y := main_v41) (by decide) rfl, nw (y := main_v42) (by decide) rfl, nw (y := main_v43) (by decide) rfl, nw (y := main_v44) (by decide) rfl, nw (y := main_v45) (by decide) rfl, nw (y := main_v46) (by decide) rfl, nw (y := main_v47) (by decide) rfl, nw (y := main_v48) (by decide) rfl, nw (y := main_v49) (by decide) rfl, nw (y := main_v50) (by decide) rfl, nw (y := main_v51) (by decide) rfl, nw (y := main_v52) (by decide) rfl, nw (y := main_v53) (by decide) rfl, nw (y := main_v54) (by decide) rfl, nw (y := main_v55) (by decide) rfl, nw (y := main_v56) (by decide) rfl, nw (y := main_v57) (by decide) rfl⟩
set_option maxRecDepth 8192 in
theorem ops_part1_nw : (ops_part1 : List (HloOp τ sig (Elt F))).Forall fun op => ∀ k : Fin 10, (Proc.devRef .tc (argOf k) : DevRef τ sig) ∉ op.writes :=
  ⟨nw (y := main_v58) (by decide) rfl, nw (y := main_v59) (by decide) rfl, nw (y := main_v60) (by decide) rfl, nw (y := main_v61) (by decide) rfl, nw (y := main_v62) (by decide) rfl, nw (y := main_v63) (by decide) rfl, nw (y := main_v64) (by decide) rfl, nw (y := main_v65) (by decide) rfl, nw (y := main_v66) (by decide) rfl, nw (y := main_v67) (by decide) rfl, nw (y := main_v68) (by decide) rfl, nw (y := main_v69) (by decide) rfl, nw (y := main_v70) (by decide) rfl, nw (y := main_v71) (by decide) rfl, nw (y := main_v72) (by decide) rfl, nw (y := main_v73) (by decide) rfl, nw (y := main_v74) (by decide) rfl, nw (y := main_v75) (by decide) rfl, nw (y := main_v76) (by decide) rfl, nw (y := main_v77) (by decide) rfl, nw (y := main_v78) (by decide) rfl, nw (y := main_v79) (by decide) rfl, nw (y := main_v80) (by decide) rfl, nw (y := main_v81) (by decide) rfl, nw (y := main_v82) (by decide) rfl, nw (y := main_v83) (by decide) rfl, nw (y := main_v84) (by decide) rfl, nw (y := main_v85) (by decide) rfl, nw (y := main_v86) (by decide) rfl, nw (y := main_v87) (by decide) rfl, nw (y := main_v88) (by decide) rfl, nw (y := main_v89) (by decide) rfl, nw (y := main_v90) (by decide) rfl, nw (y := main_v91) (by decide) rfl, nw (y := main_v92) (by decide) rfl, nw (y := main_v93) (by decide) rfl, nw (y := main_v94) (by decide) rfl, nw (y := main_v95) (by decide) rfl, nw (y := main_v96) (by decide) rfl, nw (y := main_v97) (by decide) rfl, nw (y := main_v98) (by decide) rfl, nw (y := main_v99) (by decide) rfl, nw (y := main_v100) (by decide) rfl, nw (y := main_v101) (by decide) rfl, nw (y := main_v102) (by decide) rfl, nw (y := main_v103) (by decide) rfl, nw (y := main_v104) (by decide) rfl, nw (y := main_v105) (by decide) rfl, nw (y := main_v106) (by decide) rfl, nw (y := main_v107) (by decide) rfl, nw (y := main_v108) (by decide) rfl, nw (y := main_v109) (by decide) rfl, nw (y := main_v110) (by decide) rfl, nw (y := main_v111) (by decide) rfl, nw (y := main_v112) (by decide) rfl, nw (y := main_v113) (by decide) rfl, nw (y := main_v114) (by decide) rfl, nw (y := main_v115) (by decide) rfl, nw (y := main_v116) (by decide) rfl, nw (y := main_v117) (by decide) rfl⟩
set_option maxRecDepth 8192 in
theorem ops_part2_nw : (ops_part2 : List (HloOp τ sig (Elt F))).Forall fun op => ∀ k : Fin 10, (Proc.devRef .tc (argOf k) : DevRef τ sig) ∉ op.writes :=
  ⟨nw (y := main_v118) (by decide) rfl, nw (y := main_v119) (by decide) rfl, nw (y := main_v120) (by decide) rfl, nw (y := main_c_0) (by decide) rfl, nw (y := main_v121) (by decide) rfl, nw (y := main_v122) (by decide) rfl, nw (y := main_c_1) (by decide) rfl, nw (y := main_v123) (by decide) rfl, nw (y := main_v124) (by decide) rfl, nw (y := main_v125) (by decide) rfl, nw (y := main_v126) (by decide) rfl, nw (y := main_v127) (by decide) rfl, nw (y := main_v128) (by decide) rfl, nw (y := main_v129) (by decide) rfl, nw (y := main_v130) (by decide) rfl, nw (y := main_v131) (by decide) rfl, nw (y := main_v132) (by decide) rfl, nw (y := main_v133) (by decide) rfl, nw (y := main_v134) (by decide) rfl, nw (y := main_v135) (by decide) rfl, nw (y := main_v136) (by decide) rfl, nw (y := main_v137) (by decide) rfl, nw (y := main_v138) (by decide) rfl, nw (y := main_v139) (by decide) rfl, nw (y := main_v140) (by decide) rfl, nw (y := main_v141) (by decide) rfl, nw (y := main_v142) (by decide) rfl, nw (y := main_v143) (by decide) rfl, nw (y := main_v144) (by decide) rfl, nw (y := main_v145) (by decide) rfl, nw (y := main_v146) (by decide) rfl, nw (y := main_v147) (by decide) rfl, nw (y := main_v148) (by decide) rfl, nw (y := main_v149) (by decide) rfl, nw (y := main_v150) (by decide) rfl, nw (y := main_v151) (by decide) rfl, nw (y := main_v152) (by decide) rfl, nw (y := main_v153) (by decide) rfl, nw (y := main_v154) (by decide) rfl, nw (y := main_v155) (by decide) rfl, nw (y := main_v156) (by decide) rfl, nw (y := main_v157) (by decide) rfl, nw (y := main_v158) (by decide) rfl, nw (y := main_v159) (by decide) rfl, nw (y := main_v160) (by decide) rfl, nw (y := main_v161) (by decide) rfl, nw (y := main_v162) (by decide) rfl, nw (y := main_v163) (by decide) rfl, nw (y := main_v164) (by decide) rfl, nw (y := main_v165) (by decide) rfl, nw (y := main_v166) (by decide) rfl, nw (y := main_v167) (by decide) rfl, nw (y := main_v168) (by decide) rfl, nw (y := main_v169) (by decide) rfl, nw (y := main_v170) (by decide) rfl, nw (y := main_v171) (by decide) rfl, nw (y := main_v172) (by decide) rfl, nw (y := main_v173) (by decide) rfl, nw (y := main_v174) (by decide) rfl, nw (y := main_v175) (by decide) rfl⟩
set_option maxRecDepth 8192 in
theorem ops_part3_nw : (ops_part3 : List (HloOp τ sig (Elt F))).Forall fun op => ∀ k : Fin 10, (Proc.devRef .tc (argOf k) : DevRef τ sig) ∉ op.writes :=
  ⟨nw (y := main_v176) (by decide) rfl, nw (y := main_v177) (by decide) rfl, nw (y := main_v178) (by decide) rfl, nw (y := main_v179) (by decide) rfl, nw (y := main_v180) (by decide) rfl, nw (y := main_v181) (by decide) rfl, nw (y := main_v182) (by decide) rfl, nw (y := main_v183) (by decide) rfl, nw (y := main_v184) (by decide) rfl, nw (y := main_v185) (by decide) rfl, nw (y := main_v186) (by decide) rfl, nw (y := main_v187) (by decide) rfl, nw (y := main_v188) (by decide) rfl, nw (y := main_v189) (by decide) rfl, nw (y := main_v190) (by decide) rfl, nw (y := main_v191) (by decide) rfl, nw (y := main_v192) (by decide) rfl, nw (y := main_v193) (by decide) rfl, nw (y := main_v194) (by decide) rfl, nw (y := main_v195) (by decide) rfl, nw (y := main_v196) (by decide) rfl, nw (y := main_v197) (by decide) rfl, nw (y := main_v198) (by decide) rfl, nw (y := main_v199) (by decide) rfl, nw (y := main_v200) (by decide) rfl, nw (y := main_v201) (by decide) rfl, nw (y := main_v202) (by decide) rfl, nw (y := main_v203) (by decide) rfl, nw (y := main_v204) (by decide) rfl, nw (y := main_v205) (by decide) rfl, nw (y := main_v206) (by decide) rfl, nw (y := main_v207) (by decide) rfl, nw (y := main_v208) (by decide) rfl, nw (y := main_v209) (by decide) rfl, nw (y := main_v210) (by decide) rfl, nw (y := main_v211) (by decide) rfl, nw (y := main_v212) (by decide) rfl, nw (y := main_v213) (by decide) rfl, nw (y := main_v214) (by decide) rfl, nw (y := main_v215) (by decide) rfl, nw (y := main_v216) (by decide) rfl, nw (y := main_v217) (by decide) rfl, nw (y := main_v218) (by decide) rfl, nw (y := main_v219) (by decide) rfl, nw (y := main_v220) (by decide) rfl, nw (y := main_v221) (by decide) rfl, nw (y := main_v222) (by decide) rfl, nw (y := main_v223) (by decide) rfl, nw (y := main_v224) (by decide) rfl, nw (y := main_v225) (by decide) rfl, nw (y := main_v226) (by decide) rfl, nw (y := main_v227) (by decide) rfl, nw (y := main_v228) (by decide) rfl, nw (y := main_v229) (by decide) rfl, nw (y := main_v230) (by decide) rfl, nw (y := main_v231) (by decide) rfl, nw (y := main_v232) (by decide) rfl, nw (y := main_v233) (by decide) rfl, nw (y := main_v234) (by decide) rfl, nw (y := main_v235) (by decide) rfl⟩
set_option maxRecDepth 8192 in
theorem ops_part4_nw : (ops_part4 : List (HloOp τ sig (Elt F))).Forall fun op => ∀ k : Fin 10, (Proc.devRef .tc (argOf k) : DevRef τ sig) ∉ op.writes :=
  ⟨nw (y := main_v236) (by decide) rfl, nw (y := main_v237) (by decide) rfl, nw (y := main_v238) (by decide) rfl, nw (y := main_v239) (by decide) rfl, nw (y := main_v240) (by decide) rfl, nw (y := main_v241) (by decide) rfl, nw (y := main_v242) (by decide) rfl, nw (y := main_v243) (by decide) rfl, nw (y := main_v244) (by decide) rfl, nw (y := main_v245) (by decide) rfl, nw (y := main_v246) (by decide) rfl, nw (y := main_cst_2) (by decide) rfl, nw (y := main_v247) (by decide) rfl, nw (y := main_cst_3) (by decide) rfl, nw (y := main_v248) (by decide) rfl, nw (y := main_v249) (by decide) rfl, nw (y := main_cst_4) (by decide) rfl, nw (y := main_v250) (by decide) rfl, nw (y := main_v251) (by decide) rfl, nw (y := main_v252) (by decide) rfl, nw (y := main_v253) (by decide) rfl, nw (y := main_cst_5) (by decide) rfl, nw (y := main_v254) (by decide) rfl, nw (y := main_c_6) (by decide) rfl, nw (y := main_v255) (by decide) rfl, nw (y := main_v256) (by decide) rfl, nw (y := main_v257) (by decide) rfl, nw (y := main_v258) (by decide) rfl, nw (y := main_v259) (by decide) rfl, nw (y := main_v260) (by decide) rfl, nw (y := main_v261) (by decide) rfl, nw (y := main_v262) (by decide) rfl, nw (y := main_v263) (by decide) rfl, nw (y := main_v264) (by decide) rfl, nw (y := main_v265) (by decide) rfl, nw (y := main_v266) (by decide) rfl, nw (y := main_v267) (by decide) rfl, nw (y := main_v268) (by decide) rfl, nw (y := main_v269) (by decide) rfl, nw (y := main_v270) (by decide) rfl, nw (y := main_v271) (by decide) rfl, nw (y := main_v272) (by decide) rfl, nw (y := main_v273) (by decide) rfl, nw (y := main_v274) (by decide) rfl, nw (y := main_v275) (by decide) rfl, nw (y := main_v276) (by decide) rfl, nw (y := main_v277) (by decide) rfl, nw (y := main_v278) (by decide) rfl, nw (y := main_v279) (by decide) rfl, nw (y := main_v280) (by decide) rfl, nw (y := main_v281) (by decide) rfl, nw (y := main_v282) (by decide) rfl, nw (y := main_v283) (by decide) rfl, nw (y := main_v284) (by decide) rfl, nw (y := main_v285) (by decide) rfl, nw (y := main_v286) (by decide) rfl, nw (y := main_v287) (by decide) rfl, nw (y := main_v288) (by decide) rfl, nw (y := main_v289) (by decide) rfl, nw (y := main_v290) (by decide) rfl⟩
set_option maxRecDepth 8192 in
theorem ops_part5_nw : (ops_part5 : List (HloOp τ sig (Elt F))).Forall fun op => ∀ k : Fin 10, (Proc.devRef .tc (argOf k) : DevRef τ sig) ∉ op.writes :=
  ⟨nw (y := main_v291) (by decide) rfl, nw (y := main_v292) (by decide) rfl, nw (y := main_v293) (by decide) rfl, nw (y := main_v294) (by decide) rfl, nw (y := main_v295) (by decide) rfl, nw (y := main_v296) (by decide) rfl, nw (y := main_v297) (by decide) rfl, nw (y := main_v298) (by decide) rfl, nw (y := main_v299) (by decide) rfl, nw (y := main_v300) (by decide) rfl, nw (y := main_v301) (by decide) rfl, nw (y := main_v302) (by decide) rfl, nw (y := main_v303) (by decide) rfl, nw (y := main_v304) (by decide) rfl, nw (y := main_v305) (by decide) rfl, nw (y := main_v306) (by decide) rfl, nw (y := main_v307) (by decide) rfl, nw (y := main_v308) (by decide) rfl, nw (y := main_v309) (by decide) rfl, nw (y := main_v310) (by decide) rfl, nw (y := main_v311) (by decide) rfl, nw (y := main_v312) (by decide) rfl, nw (y := main_v313) (by decide) rfl, nw (y := main_v314) (by decide) rfl, nw (y := main_v315) (by decide) rfl, nw (y := main_v316) (by decide) rfl, nw (y := main_v317) (by decide) rfl, nw (y := main_v318) (by decide) rfl, nw (y := main_v319) (by decide) rfl, nw (y := main_c_7) (by decide) rfl, nw (y := main_v320) (by decide) rfl, nw (y := main_v321) (by decide) rfl, nw (y := main_c_8) (by decide) rfl, nw (y := main_v322) (by decide) rfl, nw (y := main_v323) (by decide) rfl, nw (y := main_v324) (by decide) rfl, nw (y := main_v325) (by decide) rfl, nw (y := main_v326) (by decide) rfl, nw (y := main_v327) (by decide) rfl, nw (y := main_v328) (by decide) rfl, nw (y := main_v329) (by decide) rfl, nw (y := main_v330) (by decide) rfl, nw (y := main_v331) (by decide) rfl, nw (y := main_v332) (by decide) rfl, nw (y := main_v333) (by decide) rfl, nw (y := main_v334) (by decide) rfl, nw (y := main_v335) (by decide) rfl, nw (y := main_v336) (by decide) rfl, nw (y := main_v337) (by decide) rfl, nw (y := main_v338) (by decide) rfl, nw (y := main_v339) (by decide) rfl, nw (y := main_v340) (by decide) rfl, nw (y := main_v341) (by decide) rfl, nw (y := main_v342) (by decide) rfl, nw (y := main_v343) (by decide) rfl, nw (y := main_v344) (by decide) rfl, nw (y := main_v345) (by decide) rfl, nw (y := main_v346) (by decide) rfl, nw (y := main_v347) (by decide) rfl, nw (y := main_v348) (by decide) rfl⟩
set_option maxRecDepth 8192 in
theorem ops_part6_nw : (ops_part6 : List (HloOp τ sig (Elt F))).Forall fun op => ∀ k : Fin 10, (Proc.devRef .tc (argOf k) : DevRef τ sig) ∉ op.writes :=
  ⟨nw (y := main_v349) (by decide) rfl, nw (y := main_v350) (by decide) rfl, nw (y := main_v351) (by decide) rfl, nw (y := main_v352) (by decide) rfl, nw (y := main_v353) (by decide) rfl, nw (y := main_v354) (by decide) rfl, nw (y := main_v355) (by decide) rfl, nw (y := main_v356) (by decide) rfl, nw (y := main_v357) (by decide) rfl, nw (y := main_v358) (by decide) rfl, nw (y := main_v359) (by decide) rfl, nw (y := main_v360) (by decide) rfl, nw (y := main_v361) (by decide) rfl, nw (y := main_v362) (by decide) rfl, nw (y := main_v363) (by decide) rfl, nw (y := main_v364) (by decide) rfl, nw (y := main_v365) (by decide) rfl, nw (y := main_v366) (by decide) rfl, nw (y := main_v367) (by decide) rfl, nw (y := main_v368) (by decide) rfl, nw (y := main_v369) (by decide) rfl, nw (y := main_v370) (by decide) rfl, nw (y := main_v371) (by decide) rfl, nw (y := main_v372) (by decide) rfl, nw (y := main_v373) (by decide) rfl, nw (y := main_v374) (by decide) rfl, nw (y := main_v375) (by decide) rfl, nw (y := main_v376) (by decide) rfl, nw (y := main_v377) (by decide) rfl, nw (y := main_v378) (by decide) rfl, nw (y := main_v379) (by decide) rfl, nw (y := main_v380) (by decide) rfl, nw (y := main_v381) (by decide) rfl, nw (y := main_v382) (by decide) rfl, nw (y := main_v383) (by decide) rfl, nw (y := main_v384) (by decide) rfl, nw (y := main_v385) (by decide) rfl, nw (y := main_v386) (by decide) rfl, nw (y := main_v387) (by decide) rfl, nw (y := main_v388) (by decide) rfl, nw (y := main_v389) (by decide) rfl, nw (y := main_v390) (by decide) rfl, nw (y := main_cst_9) (by decide) rfl, nw (y := main_v391) (by decide) rfl, nw (y := main_cst_10) (by decide) rfl, nw (y := main_v392) (by decide) rfl, nw (y := main_v393) (by decide) rfl, nw (y := main_cst_11) (by decide) rfl, nw (y := main_v394) (by decide) rfl, nw (y := main_v395) (by decide) rfl, nw (y := main_v396) (by decide) rfl, nw (y := main_v397) (by decide) rfl, nw (y := main_v398) (by decide) rfl, nw (y := main_v399) (by decide) rfl, nw (y := main_v400) (by decide) rfl, nw (y := main_v401) (by decide) rfl, nw (y := main_v402) (by decide) rfl, nw (y := main_v403) (by decide) rfl⟩

/-- No operation writes an argument array. -/
theorem args_not_written : ∀ op ∈ (ops : List (HloOp τ sig (Elt F))), ∀ k : Fin 10, (Proc.devRef .tc (argOf k) : DevRef τ sig) ∉ op.writes := fun op h => by
  simp only [ops, List.mem_append] at h
  rcases h with h | h | h | h | h | h | h
  exacts [List.forall_iff_forall_mem.mp ops_part0_nw op h, List.forall_iff_forall_mem.mp ops_part1_nw op h, List.forall_iff_forall_mem.mp ops_part2_nw op h, List.forall_iff_forall_mem.mp ops_part3_nw op h, List.forall_iff_forall_mem.mp ops_part4_nw op h, List.forall_iff_forall_mem.mp ops_part5_nw op h, List.forall_iff_forall_mem.mp ops_part6_nw op h]

end Cert.RHost

end
-- ==== Proof.RHost.lean ====
/-
  The reference's host operations taken a few at a time: `RU V0 a` is the contents of the buffers after the first `a`
  operations, from contents `V0`; `n` more operations from `RU V0 a` give `RU V0 (a + n)`. No operation writes an
  argument array.
-/
import proofs.«167603_j88115549045430_2_alg».proof.Proof.ROps
import proofs.«167603_j88115549045430_2_alg».proof.Proof.RArgs

set_option maxRecDepth 16384
set_option maxHeartbeats 1000000

noncomputable section

open Idealize.ShloMosaic Idealize.ShloMosaic.TcCoe Idealize.SL.Sem Idealize.ShloMosaic.StableHlo

namespace Cert.RHost

open Cert.ReferenceIdeal Cert.ReferenceIdeal.Gen

variable {F : FTy → Type} [FloatOps F]
variable (V0 : Valuation τ sig (Elt F))

/-- The buffers' contents after the first `a` operations. -/
def RU (a : ℕ) : Valuation τ sig (Elt F) := after ((ops (F := F)).take a) V0

theorem RU_zero : RU V0 0 = V0 := rfl

theorem RU_add (a n : ℕ) : RU V0 (a + n) = after (((ops (F := F)).drop a).take n) (RU V0 a) := by
  unfold RU; rw [List.take_add, StableHlo.after_append]

theorem RU_all : RU V0 418 = after (ops (F := F)) V0 := by
  unfold RU; rw [show (ops (F := F)).take 418 = ops from List.take_of_length_le (Nat.le_of_eq rfl)]

theorem RU_arg (k : Fin 10) (a : ℕ) : RU V0 a (Proc.devRef .tc (argOf k)) = V0 (Proc.devRef .tc (argOf k)) :=
  StableHlo.after_of_forall_not_mem (b := Proc.devRef .tc (argOf k)) _ _
    (fun op hop => args_not_written op (List.mem_of_mem_take hop) k)

theorem RU_arg0 (a : ℕ) : RU V0 a (Proc.devRef .tc main_arg0) = V0 (Proc.devRef .tc main_arg0) := RU_arg V0 0 a
theorem RU_arg1 (a : ℕ) : RU V0 a (Proc.devRef .tc main_arg1) = V0 (Proc.devRef .tc main_arg1) := RU_arg V0 1 a
theorem RU_arg2 (a : ℕ) : RU V0 a (Proc.devRef .tc main_arg2) = V0 (Proc.devRef .tc main_arg2) := RU_arg V0 2 a
theorem RU_arg3 (a : ℕ) : RU V0 a (Proc.devRef .tc main_arg3) = V0 (Proc.devRef .tc main_arg3) := RU_arg V0 3 a
theorem RU_arg4 (a : ℕ) : RU V0 a (Proc.devRef .tc main_arg4) = V0 (Proc.devRef .tc main_arg4) := RU_arg V0 4 a
theorem RU_arg5 (a : ℕ) : RU V0 a (Proc.devRef .tc main_arg5) = V0 (Proc.devRef .tc main_arg5) := RU_arg V0 5 a
theorem RU_arg6 (a : ℕ) : RU V0 a (Proc.devRef .tc main_arg6) = V0 (Proc.devRef .tc main_arg6) := RU_arg V0 6 a
theorem RU_arg7 (a : ℕ) : RU V0 a (Proc.devRef .tc main_arg7) = V0 (Proc.devRef .tc main_arg7) := RU_arg V0 7 a
theorem RU_arg8 (a : ℕ) : RU V0 a (Proc.devRef .tc main_arg8) = V0 (Proc.devRef .tc main_arg8) := RU_arg V0 8 a
theorem RU_arg9 (a : ℕ) : RU V0 a (Proc.devRef .tc main_arg9) = V0 (Proc.devRef .tc main_arg9) := RU_arg V0 9 a

end Cert.RHost

end
-- ==== Proof.RW1.lean ====
/-
  The reference's first transform of the long vector.
  The reference keeps the vector as a cube of side 2 and, axis by axis, slices the two halves, adds and subtracts them and
  concatenates; each group of five operations is the butterfly along that axis (`slices_concat`), and the groups chained are
  the transform of the cube. The per-axis lemmas are one statement instantiated at every axis.
-/
import proofs.«167603_j88115549045430_2_alg».proof.Proof.RHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.RHost.W1

open Cert.ReferenceIdeal Cert.ReferenceIdeal.Gen Cert.Bfly Cert.RHost

variable {F : FTy → Type} [FloatOps F]
variable (V0 : Valuation τ sig (Elt F))

theorem stage0 : RU V0 12 (Proc.devRef .tc main_v9)
    = bfly (φ := .f32) S23 0 (size23 0) (RU V0 7 (Proc.devRef .tc main_v4)) := by
  show RU V0 (7 + 5) _ = _
  rw [RU_add]
  show after [_, _, _, _, _] _ _ = _
  after_results
  exact slices_concat S23 _ 0 (size23 0) _ _ _ _ _ (by decide) (by decide) _

theorem stage1 : RU V0 17 (Proc.devRef .tc main_v14)
    = bfly (φ := .f32) S23 1 (size23 1) (RU V0 12 (Proc.devRef .tc main_v9)) := by
  show RU V0 (12 + 5) _ = _
  rw [RU_add]
  show after [_, _, _, _, _] _ _ = _
  after_results
  exact slices_concat S23 _ 1 (size23 1) _ _ _ _ _ (by decide) (by decide) _

theorem stage2 : RU V0 22 (Proc.devRef .tc main_v19)
    = bfly (φ := .f32) S23 2 (size23 2) (RU V0 17 (Proc.devRef .tc main_v14)) := by
  show RU V0 (17 + 5) _ = _
  rw [RU_add]
  show after [_, _, _, _, _] _ _ = _
  after_results
  exact slices_concat S23 _ 2 (size23 2) _ _ _ _ _ (by decide) (by decide) _

theorem stage3 : RU V0 27 (Proc.devRef .tc main_v24)
    = bfly (φ := .f32) S23 3 (size23 3) (RU V0 22 (Proc.devRef .tc main_v19)) := by
  show RU V0 (22 + 5) _ = _
  rw [RU_add]
  show after [_, _, _, _, _] _ _ = _
  after_results
  exact slices_concat S23 _ 3 (size23 3) _ _ _ _ _ (by decide) (by decide) _

theorem stage4 : RU V0 32 (Proc.devRef .tc main_v29)
    = bfly (φ := .f32) S23 4 (size23 4) (RU V0 27 (Proc.devRef .tc main_v24)) := by
  show RU V0 (27 + 5) _ = _
  rw [RU_add]
  show after [_, _, _, _, _] _ _ = _
  after_results
  exact slices_concat S23 _ 4 (size23 4) _ _ _ _ _ (by decide) (by decide) _

theorem stage5 : RU V0 37 (Proc.devRef .tc main_v34)
    = bfly (φ := .f32) S23 5 (size23 5) (RU V0 32 (Proc.devRef .tc main_v29)) := by
  show RU V0 (32 + 5) _ = _
  rw [RU_add]
  show after [_, _, _, _, _] _ _ = _
  after_results
  exact slices_concat S23 _ 5 (size23 5) _ _ _ _ _ (by decide) (by decide) _

theorem stage6 : RU V0 42 (Proc.devRef .tc main_v39)
    = bfly (φ := .f32) S23 6 (size23 6) (RU V0 37 (Proc.devRef .tc main_v34)) := by
  show RU V0 (37 + 5) _ = _
  rw [RU_add]
  show after [_, _, _, _, _] _ _ = _
  after_results
  exact slices_concat S23 _ 6 (size23 6) _ _ _ _ _ (by decide) (by decide) _

theorem stage7 : RU V0 47 (Proc.devRef .tc main_v44)
    = bfly (φ := .f32) S23 7 (size23 7) (RU V0 42 (Proc.devRef .tc main_v39)) := by
  show RU V0 (42 + 5) _ = _
  rw [RU_add]
  show after [_, _, _, _, _] _ _ = _
  after_results
  exact slices_concat S23 _ 7 (size23 7) _ _ _ _ _ (by decide) (by decide) _

theorem stage8 : RU V0 52 (Proc.devRef .tc main_v49)
    = bfly (φ := .f32) S23 8 (size23 8) (RU V0 47 (Proc.devRef .tc main_v44)) := by
  show RU V0 (47 + 5) _ = _
  rw [RU_add]
  show after [_, _, _, _, _] _ _ = _
  after_results
  exact slices_concat S23 _ 8 (size23 8) _ _ _ _ _ (by decide) (by decide) _

theorem stage9 : RU V0 57 (Proc.devRef .tc main_v54)
    = bfly (φ := .f32) S23 9 (size23 9) (RU V0 52 (Proc.devRef .tc main_v49)) := by
  show RU V0 (52 + 5) _ = _
  rw [RU_add]
  show after [_, _, _, _, _] _ _ = _
  after_results
  exact slices_concat S23 _ 9 (size23 9) _ _ _ _ _ (by decide) (by decide) _

theorem stage10 : RU V0 62 (Proc.devRef .tc main_v59)
    = bfly (φ := .f32) S23 10 (size23 10) (RU V0 57 (Proc.devRef .tc main_v54)) := by
  show RU V0 (57 + 5) _ = _
  rw [RU_add]
  show after [_, _, _, _, _] _ _ = _
  after_results
  exact slices_concat S23 _ 10 (size23 10) _ _ _ _ _ (by decide) (by decide) _

theorem stage11 : RU V0 67 (Proc.devRef .tc main_v64)
    = bfly (φ := .f32) S23 11 (size23 11) (RU V0 62 (Proc.devRef .tc main_v59)) := by
  show RU V0 (62 + 5) _ = _
  rw [RU_add]
  show after [_, _, _, _, _] _ _ = _
  after_results
  exact slices_concat S23 _ 11 (size23 11) _ _ _ _ _ (by decide) (by decide) _

theorem stage12 : RU V0 72 (Proc.devRef .tc main_v69)
    = bfly (φ := .f32) S23 12 (size23 12) (RU V0 67 (Proc.devRef .tc main_v64)) := by
  show RU V0 (67 + 5) _ = _
  rw [RU_add]
  show after [_, _, _, _, _] _ _ = _
  after_results
  exact slices_concat S23 _ 12 (size23 12) _ _ _ _ _ (by decide) (by decide) _

theorem stage13 : RU V0 77 (Proc.devRef .tc main_v74)
    = bfly (φ := .f32) S23 13 (size23 13) (RU V0 72 (Proc.devRef .tc main_v69)) := by
  show RU V0 (72 + 5) _ = _
  rw [RU_add]
  show after [_, _, _, _, _] _ _ = _
  after_results
  exact slices_concat S23 _ 13 (size23 13) _ _ _ _ _ (by decide) (by decide) _

theorem stage14 : RU V0 82 (Proc.devRef .tc main_v79)
    = bfly (φ := .f32) S23 14 (size23 14) (RU V0 77 (Proc.devRef .tc main_v74)) := by
  show RU V0 (77 + 5) _ = _
  rw [RU_add]
  show after [_, _, _, _, _] _ _ = _
  after_results
  exact slices_concat S23 _ 14 (size23 14) _ _ _ _ _ (by decide) (by decide) _

theorem stage15 : RU V0 87 (Proc.devRef .tc main_v84)
    = bfly (φ := .f32) S23 15 (size23 15) (RU V0 82 (Proc.devRef .tc main_v79)) := by
  show RU V0 (82 + 5) _ = _
  rw [RU_add]
  show after [_, _, _, _, _] _ _ = _
  after_results
  exact slices_concat S23 _ 15 (size23 15) _ _ _ _ _ (by decide) (by decide) _

theorem stage16 : RU V0 92 (Proc.devRef .tc main_v89)
    = bfly (φ := .f32) S23 16 (size23 16) (RU V0 87 (Proc.devRef .tc main_v84)) := by
  show RU V0 (87 + 5) _ = _
  rw [RU_add]
  show after [_, _, _, _, _] _ _ = _
  after_results
  exact slices_concat S23 _ 16 (size23 16) _ _ _ _ _ (by decide) (by decide) _

theorem stage17 : RU V0 97 (Proc.devRef .tc main_v94)
    = bfly (φ := .f32) S23 17 (size23 17) (RU V0 92 (Proc.devRef .tc main_v89)) := by
  show RU V0 (92 + 5) _ = _
  rw [RU_add]
  show after [_, _, _, _, _] _ _ = _
  after_results
  exact slices_concat S23 _ 17 (size23 17) _ _ _ _ _ (by decide) (by decide) _

theorem stage18 : RU V0 102 (Proc.devRef .tc main_v99)
    = bfly (φ := .f32) S23 18 (size23 18) (RU V0 97 (Proc.devRef .tc main_v94)) := by
  show RU V0 (97 + 5) _ = _
  rw [RU_add]
  show after [_, _, _, _, _] _ _ = _
  after_results
  exact slices_concat S23 _ 18 (size23 18) _ _ _ _ _ (by decide) (by decide) _

theorem stage19 : RU V0 107 (Proc.devRef .tc main_v104)
    = bfly (φ := .f32) S23 19 (size23 19) (RU V0 102 (Proc.devRef .tc main_v99)) := by
  show RU V0 (102 + 5) _ = _
  rw [RU_add]
  show after [_, _, _, _, _] _ _ = _
  after_results
  exact slices_concat S23 _ 19 (size23 19) _ _ _ _ _ (by decide) (by decide) _

theorem stage20 : RU V0 112 (Proc.devRef .tc main_v109)
    = bfly (φ := .f32) S23 20 (size23 20) (RU V0 107 (Proc.devRef .tc main_v104)) := by
  show RU V0 (107 + 5) _ = _
  rw [RU_add]
  show after [_, _, _, _, _] _ _ = _
  after_results
  exact slices_concat S23 _ 20 (size23 20) _ _ _ _ _ (by decide) (by decide) _

theorem stage21 : RU V0 117 (Proc.devRef .tc main_v114)
    = bfly (φ := .f32) S23 21 (size23 21) (RU V0 112 (Proc.devRef .tc main_v109)) := by
  show RU V0 (112 + 5) _ = _
  rw [RU_add]
  show after [_, _, _, _, _] _ _ = _
  after_results
  exact slices_concat S23 _ 21 (size23 21) _ _ _ _ _ (by decide) (by decide) _

theorem stage22 : RU V0 122 (Proc.devRef .tc main_v119)
    = bfly (φ := .f32) S23 22 (size23 22) (RU V0 117 (Proc.devRef .tc main_v114)) := by
  show RU V0 (117 + 5) _ = _
  rw [RU_add]
  show after [_, _, _, _, _] _ _ = _
  after_results
  exact slices_concat S23 _ 22 (size23 22) _ _ _ _ _ (by decide) (by decide) _

/-- The stages along every axis, first axis first: the transform of the cube. -/
theorem all : RU V0 122 (Proc.devRef .tc main_v119) = cube23 (φ := .f32) (RU V0 7 (Proc.devRef .tc main_v4)) := by
  rw [stage22 V0, stage21 V0, stage20 V0, stage19 V0, stage18 V0, stage17 V0, stage16 V0, stage15 V0, stage14 V0, stage13 V0, stage12 V0, stage11 V0, stage10 V0, stage9 V0, stage8 V0, stage7 V0, stage6 V0, stage5 V0, stage4 V0, stage3 V0, stage2 V0, stage1 V0, stage0 V0]
  rfl

end Cert.RHost.W1

end
-- ==== Proof.RW2.lean ====
/-
  The reference's second transform of the long vector.
  The reference keeps the vector as a cube of side 2 and, axis by axis, slices the two halves, adds and subtracts them and
  concatenates; each group of five operations is the butterfly along that axis (`slices_concat`), and the groups chained are
  the transform of the cube. The per-axis lemmas are one statement instantiated at every axis.
-/
import proofs.«167603_j88115549045430_2_alg».proof.Proof.RHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.RHost.W2

open Cert.ReferenceIdeal Cert.ReferenceIdeal.Gen Cert.Bfly Cert.RHost

variable {F : FTy → Type} [FloatOps F]
variable (V0 : Valuation τ sig (Elt F))

theorem stage0 : RU V0 139 (Proc.devRef .tc main_v134)
    = bfly (φ := .f32) S23 0 (size23 0) (RU V0 134 (Proc.devRef .tc main_v129)) := by
  show RU V0 (134 + 5) _ = _
  rw [RU_add]
  show after [_, _, _, _, _] _ _ = _
  after_results
  exact slices_concat S23 _ 0 (size23 0) _ _ _ _ _ (by decide) (by decide) _

theorem stage1 : RU V0 144 (Proc.devRef .tc main_v139)
    = bfly (φ := .f32) S23 1 (size23 1) (RU V0 139 (Proc.devRef .tc main_v134)) := by
  show RU V0 (139 + 5) _ = _
  rw [RU_add]
  show after [_, _, _, _, _] _ _ = _
  after_results
  exact slices_concat S23 _ 1 (size23 1) _ _ _ _ _ (by decide) (by decide) _

theorem stage2 : RU V0 149 (Proc.devRef .tc main_v144)
    = bfly (φ := .f32) S23 2 (size23 2) (RU V0 144 (Proc.devRef .tc main_v139)) := by
  show RU V0 (144 + 5) _ = _
  rw [RU_add]
  show after [_, _, _, _, _] _ _ = _
  after_results
  exact slices_concat S23 _ 2 (size23 2) _ _ _ _ _ (by decide) (by decide) _

theorem stage3 : RU V0 154 (Proc.devRef .tc main_v149)
    = bfly (φ := .f32) S23 3 (size23 3) (RU V0 149 (Proc.devRef .tc main_v144)) := by
  show RU V0 (149 + 5) _ = _
  rw [RU_add]
  show after [_, _, _, _, _] _ _ = _
  after_results
  exact slices_concat S23 _ 3 (size23 3) _ _ _ _ _ (by decide) (by decide) _

theorem stage4 : RU V0 159 (Proc.devRef .tc main_v154)
    = bfly (φ := .f32) S23 4 (size23 4) (RU V0 154 (Proc.devRef .tc main_v149)) := by
  show RU V0 (154 + 5) _ = _
  rw [RU_add]
  show after [_, _, _, _, _] _ _ = _
  after_results
  exact slices_concat S23 _ 4 (size23 4) _ _ _ _ _ (by decide) (by decide) _

theorem stage5 : RU V0 164 (Proc.devRef .tc main_v159)
    = bfly (φ := .f32) S23 5 (size23 5) (RU V0 159 (Proc.devRef .tc main_v154)) := by
  show RU V0 (159 + 5) _ = _
  rw [RU_add]
  show after [_, _, _, _, _] _ _ = _
  after_results
  exact slices_concat S23 _ 5 (size23 5) _ _ _ _ _ (by decide) (by decide) _

theorem stage6 : RU V0 169 (Proc.devRef .tc main_v164)
    = bfly (φ := .f32) S23 6 (size23 6) (RU V0 164 (Proc.devRef .tc main_v159)) := by
  show RU V0 (164 + 5) _ = _
  rw [RU_add]
  show after [_, _, _, _, _] _ _ = _
  after_results
  exact slices_concat S23 _ 6 (size23 6) _ _ _ _ _ (by decide) (by decide) _

theorem stage7 : RU V0 174 (Proc.devRef .tc main_v169)
    = bfly (φ := .f32) S23 7 (size23 7) (RU V0 169 (Proc.devRef .tc main_v164)) := by
  show RU V0 (169 + 5) _ = _
  rw [RU_add]
  show after [_, _, _, _, _] _ _ = _
  after_results
  exact slices_concat S23 _ 7 (size23 7) _ _ _ _ _ (by decide) (by decide) _

theorem stage8 : RU V0 179 (Proc.devRef .tc main_v174)
    = bfly (φ := .f32) S23 8 (size23 8) (RU V0 174 (Proc.devRef .tc main_v169)) := by
  show RU V0 (174 + 5) _ = _
  rw [RU_add]
  show after [_, _, _, _, _] _ _ = _
  after_results
  exact slices_concat S23 _ 8 (size23 8) _ _ _ _ _ (by decide) (by decide) _

theorem stage9 : RU V0 184 (Proc.devRef .tc main_v179)
    = bfly (φ := .f32) S23 9 (size23 9) (RU V0 179 (Proc.devRef .tc main_v174)) := by
  show RU V0 (179 + 5) _ = _
  rw [RU_add]
  show after [_, _, _, _, _] _ _ = _
  after_results
  exact slices_concat S23 _ 9 (size23 9) _ _ _ _ _ (by decide) (by decide) _

theorem stage10 : RU V0 189 (Proc.devRef .tc main_v184)
    = bfly (φ := .f32) S23 10 (size23 10) (RU V0 184 (Proc.devRef .tc main_v179)) := by
  show RU V0 (184 + 5) _ = _
  rw [RU_add]
  show after [_, _, _, _, _] _ _ = _
  after_results
  exact slices_concat S23 _ 10 (size23 10) _ _ _ _ _ (by decide) (by decide) _

theorem stage11 : RU V0 194 (Proc.devRef .tc main_v189)
    = bfly (φ := .f32) S23 11 (size23 11) (RU V0 189 (Proc.devRef .tc main_v184)) := by
  show RU V0 (189 + 5) _ = _
  rw [RU_add]
  show after [_, _, _, _, _] _ _ = _
  after_results
  exact slices_concat S23 _ 11 (size23 11) _ _ _ _ _ (by decide) (by decide) _

theorem stage12 : RU V0 199 (Proc.devRef .tc main_v194)
    = bfly (φ := .f32) S23 12 (size23 12) (RU V0 194 (Proc.devRef .tc main_v189)) := by
  show RU V0 (194 + 5) _ = _
  rw [RU_add]
  show after [_, _, _, _, _] _ _ = _
  after_results
  exact slices_concat S23 _ 12 (size23 12) _ _ _ _ _ (by decide) (by decide) _

theorem stage13 : RU V0 204 (Proc.devRef .tc main_v199)
    = bfly (φ := .f32) S23 13 (size23 13) (RU V0 199 (Proc.devRef .tc main_v194)) := by
  show RU V0 (199 + 5) _ = _
  rw [RU_add]
  show after [_, _, _, _, _] _ _ = _
  after_results
  exact slices_concat S23 _ 13 (size23 13) _ _ _ _ _ (by decide) (by decide) _

theorem stage14 : RU V0 209 (Proc.devRef .tc main_v204)
    = bfly (φ := .f32) S23 14 (size23 14) (RU V0 204 (Proc.devRef .tc main_v199)) := by
  show RU V0 (204 + 5) _ = _
  rw [RU_add]
  show after [_, _, _, _, _] _ _ = _
  after_results
  exact slices_concat S23 _ 14 (size23 14) _ _ _ _ _ (by decide) (by decide) _

theorem stage15 : RU V0 214 (Proc.devRef .tc main_v209)
    = bfly (φ := .f32) S23 15 (size23 15) (RU V0 209 (Proc.devRef .tc main_v204)) := by
  show RU V0 (209 + 5) _ = _
  rw [RU_add]
  show after [_, _, _, _, _] _ _ = _
  after_results
  exact slices_concat S23 _ 15 (size23 15) _ _ _ _ _ (by decide) (by decide) _

theorem stage16 : RU V0 219 (Proc.devRef .tc main_v214)
    = bfly (φ := .f32) S23 16 (size23 16) (RU V0 214 (Proc.devRef .tc main_v209)) := by
  show RU V0 (214 + 5) _ = _
  rw [RU_add]
  show after [_, _, _, _, _] _ _ = _
  after_results
  exact slices_concat S23 _ 16 (size23 16) _ _ _ _ _ (by decide) (by decide) _

theorem stage17 : RU V0 224 (Proc.devRef .tc main_v219)
    = bfly (φ := .f32) S23 17 (size23 17) (RU V0 219 (Proc.devRef .tc main_v214)) := by
  show RU V0 (219 + 5) _ = _
  rw [RU_add]
  show after [_, _, _, _, _] _ _ = _
  after_results
  exact slices_concat S23 _ 17 (size23 17) _ _ _ _ _ (by decide) (by decide) _

theorem stage18 : RU V0 229 (Proc.devRef .tc main_v224)
    = bfly (φ := .f32) S23 18 (size23 18) (RU V0 224 (Proc.devRef .tc main_v219)) := by
  show RU V0 (224 + 5) _ = _
  rw [RU_add]
  show after [_, _, _, _, _] _ _ = _
  after_results
  exact slices_concat S23 _ 18 (size23 18) _ _ _ _ _ (by decide) (by decide) _

theorem stage19 : RU V0 234 (Proc.devRef .tc main_v229)
    = bfly (φ := .f32) S23 19 (size23 19) (RU V0 229 (Proc.devRef .tc main_v224)) := by
  show RU V0 (229 + 5) _ = _
  rw [RU_add]
  show after [_, _, _, _, _] _ _ = _
  after_results
  exact slices_concat S23 _ 19 (size23 19) _ _ _ _ _ (by decide) (by decide) _

theorem stage20 : RU V0 239 (Proc.devRef .tc main_v234)
    = bfly (φ := .f32) S23 20 (size23 20) (RU V0 234 (Proc.devRef .tc main_v229)) := by
  show RU V0 (234 + 5) _ = _
  rw [RU_add]
  show after [_, _, _, _, _] _ _ = _
  after_results
  exact slices_concat S23 _ 20 (size23 20) _ _ _ _ _ (by decide) (by decide) _

theorem stage21 : RU V0 244 (Proc.devRef .tc main_v239)
    = bfly (φ := .f32) S23 21 (size23 21) (RU V0 239 (Proc.devRef .tc main_v234)) := by
  show RU V0 (239 + 5) _ = _
  rw [RU_add]
  show after [_, _, _, _, _] _ _ = _
  after_results
  exact slices_concat S23 _ 21 (size23 21) _ _ _ _ _ (by decide) (by decide) _

theorem stage22 : RU V0 249 (Proc.devRef .tc main_v244)
    = bfly (φ := .f32) S23 22 (size23 22) (RU V0 244 (Proc.devRef .tc main_v239)) := by
  show RU V0 (244 + 5) _ = _
  rw [RU_add]
  show after [_, _, _, _, _] _ _ = _
  after_results
  exact slices_concat S23 _ 22 (size23 22) _ _ _ _ _ (by decide) (by decide) _

/-- The stages along every axis, first axis first: the transform of the cube. -/
theorem all : RU V0 249 (Proc.devRef .tc main_v244) = cube23 (φ := .f32) (RU V0 134 (Proc.devRef .tc main_v129)) := by
  rw [stage22 V0, stage21 V0, stage20 V0, stage19 V0, stage18 V0, stage17 V0, stage16 V0, stage15 V0, stage14 V0, stage13 V0, stage12 V0, stage11 V0, stage10 V0, stage9 V0, stage8 V0, stage7 V0, stage6 V0, stage5 V0, stage4 V0, stage3 V0, stage2 V0, stage1 V0, stage0 V0]
  rfl

end Cert.RHost.W2

end
-- ==== Proof.RB1.lean ====
/-
  The reference's first transform of the short vector.
  The reference keeps the vector as a cube of side 2 and, axis by axis, slices the two halves, adds and subtracts them and
  concatenates; each group of five operations is the butterfly along that axis (`slices_concat`), and the groups chained are
  the transform of the cube. The per-axis lemmas are one statement instantiated at every axis.
-/
import proofs.«167603_j88115549045430_2_alg».proof.Proof.RHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.RHost.B1

open Cert.ReferenceIdeal Cert.ReferenceIdeal.Gen Cert.Bfly Cert.RHost

variable {F : FTy → Type} [FloatOps F]
variable (V0 : Valuation τ sig (Elt F))

theorem stage0 : RU V0 273 (Proc.devRef .tc main_v263)
    = bfly (φ := .f32) S12 0 (size12 0) (RU V0 268 (Proc.devRef .tc main_v258)) := by
  show RU V0 (268 + 5) _ = _
  rw [RU_add]
  show after [_, _, _, _, _] _ _ = _
  after_results
  exact slices_concat S12 _ 0 (size12 0) _ _ _ _ _ (by decide) (by decide) _

theorem stage1 : RU V0 278 (Proc.devRef .tc main_v268)
    = bfly (φ := .f32) S12 1 (size12 1) (RU V0 273 (Proc.devRef .tc main_v263)) := by
  show RU V0 (273 + 5) _ = _
  rw [RU_add]
  show after [_, _, _, _, _] _ _ = _
  after_results
  exact slices_concat S12 _ 1 (size12 1) _ _ _ _ _ (by decide) (by decide) _

theorem stage2 : RU V0 283 (Proc.devRef .tc main_v273)
    = bfly (φ := .f32) S12 2 (size12 2) (RU V0 278 (Proc.devRef .tc main_v268)) := by
  show RU V0 (278 + 5) _ = _
  rw [RU_add]
  show after [_, _, _, _, _] _ _ = _
  after_results
  exact slices_concat S12 _ 2 (size12 2) _ _ _ _ _ (by decide) (by decide) _

theorem stage3 : RU V0 288 (Proc.devRef .tc main_v278)
    = bfly (φ := .f32) S12 3 (size12 3) (RU V0 283 (Proc.devRef .tc main_v273)) := by
  show RU V0 (283 + 5) _ = _
  rw [RU_add]
  show after [_, _, _, _, _] _ _ = _
  after_results
  exact slices_concat S12 _ 3 (size12 3) _ _ _ _ _ (by decide) (by decide) _

theorem stage4 : RU V0 293 (Proc.devRef .tc main_v283)
    = bfly (φ := .f32) S12 4 (size12 4) (RU V0 288 (Proc.devRef .tc main_v278)) := by
  show RU V0 (288 + 5) _ = _
  rw [RU_add]
  show after [_, _, _, _, _] _ _ = _
  after_results
  exact slices_concat S12 _ 4 (size12 4) _ _ _ _ _ (by decide) (by decide) _

theorem stage5 : RU V0 298 (Proc.devRef .tc main_v288)
    = bfly (φ := .f32) S12 5 (size12 5) (RU V0 293 (Proc.devRef .tc main_v283)) := by
  show RU V0 (293 + 5) _ = _
  rw [RU_add]
  show after [_, _, _, _, _] _ _ = _
  after_results
  exact slices_concat S12 _ 5 (size12 5) _ _ _ _ _ (by decide) (by decide) _

theorem stage6 : RU V0 303 (Proc.devRef .tc main_v293)
    = bfly (φ := .f32) S12 6 (size12 6) (RU V0 298 (Proc.devRef .tc main_v288)) := by
  show RU V0 (298 + 5) _ = _
  rw [RU_add]
  show after [_, _, _, _, _] _ _ = _
  after_results
  exact slices_concat S12 _ 6 (size12 6) _ _ _ _ _ (by decide) (by decide) _

theorem stage7 : RU V0 308 (Proc.devRef .tc main_v298)
    = bfly (φ := .f32) S12 7 (size12 7) (RU V0 303 (Proc.devRef .tc main_v293)) := by
  show RU V0 (303 + 5) _ = _
  rw [RU_add]
  show after [_, _, _, _, _] _ _ = _
  after_results
  exact slices_concat S12 _ 7 (size12 7) _ _ _ _ _ (by decide) (by decide) _

theorem stage8 : RU V0 313 (Proc.devRef .tc main_v303)
    = bfly (φ := .f32) S12 8 (size12 8) (RU V0 308 (Proc.devRef .tc main_v298)) := by
  show RU V0 (308 + 5) _ = _
  rw [RU_add]
  show after [_, _, _, _, _] _ _ = _
  after_results
  exact slices_concat S12 _ 8 (size12 8) _ _ _ _ _ (by decide) (by decide) _

theorem stage9 : RU V0 318 (Proc.devRef .tc main_v308)
    = bfly (φ := .f32) S12 9 (size12 9) (RU V0 313 (Proc.devRef .tc main_v303)) := by
  show RU V0 (313 + 5) _ = _
  rw [RU_add]
  show after [_, _, _, _, _] _ _ = _
  after_results
  exact slices_concat S12 _ 9 (size12 9) _ _ _ _ _ (by decide) (by decide) _

theorem stage10 : RU V0 323 (Proc.devRef .tc main_v313)
    = bfly (φ := .f32) S12 10 (size12 10) (RU V0 318 (Proc.devRef .tc main_v308)) := by
  show RU V0 (318 + 5) _ = _
  rw [RU_add]
  show after [_, _, _, _, _] _ _ = _
  after_results
  exact slices_concat S12 _ 10 (size12 10) _ _ _ _ _ (by decide) (by decide) _

theorem stage11 : RU V0 328 (Proc.devRef .tc main_v318)
    = bfly (φ := .f32) S12 11 (size12 11) (RU V0 323 (Proc.devRef .tc main_v313)) := by
  show RU V0 (323 + 5) _ = _
  rw [RU_add]
  show after [_, _, _, _, _] _ _ = _
  after_results
  exact slices_concat S12 _ 11 (size12 11) _ _ _ _ _ (by decide) (by decide) _

/-- The stages along every axis, first axis first: the transform of the cube. -/
theorem all : RU V0 328 (Proc.devRef .tc main_v318) = cube12 (φ := .f32) (RU V0 268 (Proc.devRef .tc main_v258)) := by
  rw [stage11 V0, stage10 V0, stage9 V0, stage8 V0, stage7 V0, stage6 V0, stage5 V0, stage4 V0, stage3 V0, stage2 V0, stage1 V0, stage0 V0]
  rfl

end Cert.RHost.B1

end
-- ==== Proof.RB2.lean ====
/-
  The reference's second transform of the short vector.
  The reference keeps the vector as a cube of side 2 and, axis by axis, slices the two halves, adds and subtracts them and
  concatenates; each group of five operations is the butterfly along that axis (`slices_concat`), and the groups chained are
  the transform of the cube. The per-axis lemmas are one statement instantiated at every axis.
-/
import proofs.«167603_j88115549045430_2_alg».proof.Proof.RHost
import proofs.«167603_j88115549045430_2_alg».proof.Proof.Bfly

set_option maxRecDepth 16384
set_option maxHeartbeats 1000000

noncomputable section

open Idealize.ShloMosaic Idealize.ShloMosaic.TcCoe Idealize.SL.Sem Idealize.ShloMosaic.StableHlo

namespace Cert.RHost.B2

open Cert.ReferenceIdeal Cert.ReferenceIdeal.Gen Cert.Bfly Cert.RHost

variable {F : FTy → Type} [FloatOps F]
variable (V0 : Valuation τ sig (Elt F))

theorem stage0 : RU V0 345 (Proc.devRef .tc main_v333)
    = bfly (φ := .f32) S12 0 (size12 0) (RU V0 340 (Proc.devRef .tc main_v328)) := by
  show RU V0 (340 + 5) _ = _
  rw [RU_add]
  show after [_, _, _, _, _] _ _ = _
  after_results
  exact slices_concat S12 _ 0 (size12 0) _ _ _ _ _ (by decide) (by decide) _

theorem stage1 : RU V0 350 (Proc.devRef .tc main_v338)
    = bfly (φ := .f32) S12 1 (size12 1) (RU V0 345 (Proc.devRef .tc main_v333)) := by
  show RU V0 (345 + 5) _ = _
  rw [RU_add]
  show after [_, _, _, _, _] _ _ = _
  after_results
  exact slices_concat S12 _ 1 (size12 1) _ _ _ _ _ (by decide) (by decide) _

theorem stage2 : RU V0 355 (Proc.devRef .tc main_v343)
    = bfly (φ := .f32) S12 2 (size12 2) (RU V0 350 (Proc.devRef .tc main_v338)) := by
  show RU V0 (350 + 5) _ = _
  rw [RU_add]
  show after [_, _, _, _, _] _ _ = _
  after_results
  exact slices_concat S12 _ 2 (size12 2) _ _ _ _ _ (by decide) (by decide) _

theorem stage3 : RU V0 360 (Proc.devRef .tc main_v348)
    = bfly (φ := .f32) S12 3 (size12 3) (RU V0 355 (Proc.devRef .tc main_v343)) := by
  show RU V0 (355 + 5) _ = _
  rw [RU_add]
  show after [_, _, _, _, _] _ _ = _
  after_results
  exact slices_concat S12 _ 3 (size12 3) _ _ _ _ _ (by decide) (by decide) _

theorem stage4 : RU V0 365 (Proc.devRef .tc main_v353)
    = bfly (φ := .f32) S12 4 (size12 4) (RU V0 360 (Proc.devRef .tc main_v348)) := by
  show RU V0 (360 + 5) _ = _
  rw [RU_add]
  show after [_, _, _, _, _] _ _ = _
  after_results
  exact slices_concat S12 _ 4 (size12 4) _ _ _ _ _ (by decide) (by decide) _

theorem stage5 : RU V0 370 (Proc.devRef .tc main_v358)
    = bfly (φ := .f32) S12 5 (size12 5) (RU V0 365 (Proc.devRef .tc main_v353)) := by
  show RU V0 (365 + 5) _ = _
  rw [RU_add]
  show after [_, _, _, _, _] _ _ = _
  after_results
  exact slices_concat S12 _ 5 (size12 5) _ _ _ _ _ (by decide) (by decide) _

theorem stage6 : RU V0 375 (Proc.devRef .tc main_v363)
    = bfly (φ := .f32) S12 6 (size12 6) (RU V0 370 (Proc.devRef .tc main_v358)) := by
  show RU V0 (370 + 5) _ = _
  rw [RU_add]
  show after [_, _, _, _, _] _ _ = _
  after_results
  exact slices_concat S12 _ 6 (size12 6) _ _ _ _ _ (by decide) (by decide) _

theorem stage7 : RU V0 380 (Proc.devRef .tc main_v368)
    = bfly (φ := .f32) S12 7 (size12 7) (RU V0 375 (Proc.devRef .tc main_v363)) := by
  show RU V0 (375 + 5) _ = _
  rw [RU_add]
  show after [_, _, _, _, _] _ _ = _
  after_results
  exact slices_concat S12 _ 7 (size12 7) _ _ _ _ _ (by decide) (by decide) _

theorem stage8 : RU V0 385 (Proc.devRef .tc main_v373)
    = bfly (φ := .f32) S12 8 (size12 8) (RU V0 380 (Proc.devRef .tc main_v368)) := by
  show RU V0 (380 + 5) _ = _
  rw [RU_add]
  show after [_, _, _, _, _] _ _ = _
  after_results
  exact slices_concat S12 _ 8 (size12 8) _ _ _ _ _ (by decide) (by decide) _

theorem stage9 : RU V0 390 (Proc.devRef .tc main_v378)
    = bfly (φ := .f32) S12 9 (size12 9) (RU V0 385 (Proc.devRef .tc main_v373)) := by
  show RU V0 (385 + 5) _ = _
  rw [RU_add]
  show after [_, _, _, _, _] _ _ = _
  after_results
  exact slices_concat S12 _ 9 (size12 9) _ _ _ _ _ (by decide) (by decide) _

theorem stage10 : RU V0 395 (Proc.devRef .tc main_v383)
    = bfly (φ := .f32) S12 10 (size12 10) (RU V0 390 (Proc.devRef .tc main_v378)) := by
  show RU V0 (390 + 5) _ = _
  rw [RU_add]
  show after [_, _, _, _, _] _ _ = _
  after_results
  exact slices_concat S12 _ 10 (size12 10) _ _ _ _ _ (by decide) (by decide) _

theorem stage11 : RU V0 400 (Proc.devRef .tc main_v388)
    = bfly (φ := .f32) S12 11 (size12 11) (RU V0 395 (Proc.devRef .tc main_v383)) := by
  show RU V0 (395 + 5) _ = _
  rw [RU_add]
  show after [_, _, _, _, _] _ _ = _
  after_results
  exact slices_concat S12 _ 11 (size12 11) _ _ _ _ _ (by decide) (by decide) _

/-- The stages along every axis, first axis first: the transform of the cube. -/
theorem all : RU V0 400 (Proc.devRef .tc main_v388) = cube12 (φ := .f32) (RU V0 340 (Proc.devRef .tc main_v328)) := by
  rw [stage11 V0, stage10 V0, stage9 V0, stage8 V0, stage7 V0, stage6 V0, stage5 V0, stage4 V0, stage3 V0, stage2 V0, stage1 V0, stage0 V0]
  rfl

end Cert.RHost.B2

end
-- ==== Proof.RGlue.lean ====
/-
  The reference in closed form. Between its four transforms (modules RW1, RW2, RB1, RB2) it pads the parameter vector and
  multiplies by the signs, permutes and multiplies by the Gaussian weights, and divides by the norm factor — the same two
  functions `dW`, `db` of the argument arrays as in the kernel's host program; its last operations are the product with the
  transposed weight matrix plus the bias row, index by index `Σ_k x[i,k] · W[j,k] + b[j]` (`Cert.Mat.ref_final`).
-/
import proofs.«167603_j88115549045430_2_alg».proof.Proof.RW1
import proofs.«167603_j88115549045430_2_alg».proof.Proof.RW2
import proofs.«167603_j88115549045430_2_alg».proof.Proof.RB1
import proofs.«167603_j88115549045430_2_alg».proof.Proof.RB2
import proofs.«167603_j88115549045430_2_alg».proof.Proof.Spec
import proofs.«167603_j88115549045430_2_alg».proof.Proof.Matmul

set_option maxRecDepth 16384
set_option maxHeartbeats 2000000

noncomputable section

open Idealize.ShloMosaic Idealize.ShloMosaic.TcCoe Idealize.SL.Sem Idealize.ShloMosaic.StableHlo

namespace Cert.RHost

open Cert.ReferenceIdeal Cert.ReferenceIdeal.Gen Cert.Bfly

variable {F : FTy → Type} [FloatOps F]
variable (V0 : Valuation τ sig (Elt F))

theorem pre_W : RU V0 7 (Proc.devRef .tc main_v4)
    = shapeCast S23 (mulf (V0 (Proc.devRef .tc main_arg4)) (Host.scatter scatter_S8388608_S1_S2048_0_n_0_0 (fun _ b => b)
        (broadcastInDim S8388608 ![] bcast_S_S8388608 (constant S_ .f32 0x00000000#32))
        (broadcastInDim S1 ![] bcast_S_S1 (constantI S_ 32 0#32)) (V0 (Proc.devRef .tc main_arg1)))) castW := by
  show RU V0 (0 + 7) _ = _
  rw [RU_add, RU_zero]
  show after [_, _, _, _, _, _, _] _ _ = _
  after_results
  all_goals rfl

theorem mid_W : RU V0 134 (Proc.devRef .tc main_v129)
    = shapeCast S23 (mulf (Host.gather gather_S8388608_S8388608x1_S8388608_n_0_n_n_0_1_1 (shapeCast SW (RU V0 122 (Proc.devRef .tc main_v119)) castW')
        (broadcastInDim S8388608x1 ![0] bcast_S8388608_S8388608x1_0
          (select (cmpi .slt (V0 (Proc.devRef .tc main_arg8)) (broadcastInDim S8388608 ![] bcast_S_S8388608 (constantI S_ 32 0#32)))
                  (addi (V0 (Proc.devRef .tc main_arg8)) (broadcastInDim S8388608 ![] bcast_S_S8388608 (constantI S_ 32 8388608#32)))
                  (V0 (Proc.devRef .tc main_arg8)))))
      (V0 (Proc.devRef .tc main_arg5))) castW := by
  show RU V0 (122 + 12) _ = _
  rw [RU_add]
  show after [_, _, _, _, _, _, _, _, _, _, _, _] _ _ = _
  after_results
  rw [RU_arg8, RU_arg5]
  all_goals rfl

theorem post_W : RU V0 261 (Proc.devRef .tc main_v253)
    = shapeCast S4096x2048 (Host.divf (shapeCast SW (RU V0 249 (Proc.devRef .tc main_v244)) castW')
        (broadcastInDim S8388608 ![] bcast_S_S8388608
          (mulf (Host.sqrt (mulf (constant S_ .f32 0x4B000000#32)
              (Host.reduceAdd (mulf (V0 (Proc.devRef .tc main_arg5)) (V0 (Proc.devRef .tc main_arg5))) (constant S_ .f32 0x00000000#32) reducesTo_S8388608_S_d0 h_S_)))
            (constant S_ .f32 0x3F800000#32)))) shapeCasts_S8388608_S4096x2048 := by
  show RU V0 (249 + 12) _ = _
  rw [RU_add]
  show after [_, _, _, _, _, _, _, _, _, _, _, _] _ _ = _
  after_results
  rw [RU_arg5]
  all_goals rfl

theorem dW_eq : RU V0 261 (Proc.devRef .tc main_v253)
    = Cert.Spec.dW (V0 (Proc.devRef .tc main_arg1)) (V0 (Proc.devRef .tc main_arg4)) (V0 (Proc.devRef .tc main_arg5)) (V0 (Proc.devRef .tc main_arg8)) := by
  rw [post_W, W2.all, mid_W, W1.all, pre_W]
  all_goals rfl

theorem pre_B : RU V0 268 (Proc.devRef .tc main_v258)
    = shapeCast S12 (mulf (V0 (Proc.devRef .tc main_arg6)) (Host.scatter scatter_S4096_S1_S2048_0_n_0_0 (fun _ b => b)
        (broadcastInDim S4096 ![] bcast_S_S4096 (constant S_ .f32 0x00000000#32))
        (broadcastInDim S1 ![] bcast_S_S1 (constantI S_ 32 0#32)) (V0 (Proc.devRef .tc main_arg1)))) castB := by
  show RU V0 (261 + 7) _ = _
  rw [RU_add]
  show after [_, _, _, _, _, _, _] _ _ = _
  after_results
  rw [RU_arg6, RU_arg1]
  all_goals rfl

theorem mid_B : RU V0 340 (Proc.devRef .tc main_v328)
    = shapeCast S12 (mulf (Host.gather gather_S4096_S4096x1_S4096_n_0_n_n_0_1_1 (shapeCast SB (RU V0 328 (Proc.devRef .tc main_v318)) castB')
        (broadcastInDim S4096x1 ![0] bcast_S4096_S4096x1_0
          (select (cmpi .slt (V0 (Proc.devRef .tc main_arg9)) (broadcastInDim S4096 ![] bcast_S_S4096 (constantI S_ 32 0#32)))
                  (addi (V0 (Proc.devRef .tc main_arg9)) (broadcastInDim S4096 ![] bcast_S_S4096 (constantI S_ 32 4096#32)))
                  (V0 (Proc.devRef .tc main_arg9)))))
      (V0 (Proc.devRef .tc main_arg7))) castB := by
  show RU V0 (328 + 12) _ = _
  rw [RU_add]
  show after [_, _, _, _, _, _, _, _, _, _, _, _] _ _ = _
  after_results
  rw [RU_arg9, RU_arg7]
  all_goals rfl

theorem post_B : RU V0 411 (Proc.devRef .tc main_v396)
    = Host.divf (shapeCast SB (RU V0 400 (Proc.devRef .tc main_v388)) castB')
        (broadcastInDim S4096 ![] bcast_S_S4096
          (mulf (Host.sqrt (mulf (constant S_ .f32 0x45800000#32)
              (Host.reduceAdd (mulf (V0 (Proc.devRef .tc main_arg7)) (V0 (Proc.devRef .tc main_arg7))) (constant S_ .f32 0x00000000#32) reducesTo_S4096_S_d0 h_S_)))
            (constant S_ .f32 0x3F800000#32))) := by
  show RU V0 (400 + 11) _ = _
  rw [RU_add]
  show after [_, _, _, _, _, _, _, _, _, _, _] _ _ = _
  after_results
  rw [RU_arg7]
  all_goals rfl

theorem db_eq : RU V0 411 (Proc.devRef .tc main_v396)
    = Cert.Spec.db (V0 (Proc.devRef .tc main_arg1)) (V0 (Proc.devRef .tc main_arg6)) (V0 (Proc.devRef .tc main_arg7)) (V0 (Proc.devRef .tc main_arg9)) := by
  rw [post_B, B2.all, mid_B, B1.all, pre_B]
  all_goals rfl

/-- The weight update is still in its buffer when the bias update is done: none of the 150 operations in between writes it. -/
theorem keep_dW : RU V0 411 (Proc.devRef .tc main_v253) = RU V0 261 (Proc.devRef .tc main_v253) := by
  show RU V0 (261 + 150) _ = _
  rw [RU_add]
  refine StableHlo.after_of_forall_not_mem (b := Proc.devRef .tc main_v253) _ _ ?_
  show ∀ op ∈ [_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _], _
  repeat (first
    | exact fun _ h => absurd h List.not_mem_nil
    | refine List.forall_mem_cons.2 ⟨fun h => absurd (Finset.mem_singleton.1 h) (StableHlo.devRef_ne_of_ne (by decide)), ?_⟩)

/-- The last seven operations. -/
theorem last : RU V0 418 (Proc.devRef .tc main_v403)
    = addf (Host.dotGeneral dot_S4096x2048_S2048x4096_S4096x4096_1_0_0_1_n_n none (V0 (Proc.devRef .tc main_arg0))
        (transpose S2048x4096 [1, 0] (addf (V0 (Proc.devRef .tc main_arg2)) (RU V0 411 (Proc.devRef .tc main_v253))) transposes_S4096x2048_S2048x4096_1_0))
      (broadcastInDim S4096x4096 ![0, 1] bcast_S1x4096_S4096x4096_0_1
        (broadcastInDim S1x4096 ![1] bcast_S4096_S1x4096_1 (addf (V0 (Proc.devRef .tc main_arg3)) (RU V0 411 (Proc.devRef .tc main_v396))))) := by
  show RU V0 (411 + 7) _ = _
  rw [RU_add]
  show after [_, _, _, _, _, _, _] _ _ = _
  after_results
  rw [RU_arg0, RU_arg2, RU_arg3]

end Cert.RHost

namespace Cert.RHost

open Cert.ReferenceIdeal Cert.ReferenceIdeal.Gen Cert.Bfly

/-- The reference's result buffer after all its operations: the linear layer of the input with the updated weights and bias. -/
theorem result_eq (V0 : Valuation τ sig (Elt Ideal)) :
    after (ops (F := Ideal)) V0 (Proc.devRef .tc main_v403)
      = Cert.Mat.linSpec (V0 (Proc.devRef .tc main_arg0))
          (addf (F := Ideal) (V0 (Proc.devRef .tc main_arg2))
            (Cert.Spec.dW (F := Ideal) (V0 (Proc.devRef .tc main_arg1)) (V0 (Proc.devRef .tc main_arg4)) (V0 (Proc.devRef .tc main_arg5)) (V0 (Proc.devRef .tc main_arg8))))
          (addf (F := Ideal) (V0 (Proc.devRef .tc main_arg3))
            (Cert.Spec.db (F := Ideal) (V0 (Proc.devRef .tc main_arg1)) (V0 (Proc.devRef .tc main_arg6)) (V0 (Proc.devRef .tc main_arg7)) (V0 (Proc.devRef .tc main_arg9)))) := by
  rw [← RU_all, last, keep_dW, dW_eq, db_eq]
  exact (Cert.Mat.ref_final _ _ _).trans rfl

end Cert.RHost

end
-- ==== Proof.RRun.lean ====
/-
  The reference's run in closed form: every weakly fair execution ends with the result buffer at the linear layer of the
  input with the updated weights and bias, and the argument arrays unchanged.
-/
import proofs.«167603_j88115549045430_2_alg».proof.Proof.RGlue

set_option maxRecDepth 16384
set_option maxHeartbeats 2000000

noncomputable section

open Idealize.ShloMosaic Idealize.ShloMosaic.TcCoe Idealize.SL.Sem Idealize.ShloMosaic.StableHlo

namespace Cert.RRun

open Cert.ReferenceIdeal Cert.ReferenceIdeal.Gen Cert.RHost

variable (m : (ℓ : Loc nD τ sig) → Buf (Elt Ideal) ℓ) (ρ : Dev nD → PrngReg)

/-- An argument array is as launched after all the operations. -/
theorem arg_kept (V0 : Valuation τ sig (Elt Ideal)) (k : Fin 10) :
    after (ops (F := Ideal)) V0 (Proc.devRef .tc (argOf k)) = V0 (Proc.devRef .tc (argOf k)) :=
  StableHlo.after_of_forall_not_mem (b := Proc.devRef .tc (argOf k)) _ _ (fun op hop => args_not_written op hop k)

theorem run : θ_run defs (onTc (τ := τ) (main (F := Ideal))) ⟨m, fun _ => 0, ρ⟩ fun r => ∀ c : Dev nD,
      r.2.mem ((c.tc : Thread nD τ).loc main_v403)
        = Cert.Mat.linSpec (m ((c.tc : Thread Cert.ReferenceIdeal.nD Cert.ReferenceIdeal.τ).loc Cert.ReferenceIdeal.main_arg0))
          (addf (F := Ideal) (m ((c.tc : Thread Cert.ReferenceIdeal.nD Cert.ReferenceIdeal.τ).loc Cert.ReferenceIdeal.main_arg2))
            (Cert.Spec.dW (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg8))))
          (addf (F := Ideal) (m ((c.tc : Thread Cert.ReferenceIdeal.nD Cert.ReferenceIdeal.τ).loc Cert.ReferenceIdeal.main_arg3))
            (Cert.Spec.db (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c main_v403).trans (result_eq (launchContents m c)),
      (h c main_arg0).trans (arg_kept (launchContents m c) 0),
      (h c main_arg1).trans (arg_kept (launchContents m c) 1),
      (h c main_arg2).trans (arg_kept (launchContents m c) 2),
      (h c main_arg3).trans (arg_kept (launchContents m c) 3),
      (h c main_arg4).trans (arg_kept (launchContents m c) 4),
      (h c main_arg5).trans (arg_kept (launchContents m c) 5),
      (h c main_arg6).trans (arg_kept (launchContents m c) 6),
      (h c main_arg7).trans (arg_kept (launchContents m c) 7),
      (h c main_arg8).trans (arg_kept (launchContents m c) 8),
      (h c main_arg9).trans (arg_kept (launchContents m c) 9)⟩)
    (run_after m ρ)

end Cert.RRun

end
-- ==== Proof.lean ====
/-
  The kernel computes a linear layer `x · Wᵀ + b` whose weights and bias are a stored initial value plus an update generated
  from a low-dimensional parameter vector by two Walsh–Hadamard transforms with a sign flip, a permutation and a Gaussian
  reweighting in between. The kernel's program and the reference differ in two places only, and neither is about numbers:
  * a transform stage: the reference keeps the vector as a cube of side 2 and works along one axis of it; the kernel views the
    flat vector as [2^k, 2, n / 2^(k+1)] and works along the middle axis. In row-major order these are the same entries
    (module Bfly), so the four transforms agree stage by stage for any float operations;
  * the product: the kernel computes it block by block (4 × 4 blocks of 1024 × 1024, the whole contracted axis inside a
    block) from operands whose float format was narrowed, the reference as one product with the transposed weights. On
    extended reals a change of format is the identity and both are `Σ_k x[i,k] · W[j,k] + b[j]` (module Matmul).
  So both programs end at one function of the argument arrays (`Cert.KRun.run`, `Cert.RRun.run`); the precondition is not
  needed for the values. The frames of the two kernel programs are the launch-side certificates (modules KernelFrameP,
  KernelIdealFrameP); the reference's frame is its run with the result dropped.
-/
import proofs.«167603_j88115549045430_2_alg».proof.Defs
import proofs.«167603_j88115549045430_2_alg».proof.Proof.Gen.Kernel
import proofs.«167603_j88115549045430_2_alg».proof.Proof.Gen.KernelIdeal
import proofs.«167603_j88115549045430_2_alg».proof.Proof.Gen.ReferenceIdeal
import proofs.«167603_j88115549045430_2_alg».proof.Proof.Gen.Pre_finite_inputs
import proofs.«167603_j88115549045430_2_alg».proof.Proof.KernelFrameP
import proofs.«167603_j88115549045430_2_alg».proof.Proof.KernelIdealFrameP
import proofs.«167603_j88115549045430_2_alg».proof.Proof.KRun
import proofs.«167603_j88115549045430_2_alg».proof.Proof.RRun
import Idealize.ShloMosaic.Adequacy
import Idealize.ShloMosaic.Init

set_option maxRecDepth 16384
set_option maxHeartbeats 2000000

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RRun.run m ρ)

/-- From memories that agree on the arguments both idealized programs end at the same array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KRun.run m ρ, ?_⟩
  refine (θ_run Cert.ReferenceIdeal.defs _ _).mono (fun r h c => ⟨(h c).1.trans ?_, (h c).2⟩) (Cert.RRun.run m' ρ')
  obtain ⟨a0, a1, a2, a3, a4, a5, a6, a7, a8, a9⟩ := hagree c
  rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
